-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S4096x8192 : Shape := ⟨2, ![4096, 8192]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S4096x12288 : Shape := ⟨2, ![4096, 12288]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  concatenates_S4096x4096_S4096x8192_S4096x12288_d1 : Shape.Concatenates [S4096x4096, S4096x8192] S4096x12288 1
  reducesTo_S4096x12288_S4096_d1 : S4096x12288.ReducesTo [1] S4096
  bcast_S_S4096 : S_.BroadcastsInDim S4096 (![] : Fin 0 → Fin S4096.rank)
  reducesTo_S4096_S_d0 : S4096.ReducesTo [0] S_

variable [Facts]

def fn_part2 {F : FTy → Type} [FloatOps F] (main_v20 : IVec S_ 1) (main_v36 : FVec F S4096x12288 .f32) : IVec S_ 1 :=
  let main_cst_9 : FVec F S_ .f32 := constant S_ .f32 0x00000000#32
  let main_v37 : FVec F S4096 .f32 := (fun x v => Host.reduceAdd x v reducesTo_S4096x12288_S4096_d1 h_S_) main_v36 main_cst_9
  let main_cst_10 : FVec F S_ .f32 := constant S_ .f32 0x00000000#32
  let main_v38 : FVec F S4096 .f32 := broadcastInDim S4096 ![] bcast_S_S4096 main_cst_10
  let main_v39 : IVec S4096 1 := cmpf .ogt main_v37 main_v38
  let main_c_11 : IVec S_ 1 := constantI S_ 1 1#1
  let main_v40 : IVec S_ 1 := (fun x v => Host.reduce IntOp.andi x v reducesTo_S4096_S_d0 h_S_) main_v39 main_c_11
  let main_v41 : IVec S_ 1 := andi main_v20 main_v40
  main_v41

def fn_part1 {F : FTy → Type} [FloatOps F] (main_arg1 : IVec S4096 32) (main_arg3 : FVec F S4096x8192 .f32) (main_v13 : IVec S_ 1) (main_v15 : IVec S4096x8192 1) (main_cst_5 : FVec F S_ .f32) : IVec S_ 1 :=
  let main_v16 : FVec F S4096x8192 .f32 := broadcastInDim S4096x8192 ![] bcast_S_S4096x8192 main_cst_5
  let main_v17 : IVec S4096x8192 1 := cmpf .oeq main_arg3 main_v16
  let main_v18 : IVec S4096x8192 1 := ori main_v15 main_v17
  let main_c_6 : IVec S_ 1 := constantI S_ 1 1#1
  let main_v19 : IVec S_ 1 := (fun x v => Host.reduce IntOp.andi x v reducesTo_S4096x8192_S_d0_1 h_S_) main_v18 main_c_6
  let main_v20 : IVec S_ 1 := andi main_v13 main_v19
  let main_v21 : IVec S4096x1 32 := broadcastInDim S4096x1 ![0] bcast_S4096_S4096x1_0 main_arg1
  let main_v22 : IVec S1x4096 32 := broadcastInDim S1x4096 ![1] bcast_S4096_S1x4096_1 main_arg1
  let main_v23 : IVec S4096x4096 32 := broadcastInDim S4096x4096 ![0, 1] bcast_S4096x1_S4096x4096_0_1 main_v21
  let main_v24 : IVec S4096x4096 32 := broadcastInDim S4096x4096 ![0, 1] bcast_S1x4096_S4096x4096_0_1 main_v22
  let main_v25 : IVec S4096x4096 1 := cmpi .eq main_v23 main_v24
  let main_v26 : FVec F S4096x4096 .f32 := uitofp .f32 main_v25
  let main_v27 : IVec S4096x4096 32 := iotaInDim S4096x4096 32 0
  let main_v28 : IVec S4096x4096 32 := iotaInDim S4096x4096 32 1
  let main_c_7 : IVec S_ 32 := constantI S_ 32 0#32
  let main_v29 : IVec S4096x4096 32 := broadcastInDim S4096x4096 ![] bcast_S_S4096x4096 main_c_7
  let main_v30 : IVec S4096x4096 32 := addi main_v27 main_v29
  let main_v31 : IVec S4096x4096 1 := cmpi .eq main_v30 main_v28
  let main_v32 : FVec F S4096x4096 .f32 := uitofp .f32 main_v31
  let main_cst_8 : FVec F S_ .f32 := constant S_ .f32 0x3F800000#32
  let main_v33 : FVec F S4096x4096 .f32 := broadcastInDim S4096x4096 ![] bcast_S_S4096x4096 main_cst_8
  let main_v34 : FVec F S4096x4096 .f32 := subf main_v33 main_v32
  let main_v35 : FVec F S4096x4096 .f32 := mulf main_v26 main_v34
  let main_v36 : FVec F S4096x12288 .f32 := (fun a b => concatenate S4096x12288 1 [⟨S4096x4096, a⟩, ⟨S4096x8192, b⟩] concatenates_S4096x4096_S4096x8192_S4096x12288_d1) main_v35 main_arg3
  fn_part2 (F := F) main_v20 main_v36

def fn {F : FTy → Type} [FloatOps F] (main_arg0 : FVec F S4096x1024 .f32) (main_arg1 : IVec S4096 32) (main_arg2 : FVec F S4096x8192 .f32) (main_arg3 : FVec F S4096x8192 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x8192 .f32 := Host.absf main_arg2
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S4096x8192 .f32 := Host.absf main_arg3
  let main_cst_2 : FVec F S_ .f32 := constant S_ .f32 0x7F800000#32
  let main_v10 : FVec F S4096x8192 .f32 := broadcastInDim S4096x8192 ![] bcast_S_S4096x8192 main_cst_2
  let main_v11 : IVec S4096x8192 1 := cmpf .olt main_v9 main_v10
  let main_c_3 : IVec S_ 1 := constantI S_ 1 1#1
  let main_v12 : IVec S_ 1 := (fun x v => Host.reduce IntOp.andi x v reducesTo_S4096x8192_S_d0_1 h_S_) main_v11 main_c_3
  let main_v13 : IVec S_ 1 := andi main_v8 main_v12
  let main_cst_4 : FVec F S_ .f32 := constant S_ .f32 0x00000000#32
  let main_v14 : FVec F S4096x8192 .f32 := broadcastInDim S4096x8192 ![] bcast_S_S4096x8192 main_cst_4
  let main_v15 : IVec S4096x8192 1 := cmpf .oeq main_arg3 main_v14
  let main_cst_5 : FVec F S_ .f32 := constant S_ .f32 0x3F800000#32
  fn_part1 (F := F) main_arg1 main_arg3 main_v13 main_v15 main_cst_5
-- ==== Kernel.lean ====
abbrev S4096x1024 : Shape := ⟨2, ![4096, 1024]⟩
abbrev S4096 : Shape := ⟨1, ![4096]⟩
abbrev S4096x8192 : Shape := ⟨2, ![4096, 8192]⟩
abbrev S_ : Shape := ⟨0, ![]⟩
abbrev S4096x1 : Shape := ⟨2, ![4096, 1]⟩
abbrev S1024x4096 : Shape := ⟨2, ![1024, 4096]⟩
abbrev S1x4096 : Shape := ⟨2, ![1, 4096]⟩
abbrev S512x1024 : Shape := ⟨2, ![512, 1024]⟩
abbrev S512x1 : Shape := ⟨2, ![512, 1]⟩
abbrev S1x512 : Shape := ⟨2, ![1, 512]⟩
abbrev S1024x512 : Shape := ⟨2, ![1024, 512]⟩
abbrev S512x512 : Shape := ⟨2, ![512, 512]⟩
abbrev S512 : Shape := ⟨1, ![512]⟩

abbrev nBuf : Space → Nat
  | .hbm => 50
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x8192, .f32⟩
  | .hbm, ⟨3, _⟩ => ⟨S4096x8192, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .bf16⟩
  | .hbm, ⟨15, _⟩ => ⟨S1024x4096, .bf16⟩
  | .hbm, ⟨16, _⟩ => ⟨S4096x1, .i32⟩
  | .hbm, ⟨17, _⟩ => ⟨S1x4096, .i32⟩
  | .hbm, ⟨18, _⟩ => ⟨S4096x8192, .bf16⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S512x1, .i32⟩
  | .local _ .vmem, ⟨4, _⟩ => ⟨S512x1, .i32⟩
  | .local _ .vmem, ⟨5, _⟩ => ⟨S1x512, .i32⟩
  | .local _ .vmem, ⟨6, _⟩ => ⟨S1x512, .i32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | .local _ .vmem, ⟨23, _⟩ => ⟨S512x1, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | .local _ .vmem, ⟨31, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev main_v13_4 : Ref sig .tc := ⟨.hbm, 23, rfl⟩
abbrev main_v13_5 : Ref sig .tc := ⟨.hbm, 24, rfl⟩
abbrev main_v13_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![8, 16], ![false, false]⟩

def k0_cond3 (i : grid0.Coords) : BitVec 1 :=
  let arg1 : BitVec 32 := BitVec.ofNat 32 (i 1).val
  let c8_i32_2 : BitVec 32 := 8#32
  let v6 : BitVec 1 := Scalar.cmpi .slt arg1 c8_i32_2
  let v7 : BitVec 32 := Scalar.extui v6
  let c0_i32_3 : BitVec 32 := 0#32
  let v8 : BitVec 1 := Scalar.cmpi .ne v7 c0_i32_3
  v8

def k0_mult1 (i : grid0.Coords) : BitVec 32 :=
  let arg1 : BitVec 32 := BitVec.ofNat 32 (i 1).val
  let c512_i32 : BitVec 32 := 512#32
  let v18 : BitVec 32 := Scalar.muli arg1 c512_i32
  v18
def k0_off1 (i : grid0.Coords) : Fin 2 → Nat :=
  let c0 : Index := 0#32
  let arg1 : BitVec 32 := BitVec.ofNat 32 (i 1).val
  let c512_i32 : BitVec 32 := 512#32
  let v18 : BitVec 32 := Scalar.muli arg1 c512_i32
  let v19 : BitVec 32 := v18
  let v20 : Index := Scalar.indexCast v19
  ![0, v20.toNat]
def k0_cond5 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_6 : BitVec 32 := 0#32
  let v14 : BitVec 1 := Scalar.cmpi .ne v13 c0_i32_6
  v14

def k0_cond6 (i : grid0.Coords) : BitVec 1 :=
  let arg1 : BitVec 32 := BitVec.ofNat 32 (i 1).val
  let c15_i32 : BitVec 32 := 15#32
  let v15 : BitVec 1 := Scalar.cmpi .eq arg1 c15_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![arg0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bitsLt_bf16_f32 : FTy.bits .bf16 < FTy.bits .f32
  transposes_S4096x1024_S1024x4096_1_0 : S4096x1024.Transposes [1, 0] S1024x4096
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  iota_S512x1_d0_w32 : S512x1.Iotas .tc 32 [0]
  iota_S1x512_d1_w32 : S1x512.Iotas .tc 32 [1]
  broadcasts_S512x1_S512x512 : S512x1.Broadcasts S512x512
  broadcasts_S1x512_S512x512 : S1x512.Broadcasts S512x512
  natLt_1_32 : 1 < 32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S512x512_S512 : S512x512.Reduces [1] S512
  shapeCasts_S512_S512x1 : S512.ShapeCasts S512x1
  reduces_S512x1024_S512 : S512x1024.Reduces [1] S512
  shapeCasts_S4096x1_S4096 : S4096x1.ShapeCasts S4096
  bcast_S_S4096 : S_.BroadcastsInDim S4096 (![] : Fin 0 → Fin S4096.rank)
  reducesTo_S4096_S_d0 : S4096.ReducesTo [0] S_
  dot_S512x1024_S1024x512_S512x512_1_0_0_1_n_n_wf : DotDims.WF S512x1024 S1024x512 S512x512 [1] [0] [0] [1] [] []
  hrank0 : 0 < grid0.rank
  k0_mult1_dvd : ∀ i : grid0.Coords, ∀ (k0_h3 : k0_cond3 i = 1#1), 128 ∣ (k0_mult1 i).toNat
  k0_off1_inb : ∀ i : grid0.Coords, ∀ (k0_h3 : k0_cond3 i = 1#1), ∀ a, (k0_off1 i) a + S1024x512.size a ≤ S1024x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x8192.size a
  hwx0_4 : ∀ i : grid0.Coords, EltTy.bits .f32 = 32 ∨ (Rect.block (s := S4096x8192) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x8192.size a
  hwx0_5 : ∀ i : grid0.Coords, EltTy.bits .bf16 = 32 ∨ (Rect.block (s := S4096x8192) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S4096x1.size a
  hwx0_7 : ∀ i : grid0.Coords, EltTy.bits .f32 = 32 ∨ (Rect.block (s := S4096x1) S512x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S4096x1.size a
  hwx0_8 : ∀ i : grid0.Coords, EltTy.bits .f32 = 32 ∨ (Rect.block (s := S4096x1) S512x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S4096x1.size a
  hwx0_9 : ∀ i : grid0.Coords, EltTy.bits .f32 = 32 ∨ (Rect.block (s := S4096x1) S512x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S4096x1.size a
  hwx0_10 : ∀ i : grid0.Coords, EltTy.bits .f32 = 32 ∨ (Rect.block (s := S4096x1) S512x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1.size a ≤ S4096x1.size a
  hwx0_11 : ∀ i : grid0.Coords, EltTy.bits .f32 = 32 ∨ (Rect.block (s := S4096x1) S512x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x1.size a ≤ S4096x1.size a
  hwx0_12 : ∀ i : grid0.Coords, EltTy.bits .f32 = 32 ∨ (Rect.block (s := S4096x1) S512x1.size (cc0_transform_12 i) (hinb0_12 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v8) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S512x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13_0) S512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13_1) S512x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13_2) S512x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v13_3) S512x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v13_4) S512x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v13_5) S512x1.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v13_6) S512x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun i => !(k0_cond5 i == 1#1) | 7 => fun i => !(k0_cond5 i == 1#1) | 8 => fun i => !(k0_cond5 i == 1#1) | 9 => fun i => !(k0_cond5 i == 1#1) | 10 => fun i => !(k0_cond6 i == 1#1) | 11 => fun i => !(k0_cond6 i == 1#1) | 12 => fun i => !(k0_cond6 i == 1#1) | ⟨_ + 13, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S4096x8192 : Shape := ⟨2, ![4096, 8192]⟩
abbrev S_ : Shape := ⟨0, ![]⟩
abbrev S4096x1 : Shape := ⟨2, ![4096, 1]⟩
abbrev S1024x4096 : Shape := ⟨2, ![1024, 4096]⟩
abbrev S4096x4096 : Shape := ⟨2, ![4096, 4096]⟩
abbrev S1x4096 : Shape := ⟨2, ![1, 4096]⟩
abbrev S4096x12288 : Shape := ⟨2, ![4096, 12288]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x8192, .f32⟩
  | .hbm, ⟨3, _⟩ => ⟨S4096x8192, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S1024x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S4096x1, .i32⟩
  | .hbm, ⟨25, _⟩ => ⟨S1x4096, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S4096x4096, .f32⟩
  | .hbm, ⟨30, _⟩ => ⟨S4096x4096, .i32⟩
  | .hbm, ⟨31, _⟩ => ⟨S4096x4096, .i32⟩
  | .hbm, ⟨32, _⟩ => ⟨S_, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x12288, .f32⟩
  | .hbm, ⟨42, _⟩ => ⟨S4096x4096, .f32⟩
  | .hbm, ⟨43, _⟩ => ⟨S4096x4096, .f32⟩
  | .hbm, ⟨44, _⟩ => ⟨S4096x12288, .f32⟩
  | .hbm, ⟨45, _⟩ => ⟨S_, .f32⟩
  | .hbm, ⟨46, _⟩ => ⟨S4096, .f32⟩
  | .hbm, ⟨47, _⟩ => ⟨S4096x8192, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096, .f32⟩
  | .hbm, ⟨52, _⟩ => ⟨S4096x1, .f32⟩
  | .hbm, ⟨53, _⟩ => ⟨S4096x12288, .f32⟩
  | .hbm, ⟨54, _⟩ => ⟨S4096x12288, .f32⟩
  | .hbm, ⟨55, _⟩ => ⟨S4096x12288, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  concatenates_S4096x4096_S4096x8192_S4096x12288_d1 : Shape.Concatenates [S4096x4096, S4096x8192] S4096x12288 1
  reducesTo_S4096x8192_S4096_d1 : S4096x8192.ReducesTo [1] S4096
  bcast_S4096x1_S4096x12288_0_1 : S4096x1.BroadcastsInDim S4096x12288 (![0, 1] : Fin 2 → Fin S4096x12288.rank)
  reducesTo_S4096x12288_S4096_d1 : S4096x12288.ReducesTo [1] S4096
  reducesTo_S4096_S_d0 : S4096.ReducesTo [0] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KBodyDefs.lean ====
/-
  What the runs of the fused kernel's body share.

  The grid is 8 row blocks by 16 inner steps; point `t` has inner step `j = t mod 16`. The body branches on `j` alone:
  `j = 0` resets the four statistics of the similarity sweep, `j = 8` resets the three of the memory sweep, `j < 8`
  updates the former from one 512-column tile, `j ≥ 8` the latter from one 1024-column tile, `j = 7` copies the four
  similarity statistics to their output blocks and `j = 15` the three memory statistics to theirs. Here: each branch
  condition as a proposition of the grid coordinates with the inner steps at which it holds, decided over the 128
  points; the staging memrefs the body is called with at a point and the seven scratch memrefs it carries from point to
  point; and the region's invariant with those seven written out.
-/
import proofs.«130741_j67869073212268_2_alg».proof.Proof.Gen.Kernel.Frame
import proofs.«130741_j67869073212268_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, and where they hold -/

/-- `j = 0`: the similarity statistics are reset. -/
abbrev cInitSim (i : grid0.Coords) : Prop := (Scalar.cmpi .ne (Scalar.extui (Scalar.cmpi .eq (BitVec.ofNat 32 (i 1).val) 0#32)) 0#32) = 1#1
/-- `j = 8`: the memory statistics are reset. -/
abbrev cInitMem (i : grid0.Coords) : Prop := (Scalar.cmpi .ne (Scalar.extui (Scalar.cmpi .eq (BitVec.ofNat 32 (i 1).val) 8#32)) 0#32) = 1#1
/-- `j < 8`: a similarity tile. -/
abbrev cSim (i : grid0.Coords) : Prop := k0_cond3 i = 1#1
/-- `j ≥ 8`: a memory tile. -/
abbrev cMem (i : grid0.Coords) : Prop := (Scalar.cmpi .ne (Scalar.extui (Scalar.cmpi .sge (BitVec.ofNat 32 (i 1).val) 8#32)) 0#32) = 1#1
/-- `j = 7`: the similarity statistics are copied out. -/
abbrev cOutSim (i : grid0.Coords) : Prop := k0_cond5 i = 1#1
/-- `j = 15`: the memory statistics are copied out. -/
abbrev cOutMem (i : grid0.Coords) : Prop := k0_cond6 i = 1#1

theorem hInitSim : ∀ t : Fin cfg0.N, cInitSim (grid0.coords t) ↔ t.val % 16 = 0 :=
  (by decide +kernel : ∀ t : Fin grid0.N, cInitSim (grid0.coords t) ↔ t.val % 16 = 0)
theorem hInitMem : ∀ t : Fin cfg0.N, cInitMem (grid0.coords t) ↔ t.val % 16 = 8 :=
  (by decide +kernel : ∀ t : Fin grid0.N, cInitMem (grid0.coords t) ↔ t.val % 16 = 8)
theorem hSim : ∀ t : Fin cfg0.N, cSim (grid0.coords t) ↔ t.val % 16 < 8 :=
  (by decide +kernel : ∀ t : Fin grid0.N, cSim (grid0.coords t) ↔ t.val % 16 < 8)
theorem hMem : ∀ t : Fin cfg0.N, cMem (grid0.coords t) ↔ 8 ≤ t.val % 16 :=
  (by decide +kernel : ∀ t : Fin grid0.N, cMem (grid0.coords t) ↔ 8 ≤ t.val % 16)
theorem hOutSim : ∀ t : Fin cfg0.N, cOutSim (grid0.coords t) ↔ t.val % 16 = 7 :=
  (by decide +kernel : ∀ t : Fin grid0.N, cOutSim (grid0.coords t) ↔ t.val % 16 = 7)
theorem hOutMem : ∀ t : Fin cfg0.N, cOutMem (grid0.coords t) ↔ t.val % 16 = 15 :=
  (by decide +kernel : ∀ t : Fin grid0.N, cOutMem (grid0.coords t) ↔ t.val % 16 = 15)

/-! ## The memrefs the body is called with -/

abbrev ms0 (t : Fin cfg0.N) : Memref sig .tc .vmem S512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x4096 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x1 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x1 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x1 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S512x1 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S512x1 .f32 := win0_12.stage (cfg0.slots t 12)
abbrev hs12 (t : Fin cfg0.N) : (ms12 t).IsWhole := hstage0_12 ((cfg0.slots t 12).cast nbuf0_12)
abbrev sc0 : Memref sig .tc .vmem S512x1 .f32 := Memref.whole cc0_scratch0
abbrev sc1 : Memref sig .tc .vmem S512x1 .f32 := Memref.whole cc0_scratch1
abbrev sc2 : Memref sig .tc .vmem S512x1 .f32 := Memref.whole cc0_scratch2
abbrev sc3 : Memref sig .tc .vmem S512x1 .f32 := Memref.whole cc0_scratch3
abbrev sc4 : Memref sig .tc .vmem S512x1 .f32 := Memref.whole cc0_scratch4
abbrev sc5 : Memref sig .tc .vmem S512x1 .f32 := Memref.whole cc0_scratch5
abbrev sc6 : Memref sig .tc .vmem S512x1 .f32 := Memref.whole cc0_scratch6

/-- The region's invariant with the seven scratch buffers written out as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)) := by
  unfold Pipeline.ΦA; rw [scopedRest0_eq]; simp only [sc0, sc1, sc2, sc3, sc4, sc5, sc6, owns_whole]; try rfl

end Cert.Kernel.Body

end
-- ==== Proof.KBodyRunSimFirst.lean ====
/-
  The body at the first similarity tile (inner step j = 0). The four similarity statistics are first reset — the running
  maximum to the large negative start value, the three sums to zero — and then updated from the tile exactly as at any
  later similarity tile: the 512 × 1024 block of normalised rows and the tile's 1024 × 512 slice of the transposed
  rows are multiplied and scaled; the label block and label tile give the positive-pair mask; the running maximum is
  raised to the tile's row maximum, the exponential sum is rescaled and the tile's terms added, and the two positive
  sums are increased. Each statistic's buffer is stored whole twice (the reset, then the update).
-/
import proofs.«130741_j67869073212268_2_alg».proof.Proof.KBodyDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at the first similarity tile, on any whole memrefs: the four inputs at `x0`–`x3`, the four similarity statistics at anything; it runs to the inputs as they were and each statistic's buffer with its pieces written. -/
noncomputable def runSimFirst (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole)
    (p1 : cInitSim i) (n2 : ¬cInitMem i) (p3 : cSim i) (n4 : ¬cMem i) (n5 : ¬cOutSim i) (n6 : ¬cOutMem i)
    (x0 : Vec F S512x1024 .bf16) (x1 : Vec F S1024x4096 .bf16) (x2 : Vec F S512x1 .i32) (x3 : Vec F S1x512 .i32) :
    Σ' (L0 : List (View.Piece (Elt F) S512x1 .f32)) (L1 : List (View.Piece (Elt F) S512x1 .f32)) (L2 : List (View.Piece (Elt F) S512x1 .f32)), { L3 : List (View.Piece (Elt F) S512x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg15.view.loc (c : Thread nD τ) ↦[arg15.view.set]{fullShare} arg15.view.writes (Elt F) f L0)
                ∗ (∃ f, arg16.view.loc (c : Thread nD τ) ↦[arg16.view.set]{fullShare} arg16.view.writes (Elt F) f L1)
                ∗ (∃ f, arg17.view.loc (c : Thread nD τ) ↦[arg17.view.set]{fullShare} arg17.view.writes (Elt F) f L2)
                ∗ (∃ f, arg18.view.loc (c : Thread nD τ) ↦[arg18.view.set]{fullShare} arg18.view.writes (Elt F) f L3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?L0, ?L1, ?L2, ?L3, fun E K => ?run⟩
  case run =>
    simp only [cc0__fused_kernel_eq_skeleton]; unfold cc0__fused_kernel_skel
    unfold owns
    iintro ⟨⟨%f_arg2, %hf_arg2, H_arg2⟩, ⟨%f_arg3, %hf_arg3, H_arg3⟩, ⟨%f_arg4, %hf_arg4, H_arg4⟩, ⟨%f_arg5, %hf_arg5, H_arg5⟩, ⟨%d_arg15, %f_arg15, -, H_arg15⟩, ⟨%d_arg16, %f_arg16, -, H_arg16⟩, ⟨%d_arg17, %f_arg17, -, H_arg17⟩, ⟨%d_arg18, %f_arg18, -, H_arg18⟩, Hk⟩
    obtain rfl := harg2.eq_unread hf_arg2; obtain rfl := harg3.eq_unread hf_arg3; obtain rfl := harg4.eq_unread hf_arg4; obtain rfl := harg5.eq_unread hf_arg5
    sl_exec (disch := first | exact p1 | exact n2 | exact p3 | exact n4 | exact n5 | exact n6)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg15]; · iexists _; iexact H_arg15
    isplitl [H_arg16]; · iexists _; iexact H_arg16
    isplitl [H_arg17]; · iexists _; iexact H_arg17
    iexists _; iexact H_arg18

end Cert.Kernel.Body

end
-- ==== Proof.KBodyRunSimMid.lean ====
/-
  The body at a middle similarity tile (inner step 1 ≤ j ≤ 6): no reset, no copy-out. The four similarity statistics
  are read as the previous tile left them and updated from this tile: the running maximum raised to the tile's row
  maximum, the exponential sum rescaled by `exp (old maximum - new maximum)` and the tile's off-diagonal terms added,
  the positives' similarity sum and the positives' count increased by the tile's row sums.
-/
import proofs.«130741_j67869073212268_2_alg».proof.Proof.KBodyDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at a middle similarity tile, on any whole memrefs: the four inputs at `x0`–`x3`, the four similarity statistics at `y0`–`y3`; it runs to the inputs as they were and each statistic's buffer with its pieces written. -/
noncomputable def runSimMid (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole)
    (n1 : ¬cInitSim i) (n2 : ¬cInitMem i) (p3 : cSim i) (n4 : ¬cMem i) (n5 : ¬cOutSim i) (n6 : ¬cOutMem i)
    (x0 : Vec F S512x1024 .bf16) (x1 : Vec F S1024x4096 .bf16) (x2 : Vec F S512x1 .i32) (x3 : Vec F S1x512 .i32) (y0 : Vec F S512x1 .f32) (y1 : Vec F S512x1 .f32) (y2 : Vec F S512x1 .f32) (y3 : Vec F S512x1 .f32) :
    Σ' (L0 : List (View.Piece (Elt F) S512x1 .f32)) (L1 : List (View.Piece (Elt F) S512x1 .f32)) (L2 : List (View.Piece (Elt F) S512x1 .f32)), { L3 : List (View.Piece (Elt F) S512x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg15 fullShare y0
            ∗ owns (c : Thread nD τ) arg16 fullShare y1
            ∗ owns (c : Thread nD τ) arg17 fullShare y2
            ∗ owns (c : Thread nD τ) arg18 fullShare y3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg15.view.loc (c : Thread nD τ) ↦[arg15.view.set]{fullShare} arg15.view.writes (Elt F) f L0)
                ∗ (∃ f, arg16.view.loc (c : Thread nD τ) ↦[arg16.view.set]{fullShare} arg16.view.writes (Elt F) f L1)
                ∗ (∃ f, arg17.view.loc (c : Thread nD τ) ↦[arg17.view.set]{fullShare} arg17.view.writes (Elt F) f L2)
                ∗ (∃ f, arg18.view.loc (c : Thread nD τ) ↦[arg18.view.set]{fullShare} arg18.view.writes (Elt F) f L3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?L0, ?L1, ?L2, ?L3, fun E K => ?run⟩
  case run =>
    simp only [cc0__fused_kernel_eq_skeleton]; unfold cc0__fused_kernel_skel
    unfold owns
    iintro ⟨⟨%f_arg2, %hf_arg2, H_arg2⟩, ⟨%f_arg3, %hf_arg3, H_arg3⟩, ⟨%f_arg4, %hf_arg4, H_arg4⟩, ⟨%f_arg5, %hf_arg5, H_arg5⟩, ⟨%f_arg15, %hf_arg15, H_arg15⟩, ⟨%f_arg16, %hf_arg16, H_arg16⟩, ⟨%f_arg17, %hf_arg17, H_arg17⟩, ⟨%f_arg18, %hf_arg18, H_arg18⟩, Hk⟩
    obtain rfl := harg2.eq_unread hf_arg2; obtain rfl := harg3.eq_unread hf_arg3; obtain rfl := harg4.eq_unread hf_arg4; obtain rfl := harg5.eq_unread hf_arg5; obtain rfl := harg15.eq_unread hf_arg15; obtain rfl := harg16.eq_unread hf_arg16; obtain rfl := harg17.eq_unread hf_arg17; obtain rfl := harg18.eq_unread hf_arg18
    sl_exec (disch := first | exact n1 | exact n2 | exact p3 | exact n4 | exact n5 | exact n6)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg15]; · iexists _; iexact H_arg15
    isplitl [H_arg16]; · iexists _; iexact H_arg16
    isplitl [H_arg17]; · iexists _; iexact H_arg17
    iexists _; iexact H_arg18

end Cert.Kernel.Body

end
-- ==== Proof.KBodyRunSimLast.lean ====
/-
  The body at the last similarity tile (inner step j = 7): the update of a middle similarity tile, after which each of
  the four similarity statistics is read back and stored whole into its output block.
-/
import proofs.«130741_j67869073212268_2_alg».proof.Proof.KBodyDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at the last similarity tile, on any whole memrefs: the four inputs at `x0`–`x3`, the four similarity statistics at `y0`–`y3`, the four output blocks at anything; it runs to the inputs as they were and each statistic's buffer and each output block with its pieces written. -/
noncomputable def runSimLast (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole)
    (n1 : ¬cInitSim i) (n2 : ¬cInitMem i) (p3 : cSim i) (n4 : ¬cMem i) (p5 : cOutSim i) (n6 : ¬cOutMem i)
    (x0 : Vec F S512x1024 .bf16) (x1 : Vec F S1024x4096 .bf16) (x2 : Vec F S512x1 .i32) (x3 : Vec F S1x512 .i32) (y0 : Vec F S512x1 .f32) (y1 : Vec F S512x1 .f32) (y2 : Vec F S512x1 .f32) (y3 : Vec F S512x1 .f32) :
    Σ' (L0 : List (View.Piece (Elt F) S512x1 .f32)) (L1 : List (View.Piece (Elt F) S512x1 .f32)) (L2 : List (View.Piece (Elt F) S512x1 .f32)) (L3 : List (View.Piece (Elt F) S512x1 .f32)) (O0 : List (View.Piece (Elt F) S512x1 .f32)) (O1 : List (View.Piece (Elt F) S512x1 .f32)) (O2 : List (View.Piece (Elt F) S512x1 .f32)), { O3 : List (View.Piece (Elt F) S512x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg15 fullShare y0
            ∗ owns (c : Thread nD τ) arg16 fullShare y1
            ∗ owns (c : Thread nD τ) arg17 fullShare y2
            ∗ owns (c : Thread nD τ) arg18 fullShare y3
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg15.view.loc (c : Thread nD τ) ↦[arg15.view.set]{fullShare} arg15.view.writes (Elt F) f L0)
                ∗ (∃ f, arg16.view.loc (c : Thread nD τ) ↦[arg16.view.set]{fullShare} arg16.view.writes (Elt F) f L1)
                ∗ (∃ f, arg17.view.loc (c : Thread nD τ) ↦[arg17.view.set]{fullShare} arg17.view.writes (Elt F) f L2)
                ∗ (∃ f, arg18.view.loc (c : Thread nD τ) ↦[arg18.view.set]{fullShare} arg18.view.writes (Elt F) f L3)
                ∗ (∃ f, arg8.view.loc (c : Thread nD τ) ↦[arg8.view.set]{fullShare} arg8.view.writes (Elt F) f O0)
                ∗ (∃ f, arg9.view.loc (c : Thread nD τ) ↦[arg9.view.set]{fullShare} arg9.view.writes (Elt F) f O1)
                ∗ (∃ f, arg10.view.loc (c : Thread nD τ) ↦[arg10.view.set]{fullShare} arg10.view.writes (Elt F) f O2)
                ∗ (∃ f, arg11.view.loc (c : Thread nD τ) ↦[arg11.view.set]{fullShare} arg11.view.writes (Elt F) f O3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?L0, ?L1, ?L2, ?L3, ?O0, ?O1, ?O2, ?O3, fun E K => ?run⟩
  case run =>
    simp only [cc0__fused_kernel_eq_skeleton]; unfold cc0__fused_kernel_skel
    unfold owns
    iintro ⟨⟨%f_arg2, %hf_arg2, H_arg2⟩, ⟨%f_arg3, %hf_arg3, H_arg3⟩, ⟨%f_arg4, %hf_arg4, H_arg4⟩, ⟨%f_arg5, %hf_arg5, H_arg5⟩, ⟨%f_arg15, %hf_arg15, H_arg15⟩, ⟨%f_arg16, %hf_arg16, H_arg16⟩, ⟨%f_arg17, %hf_arg17, H_arg17⟩, ⟨%f_arg18, %hf_arg18, H_arg18⟩, ⟨%d_arg8, %f_arg8, -, H_arg8⟩, ⟨%d_arg9, %f_arg9, -, H_arg9⟩, ⟨%d_arg10, %f_arg10, -, H_arg10⟩, ⟨%d_arg11, %f_arg11, -, H_arg11⟩, Hk⟩
    obtain rfl := harg2.eq_unread hf_arg2; obtain rfl := harg3.eq_unread hf_arg3; obtain rfl := harg4.eq_unread hf_arg4; obtain rfl := harg5.eq_unread hf_arg5; obtain rfl := harg15.eq_unread hf_arg15; obtain rfl := harg16.eq_unread hf_arg16; obtain rfl := harg17.eq_unread hf_arg17; obtain rfl := harg18.eq_unread hf_arg18
    sl_exec (disch := first | exact n1 | exact n2 | exact p3 | exact n4 | exact p5 | exact n6)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg15]; · iexists _; iexact H_arg15
    isplitl [H_arg16]; · iexists _; iexact H_arg16
    isplitl [H_arg17]; · iexists _; iexact H_arg17
    isplitl [H_arg18]; · iexists _; iexact H_arg18
    isplitl [H_arg8]; · iexists _; iexact H_arg8
    isplitl [H_arg9]; · iexists _; iexact H_arg9
    isplitl [H_arg10]; · iexists _; iexact H_arg10
    iexists _; iexact H_arg11

end Cert.Kernel.Body

end
-- ==== Proof.KBodyRunMemFirst.lean ====
/-
  The body at the first memory tile (inner step j = 8). The three memory statistics are reset to zero and then updated
  from the tile as at any later memory tile: the row sums of `exp` of the logits, of target times logit, and of the
  targets are added. Each statistic's buffer is stored whole twice.
-/
import proofs.«130741_j67869073212268_2_alg».proof.Proof.KBodyDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at the first memory tile, on any whole memrefs: the two input tiles at `x4`, `x5`, the three memory statistics at anything; it runs to the inputs as they were and each statistic's buffer with its pieces written. -/
noncomputable def runMemFirst (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole)
    (n1 : ¬cInitSim i) (p2 : cInitMem i) (n3 : ¬cSim i) (p4 : cMem i) (n5 : ¬cOutSim i) (n6 : ¬cOutMem i)
    (x4 : Vec F S512x1024 .f32) (x5 : Vec F S512x1024 .bf16) :
    Σ' (L4 : List (View.Piece (Elt F) S512x1 .f32)) (L5 : List (View.Piece (Elt F) S512x1 .f32)), { L6 : List (View.Piece (Elt F) S512x1 .f32) //
      ∀ (E : Set ℕ) (K : PUnit → sProp 𝕄),
        iprop(owns (c : Thread nD τ) arg6 fullShare x4
            ∗ owns (c : Thread nD τ) arg7 fullShare x5
            ∗ (∃ d, owns (c : Thread nD τ) arg19 fullShare d)
            ∗ (∃ d, owns (c : Thread nD τ) arg20 fullShare d)
            ∗ (∃ d, owns (c : Thread nD τ) arg21 fullShare d)
            ∗ (iprop(owns (c : Thread nD τ) arg6 fullShare x4
                ∗ owns (c : Thread nD τ) arg7 fullShare x5
                ∗ (∃ f, arg19.view.loc (c : Thread nD τ) ↦[arg19.view.set]{fullShare} arg19.view.writes (Elt F) f L4)
                ∗ (∃ f, arg20.view.loc (c : Thread nD τ) ↦[arg20.view.set]{fullShare} arg20.view.writes (Elt F) f L5)
                ∗ (∃ f, arg21.view.loc (c : Thread nD τ) ↦[arg21.view.set]{fullShare} arg21.view.writes (Elt F) f L6)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?L4, ?L5, ?L6, fun E K => ?run⟩
  case run =>
    simp only [cc0__fused_kernel_eq_skeleton]; unfold cc0__fused_kernel_skel
    unfold owns
    iintro ⟨⟨%f_arg6, %hf_arg6, H_arg6⟩, ⟨%f_arg7, %hf_arg7, H_arg7⟩, ⟨%d_arg19, %f_arg19, -, H_arg19⟩, ⟨%d_arg20, %f_arg20, -, H_arg20⟩, ⟨%d_arg21, %f_arg21, -, H_arg21⟩, Hk⟩
    obtain rfl := harg6.eq_unread hf_arg6; obtain rfl := harg7.eq_unread hf_arg7
    sl_exec (disch := first | exact n1 | exact p2 | exact n3 | exact p4 | exact n5 | exact n6)
    sl_step
    iapply Hk
    isplitl [H_arg6]
    · iexists _; isplitr; · ipureintro; exact harg6.read_unread _
      iexact H_arg6
    isplitl [H_arg7]
    · iexists _; isplitr; · ipureintro; exact harg7.read_unread _
      iexact H_arg7
    isplitl [H_arg19]; · iexists _; iexact H_arg19
    isplitl [H_arg20]; · iexists _; iexact H_arg20
    iexists _; iexact H_arg21

end Cert.Kernel.Body

end
-- ==== Proof.KBodyRunMemMid.lean ====
/-
  The body at a middle memory tile (inner step 9 ≤ j ≤ 14): no reset, no similarity update, no copy-out. The tile of
  memory logits and the tile of memory targets are read once each; each of the three memory statistics is read, the
  tile's row sums are added (of `exp` of the logits; of target times logit; of the targets), and it is stored back
  whole. Nothing else is touched. What each statistic's buffer ends with is found as the list of pieces stored into it.
-/
import proofs.«130741_j67869073212268_2_alg».proof.Proof.KBodyDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a middle memory tile, on any whole memrefs: from the two input tiles at `x4`, `x5` and the
    three memory statistics at `y4`, `y5`, `y6`, it runs to the inputs as they were and each statistic's buffer with
    its pieces written. -/
noncomputable def runMemMid (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole)
    (n1 : ¬cInitSim i) (n2 : ¬cInitMem i) (n3 : ¬cSim i) (p4 : cMem i) (n5 : ¬cOutSim i) (n6 : ¬cOutMem i)
    (x4 : Vec F S512x1024 .f32) (x5 : Vec F S512x1024 .bf16) (y4 y5 y6 : Vec F S512x1 .f32) :
    Σ' (L4 : List (View.Piece (Elt F) S512x1 .f32)) (L5 : List (View.Piece (Elt F) S512x1 .f32)), { L6 : List (View.Piece (Elt F) S512x1 .f32) //
      ∀ (E : Set ℕ) (K : PUnit → sProp 𝕄),
        iprop(owns (c : Thread nD τ) arg6 fullShare x4 ∗ owns (c : Thread nD τ) arg7 fullShare x5
            ∗ owns (c : Thread nD τ) arg19 fullShare y4 ∗ owns (c : Thread nD τ) arg20 fullShare y5 ∗ owns (c : Thread nD τ) arg21 fullShare y6
            ∗ (iprop(owns (c : Thread nD τ) arg6 fullShare x4 ∗ owns (c : Thread nD τ) arg7 fullShare x5
                ∗ (∃ f, arg19.view.loc (c : Thread nD τ) ↦[arg19.view.set]{fullShare} arg19.view.writes (Elt F) f L4)
                ∗ (∃ f, arg20.view.loc (c : Thread nD τ) ↦[arg20.view.set]{fullShare} arg20.view.writes (Elt F) f L5)
                ∗ (∃ f, arg21.view.loc (c : Thread nD τ) ↦[arg21.view.set]{fullShare} arg21.view.writes (Elt F) f L6)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?L4, ?L5, ?L6, fun E K => ?run⟩
  case run =>
    simp only [cc0__fused_kernel_eq_skeleton]; unfold cc0__fused_kernel_skel
    unfold owns
    iintro ⟨⟨%f4, %hf4, H4⟩, ⟨%f5, %hf5, H5⟩, ⟨%g4, %hg4, S4⟩, ⟨%g5, %hg5, S5⟩, ⟨%g6, %hg6, S6⟩, Hk⟩
    obtain rfl := harg6.eq_unread hf4; obtain rfl := harg7.eq_unread hf5
    obtain rfl := harg19.eq_unread hg4; obtain rfl := harg20.eq_unread hg5; obtain rfl := harg21.eq_unread hg6
    sl_exec (disch := first | exact n1 | exact n2 | exact n3 | exact p4 | exact n5 | exact n6)
    sl_step
    iapply Hk
    isplitl [H4]
    · iexists _; isplitr; · ipureintro; exact harg6.read_unread _
      iexact H4
    isplitl [H5]
    · iexists _; isplitr; · ipureintro; exact harg7.read_unread _
      iexact H5
    isplitl [S4]; · iexists _; iexact S4
    isplitl [S5]; · iexists _; iexact S5
    iexists _; iexact S6

end Cert.Kernel.Body

end
-- ==== Proof.KBodyRunMemLast.lean ====
/-
  The body at the last memory tile (inner step j = 15): the update of a middle memory tile, after which each of the
  three memory statistics is read back and stored whole into its output block.
-/
import proofs.«130741_j67869073212268_2_alg».proof.Proof.KBodyDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at the last memory tile, on any whole memrefs: the two input tiles at `x4`, `x5`, the three memory statistics at `y4`–`y6`, the three output blocks at anything; it runs to the inputs as they were and each statistic's buffer and each output block with its pieces written. -/
noncomputable def runMemLast (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole)
    (n1 : ¬cInitSim i) (n2 : ¬cInitMem i) (n3 : ¬cSim i) (p4 : cMem i) (n5 : ¬cOutSim i) (p6 : cOutMem i)
    (x4 : Vec F S512x1024 .f32) (x5 : Vec F S512x1024 .bf16) (y4 : Vec F S512x1 .f32) (y5 : Vec F S512x1 .f32) (y6 : Vec F S512x1 .f32) :
    Σ' (L4 : List (View.Piece (Elt F) S512x1 .f32)) (L5 : List (View.Piece (Elt F) S512x1 .f32)) (L6 : List (View.Piece (Elt F) S512x1 .f32)) (O4 : List (View.Piece (Elt F) S512x1 .f32)) (O5 : List (View.Piece (Elt F) S512x1 .f32)), { O6 : List (View.Piece (Elt F) S512x1 .f32) //
      ∀ (E : Set ℕ) (K : PUnit → sProp 𝕄),
        iprop(owns (c : Thread nD τ) arg6 fullShare x4
            ∗ owns (c : Thread nD τ) arg7 fullShare x5
            ∗ owns (c : Thread nD τ) arg19 fullShare y4
            ∗ owns (c : Thread nD τ) arg20 fullShare y5
            ∗ owns (c : Thread nD τ) arg21 fullShare y6
            ∗ (∃ d, owns (c : Thread nD τ) arg12 fullShare d)
            ∗ (∃ d, owns (c : Thread nD τ) arg13 fullShare d)
            ∗ (∃ d, owns (c : Thread nD τ) arg14 fullShare d)
            ∗ (iprop(owns (c : Thread nD τ) arg6 fullShare x4
                ∗ owns (c : Thread nD τ) arg7 fullShare x5
                ∗ (∃ f, arg19.view.loc (c : Thread nD τ) ↦[arg19.view.set]{fullShare} arg19.view.writes (Elt F) f L4)
                ∗ (∃ f, arg20.view.loc (c : Thread nD τ) ↦[arg20.view.set]{fullShare} arg20.view.writes (Elt F) f L5)
                ∗ (∃ f, arg21.view.loc (c : Thread nD τ) ↦[arg21.view.set]{fullShare} arg21.view.writes (Elt F) f L6)
                ∗ (∃ f, arg12.view.loc (c : Thread nD τ) ↦[arg12.view.set]{fullShare} arg12.view.writes (Elt F) f O4)
                ∗ (∃ f, arg13.view.loc (c : Thread nD τ) ↦[arg13.view.set]{fullShare} arg13.view.writes (Elt F) f O5)
                ∗ (∃ f, arg14.view.loc (c : Thread nD τ) ↦[arg14.view.set]{fullShare} arg14.view.writes (Elt F) f O6)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?L4, ?L5, ?L6, ?O4, ?O5, ?O6, fun E K => ?run⟩
  case run =>
    simp only [cc0__fused_kernel_eq_skeleton]; unfold cc0__fused_kernel_skel
    unfold owns
    iintro ⟨⟨%f_arg6, %hf_arg6, H_arg6⟩, ⟨%f_arg7, %hf_arg7, H_arg7⟩, ⟨%f_arg19, %hf_arg19, H_arg19⟩, ⟨%f_arg20, %hf_arg20, H_arg20⟩, ⟨%f_arg21, %hf_arg21, H_arg21⟩, ⟨%d_arg12, %f_arg12, -, H_arg12⟩, ⟨%d_arg13, %f_arg13, -, H_arg13⟩, ⟨%d_arg14, %f_arg14, -, H_arg14⟩, Hk⟩
    obtain rfl := harg6.eq_unread hf_arg6; obtain rfl := harg7.eq_unread hf_arg7; obtain rfl := harg19.eq_unread hf_arg19; obtain rfl := harg20.eq_unread hf_arg20; obtain rfl := harg21.eq_unread hf_arg21
    sl_exec (disch := first | exact n1 | exact n2 | exact n3 | exact p4 | exact n5 | exact p6)
    sl_step
    iapply Hk
    isplitl [H_arg6]
    · iexists _; isplitr; · ipureintro; exact harg6.read_unread _
      iexact H_arg6
    isplitl [H_arg7]
    · iexists _; isplitr; · ipureintro; exact harg7.read_unread _
      iexact H_arg7
    isplitl [H_arg19]; · iexists _; iexact H_arg19
    isplitl [H_arg20]; · iexists _; iexact H_arg20
    isplitl [H_arg21]; · iexists _; iexact H_arg21
    isplitl [H_arg12]; · iexists _; iexact H_arg12
    isplitl [H_arg13]; · iexists _; iexact H_arg13
    iexists _; iexact H_arg14

end Cert.Kernel.Body

end
-- ==== Proof.KBodyAccum.lean ====
/-
  What the seven running statistics and the seven output blocks hold after each grid point.

  Each case of the body stores whole 512 × 1 columns: the statistics it updates and, at the last tile of a sweep, the
  output blocks it copies them to. What a buffer holds after a case is its stored pieces read back; the pieces cover the
  column (each store is the whole column), so the read-back does not depend on what the buffer held before. The state
  after point `n` is computed from the state after point `n - 1` by the case that the inner step `n mod 16` selects:
  the case replaces what it stores and leaves the rest. Before the first point nothing is known, and the first point
  (a first similarity tile) resets the similarity statistics before it reads them.
-/
import proofs.«130741_j67869073212268_2_alg».proof.Proof.KBodyRunSimFirst
import proofs.«130741_j67869073212268_2_alg».proof.Proof.KBodyRunSimMid
import proofs.«130741_j67869073212268_2_alg».proof.Proof.KBodyRunSimLast
import proofs.«130741_j67869073212268_2_alg».proof.Proof.KBodyRunMemFirst
import proofs.«130741_j67869073212268_2_alg».proof.Proof.KBodyRunMemMid
import proofs.«130741_j67869073212268_2_alg».proof.Proof.KBodyRunMemLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The view through which a 512 × 1 column's contents are stated (any whole buffer of that shape serves: a read-back
    of covering pieces does not depend on it). -/
abbrev VS : View sig .tc .vmem S512x1 .f32 := (sc0 : Memref sig .tc .vmem S512x1 .f32).view

/-- Pieces read back over unspecified contents. -/
abbrev rd (L : List (View.Piece (Elt F) S512x1 .f32)) : Vec F S512x1 .f32 :=
  VS.read (Elt F) (VS.writes (Elt F) VS.junk L)

/-- The seven statistics (`s0`–`s3` of the similarity sweep: maximum, exponential sum, positives' similarity sum,
    positives' count; `s4`–`s6` of the memory sweep: exponential sum, target-weighted logit sum, target sum) and the
    seven output blocks they are copied to. -/
structure St (F : FTy → Type) [FloatOps F] where
  s0 : Vec F S512x1 .f32
  s1 : Vec F S512x1 .f32
  s2 : Vec F S512x1 .f32
  s3 : Vec F S512x1 .f32
  s4 : Vec F S512x1 .f32
  s5 : Vec F S512x1 .f32
  s6 : Vec F S512x1 .f32
  o0 : Vec F S512x1 .f32
  o1 : Vec F S512x1 .f32
  o2 : Vec F S512x1 .f32
  o3 : Vec F S512x1 .f32
  o4 : Vec F S512x1 .f32
  o5 : Vec F S512x1 .f32
  o6 : Vec F S512x1 .f32

/-- Nothing known: every column at unspecified contents. -/
def St.unknown : St F :=
  ⟨rd [], rd [], rd [], rd [], rd [], rd [], rd [], rd [], rd [], rd [], rd [], rd [], rd [], rd []⟩

/-! ## The cases at a point -/

/-- The run of that case at point `t`, at the point's staging memrefs and input blocks. -/
def atSimFirst (c : Dev nD) (t : Fin cfg0.N) (h : t.val % 16 = 0) :=
  runSimFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hInitSim t).mpr (by omega)) (fun hc => absurd ((hInitMem t).mp hc) (by omega)) ((hSim t).mpr (by omega)) (fun hc => absurd ((hMem t).mp hc) (by omega)) (fun hc => absurd ((hOutSim t).mp hc) (by omega)) (fun hc => absurd ((hOutMem t).mp hc) (by omega)) (iblk m c 0 t) (iblk m c 1 t) (iblk m c 2 t) (iblk m c 3 t)

/-- The run of that case at point `t`, at the point's staging memrefs and input blocks, the carried statistics at what the point before left (`p`). -/
def atSimMid (c : Dev nD) (t : Fin cfg0.N) (h : 1 ≤ t.val % 16 ∧ t.val % 16 ≤ 6) (p : St F) :=
  runSimMid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (fun hc => absurd ((hInitSim t).mp hc) (by omega)) (fun hc => absurd ((hInitMem t).mp hc) (by omega)) ((hSim t).mpr (by omega)) (fun hc => absurd ((hMem t).mp hc) (by omega)) (fun hc => absurd ((hOutSim t).mp hc) (by omega)) (fun hc => absurd ((hOutMem t).mp hc) (by omega)) (iblk m c 0 t) (iblk m c 1 t) (iblk m c 2 t) (iblk m c 3 t) p.s0 p.s1 p.s2 p.s3

/-- The run of that case at point `t`, at the point's staging memrefs and input blocks, the carried statistics at what the point before left (`p`). -/
def atSimLast (c : Dev nD) (t : Fin cfg0.N) (h : t.val % 16 = 7) (p : St F) :=
  runSimLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (fun hc => absurd ((hInitSim t).mp hc) (by omega)) (fun hc => absurd ((hInitMem t).mp hc) (by omega)) ((hSim t).mpr (by omega)) (fun hc => absurd ((hMem t).mp hc) (by omega)) ((hOutSim t).mpr (by omega)) (fun hc => absurd ((hOutMem t).mp hc) (by omega)) (iblk m c 0 t) (iblk m c 1 t) (iblk m c 2 t) (iblk m c 3 t) p.s0 p.s1 p.s2 p.s3

/-- The run of that case at point `t`, at the point's staging memrefs and input blocks. -/
def atMemFirst (c : Dev nD) (t : Fin cfg0.N) (h : t.val % 16 = 8) :=
  runMemFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (fun hc => absurd ((hInitSim t).mp hc) (by omega)) ((hInitMem t).mpr (by omega)) (fun hc => absurd ((hSim t).mp hc) (by omega)) ((hMem t).mpr (by omega)) (fun hc => absurd ((hOutSim t).mp hc) (by omega)) (fun hc => absurd ((hOutMem t).mp hc) (by omega)) (iblk m c 4 t) (iblk m c 5 t)

/-- The run of that case at point `t`, at the point's staging memrefs and input blocks, the carried statistics at what the point before left (`p`). -/
def atMemMid (c : Dev nD) (t : Fin cfg0.N) (h : 9 ≤ t.val % 16 ∧ t.val % 16 ≤ 14) (p : St F) :=
  runMemMid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (fun hc => absurd ((hInitSim t).mp hc) (by omega)) (fun hc => absurd ((hInitMem t).mp hc) (by omega)) (fun hc => absurd ((hSim t).mp hc) (by omega)) ((hMem t).mpr (by omega)) (fun hc => absurd ((hOutSim t).mp hc) (by omega)) (fun hc => absurd ((hOutMem t).mp hc) (by omega)) (iblk m c 4 t) (iblk m c 5 t) p.s4 p.s5 p.s6

/-- The run of that case at point `t`, at the point's staging memrefs and input blocks, the carried statistics at what the point before left (`p`). -/
def atMemLast (c : Dev nD) (t : Fin cfg0.N) (h : t.val % 16 = 15) (p : St F) :=
  runMemLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (fun hc => absurd ((hInitSim t).mp hc) (by omega)) (fun hc => absurd ((hInitMem t).mp hc) (by omega)) (fun hc => absurd ((hSim t).mp hc) (by omega)) ((hMem t).mpr (by omega)) (fun hc => absurd ((hOutSim t).mp hc) (by omega)) ((hOutMem t).mpr (by omega)) (iblk m c 4 t) (iblk m c 5 t) p.s4 p.s5 p.s6

/-- The statistics and output blocks after that case at point `t`: what it stores, read back; everything else as before. -/
def stepSimFirst (c : Dev nD) (t : Fin cfg0.N) (h : t.val % 16 = 0) (p : St F) : St F :=
  { p with s0 := rd (atSimFirst m c t h).1
           s1 := rd (atSimFirst m c t h).2.1
           s2 := rd (atSimFirst m c t h).2.2.1
           s3 := rd (atSimFirst m c t h).2.2.2.1 }

/-- The statistics and output blocks after that case at point `t`: what it stores, read back; everything else as before. -/
def stepSimMid (c : Dev nD) (t : Fin cfg0.N) (h : 1 ≤ t.val % 16 ∧ t.val % 16 ≤ 6) (p : St F) : St F :=
  { p with s0 := rd (atSimMid m c t h p).1
           s1 := rd (atSimMid m c t h p).2.1
           s2 := rd (atSimMid m c t h p).2.2.1
           s3 := rd (atSimMid m c t h p).2.2.2.1 }

/-- The statistics and output blocks after that case at point `t`: what it stores, read back; everything else as before. -/
def stepSimLast (c : Dev nD) (t : Fin cfg0.N) (h : t.val % 16 = 7) (p : St F) : St F :=
  { p with s0 := rd (atSimLast m c t h p).1
           s1 := rd (atSimLast m c t h p).2.1
           s2 := rd (atSimLast m c t h p).2.2.1
           s3 := rd (atSimLast m c t h p).2.2.2.1
           o0 := rd (atSimLast m c t h p).2.2.2.2.1
           o1 := rd (atSimLast m c t h p).2.2.2.2.2.1
           o2 := rd (atSimLast m c t h p).2.2.2.2.2.2.1
           o3 := rd (atSimLast m c t h p).2.2.2.2.2.2.2.1 }

/-- The statistics and output blocks after that case at point `t`: what it stores, read back; everything else as before. -/
def stepMemFirst (c : Dev nD) (t : Fin cfg0.N) (h : t.val % 16 = 8) (p : St F) : St F :=
  { p with s4 := rd (atMemFirst m c t h).1
           s5 := rd (atMemFirst m c t h).2.1
           s6 := rd (atMemFirst m c t h).2.2.1 }

/-- The statistics and output blocks after that case at point `t`: what it stores, read back; everything else as before. -/
def stepMemMid (c : Dev nD) (t : Fin cfg0.N) (h : 9 ≤ t.val % 16 ∧ t.val % 16 ≤ 14) (p : St F) : St F :=
  { p with s4 := rd (atMemMid m c t h p).1
           s5 := rd (atMemMid m c t h p).2.1
           s6 := rd (atMemMid m c t h p).2.2.1 }

/-- The statistics and output blocks after that case at point `t`: what it stores, read back; everything else as before. -/
def stepMemLast (c : Dev nD) (t : Fin cfg0.N) (h : t.val % 16 = 15) (p : St F) : St F :=
  { p with s4 := rd (atMemLast m c t h p).1
           s5 := rd (atMemLast m c t h p).2.1
           s6 := rd (atMemLast m c t h p).2.2.1
           o4 := rd (atMemLast m c t h p).2.2.2.1
           o5 := rd (atMemLast m c t h p).2.2.2.2.1
           o6 := rd (atMemLast m c t h p).2.2.2.2.2.1 }

/-! ## Each case's stores cover the columns they are made into -/

theorem coverSimFirst_s0 (c : Dev nD) (t : Fin cfg0.N) (h : t.val % 16 = 0) (y : S512x1.Idx) :
    ∃ pc ∈ (atSimFirst m c t h).1, y ∈ pc.1.set :=
  View.cover_of_tiledL (atSimFirst m c t h).1 S512x1.size (by sl_kernel_rfl) y
theorem coverSimFirst_s1 (c : Dev nD) (t : Fin cfg0.N) (h : t.val % 16 = 0) (y : S512x1.Idx) :
    ∃ pc ∈ (atSimFirst m c t h).2.1, y ∈ pc.1.set :=
  View.cover_of_tiledL (atSimFirst m c t h).2.1 S512x1.size (by sl_kernel_rfl) y
theorem coverSimFirst_s2 (c : Dev nD) (t : Fin cfg0.N) (h : t.val % 16 = 0) (y : S512x1.Idx) :
    ∃ pc ∈ (atSimFirst m c t h).2.2.1, y ∈ pc.1.set :=
  View.cover_of_tiledL (atSimFirst m c t h).2.2.1 S512x1.size (by sl_kernel_rfl) y
theorem coverSimFirst_s3 (c : Dev nD) (t : Fin cfg0.N) (h : t.val % 16 = 0) (y : S512x1.Idx) :
    ∃ pc ∈ (atSimFirst m c t h).2.2.2.1, y ∈ pc.1.set :=
  View.cover_of_tiledL (atSimFirst m c t h).2.2.2.1 S512x1.size (by sl_kernel_rfl) y
theorem coverSimMid_s0 (c : Dev nD) (t : Fin cfg0.N) (h : 1 ≤ t.val % 16 ∧ t.val % 16 ≤ 6) (p : St F) (y : S512x1.Idx) :
    ∃ pc ∈ (atSimMid m c t h p).1, y ∈ pc.1.set :=
  View.cover_of_tiledL (atSimMid m c t h p).1 S512x1.size (by sl_kernel_rfl) y
theorem coverSimMid_s1 (c : Dev nD) (t : Fin cfg0.N) (h : 1 ≤ t.val % 16 ∧ t.val % 16 ≤ 6) (p : St F) (y : S512x1.Idx) :
    ∃ pc ∈ (atSimMid m c t h p).2.1, y ∈ pc.1.set :=
  View.cover_of_tiledL (atSimMid m c t h p).2.1 S512x1.size (by sl_kernel_rfl) y
theorem coverSimMid_s2 (c : Dev nD) (t : Fin cfg0.N) (h : 1 ≤ t.val % 16 ∧ t.val % 16 ≤ 6) (p : St F) (y : S512x1.Idx) :
    ∃ pc ∈ (atSimMid m c t h p).2.2.1, y ∈ pc.1.set :=
  View.cover_of_tiledL (atSimMid m c t h p).2.2.1 S512x1.size (by sl_kernel_rfl) y
theorem coverSimMid_s3 (c : Dev nD) (t : Fin cfg0.N) (h : 1 ≤ t.val % 16 ∧ t.val % 16 ≤ 6) (p : St F) (y : S512x1.Idx) :
    ∃ pc ∈ (atSimMid m c t h p).2.2.2.1, y ∈ pc.1.set :=
  View.cover_of_tiledL (atSimMid m c t h p).2.2.2.1 S512x1.size (by sl_kernel_rfl) y
theorem coverSimLast_s0 (c : Dev nD) (t : Fin cfg0.N) (h : t.val % 16 = 7) (p : St F) (y : S512x1.Idx) :
    ∃ pc ∈ (atSimLast m c t h p).1, y ∈ pc.1.set :=
  View.cover_of_tiledL (atSimLast m c t h p).1 S512x1.size (by sl_kernel_rfl) y
theorem coverSimLast_s1 (c : Dev nD) (t : Fin cfg0.N) (h : t.val % 16 = 7) (p : St F) (y : S512x1.Idx) :
    ∃ pc ∈ (atSimLast m c t h p).2.1, y ∈ pc.1.set :=
  View.cover_of_tiledL (atSimLast m c t h p).2.1 S512x1.size (by sl_kernel_rfl) y
theorem coverSimLast_s2 (c : Dev nD) (t : Fin cfg0.N) (h : t.val % 16 = 7) (p : St F) (y : S512x1.Idx) :
    ∃ pc ∈ (atSimLast m c t h p).2.2.1, y ∈ pc.1.set :=
  View.cover_of_tiledL (atSimLast m c t h p).2.2.1 S512x1.size (by sl_kernel_rfl) y
theorem coverSimLast_s3 (c : Dev nD) (t : Fin cfg0.N) (h : t.val % 16 = 7) (p : St F) (y : S512x1.Idx) :
    ∃ pc ∈ (atSimLast m c t h p).2.2.2.1, y ∈ pc.1.set :=
  View.cover_of_tiledL (atSimLast m c t h p).2.2.2.1 S512x1.size (by sl_kernel_rfl) y
theorem coverSimLast_o0 (c : Dev nD) (t : Fin cfg0.N) (h : t.val % 16 = 7) (p : St F) (y : S512x1.Idx) :
    ∃ pc ∈ (atSimLast m c t h p).2.2.2.2.1, y ∈ pc.1.set :=
  View.cover_of_tiledL (atSimLast m c t h p).2.2.2.2.1 S512x1.size (by sl_kernel_rfl) y
theorem coverSimLast_o1 (c : Dev nD) (t : Fin cfg0.N) (h : t.val % 16 = 7) (p : St F) (y : S512x1.Idx) :
    ∃ pc ∈ (atSimLast m c t h p).2.2.2.2.2.1, y ∈ pc.1.set :=
  View.cover_of_tiledL (atSimLast m c t h p).2.2.2.2.2.1 S512x1.size (by sl_kernel_rfl) y
theorem coverSimLast_o2 (c : Dev nD) (t : Fin cfg0.N) (h : t.val % 16 = 7) (p : St F) (y : S512x1.Idx) :
    ∃ pc ∈ (atSimLast m c t h p).2.2.2.2.2.2.1, y ∈ pc.1.set :=
  View.cover_of_tiledL (atSimLast m c t h p).2.2.2.2.2.2.1 S512x1.size (by sl_kernel_rfl) y
theorem coverSimLast_o3 (c : Dev nD) (t : Fin cfg0.N) (h : t.val % 16 = 7) (p : St F) (y : S512x1.Idx) :
    ∃ pc ∈ (atSimLast m c t h p).2.2.2.2.2.2.2.1, y ∈ pc.1.set :=
  View.cover_of_tiledL (atSimLast m c t h p).2.2.2.2.2.2.2.1 S512x1.size (by sl_kernel_rfl) y
theorem coverMemFirst_s4 (c : Dev nD) (t : Fin cfg0.N) (h : t.val % 16 = 8) (y : S512x1.Idx) :
    ∃ pc ∈ (atMemFirst m c t h).1, y ∈ pc.1.set :=
  View.cover_of_tiledL (atMemFirst m c t h).1 S512x1.size (by sl_kernel_rfl) y
theorem coverMemFirst_s5 (c : Dev nD) (t : Fin cfg0.N) (h : t.val % 16 = 8) (y : S512x1.Idx) :
    ∃ pc ∈ (atMemFirst m c t h).2.1, y ∈ pc.1.set :=
  View.cover_of_tiledL (atMemFirst m c t h).2.1 S512x1.size (by sl_kernel_rfl) y
theorem coverMemFirst_s6 (c : Dev nD) (t : Fin cfg0.N) (h : t.val % 16 = 8) (y : S512x1.Idx) :
    ∃ pc ∈ (atMemFirst m c t h).2.2.1, y ∈ pc.1.set :=
  View.cover_of_tiledL (atMemFirst m c t h).2.2.1 S512x1.size (by sl_kernel_rfl) y
theorem coverMemMid_s4 (c : Dev nD) (t : Fin cfg0.N) (h : 9 ≤ t.val % 16 ∧ t.val % 16 ≤ 14) (p : St F) (y : S512x1.Idx) :
    ∃ pc ∈ (atMemMid m c t h p).1, y ∈ pc.1.set :=
  View.cover_of_tiledL (atMemMid m c t h p).1 S512x1.size (by sl_kernel_rfl) y
theorem coverMemMid_s5 (c : Dev nD) (t : Fin cfg0.N) (h : 9 ≤ t.val % 16 ∧ t.val % 16 ≤ 14) (p : St F) (y : S512x1.Idx) :
    ∃ pc ∈ (atMemMid m c t h p).2.1, y ∈ pc.1.set :=
  View.cover_of_tiledL (atMemMid m c t h p).2.1 S512x1.size (by sl_kernel_rfl) y
theorem coverMemMid_s6 (c : Dev nD) (t : Fin cfg0.N) (h : 9 ≤ t.val % 16 ∧ t.val % 16 ≤ 14) (p : St F) (y : S512x1.Idx) :
    ∃ pc ∈ (atMemMid m c t h p).2.2.1, y ∈ pc.1.set :=
  View.cover_of_tiledL (atMemMid m c t h p).2.2.1 S512x1.size (by sl_kernel_rfl) y
theorem coverMemLast_s4 (c : Dev nD) (t : Fin cfg0.N) (h : t.val % 16 = 15) (p : St F) (y : S512x1.Idx) :
    ∃ pc ∈ (atMemLast m c t h p).1, y ∈ pc.1.set :=
  View.cover_of_tiledL (atMemLast m c t h p).1 S512x1.size (by sl_kernel_rfl) y
theorem coverMemLast_s5 (c : Dev nD) (t : Fin cfg0.N) (h : t.val % 16 = 15) (p : St F) (y : S512x1.Idx) :
    ∃ pc ∈ (atMemLast m c t h p).2.1, y ∈ pc.1.set :=
  View.cover_of_tiledL (atMemLast m c t h p).2.1 S512x1.size (by sl_kernel_rfl) y
theorem coverMemLast_s6 (c : Dev nD) (t : Fin cfg0.N) (h : t.val % 16 = 15) (p : St F) (y : S512x1.Idx) :
    ∃ pc ∈ (atMemLast m c t h p).2.2.1, y ∈ pc.1.set :=
  View.cover_of_tiledL (atMemLast m c t h p).2.2.1 S512x1.size (by sl_kernel_rfl) y
theorem coverMemLast_o4 (c : Dev nD) (t : Fin cfg0.N) (h : t.val % 16 = 15) (p : St F) (y : S512x1.Idx) :
    ∃ pc ∈ (atMemLast m c t h p).2.2.2.1, y ∈ pc.1.set :=
  View.cover_of_tiledL (atMemLast m c t h p).2.2.2.1 S512x1.size (by sl_kernel_rfl) y
theorem coverMemLast_o5 (c : Dev nD) (t : Fin cfg0.N) (h : t.val % 16 = 15) (p : St F) (y : S512x1.Idx) :
    ∃ pc ∈ (atMemLast m c t h p).2.2.2.2.1, y ∈ pc.1.set :=
  View.cover_of_tiledL (atMemLast m c t h p).2.2.2.2.1 S512x1.size (by sl_kernel_rfl) y
theorem coverMemLast_o6 (c : Dev nD) (t : Fin cfg0.N) (h : t.val % 16 = 15) (p : St F) (y : S512x1.Idx) :
    ∃ pc ∈ (atMemLast m c t h p).2.2.2.2.2.1, y ∈ pc.1.set :=
  View.cover_of_tiledL (atMemLast m c t h p).2.2.2.2.2.1 S512x1.size (by sl_kernel_rfl) y

/-- What that case does not store it leaves. -/
theorem stepSimFirst_keeps (c : Dev nD) (t : Fin cfg0.N) (h : t.val % 16 = 0) (p : St F) :
    (stepSimFirst m c t h p).s4 = p.s4 ∧ (stepSimFirst m c t h p).s5 = p.s5 ∧ (stepSimFirst m c t h p).s6 = p.s6 ∧ (stepSimFirst m c t h p).o0 = p.o0 ∧ (stepSimFirst m c t h p).o1 = p.o1 ∧ (stepSimFirst m c t h p).o2 = p.o2 ∧ (stepSimFirst m c t h p).o3 = p.o3 ∧ (stepSimFirst m c t h p).o4 = p.o4 ∧ (stepSimFirst m c t h p).o5 = p.o5 ∧ (stepSimFirst m c t h p).o6 = p.o6 := by
  unfold stepSimFirst; exact ⟨rfl, rfl, rfl, rfl, rfl, rfl, rfl, rfl, rfl, rfl⟩
/-- What that case does not store it leaves. -/
theorem stepSimMid_keeps (c : Dev nD) (t : Fin cfg0.N) (h : 1 ≤ t.val % 16 ∧ t.val % 16 ≤ 6) (p : St F) :
    (stepSimMid m c t h p).s4 = p.s4 ∧ (stepSimMid m c t h p).s5 = p.s5 ∧ (stepSimMid m c t h p).s6 = p.s6 ∧ (stepSimMid m c t h p).o0 = p.o0 ∧ (stepSimMid m c t h p).o1 = p.o1 ∧ (stepSimMid m c t h p).o2 = p.o2 ∧ (stepSimMid m c t h p).o3 = p.o3 ∧ (stepSimMid m c t h p).o4 = p.o4 ∧ (stepSimMid m c t h p).o5 = p.o5 ∧ (stepSimMid m c t h p).o6 = p.o6 := by
  unfold stepSimMid; exact ⟨rfl, rfl, rfl, rfl, rfl, rfl, rfl, rfl, rfl, rfl⟩
/-- What that case does not store it leaves. -/
theorem stepSimLast_keeps (c : Dev nD) (t : Fin cfg0.N) (h : t.val % 16 = 7) (p : St F) :
    (stepSimLast m c t h p).s4 = p.s4 ∧ (stepSimLast m c t h p).s5 = p.s5 ∧ (stepSimLast m c t h p).s6 = p.s6 ∧ (stepSimLast m c t h p).o4 = p.o4 ∧ (stepSimLast m c t h p).o5 = p.o5 ∧ (stepSimLast m c t h p).o6 = p.o6 := by
  unfold stepSimLast; exact ⟨rfl, rfl, rfl, rfl, rfl, rfl⟩
/-- What that case does not store it leaves. -/
theorem stepMemFirst_keeps (c : Dev nD) (t : Fin cfg0.N) (h : t.val % 16 = 8) (p : St F) :
    (stepMemFirst m c t h p).s0 = p.s0 ∧ (stepMemFirst m c t h p).s1 = p.s1 ∧ (stepMemFirst m c t h p).s2 = p.s2 ∧ (stepMemFirst m c t h p).s3 = p.s3 ∧ (stepMemFirst m c t h p).o0 = p.o0 ∧ (stepMemFirst m c t h p).o1 = p.o1 ∧ (stepMemFirst m c t h p).o2 = p.o2 ∧ (stepMemFirst m c t h p).o3 = p.o3 ∧ (stepMemFirst m c t h p).o4 = p.o4 ∧ (stepMemFirst m c t h p).o5 = p.o5 ∧ (stepMemFirst m c t h p).o6 = p.o6 := by
  unfold stepMemFirst; exact ⟨rfl, rfl, rfl, rfl, rfl, rfl, rfl, rfl, rfl, rfl, rfl⟩
/-- What that case does not store it leaves. -/
theorem stepMemMid_keeps (c : Dev nD) (t : Fin cfg0.N) (h : 9 ≤ t.val % 16 ∧ t.val % 16 ≤ 14) (p : St F) :
    (stepMemMid m c t h p).s0 = p.s0 ∧ (stepMemMid m c t h p).s1 = p.s1 ∧ (stepMemMid m c t h p).s2 = p.s2 ∧ (stepMemMid m c t h p).s3 = p.s3 ∧ (stepMemMid m c t h p).o0 = p.o0 ∧ (stepMemMid m c t h p).o1 = p.o1 ∧ (stepMemMid m c t h p).o2 = p.o2 ∧ (stepMemMid m c t h p).o3 = p.o3 ∧ (stepMemMid m c t h p).o4 = p.o4 ∧ (stepMemMid m c t h p).o5 = p.o5 ∧ (stepMemMid m c t h p).o6 = p.o6 := by
  unfold stepMemMid; exact ⟨rfl, rfl, rfl, rfl, rfl, rfl, rfl, rfl, rfl, rfl, rfl⟩
/-- What that case does not store it leaves. -/
theorem stepMemLast_keeps (c : Dev nD) (t : Fin cfg0.N) (h : t.val % 16 = 15) (p : St F) :
    (stepMemLast m c t h p).s0 = p.s0 ∧ (stepMemLast m c t h p).s1 = p.s1 ∧ (stepMemLast m c t h p).s2 = p.s2 ∧ (stepMemLast m c t h p).s3 = p.s3 ∧ (stepMemLast m c t h p).o0 = p.o0 ∧ (stepMemLast m c t h p).o1 = p.o1 ∧ (stepMemLast m c t h p).o2 = p.o2 ∧ (stepMemLast m c t h p).o3 = p.o3 := by
  unfold stepMemLast; exact ⟨rfl, rfl, rfl, rfl, rfl, rfl, rfl, rfl⟩

/-! ## The state after each point -/

/-- The state after point `n`: the case the inner step selects, applied to the state after point `n - 1` (to nothing
    known at the first point). -/
def outsAt (c : Dev nD) : (n : ℕ) → n < cfg0.N → St F
  | 0, hn => stepSimFirst m c ⟨0, hn⟩ (Nat.zero_mod _) St.unknown
  | n + 1, hn =>
    if h0 : (n + 1) % 16 = 0 then stepSimFirst m c ⟨n + 1, hn⟩ h0 (outsAt c n (Nat.lt_of_succ_lt hn))
    else if h1 : (n + 1) % 16 ≤ 6 then stepSimMid m c ⟨n + 1, hn⟩ ⟨by show 1 ≤ (n + 1) % 16; omega, h1⟩ (outsAt c n (Nat.lt_of_succ_lt hn))
    else if h2 : (n + 1) % 16 = 7 then stepSimLast m c ⟨n + 1, hn⟩ h2 (outsAt c n (Nat.lt_of_succ_lt hn))
    else if h3 : (n + 1) % 16 = 8 then stepMemFirst m c ⟨n + 1, hn⟩ h3 (outsAt c n (Nat.lt_of_succ_lt hn))
    else if h4 : (n + 1) % 16 ≤ 14 then stepMemMid m c ⟨n + 1, hn⟩ ⟨by show 9 ≤ (n + 1) % 16; omega, h4⟩ (outsAt c n (Nat.lt_of_succ_lt hn))
    else stepMemLast m c ⟨n + 1, hn⟩ (by show (n + 1) % 16 = 15; omega) (outsAt c n (Nat.lt_of_succ_lt hn))

/-- The position before a point is a position. -/
theorem pred_lt (t : Fin cfg0.N) : t.val - 1 < cfg0.N := Nat.lt_of_le_of_lt (Nat.sub_le _ _) t.isLt

/-- The state the body finds at point `t`: the state after the point before, nothing known at the first point. -/
def prevAt (c : Dev nD) (t : Fin cfg0.N) : St F :=
  if t.val = 0 then St.unknown else outsAt m c (t.val - 1) (pred_lt t)

theorem outsAt_simFirst (c : Dev nD) (t : Fin cfg0.N) (h : t.val % 16 = 0) :
    outsAt m c t.val t.isLt = stepSimFirst m c t h (prevAt m c t) := by
  obtain ⟨n, hn⟩ := t
  dsimp only at h
  cases n with
  | zero => unfold prevAt; rw [if_pos rfl]; rfl
  | succ n => unfold prevAt; rw [if_neg (Nat.succ_ne_zero n)]; exact (dif_pos h)

theorem outsAt_simMid (c : Dev nD) (t : Fin cfg0.N) (h : 1 ≤ t.val % 16 ∧ t.val % 16 ≤ 6) :
    outsAt m c t.val t.isLt = stepSimMid m c t h (prevAt m c t) := by
  obtain ⟨n, hn⟩ := t
  dsimp only at h
  cases n with
  | zero => exact absurd h.1 (by simp)
  | succ n => unfold prevAt; rw [if_neg (Nat.succ_ne_zero n)]; exact (dif_neg (by have := h.1; omega)).trans (dif_pos h.2)

theorem outsAt_simLast (c : Dev nD) (t : Fin cfg0.N) (h : t.val % 16 = 7) :
    outsAt m c t.val t.isLt = stepSimLast m c t h (prevAt m c t) := by
  obtain ⟨n, hn⟩ := t
  dsimp only at h
  cases n with
  | zero => exact absurd h (by simp)
  | succ n => unfold prevAt; rw [if_neg (Nat.succ_ne_zero n)]; exact (dif_neg (by omega)).trans ((dif_neg (by omega)).trans (dif_pos h))

theorem outsAt_memFirst (c : Dev nD) (t : Fin cfg0.N) (h : t.val % 16 = 8) :
    outsAt m c t.val t.isLt = stepMemFirst m c t h (prevAt m c t) := by
  obtain ⟨n, hn⟩ := t
  dsimp only at h
  cases n with
  | zero => exact absurd h (by simp)
  | succ n => unfold prevAt; rw [if_neg (Nat.succ_ne_zero n)]; exact (dif_neg (by omega)).trans ((dif_neg (by omega)).trans ((dif_neg (by omega)).trans (dif_pos h)))

theorem outsAt_memMid (c : Dev nD) (t : Fin cfg0.N) (h : 9 ≤ t.val % 16 ∧ t.val % 16 ≤ 14) :
    outsAt m c t.val t.isLt = stepMemMid m c t h (prevAt m c t) := by
  obtain ⟨n, hn⟩ := t
  dsimp only at h
  cases n with
  | zero => exact absurd h.1 (by simp)
  | succ n => unfold prevAt; rw [if_neg (Nat.succ_ne_zero n)]; exact (dif_neg (by have := h.1; omega)).trans ((dif_neg (by have := h.1; omega)).trans ((dif_neg (by have := h.1; omega)).trans ((dif_neg (by have := h.1; omega)).trans (dif_pos h.2))))

theorem outsAt_memLast (c : Dev nD) (t : Fin cfg0.N) (h : t.val % 16 = 15) :
    outsAt m c t.val t.isLt = stepMemLast m c t h (prevAt m c t) := by
  obtain ⟨n, hn⟩ := t
  dsimp only at h
  cases n with
  | zero => exact absurd h (by simp)
  | succ n => unfold prevAt; rw [if_neg (Nat.succ_ne_zero n)]; exact (dif_neg (by omega)).trans ((dif_neg (by omega)).trans ((dif_neg (by omega)).trans ((dif_neg (by omega)).trans (dif_neg (by omega)))))

/-! From here on the state and the cases' runs are used through the equations and lemmas above only. -/
attribute [irreducible] outsAt atSimFirst atSimMid atSimLast atMemFirst atMemMid atMemLast

end Cert.Kernel.Body

end
-- ==== Proof.KBodyData.lean ====
/-
  The proof data of the fused kernel's region, and what each window's staging buffer holds at a point.

  The proof data follow the state after each point (the seven running statistics and the seven output blocks). Between
  points the four similarity statistics are held at the state's components; the three memory statistics too while the
  memory sweep is under way, and at anything before its first tile, which resets them. Each input window's staging buffer
  holds its block. An output block's staging buffer is left at the state's component where the body stores it and handed
  back as found where it does not; the similarity sweep's four blocks, stored at the seventh inner step and written back
  only at the fifteenth, still hold at every point in between what the seventh step stored.
-/
import proofs.«130741_j67869073212268_2_alg».proof.Proof.KBodyAccum

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The windows at a point: where the outputs are idle and where they are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem idle6 : ∀ t : Fin cfg0.N, t.val % 16 ≠ 7 → cfg0.idle 6 (grid0.coords t) = true := by decide +kernel
theorem live6 : ∀ t : Fin cfg0.N, t.val % 16 = 7 → cfg0.idle 6 (grid0.coords t) = false := by decide +kernel
theorem idle7 : ∀ t : Fin cfg0.N, t.val % 16 ≠ 7 → cfg0.idle 7 (grid0.coords t) = true := by decide +kernel
theorem live7 : ∀ t : Fin cfg0.N, t.val % 16 = 7 → cfg0.idle 7 (grid0.coords t) = false := by decide +kernel
theorem idle8 : ∀ t : Fin cfg0.N, t.val % 16 ≠ 7 → cfg0.idle 8 (grid0.coords t) = true := by decide +kernel
theorem live8 : ∀ t : Fin cfg0.N, t.val % 16 = 7 → cfg0.idle 8 (grid0.coords t) = false := by decide +kernel
theorem idle9 : ∀ t : Fin cfg0.N, t.val % 16 ≠ 7 → cfg0.idle 9 (grid0.coords t) = true := by decide +kernel
theorem live9 : ∀ t : Fin cfg0.N, t.val % 16 = 7 → cfg0.idle 9 (grid0.coords t) = false := by decide +kernel
theorem idle10 : ∀ t : Fin cfg0.N, t.val % 16 ≠ 15 → cfg0.idle 10 (grid0.coords t) = true := by decide +kernel
theorem live10 : ∀ t : Fin cfg0.N, t.val % 16 = 15 → cfg0.idle 10 (grid0.coords t) = false := by decide +kernel
theorem idle11 : ∀ t : Fin cfg0.N, t.val % 16 ≠ 15 → cfg0.idle 11 (grid0.coords t) = true := by decide +kernel
theorem live11 : ∀ t : Fin cfg0.N, t.val % 16 = 15 → cfg0.idle 11 (grid0.coords t) = false := by decide +kernel
theorem idle12 : ∀ t : Fin cfg0.N, t.val % 16 ≠ 15 → cfg0.idle 12 (grid0.coords t) = true := by decide +kernel
theorem live12 : ∀ t : Fin cfg0.N, t.val % 16 = 15 → cfg0.idle 12 (grid0.coords t) = false := by decide +kernel
theorem flushAt6 (t : Fin cfg0.N) (h : t.val % 16 = 15) : (cfg0.win 6).flush t = true := (flush0_6 t).mpr h
theorem noFlush6 (t : Fin cfg0.N) (h : t.val % 16 ≠ 15) : (cfg0.win 6).flush t = false :=
  Bool.eq_false_iff.mpr fun hf => h ((flush0_6 t).mp hf)
theorem noFetch6 : ∀ t : Fin cfg0.N, (cfg0.win 6).fetch t = false := by decide +kernel
theorem flushAt7 (t : Fin cfg0.N) (h : t.val % 16 = 15) : (cfg0.win 7).flush t = true := (flush0_7 t).mpr h
theorem noFlush7 (t : Fin cfg0.N) (h : t.val % 16 ≠ 15) : (cfg0.win 7).flush t = false :=
  Bool.eq_false_iff.mpr fun hf => h ((flush0_7 t).mp hf)
theorem noFetch7 : ∀ t : Fin cfg0.N, (cfg0.win 7).fetch t = false := by decide +kernel
theorem flushAt8 (t : Fin cfg0.N) (h : t.val % 16 = 15) : (cfg0.win 8).flush t = true := (flush0_8 t).mpr h
theorem noFlush8 (t : Fin cfg0.N) (h : t.val % 16 ≠ 15) : (cfg0.win 8).flush t = false :=
  Bool.eq_false_iff.mpr fun hf => h ((flush0_8 t).mp hf)
theorem noFetch8 : ∀ t : Fin cfg0.N, (cfg0.win 8).fetch t = false := by decide +kernel
theorem flushAt9 (t : Fin cfg0.N) (h : t.val % 16 = 15) : (cfg0.win 9).flush t = true := (flush0_9 t).mpr h
theorem noFlush9 (t : Fin cfg0.N) (h : t.val % 16 ≠ 15) : (cfg0.win 9).flush t = false :=
  Bool.eq_false_iff.mpr fun hf => h ((flush0_9 t).mp hf)
theorem noFetch9 : ∀ t : Fin cfg0.N, (cfg0.win 9).fetch t = false := by decide +kernel
theorem flushAt10 (t : Fin cfg0.N) (h : t.val % 16 = 15) : (cfg0.win 10).flush t = true := (flush0_10 t).mpr h
theorem noFlush10 (t : Fin cfg0.N) (h : t.val % 16 ≠ 15) : (cfg0.win 10).flush t = false :=
  Bool.eq_false_iff.mpr fun hf => h ((flush0_10 t).mp hf)
theorem noFetch10 : ∀ t : Fin cfg0.N, (cfg0.win 10).fetch t = false := by decide +kernel
theorem flushAt11 (t : Fin cfg0.N) (h : t.val % 16 = 15) : (cfg0.win 11).flush t = true := (flush0_11 t).mpr h
theorem noFlush11 (t : Fin cfg0.N) (h : t.val % 16 ≠ 15) : (cfg0.win 11).flush t = false :=
  Bool.eq_false_iff.mpr fun hf => h ((flush0_11 t).mp hf)
theorem noFetch11 : ∀ t : Fin cfg0.N, (cfg0.win 11).fetch t = false := by decide +kernel
theorem flushAt12 (t : Fin cfg0.N) (h : t.val % 16 = 15) : (cfg0.win 12).flush t = true := (flush0_12 t).mpr h
theorem noFlush12 (t : Fin cfg0.N) (h : t.val % 16 ≠ 15) : (cfg0.win 12).flush t = false :=
  Bool.eq_false_iff.mpr fun hf => h ((flush0_12 t).mp hf)
theorem noFetch12 : ∀ t : Fin cfg0.N, (cfg0.win 12).fetch t = false := by decide +kernel

/-! ## The invariant between points -/

/-- The three memory statistics between points: named while the memory sweep is under way (the point just done has
    inner step at least 8), at anything otherwise (the sweep's first tile resets them before reading them). -/
def memPart (c : Dev nD) (n : ℕ) (hn : n < cfg0.N) : sProp 𝕄 :=
  if 8 ≤ n % 16 then
    iprop(owns (c : Thread nD τ) sc4 fullShare (outsAt m c n hn).s4 ∗ owns (c : Thread nD τ) sc5 fullShare (outsAt m c n hn).s5 ∗ owns (c : Thread nD τ) sc6 fullShare (outsAt m c n hn).s6)
  else
    iprop((∃ d, owns (c : Thread nD τ) sc4 fullShare d) ∗ (∃ d, owns (c : Thread nD τ) sc5 fullShare d) ∗ (∃ d, owns (c : Thread nD τ) sc6 fullShare d))

theorem memPart_pos (c : Dev nD) (n : ℕ) (hn : n < cfg0.N) (h : 8 ≤ n % 16) :
    memPart m c n hn = iprop(owns (c : Thread nD τ) sc4 fullShare (outsAt m c n hn).s4 ∗ owns (c : Thread nD τ) sc5 fullShare (outsAt m c n hn).s5 ∗ owns (c : Thread nD τ) sc6 fullShare (outsAt m c n hn).s6) := by
  unfold memPart; rw [if_pos h]
theorem memPart_neg (c : Dev nD) (n : ℕ) (hn : n < cfg0.N) (h : ¬8 ≤ n % 16) :
    memPart m c n hn = iprop((∃ d, owns (c : Thread nD τ) sc4 fullShare d) ∗ (∃ d, owns (c : Thread nD τ) sc5 fullShare d) ∗ (∃ d, owns (c : Thread nD τ) sc6 fullShare d)) := by
  unfold memPart; rw [if_neg h]

/-- The region's invariant before position `n`: before the first point every scratch at anything; afterwards the four
    similarity statistics at what the point before left, the memory statistics as `memPart` says, and the generator
    register at some state. -/
def PhiS (c : Dev nD) : (n : ℕ) → n ≤ cfg0.N → sProp 𝕄
  | 0, _ => Pipeline.ΦA spec0 c
  | n + 1, hn => iprop(iprop(owns (c : Thread nD τ) sc0 fullShare (outsAt m c n hn).s0 ∗ owns (c : Thread nD τ) sc1 fullShare (outsAt m c n hn).s1 ∗ owns (c : Thread nD τ) sc2 fullShare (outsAt m c n hn).s2 ∗ owns (c : Thread nD τ) sc3 fullShare (outsAt m c n hn).s3 ∗ memPart m c n hn) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) sc0 fullShare (outsAt m c n hn).s0 ∗ owns (c : Thread nD τ) sc1 fullShare (outsAt m c n hn).s1 ∗ owns (c : Thread nD τ) sc2 fullShare (outsAt m c n hn).s2 ∗ owns (c : Thread nD τ) sc3 fullShare (outsAt m c n hn).s3 ∗ memPart m c n hn) ∗ (∃ r, prngReg c r)) := rfl
theorem PhiS_pos (c : Dev nD) (n : ℕ) (h : n ≤ cfg0.N) (hz : n ≠ 0) :
    PhiS m c n h = iprop(iprop(owns (c : Thread nD τ) sc0 fullShare (outsAt m c (n - 1) (by omega)).s0 ∗ owns (c : Thread nD τ) sc1 fullShare (outsAt m c (n - 1) (by omega)).s1 ∗ owns (c : Thread nD τ) sc2 fullShare (outsAt m c (n - 1) (by omega)).s2 ∗ owns (c : Thread nD τ) sc3 fullShare (outsAt m c (n - 1) (by omega)).s3 ∗ memPart m c (n - 1) (by omega)) ∗ (∃ r, prngReg c r)) := by
  cases n with
  | zero => exact absurd rfl hz
  | succ n => rfl

theorem prevAt_pos (c : Dev nD) (t : Fin cfg0.N) (hz : t.val ≠ 0) : prevAt m c t = outsAt m c (t.val - 1) (pred_lt t) := by
  unfold prevAt; rw [if_neg hz]
theorem prevAt_zero (c : Dev nD) (t : Fin cfg0.N) (hz : t.val = 0) : prevAt m c t = (St.unknown : St F) := by
  unfold prevAt; rw [if_pos hz]

/-! ## The pipeline's proof data -/

/-- The proof data on core `c`: the arrays as the region finds them; after the body at point `t` each input's buffer at
    its block and each output's at the state's component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).o0
    | ⟨7, _⟩ => (outsAt m c t.val t.isLt).o1
    | ⟨8, _⟩ => (outsAt m c t.val t.isLt).o2
    | ⟨9, _⟩ => (outsAt m c t.val t.isLt).o3
    | ⟨10, _⟩ => (outsAt m c t.val t.isLt).o4
    | ⟨11, _⟩ => (outsAt m c t.val t.isLt).o5
    | ⟨12, _⟩ => (outsAt m c t.val t.isLt).o6
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).o0 := by dsimp only [dats]
theorem after7 (c : Dev nD) (t : Fin cfg0.N) : (dats m 0 c).after 7 t = (outsAt m c t.val t.isLt).o1 := by dsimp only [dats]
theorem after8 (c : Dev nD) (t : Fin cfg0.N) : (dats m 0 c).after 8 t = (outsAt m c t.val t.isLt).o2 := by dsimp only [dats]
theorem after9 (c : Dev nD) (t : Fin cfg0.N) : (dats m 0 c).after 9 t = (outsAt m c t.val t.isLt).o3 := by dsimp only [dats]
theorem after10 (c : Dev nD) (t : Fin cfg0.N) : (dats m 0 c).after 10 t = (outsAt m c t.val t.isLt).o4 := by dsimp only [dats]
theorem after11 (c : Dev nD) (t : Fin cfg0.N) : (dats m 0 c).after 11 t = (outsAt m c t.val t.isLt).o5 := by dsimp only [dats]
theorem after12 (c : Dev nD) (t : Fin cfg0.N) : (dats m 0 c).after 12 t = (outsAt m c t.val t.isLt).o6 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## An output block of the similarity sweep through the memory sweep

The four similarity statistics are stored to their output blocks at inner step 7, and those blocks are written back
only at inner step 15. In between the body does not touch them, so at every point of the memory sweep the block's
staging buffer still holds what step 7 stored. -/

/-- Through the memory sweep the similarity sweep's output components do not change. -/
theorem o_kept (c : Dev nD) (t : Fin cfg0.N) (h : 8 ≤ t.val % 16) :
    (outsAt m c t.val t.isLt).o0 = (outsAt m c (t.val - 1) (pred_lt t)).o0
    ∧ (outsAt m c t.val t.isLt).o1 = (outsAt m c (t.val - 1) (pred_lt t)).o1
    ∧ (outsAt m c t.val t.isLt).o2 = (outsAt m c (t.val - 1) (pred_lt t)).o2
    ∧ (outsAt m c t.val t.isLt).o3 = (outsAt m c (t.val - 1) (pred_lt t)).o3 := by
  have hz : t.val ≠ 0 := by intro h0; rw [h0] at h; exact absurd h (by simp)
  by_cases h8 : t.val % 16 = 8
  · rw [outsAt_memFirst m c t h8, prevAt_pos m c t hz]
    have k := stepMemFirst_keeps m c t h8 (outsAt m c (t.val - 1) (pred_lt t))
    exact ⟨k.2.2.2.2.1, k.2.2.2.2.2.1, k.2.2.2.2.2.2.1, k.2.2.2.2.2.2.2.1⟩
  · by_cases h15 : t.val % 16 = 15
    · rw [outsAt_memLast m c t h15, prevAt_pos m c t hz]
      have k := stepMemLast_keeps m c t h15 (outsAt m c (t.val - 1) (pred_lt t))
      exact ⟨k.2.2.2.2.1, k.2.2.2.2.2.1, k.2.2.2.2.2.2.1, k.2.2.2.2.2.2.2⟩
    · have h9 : 9 ≤ t.val % 16 ∧ t.val % 16 ≤ 14 := ⟨by omega, by omega⟩
      rw [outsAt_memMid m c t h9, prevAt_pos m c t hz]
      have k := stepMemMid_keeps m c t h9 (outsAt m c (t.val - 1) (pred_lt t))
      exact ⟨k.2.2.2.2.1, k.2.2.2.2.2.1, k.2.2.2.2.2.2.1, k.2.2.2.2.2.2.2.1⟩

/-- Through the memory sweep the similarity statistics themselves do not change either. -/
theorem s_kept (c : Dev nD) (t : Fin cfg0.N) (h : 8 ≤ t.val % 16) :
    (outsAt m c t.val t.isLt).s0 = (outsAt m c (t.val - 1) (pred_lt t)).s0
    ∧ (outsAt m c t.val t.isLt).s1 = (outsAt m c (t.val - 1) (pred_lt t)).s1
    ∧ (outsAt m c t.val t.isLt).s2 = (outsAt m c (t.val - 1) (pred_lt t)).s2
    ∧ (outsAt m c t.val t.isLt).s3 = (outsAt m c (t.val - 1) (pred_lt t)).s3 := by
  have hz : t.val ≠ 0 := by intro h0; rw [h0] at h; exact absurd h (by simp)
  by_cases h8 : t.val % 16 = 8
  · rw [outsAt_memFirst m c t h8, prevAt_pos m c t hz]
    have k := stepMemFirst_keeps m c t h8 (outsAt m c (t.val - 1) (pred_lt t))
    exact ⟨k.1, k.2.1, k.2.2.1, k.2.2.2.1⟩
  · by_cases h15 : t.val % 16 = 15
    · rw [outsAt_memLast m c t h15, prevAt_pos m c t hz]
      have k := stepMemLast_keeps m c t h15 (outsAt m c (t.val - 1) (pred_lt t))
      exact ⟨k.1, k.2.1, k.2.2.1, k.2.2.2.1⟩
    · have h9 : 9 ≤ t.val % 16 ∧ t.val % 16 ≤ 14 := ⟨by omega, by omega⟩
      rw [outsAt_memMid m c t h9, prevAt_pos m c t hz]
      have k := stepMemMid_keeps m c t h9 (outsAt m c (t.val - 1) (pred_lt t))
      exact ⟨k.1, k.2.1, k.2.2.1, k.2.2.2.1⟩

/-- At every point of the memory sweep, output block 0's staging buffer holds what the point before left in the state. -/
theorem held6 (c : Dev nD) : ∀ (n : ℕ) (hn : n < cfg0.N), 8 ≤ n % 16 → ∀ d,
    (dats m 0 c).before 6 ⟨n, hn⟩ d = (outsAt m c (n - 1) (Nat.lt_of_le_of_lt (Nat.sub_le _ _) hn)).o0 := by
  intro n
  induction n with
  | zero => intro hn h; exact absurd h (by simp)
  | succ k ih =>
    intro hn h d
    have hk : k < cfg0.N := Nat.lt_of_succ_lt hn
    rw [(dats m 0 c).before_of_pos 6 ⟨k + 1, hn⟩ (Nat.succ_ne_zero k) (noFetch6 _) d]
    simp only [Nat.add_sub_cancel]
    rw [noFlush6 ⟨k, hk⟩ (by show k % 16 ≠ 15; omega), if_neg Bool.false_ne_true]
    unfold Dat.left
    by_cases h8 : (k + 1) % 16 = 8
    · rw [live6 ⟨k, hk⟩ (by show k % 16 = 7; omega)]
      show (dats m 0 c).kept 6 ⟨k, hk⟩ d = _
      unfold Dat.kept
      rw [Pipeline.fill_of_clip_none 6 _ (fun _ => rfl) d ((dats m 0 c).after 6 ⟨k, hk⟩), Pipeline.Window.fill_cut, after6]
    · rw [idle6 ⟨k, hk⟩ (by show k % 16 ≠ 7; omega)]
      show (dats m 0 c).before 6 ⟨k, hk⟩ d = _
      rw [ih hk (by omega) d]
      exact ((o_kept m c ⟨k, hk⟩ (by show 8 ≤ k % 16; omega)).1).symm

/-- At every point of the memory sweep, output block 1's staging buffer holds what the point before left in the state. -/
theorem held7 (c : Dev nD) : ∀ (n : ℕ) (hn : n < cfg0.N), 8 ≤ n % 16 → ∀ d,
    (dats m 0 c).before 7 ⟨n, hn⟩ d = (outsAt m c (n - 1) (Nat.lt_of_le_of_lt (Nat.sub_le _ _) hn)).o1 := by
  intro n
  induction n with
  | zero => intro hn h; exact absurd h (by simp)
  | succ k ih =>
    intro hn h d
    have hk : k < cfg0.N := Nat.lt_of_succ_lt hn
    rw [(dats m 0 c).before_of_pos 7 ⟨k + 1, hn⟩ (Nat.succ_ne_zero k) (noFetch7 _) d]
    simp only [Nat.add_sub_cancel]
    rw [noFlush7 ⟨k, hk⟩ (by show k % 16 ≠ 15; omega), if_neg Bool.false_ne_true]
    unfold Dat.left
    by_cases h8 : (k + 1) % 16 = 8
    · rw [live7 ⟨k, hk⟩ (by show k % 16 = 7; omega)]
      show (dats m 0 c).kept 7 ⟨k, hk⟩ d = _
      unfold Dat.kept
      rw [Pipeline.fill_of_clip_none 7 _ (fun _ => rfl) d ((dats m 0 c).after 7 ⟨k, hk⟩), Pipeline.Window.fill_cut, after7]
    · rw [idle7 ⟨k, hk⟩ (by show k % 16 ≠ 7; omega)]
      show (dats m 0 c).before 7 ⟨k, hk⟩ d = _
      rw [ih hk (by omega) d]
      exact ((o_kept m c ⟨k, hk⟩ (by show 8 ≤ k % 16; omega)).2.1).symm

/-- At every point of the memory sweep, output block 2's staging buffer holds what the point before left in the state. -/
theorem held8 (c : Dev nD) : ∀ (n : ℕ) (hn : n < cfg0.N), 8 ≤ n % 16 → ∀ d,
    (dats m 0 c).before 8 ⟨n, hn⟩ d = (outsAt m c (n - 1) (Nat.lt_of_le_of_lt (Nat.sub_le _ _) hn)).o2 := by
  intro n
  induction n with
  | zero => intro hn h; exact absurd h (by simp)
  | succ k ih =>
    intro hn h d
    have hk : k < cfg0.N := Nat.lt_of_succ_lt hn
    rw [(dats m 0 c).before_of_pos 8 ⟨k + 1, hn⟩ (Nat.succ_ne_zero k) (noFetch8 _) d]
    simp only [Nat.add_sub_cancel]
    rw [noFlush8 ⟨k, hk⟩ (by show k % 16 ≠ 15; omega), if_neg Bool.false_ne_true]
    unfold Dat.left
    by_cases h8 : (k + 1) % 16 = 8
    · rw [live8 ⟨k, hk⟩ (by show k % 16 = 7; omega)]
      show (dats m 0 c).kept 8 ⟨k, hk⟩ d = _
      unfold Dat.kept
      rw [Pipeline.fill_of_clip_none 8 _ (fun _ => rfl) d ((dats m 0 c).after 8 ⟨k, hk⟩), Pipeline.Window.fill_cut, after8]
    · rw [idle8 ⟨k, hk⟩ (by show k % 16 ≠ 7; omega)]
      show (dats m 0 c).before 8 ⟨k, hk⟩ d = _
      rw [ih hk (by omega) d]
      exact ((o_kept m c ⟨k, hk⟩ (by show 8 ≤ k % 16; omega)).2.2.1).symm

/-- At every point of the memory sweep, output block 3's staging buffer holds what the point before left in the state. -/
theorem held9 (c : Dev nD) : ∀ (n : ℕ) (hn : n < cfg0.N), 8 ≤ n % 16 → ∀ d,
    (dats m 0 c).before 9 ⟨n, hn⟩ d = (outsAt m c (n - 1) (Nat.lt_of_le_of_lt (Nat.sub_le _ _) hn)).o3 := by
  intro n
  induction n with
  | zero => intro hn h; exact absurd h (by simp)
  | succ k ih =>
    intro hn h d
    have hk : k < cfg0.N := Nat.lt_of_succ_lt hn
    rw [(dats m 0 c).before_of_pos 9 ⟨k + 1, hn⟩ (Nat.succ_ne_zero k) (noFetch9 _) d]
    simp only [Nat.add_sub_cancel]
    rw [noFlush9 ⟨k, hk⟩ (by show k % 16 ≠ 15; omega), if_neg Bool.false_ne_true]
    unfold Dat.left
    by_cases h8 : (k + 1) % 16 = 8
    · rw [live9 ⟨k, hk⟩ (by show k % 16 = 7; omega)]
      show (dats m 0 c).kept 9 ⟨k, hk⟩ d = _
      unfold Dat.kept
      rw [Pipeline.fill_of_clip_none 9 _ (fun _ => rfl) d ((dats m 0 c).after 9 ⟨k, hk⟩), Pipeline.Window.fill_cut, after9]
    · rw [idle9 ⟨k, hk⟩ (by show k % 16 ≠ 7; omega)]
      show (dats m 0 c).before 9 ⟨k, hk⟩ d = _
      rw [ih hk (by omega) d]
      exact ((o_kept m c ⟨k, hk⟩ (by show 8 ≤ k % 16; omega)).2.2.2).symm

/-! ## What the body must leave in each window's buffer, by the window's kind at the point -/

theorem leavesIn0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live0 t], after0]
theorem leavesIn1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live1 t], after1]
theorem leavesIn2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live2 t], after2]
theorem leavesIn3 (c : Dev nD) (t : Fin cfg0.N) :
    (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [live3 t], after3]
theorem leavesIn4 (c : Dev nD) (t : Fin cfg0.N) :
    (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [live4 t], after4]
theorem leavesIn5 (c : Dev nD) (t : Fin cfg0.N) :
    (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [live5 t], after5]
theorem leavesIdle6 (c : Dev nD) (t : Fin cfg0.N) (hi : cfg0.idle 6 (grid0.coords t) = true) (hf : (cfg0.win 6).flush t = false) :
    (dats m 0 c).leavesExact 6 t = iprop(∃ d, owns (c : Thread nD τ) (ms6 t) fullShare ((dats m 0 c).before 6 t d)) :=
  Dat.leavesExact_idle (dats m 0 c) 6 t hi hf
theorem leavesLive6 (c : Dev nD) (t : Fin cfg0.N) (hl : cfg0.idle 6 (grid0.coords t) = false) :
    (dats m 0 c).leavesExact 6 t = owns (c : Thread nD τ) (ms6 t) fullShare (outsAt m c t.val t.isLt).o0 := by
  rw [show (dats m 0 c).leavesExact 6 t = owns (c : Thread nD τ) (ms6 t) fullShare ((dats m 0 c).after 6 t) from by
    unfold Dat.leavesExact; rw [hl], after6]
theorem leavesIdle7 (c : Dev nD) (t : Fin cfg0.N) (hi : cfg0.idle 7 (grid0.coords t) = true) (hf : (cfg0.win 7).flush t = false) :
    (dats m 0 c).leavesExact 7 t = iprop(∃ d, owns (c : Thread nD τ) (ms7 t) fullShare ((dats m 0 c).before 7 t d)) :=
  Dat.leavesExact_idle (dats m 0 c) 7 t hi hf
theorem leavesLive7 (c : Dev nD) (t : Fin cfg0.N) (hl : cfg0.idle 7 (grid0.coords t) = false) :
    (dats m 0 c).leavesExact 7 t = owns (c : Thread nD τ) (ms7 t) fullShare (outsAt m c t.val t.isLt).o1 := by
  rw [show (dats m 0 c).leavesExact 7 t = owns (c : Thread nD τ) (ms7 t) fullShare ((dats m 0 c).after 7 t) from by
    unfold Dat.leavesExact; rw [hl], after7]
theorem leavesIdle8 (c : Dev nD) (t : Fin cfg0.N) (hi : cfg0.idle 8 (grid0.coords t) = true) (hf : (cfg0.win 8).flush t = false) :
    (dats m 0 c).leavesExact 8 t = iprop(∃ d, owns (c : Thread nD τ) (ms8 t) fullShare ((dats m 0 c).before 8 t d)) :=
  Dat.leavesExact_idle (dats m 0 c) 8 t hi hf
theorem leavesLive8 (c : Dev nD) (t : Fin cfg0.N) (hl : cfg0.idle 8 (grid0.coords t) = false) :
    (dats m 0 c).leavesExact 8 t = owns (c : Thread nD τ) (ms8 t) fullShare (outsAt m c t.val t.isLt).o2 := by
  rw [show (dats m 0 c).leavesExact 8 t = owns (c : Thread nD τ) (ms8 t) fullShare ((dats m 0 c).after 8 t) from by
    unfold Dat.leavesExact; rw [hl], after8]
theorem leavesIdle9 (c : Dev nD) (t : Fin cfg0.N) (hi : cfg0.idle 9 (grid0.coords t) = true) (hf : (cfg0.win 9).flush t = false) :
    (dats m 0 c).leavesExact 9 t = iprop(∃ d, owns (c : Thread nD τ) (ms9 t) fullShare ((dats m 0 c).before 9 t d)) :=
  Dat.leavesExact_idle (dats m 0 c) 9 t hi hf
theorem leavesLive9 (c : Dev nD) (t : Fin cfg0.N) (hl : cfg0.idle 9 (grid0.coords t) = false) :
    (dats m 0 c).leavesExact 9 t = owns (c : Thread nD τ) (ms9 t) fullShare (outsAt m c t.val t.isLt).o3 := by
  rw [show (dats m 0 c).leavesExact 9 t = owns (c : Thread nD τ) (ms9 t) fullShare ((dats m 0 c).after 9 t) from by
    unfold Dat.leavesExact; rw [hl], after9]
theorem leavesIdle10 (c : Dev nD) (t : Fin cfg0.N) (hi : cfg0.idle 10 (grid0.coords t) = true) (hf : (cfg0.win 10).flush t = false) :
    (dats m 0 c).leavesExact 10 t = iprop(∃ d, owns (c : Thread nD τ) (ms10 t) fullShare ((dats m 0 c).before 10 t d)) :=
  Dat.leavesExact_idle (dats m 0 c) 10 t hi hf
theorem leavesLive10 (c : Dev nD) (t : Fin cfg0.N) (hl : cfg0.idle 10 (grid0.coords t) = false) :
    (dats m 0 c).leavesExact 10 t = owns (c : Thread nD τ) (ms10 t) fullShare (outsAt m c t.val t.isLt).o4 := by
  rw [show (dats m 0 c).leavesExact 10 t = owns (c : Thread nD τ) (ms10 t) fullShare ((dats m 0 c).after 10 t) from by
    unfold Dat.leavesExact; rw [hl], after10]
theorem leavesIdle11 (c : Dev nD) (t : Fin cfg0.N) (hi : cfg0.idle 11 (grid0.coords t) = true) (hf : (cfg0.win 11).flush t = false) :
    (dats m 0 c).leavesExact 11 t = iprop(∃ d, owns (c : Thread nD τ) (ms11 t) fullShare ((dats m 0 c).before 11 t d)) :=
  Dat.leavesExact_idle (dats m 0 c) 11 t hi hf
theorem leavesLive11 (c : Dev nD) (t : Fin cfg0.N) (hl : cfg0.idle 11 (grid0.coords t) = false) :
    (dats m 0 c).leavesExact 11 t = owns (c : Thread nD τ) (ms11 t) fullShare (outsAt m c t.val t.isLt).o5 := by
  rw [show (dats m 0 c).leavesExact 11 t = owns (c : Thread nD τ) (ms11 t) fullShare ((dats m 0 c).after 11 t) from by
    unfold Dat.leavesExact; rw [hl], after11]
theorem leavesIdle12 (c : Dev nD) (t : Fin cfg0.N) (hi : cfg0.idle 12 (grid0.coords t) = true) (hf : (cfg0.win 12).flush t = false) :
    (dats m 0 c).leavesExact 12 t = iprop(∃ d, owns (c : Thread nD τ) (ms12 t) fullShare ((dats m 0 c).before 12 t d)) :=
  Dat.leavesExact_idle (dats m 0 c) 12 t hi hf
theorem leavesLive12 (c : Dev nD) (t : Fin cfg0.N) (hl : cfg0.idle 12 (grid0.coords t) = false) :
    (dats m 0 c).leavesExact 12 t = owns (c : Thread nD τ) (ms12 t) fullShare (outsAt m c t.val t.isLt).o6 := by
  rw [show (dats m 0 c).leavesExact 12 t = owns (c : Thread nD τ) (ms12 t) fullShare ((dats m 0 c).after 12 t) from by
    unfold Dat.leavesExact; rw [hl], after12]
theorem leavesBack6 (c : Dev nD) (t : Fin cfg0.N) (hi : cfg0.idle 6 (grid0.coords t) = true) (hf : (cfg0.win 6).flush t = true) :
    (dats m 0 c).leavesExact 6 t = owns (c : Thread nD τ) (ms6 t) fullShare (outsAt m c t.val t.isLt).o0 := by
  rw [show (dats m 0 c).leavesExact 6 t = owns (c : Thread nD τ) (ms6 t) fullShare ((dats m 0 c).after 6 t) from by
    unfold Dat.leavesExact; rw [hi, hf], after6]
theorem heldAt6 (c : Dev nD) (t : Fin cfg0.N) (h : 8 ≤ t.val % 16) (d) :
    (dats m 0 c).before 6 t d = (outsAt m c (t.val - 1) (pred_lt t)).o0 := held6 m c t.val t.isLt h d
theorem leavesBack7 (c : Dev nD) (t : Fin cfg0.N) (hi : cfg0.idle 7 (grid0.coords t) = true) (hf : (cfg0.win 7).flush t = true) :
    (dats m 0 c).leavesExact 7 t = owns (c : Thread nD τ) (ms7 t) fullShare (outsAt m c t.val t.isLt).o1 := by
  rw [show (dats m 0 c).leavesExact 7 t = owns (c : Thread nD τ) (ms7 t) fullShare ((dats m 0 c).after 7 t) from by
    unfold Dat.leavesExact; rw [hi, hf], after7]
theorem heldAt7 (c : Dev nD) (t : Fin cfg0.N) (h : 8 ≤ t.val % 16) (d) :
    (dats m 0 c).before 7 t d = (outsAt m c (t.val - 1) (pred_lt t)).o1 := held7 m c t.val t.isLt h d
theorem leavesBack8 (c : Dev nD) (t : Fin cfg0.N) (hi : cfg0.idle 8 (grid0.coords t) = true) (hf : (cfg0.win 8).flush t = true) :
    (dats m 0 c).leavesExact 8 t = owns (c : Thread nD τ) (ms8 t) fullShare (outsAt m c t.val t.isLt).o2 := by
  rw [show (dats m 0 c).leavesExact 8 t = owns (c : Thread nD τ) (ms8 t) fullShare ((dats m 0 c).after 8 t) from by
    unfold Dat.leavesExact; rw [hi, hf], after8]
theorem heldAt8 (c : Dev nD) (t : Fin cfg0.N) (h : 8 ≤ t.val % 16) (d) :
    (dats m 0 c).before 8 t d = (outsAt m c (t.val - 1) (pred_lt t)).o2 := held8 m c t.val t.isLt h d
theorem leavesBack9 (c : Dev nD) (t : Fin cfg0.N) (hi : cfg0.idle 9 (grid0.coords t) = true) (hf : (cfg0.win 9).flush t = true) :
    (dats m 0 c).leavesExact 9 t = owns (c : Thread nD τ) (ms9 t) fullShare (outsAt m c t.val t.isLt).o3 := by
  rw [show (dats m 0 c).leavesExact 9 t = owns (c : Thread nD τ) (ms9 t) fullShare ((dats m 0 c).after 9 t) from by
    unfold Dat.leavesExact; rw [hi, hf], after9]
theorem heldAt9 (c : Dev nD) (t : Fin cfg0.N) (h : 8 ≤ t.val % 16) (d) :
    (dats m 0 c).before 9 t d = (outsAt m c (t.val - 1) (pred_lt t)).o3 := held9 m c t.val t.isLt h d

/-! ## The body obligation, at a generic point -/

/-- What the body is called with at point `t`: the invariant, nothing owed, and every window's current staging buffer
    at what it then holds, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

end Cert.Kernel.Body

end
-- ==== Proof.KBodyPointA0.lean ====
/-
  The body obligation at the very first point: a first similarity tile with nothing known about the scratch.
-/
import proofs.«130741_j67869073212268_2_alg».proof.Proof.KBodyData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At such a point the body, called with the invariant and every window's staging buffer at what it holds, runs to the
    next point's invariant and every buffer at what it must leave. -/
theorem pointA0 (c : Dev nD) (t : Fin cfg0.N) (hj : t.val % 16 = 0) (hz : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5]
  have hlt : t.val < cfg0.N := t.isLt
  have hN : t.val < 128 := lt_of_lt_of_eq t.isLt (show cfg0.N = 128 from N_0)
  rw [leavesIdle6 m c t (idle6 t (by omega)) (noFlush6 t (by omega)), leavesIdle7 m c t (idle7 t (by omega)) (noFlush7 t (by omega)), leavesIdle8 m c t (idle8 t (by omega)) (noFlush8 t (by omega)), leavesIdle9 m c t (idle9 t (by omega)) (noFlush9 t (by omega)), leavesIdle10 m c t (idle10 t (by omega)) (noFlush10 t (by omega)), leavesIdle11 m c t (idle11 t (by omega)) (noFlush11 t (by omega)), leavesIdle12 m c t (idle12 t (by omega)) (noFlush12 t (by omega))]
  rw [memPart_neg m c t.val t.isLt (by omega)]
  rw [outsAt_simFirst m c t hj, prevAt_zero m c t hz]
  unfold stepSimFirst; dsimp only
  rw [PhiS_castSucc m c t, PhiS_zero m c _ _ hz, PhiA_eq]
  iintro ⟨⟨⟨Z0, Z1, Z2, Z3, Z4, Z5, Z6⟩, Hg⟩, Ho, ⟨%d0, I0⟩, ⟨%d1, I1⟩, ⟨%d2, I2⟩, ⟨%d3, I3⟩, ⟨%d4, I4⟩, ⟨%d5, I5⟩, O6, O7, O8, O9, O10, O11, O12⟩
  iapply ((atSimFirst m c t hj).2.2.2.2 Set.univ _)
  isplitl [I0]; · iexact I0
  isplitl [I1]; · iexact I1
  isplitl [I2]; · iexact I2
  isplitl [I3]; · iexact I3
  isplitl [Z0]; · iexact Z0
  isplitl [Z1]; · iexact Z1
  isplitl [Z2]; · iexact Z2
  isplitl [Z3]; · iexact Z3
  iintro ⟨I0, I1, I2, I3, ⟨%eS0, S0⟩, ⟨%eS1, S1⟩, ⟨%eS2, S2⟩, ⟨%eS3, S3⟩⟩
  isplitl [S0 S1 S2 S3 Z4 Z5 Z6 Hg]
  · isplitl [S0 S1 S2 S3 Z4 Z5 Z6]
    · isplitl [S0]
      · unfold owns; iexists _; isplitr
        swap; · iexact S0
        ipureintro; exact View.read_writes_of_cover _ _ _ _ _ (coverSimFirst_s0 m c t hj)
      isplitl [S1]
      · unfold owns; iexists _; isplitr
        swap; · iexact S1
        ipureintro; exact View.read_writes_of_cover _ _ _ _ _ (coverSimFirst_s1 m c t hj)
      isplitl [S2]
      · unfold owns; iexists _; isplitr
        swap; · iexact S2
        ipureintro; exact View.read_writes_of_cover _ _ _ _ _ (coverSimFirst_s2 m c t hj)
      isplitl [S3]
      · unfold owns; iexists _; isplitr
        swap; · iexact S3
        ipureintro; exact View.read_writes_of_cover _ _ _ _ _ (coverSimFirst_s3 m c t hj)
      isplitl [Z4]; · iexact Z4
      isplitl [Z5]; · iexact Z5
      iexact Z6
    iexact Hg
  isplitl [Ho]; · iexact Ho
  isplitl [I0]; · iexact I0
  isplitl [I1]; · iexact I1
  isplitl [I2]; · iexact I2
  isplitl [I3]; · iexact I3
  isplitl [I4]; · iexact I4
  isplitl [I5]; · iexact I5
  isplitl [O6]; · iexact O6
  isplitl [O7]; · iexact O7
  isplitl [O8]; · iexact O8
  isplitl [O9]; · iexact O9
  isplitl [O10]; · iexact O10
  isplitl [O11]; · iexact O11
  iexact O12

end Cert.Kernel.Body

end
-- ==== Proof.KBodyPointA1.lean ====
/-
  The body obligation at the first similarity tile of a later row block: the statistics the previous row block left are overwritten by the reset.
-/
import proofs.«130741_j67869073212268_2_alg».proof.Proof.KBodyData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At such a point the body, called with the invariant and every window's staging buffer at what it holds, runs to the
    next point's invariant and every buffer at what it must leave. -/
theorem pointA1 (c : Dev nD) (t : Fin cfg0.N) (hj : t.val % 16 = 0) (hz : t.val ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5]
  have hlt : t.val < cfg0.N := t.isLt
  have hN : t.val < 128 := lt_of_lt_of_eq t.isLt (show cfg0.N = 128 from N_0)
  rw [leavesIdle6 m c t (idle6 t (by omega)) (noFlush6 t (by omega)), leavesIdle7 m c t (idle7 t (by omega)) (noFlush7 t (by omega)), leavesIdle8 m c t (idle8 t (by omega)) (noFlush8 t (by omega)), leavesIdle9 m c t (idle9 t (by omega)) (noFlush9 t (by omega)), leavesIdle10 m c t (idle10 t (by omega)) (noFlush10 t (by omega)), leavesIdle11 m c t (idle11 t (by omega)) (noFlush11 t (by omega)), leavesIdle12 m c t (idle12 t (by omega)) (noFlush12 t (by omega))]
  rw [memPart_neg m c t.val t.isLt (by omega)]
  rw [outsAt_simFirst m c t hj, prevAt_pos m c t hz]
  unfold stepSimFirst; dsimp only
  rw [PhiS_castSucc m c t, PhiS_pos m c _ _ hz, memPart_pos m c (t.val - 1) (by omega) (by omega)]
  iintro ⟨⟨⟨S0, S1, S2, S3, M4, M5, M6⟩, Hg⟩, Ho, ⟨%d0, I0⟩, ⟨%d1, I1⟩, ⟨%d2, I2⟩, ⟨%d3, I3⟩, ⟨%d4, I4⟩, ⟨%d5, I5⟩, O6, O7, O8, O9, O10, O11, O12⟩
  iapply ((atSimFirst m c t hj).2.2.2.2 Set.univ _)
  isplitl [I0]; · iexact I0
  isplitl [I1]; · iexact I1
  isplitl [I2]; · iexact I2
  isplitl [I3]; · iexact I3
  isplitl [S0]; · iexists _; iexact S0
  isplitl [S1]; · iexists _; iexact S1
  isplitl [S2]; · iexists _; iexact S2
  isplitl [S3]; · iexists _; iexact S3
  iintro ⟨I0, I1, I2, I3, ⟨%eS0, S0⟩, ⟨%eS1, S1⟩, ⟨%eS2, S2⟩, ⟨%eS3, S3⟩⟩
  isplitl [S0 S1 S2 S3 M4 M5 M6 Hg]
  · isplitl [S0 S1 S2 S3 M4 M5 M6]
    · isplitl [S0]
      · unfold owns; iexists _; isplitr
        swap; · iexact S0
        ipureintro; exact View.read_writes_of_cover _ _ _ _ _ (coverSimFirst_s0 m c t hj)
      isplitl [S1]
      · unfold owns; iexists _; isplitr
        swap; · iexact S1
        ipureintro; exact View.read_writes_of_cover _ _ _ _ _ (coverSimFirst_s1 m c t hj)
      isplitl [S2]
      · unfold owns; iexists _; isplitr
        swap; · iexact S2
        ipureintro; exact View.read_writes_of_cover _ _ _ _ _ (coverSimFirst_s2 m c t hj)
      isplitl [S3]
      · unfold owns; iexists _; isplitr
        swap; · iexact S3
        ipureintro; exact View.read_writes_of_cover _ _ _ _ _ (coverSimFirst_s3 m c t hj)
      isplitl [M4]; · iexists _; iexact M4
      isplitl [M5]; · iexists _; iexact M5
      iexists _; iexact M6
    iexact Hg
  isplitl [Ho]; · iexact Ho
  isplitl [I0]; · iexact I0
  isplitl [I1]; · iexact I1
  isplitl [I2]; · iexact I2
  isplitl [I3]; · iexact I3
  isplitl [I4]; · iexact I4
  isplitl [I5]; · iexact I5
  isplitl [O6]; · iexact O6
  isplitl [O7]; · iexact O7
  isplitl [O8]; · iexact O8
  isplitl [O9]; · iexact O9
  isplitl [O10]; · iexact O10
  isplitl [O11]; · iexact O11
  iexact O12

end Cert.Kernel.Body

end
-- ==== Proof.KBodyPointB.lean ====
/-
  The body obligation at a middle similarity tile.
-/
import proofs.«130741_j67869073212268_2_alg».proof.Proof.KBodyData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At such a point the body, called with the invariant and every window's staging buffer at what it holds, runs to the
    next point's invariant and every buffer at what it must leave. -/
theorem pointB (c : Dev nD) (t : Fin cfg0.N) (hj : 1 ≤ t.val % 16 ∧ t.val % 16 ≤ 6) (hz : t.val ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5]
  have hlt : t.val < cfg0.N := t.isLt
  have hN : t.val < 128 := lt_of_lt_of_eq t.isLt (show cfg0.N = 128 from N_0)
  rw [leavesIdle6 m c t (idle6 t (by omega)) (noFlush6 t (by omega)), leavesIdle7 m c t (idle7 t (by omega)) (noFlush7 t (by omega)), leavesIdle8 m c t (idle8 t (by omega)) (noFlush8 t (by omega)), leavesIdle9 m c t (idle9 t (by omega)) (noFlush9 t (by omega)), leavesIdle10 m c t (idle10 t (by omega)) (noFlush10 t (by omega)), leavesIdle11 m c t (idle11 t (by omega)) (noFlush11 t (by omega)), leavesIdle12 m c t (idle12 t (by omega)) (noFlush12 t (by omega))]
  rw [memPart_neg m c t.val t.isLt (by omega)]
  rw [outsAt_simMid m c t hj, prevAt_pos m c t hz]
  unfold stepSimMid; dsimp only
  rw [PhiS_castSucc m c t, PhiS_pos m c _ _ hz, memPart_neg m c (t.val - 1) (by omega) (by omega)]
  iintro ⟨⟨⟨S0, S1, S2, S3, Z4, Z5, Z6⟩, Hg⟩, Ho, ⟨%d0, I0⟩, ⟨%d1, I1⟩, ⟨%d2, I2⟩, ⟨%d3, I3⟩, ⟨%d4, I4⟩, ⟨%d5, I5⟩, O6, O7, O8, O9, O10, O11, O12⟩
  iapply ((atSimMid m c t hj (outsAt m c (t.val - 1) (pred_lt t))).2.2.2.2 Set.univ _)
  isplitl [I0]; · iexact I0
  isplitl [I1]; · iexact I1
  isplitl [I2]; · iexact I2
  isplitl [I3]; · iexact I3
  isplitl [S0]; · iexact S0
  isplitl [S1]; · iexact S1
  isplitl [S2]; · iexact S2
  isplitl [S3]; · iexact S3
  iintro ⟨I0, I1, I2, I3, ⟨%eS0, S0⟩, ⟨%eS1, S1⟩, ⟨%eS2, S2⟩, ⟨%eS3, S3⟩⟩
  isplitl [S0 S1 S2 S3 Z4 Z5 Z6 Hg]
  · isplitl [S0 S1 S2 S3 Z4 Z5 Z6]
    · isplitl [S0]
      · unfold owns; iexists _; isplitr
        swap; · iexact S0
        ipureintro; exact View.read_writes_of_cover _ _ _ _ _ (coverSimMid_s0 m c t hj _)
      isplitl [S1]
      · unfold owns; iexists _; isplitr
        swap; · iexact S1
        ipureintro; exact View.read_writes_of_cover _ _ _ _ _ (coverSimMid_s1 m c t hj _)
      isplitl [S2]
      · unfold owns; iexists _; isplitr
        swap; · iexact S2
        ipureintro; exact View.read_writes_of_cover _ _ _ _ _ (coverSimMid_s2 m c t hj _)
      isplitl [S3]
      · unfold owns; iexists _; isplitr
        swap; · iexact S3
        ipureintro; exact View.read_writes_of_cover _ _ _ _ _ (coverSimMid_s3 m c t hj _)
      isplitl [Z4]; · iexact Z4
      isplitl [Z5]; · iexact Z5
      iexact Z6
    iexact Hg
  isplitl [Ho]; · iexact Ho
  isplitl [I0]; · iexact I0
  isplitl [I1]; · iexact I1
  isplitl [I2]; · iexact I2
  isplitl [I3]; · iexact I3
  isplitl [I4]; · iexact I4
  isplitl [I5]; · iexact I5
  isplitl [O6]; · iexact O6
  isplitl [O7]; · iexact O7
  isplitl [O8]; · iexact O8
  isplitl [O9]; · iexact O9
  isplitl [O10]; · iexact O10
  isplitl [O11]; · iexact O11
  iexact O12

end Cert.Kernel.Body

end
-- ==== Proof.KBodyPointC.lean ====
/-
  The body obligation at the last similarity tile, which also stores the four similarity output blocks.
-/
import proofs.«130741_j67869073212268_2_alg».proof.Proof.KBodyData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At such a point the body, called with the invariant and every window's staging buffer at what it holds, runs to the
    next point's invariant and every buffer at what it must leave. -/
theorem pointC (c : Dev nD) (t : Fin cfg0.N) (hj : t.val % 16 = 7) (hz : t.val ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5]
  have hlt : t.val < cfg0.N := t.isLt
  have hN : t.val < 128 := lt_of_lt_of_eq t.isLt (show cfg0.N = 128 from N_0)
  rw [leavesIdle10 m c t (idle10 t (by omega)) (noFlush10 t (by omega)), leavesIdle11 m c t (idle11 t (by omega)) (noFlush11 t (by omega)), leavesIdle12 m c t (idle12 t (by omega)) (noFlush12 t (by omega))]
  rw [leavesLive6 m c t (live6 t (by omega)), leavesLive7 m c t (live7 t (by omega)), leavesLive8 m c t (live8 t (by omega)), leavesLive9 m c t (live9 t (by omega))]
  rw [memPart_neg m c t.val t.isLt (by omega)]
  rw [outsAt_simLast m c t hj, prevAt_pos m c t hz]
  have e_s0 : (stepSimLast m c t hj (outsAt m c (t.val - 1) (pred_lt t))).s0 = rd (atSimLast m c t hj (outsAt m c (t.val - 1) (pred_lt t))).1 := rfl
  have e_s1 : (stepSimLast m c t hj (outsAt m c (t.val - 1) (pred_lt t))).s1 = rd (atSimLast m c t hj (outsAt m c (t.val - 1) (pred_lt t))).2.1 := rfl
  have e_s2 : (stepSimLast m c t hj (outsAt m c (t.val - 1) (pred_lt t))).s2 = rd (atSimLast m c t hj (outsAt m c (t.val - 1) (pred_lt t))).2.2.1 := rfl
  have e_s3 : (stepSimLast m c t hj (outsAt m c (t.val - 1) (pred_lt t))).s3 = rd (atSimLast m c t hj (outsAt m c (t.val - 1) (pred_lt t))).2.2.2.1 := rfl
  have e_o0 : (stepSimLast m c t hj (outsAt m c (t.val - 1) (pred_lt t))).o0 = rd (atSimLast m c t hj (outsAt m c (t.val - 1) (pred_lt t))).2.2.2.2.1 := rfl
  have e_o1 : (stepSimLast m c t hj (outsAt m c (t.val - 1) (pred_lt t))).o1 = rd (atSimLast m c t hj (outsAt m c (t.val - 1) (pred_lt t))).2.2.2.2.2.1 := rfl
  have e_o2 : (stepSimLast m c t hj (outsAt m c (t.val - 1) (pred_lt t))).o2 = rd (atSimLast m c t hj (outsAt m c (t.val - 1) (pred_lt t))).2.2.2.2.2.2.1 := rfl
  have e_o3 : (stepSimLast m c t hj (outsAt m c (t.val - 1) (pred_lt t))).o3 = rd (atSimLast m c t hj (outsAt m c (t.val - 1) (pred_lt t))).2.2.2.2.2.2.2.1 := rfl
  rw [PhiS_castSucc m c t, PhiS_pos m c _ _ hz, memPart_neg m c (t.val - 1) (by omega) (by omega)]
  iintro ⟨⟨⟨S0, S1, S2, S3, Z4, Z5, Z6⟩, Hg⟩, Ho, ⟨%d0, I0⟩, ⟨%d1, I1⟩, ⟨%d2, I2⟩, ⟨%d3, I3⟩, ⟨%d4, I4⟩, ⟨%d5, I5⟩, ⟨%u6, O6⟩, ⟨%u7, O7⟩, ⟨%u8, O8⟩, ⟨%u9, O9⟩, O10, O11, O12⟩
  iapply ((atSimLast m c t hj (outsAt m c (t.val - 1) (pred_lt t))).2.2.2.2.2.2.2.2 Set.univ _)
  isplitl [I0]; · iexact I0
  isplitl [I1]; · iexact I1
  isplitl [I2]; · iexact I2
  isplitl [I3]; · iexact I3
  isplitl [S0]; · iexact S0
  isplitl [S1]; · iexact S1
  isplitl [S2]; · iexact S2
  isplitl [S3]; · iexact S3
  isplitl [O6]; · iexists _; iexact O6
  isplitl [O7]; · iexists _; iexact O7
  isplitl [O8]; · iexists _; iexact O8
  isplitl [O9]; · iexists _; iexact O9
  iintro ⟨I0, I1, I2, I3, ⟨%eS0, S0⟩, ⟨%eS1, S1⟩, ⟨%eS2, S2⟩, ⟨%eS3, S3⟩, ⟨%eO6, O6⟩, ⟨%eO7, O7⟩, ⟨%eO8, O8⟩, ⟨%eO9, O9⟩⟩
  isplitl [S0 S1 S2 S3 Z4 Z5 Z6 Hg]
  · isplitl [S0 S1 S2 S3 Z4 Z5 Z6]
    · isplitl [S0]
      · unfold owns; iexists _; isplitr
        swap; · iexact S0
        ipureintro; exact (View.read_writes_of_cover _ _ _ _ _ (coverSimLast_s0 m c t hj _)).trans e_s0.symm
      isplitl [S1]
      · unfold owns; iexists _; isplitr
        swap; · iexact S1
        ipureintro; exact (View.read_writes_of_cover _ _ _ _ _ (coverSimLast_s1 m c t hj _)).trans e_s1.symm
      isplitl [S2]
      · unfold owns; iexists _; isplitr
        swap; · iexact S2
        ipureintro; exact (View.read_writes_of_cover _ _ _ _ _ (coverSimLast_s2 m c t hj _)).trans e_s2.symm
      isplitl [S3]
      · unfold owns; iexists _; isplitr
        swap; · iexact S3
        ipureintro; exact (View.read_writes_of_cover _ _ _ _ _ (coverSimLast_s3 m c t hj _)).trans e_s3.symm
      isplitl [Z4]; · iexact Z4
      isplitl [Z5]; · iexact Z5
      iexact Z6
    iexact Hg
  isplitl [Ho]; · iexact Ho
  isplitl [I0]; · iexact I0
  isplitl [I1]; · iexact I1
  isplitl [I2]; · iexact I2
  isplitl [I3]; · iexact I3
  isplitl [I4]; · iexact I4
  isplitl [I5]; · iexact I5
  isplitl [O6]
  · unfold owns; iexists _; isplitr
    swap; · iexact O6
    ipureintro; exact (View.read_writes_of_cover _ _ _ _ _ (coverSimLast_o0 m c t hj _)).trans e_o0.symm
  isplitl [O7]
  · unfold owns; iexists _; isplitr
    swap; · iexact O7
    ipureintro; exact (View.read_writes_of_cover _ _ _ _ _ (coverSimLast_o1 m c t hj _)).trans e_o1.symm
  isplitl [O8]
  · unfold owns; iexists _; isplitr
    swap; · iexact O8
    ipureintro; exact (View.read_writes_of_cover _ _ _ _ _ (coverSimLast_o2 m c t hj _)).trans e_o2.symm
  isplitl [O9]
  · unfold owns; iexists _; isplitr
    swap; · iexact O9
    ipureintro; exact (View.read_writes_of_cover _ _ _ _ _ (coverSimLast_o3 m c t hj _)).trans e_o3.symm
  isplitl [O10]; · iexact O10
  isplitl [O11]; · iexact O11
  iexact O12

end Cert.Kernel.Body

end
-- ==== Proof.KBodyPointD.lean ====
/-
  The body obligation at the first memory tile, which resets the three memory statistics.
-/
import proofs.«130741_j67869073212268_2_alg».proof.Proof.KBodyData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At such a point the body, called with the invariant and every window's staging buffer at what it holds, runs to the
    next point's invariant and every buffer at what it must leave. -/
theorem pointD (c : Dev nD) (t : Fin cfg0.N) (hj : t.val % 16 = 8) (hz : t.val ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5]
  have hlt : t.val < cfg0.N := t.isLt
  have hN : t.val < 128 := lt_of_lt_of_eq t.isLt (show cfg0.N = 128 from N_0)
  rw [leavesIdle6 m c t (idle6 t (by omega)) (noFlush6 t (by omega)), leavesIdle7 m c t (idle7 t (by omega)) (noFlush7 t (by omega)), leavesIdle8 m c t (idle8 t (by omega)) (noFlush8 t (by omega)), leavesIdle9 m c t (idle9 t (by omega)) (noFlush9 t (by omega)), leavesIdle10 m c t (idle10 t (by omega)) (noFlush10 t (by omega)), leavesIdle11 m c t (idle11 t (by omega)) (noFlush11 t (by omega)), leavesIdle12 m c t (idle12 t (by omega)) (noFlush12 t (by omega))]
  rw [memPart_pos m c t.val t.isLt (by omega)]
  rw [outsAt_memFirst m c t hj, prevAt_pos m c t hz]
  unfold stepMemFirst; dsimp only
  rw [PhiS_castSucc m c t, PhiS_pos m c _ _ hz, memPart_neg m c (t.val - 1) (by omega) (by omega)]
  iintro ⟨⟨⟨S0, S1, S2, S3, Z4, Z5, Z6⟩, Hg⟩, Ho, ⟨%d0, I0⟩, ⟨%d1, I1⟩, ⟨%d2, I2⟩, ⟨%d3, I3⟩, ⟨%d4, I4⟩, ⟨%d5, I5⟩, O6, O7, O8, O9, O10, O11, O12⟩
  iapply ((atMemFirst m c t hj).2.2.2 Set.univ _)
  isplitl [I4]; · iexact I4
  isplitl [I5]; · iexact I5
  isplitl [Z4]; · iexact Z4
  isplitl [Z5]; · iexact Z5
  isplitl [Z6]; · iexact Z6
  iintro ⟨I4, I5, ⟨%eM4, M4⟩, ⟨%eM5, M5⟩, ⟨%eM6, M6⟩⟩
  isplitl [S0 S1 S2 S3 M4 M5 M6 Hg]
  · isplitl [S0 S1 S2 S3 M4 M5 M6]
    · isplitl [S0]; · iexact S0
      isplitl [S1]; · iexact S1
      isplitl [S2]; · iexact S2
      isplitl [S3]; · iexact S3
      isplitl [M4]
      · unfold owns; iexists _; isplitr
        swap; · iexact M4
        ipureintro; exact View.read_writes_of_cover _ _ _ _ _ (coverMemFirst_s4 m c t hj)
      isplitl [M5]
      · unfold owns; iexists _; isplitr
        swap; · iexact M5
        ipureintro; exact View.read_writes_of_cover _ _ _ _ _ (coverMemFirst_s5 m c t hj)
      unfold owns; iexists _; isplitr
      swap; · iexact M6
      ipureintro; exact View.read_writes_of_cover _ _ _ _ _ (coverMemFirst_s6 m c t hj)
    iexact Hg
  isplitl [Ho]; · iexact Ho
  isplitl [I0]; · iexact I0
  isplitl [I1]; · iexact I1
  isplitl [I2]; · iexact I2
  isplitl [I3]; · iexact I3
  isplitl [I4]; · iexact I4
  isplitl [I5]; · iexact I5
  isplitl [O6]; · iexact O6
  isplitl [O7]; · iexact O7
  isplitl [O8]; · iexact O8
  isplitl [O9]; · iexact O9
  isplitl [O10]; · iexact O10
  isplitl [O11]; · iexact O11
  iexact O12

end Cert.Kernel.Body

end
-- ==== Proof.KBodyPointE.lean ====
/-
  The body obligation at a middle memory tile.
-/
import proofs.«130741_j67869073212268_2_alg».proof.Proof.KBodyData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At such a point the body, called with the invariant and every window's staging buffer at what it holds, runs to the
    next point's invariant and every buffer at what it must leave. -/
theorem pointE (c : Dev nD) (t : Fin cfg0.N) (hj : 9 ≤ t.val % 16 ∧ t.val % 16 ≤ 14) (hz : t.val ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5]
  have hlt : t.val < cfg0.N := t.isLt
  have hN : t.val < 128 := lt_of_lt_of_eq t.isLt (show cfg0.N = 128 from N_0)
  rw [leavesIdle6 m c t (idle6 t (by omega)) (noFlush6 t (by omega)), leavesIdle7 m c t (idle7 t (by omega)) (noFlush7 t (by omega)), leavesIdle8 m c t (idle8 t (by omega)) (noFlush8 t (by omega)), leavesIdle9 m c t (idle9 t (by omega)) (noFlush9 t (by omega)), leavesIdle10 m c t (idle10 t (by omega)) (noFlush10 t (by omega)), leavesIdle11 m c t (idle11 t (by omega)) (noFlush11 t (by omega)), leavesIdle12 m c t (idle12 t (by omega)) (noFlush12 t (by omega))]
  rw [memPart_pos m c t.val t.isLt (by omega)]
  rw [outsAt_memMid m c t hj, prevAt_pos m c t hz]
  unfold stepMemMid; dsimp only
  rw [PhiS_castSucc m c t, PhiS_pos m c _ _ hz, memPart_pos m c (t.val - 1) (by omega) (by omega)]
  iintro ⟨⟨⟨S0, S1, S2, S3, M4, M5, M6⟩, Hg⟩, Ho, ⟨%d0, I0⟩, ⟨%d1, I1⟩, ⟨%d2, I2⟩, ⟨%d3, I3⟩, ⟨%d4, I4⟩, ⟨%d5, I5⟩, O6, O7, O8, O9, O10, O11, O12⟩
  iapply ((atMemMid m c t hj (outsAt m c (t.val - 1) (pred_lt t))).2.2.2 Set.univ _)
  isplitl [I4]; · iexact I4
  isplitl [I5]; · iexact I5
  isplitl [M4]; · iexact M4
  isplitl [M5]; · iexact M5
  isplitl [M6]; · iexact M6
  iintro ⟨I4, I5, ⟨%eM4, M4⟩, ⟨%eM5, M5⟩, ⟨%eM6, M6⟩⟩
  isplitl [S0 S1 S2 S3 M4 M5 M6 Hg]
  · isplitl [S0 S1 S2 S3 M4 M5 M6]
    · isplitl [S0]; · iexact S0
      isplitl [S1]; · iexact S1
      isplitl [S2]; · iexact S2
      isplitl [S3]; · iexact S3
      isplitl [M4]
      · unfold owns; iexists _; isplitr
        swap; · iexact M4
        ipureintro; exact View.read_writes_of_cover _ _ _ _ _ (coverMemMid_s4 m c t hj _)
      isplitl [M5]
      · unfold owns; iexists _; isplitr
        swap; · iexact M5
        ipureintro; exact View.read_writes_of_cover _ _ _ _ _ (coverMemMid_s5 m c t hj _)
      unfold owns; iexists _; isplitr
      swap; · iexact M6
      ipureintro; exact View.read_writes_of_cover _ _ _ _ _ (coverMemMid_s6 m c t hj _)
    iexact Hg
  isplitl [Ho]; · iexact Ho
  isplitl [I0]; · iexact I0
  isplitl [I1]; · iexact I1
  isplitl [I2]; · iexact I2
  isplitl [I3]; · iexact I3
  isplitl [I4]; · iexact I4
  isplitl [I5]; · iexact I5
  isplitl [O6]; · iexact O6
  isplitl [O7]; · iexact O7
  isplitl [O8]; · iexact O8
  isplitl [O9]; · iexact O9
  isplitl [O10]; · iexact O10
  isplitl [O11]; · iexact O11
  iexact O12

end Cert.Kernel.Body

end
-- ==== Proof.KBodyPointG.lean ====
/-
  The body obligation at the last memory tile, which stores the three memory output blocks and hands the four similarity blocks to the write-back as the seventh step left them.
-/
import proofs.«130741_j67869073212268_2_alg».proof.Proof.KBodyData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At such a point the body, called with the invariant and every window's staging buffer at what it holds, runs to the
    next point's invariant and every buffer at what it must leave. -/
theorem pointG (c : Dev nD) (t : Fin cfg0.N) (hj : t.val % 16 = 15) (hz : t.val ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5]
  have hlt : t.val < cfg0.N := t.isLt
  have hN : t.val < 128 := lt_of_lt_of_eq t.isLt (show cfg0.N = 128 from N_0)
  rw [leavesLive10 m c t (live10 t (by omega)), leavesLive11 m c t (live11 t (by omega)), leavesLive12 m c t (live12 t (by omega))]
  rw [leavesBack6 m c t (idle6 t (by omega)) (flushAt6 t (by omega)), leavesBack7 m c t (idle7 t (by omega)) (flushAt7 t (by omega)), leavesBack8 m c t (idle8 t (by omega)) (flushAt8 t (by omega)), leavesBack9 m c t (idle9 t (by omega)) (flushAt9 t (by omega))]
  rw [memPart_pos m c t.val t.isLt (by omega)]
  rw [outsAt_memLast m c t hj, prevAt_pos m c t hz]
  unfold stepMemLast; dsimp only
  rw [PhiS_castSucc m c t, PhiS_pos m c _ _ hz, memPart_pos m c (t.val - 1) (by omega) (by omega)]
  simp only [heldAt6 m c t (by omega), heldAt7 m c t (by omega), heldAt8 m c t (by omega), heldAt9 m c t (by omega)]
  iintro ⟨⟨⟨S0, S1, S2, S3, M4, M5, M6⟩, Hg⟩, Ho, ⟨%d0, I0⟩, ⟨%d1, I1⟩, ⟨%d2, I2⟩, ⟨%d3, I3⟩, ⟨%d4, I4⟩, ⟨%d5, I5⟩, ⟨%u6, O6⟩, ⟨%u7, O7⟩, ⟨%u8, O8⟩, ⟨%u9, O9⟩, ⟨%u10, O10⟩, ⟨%u11, O11⟩, ⟨%u12, O12⟩⟩
  iapply ((atMemLast m c t hj (outsAt m c (t.val - 1) (pred_lt t))).2.2.2.2.2.2 Set.univ _)
  isplitl [I4]; · iexact I4
  isplitl [I5]; · iexact I5
  isplitl [M4]; · iexact M4
  isplitl [M5]; · iexact M5
  isplitl [M6]; · iexact M6
  isplitl [O10]; · iexists _; iexact O10
  isplitl [O11]; · iexists _; iexact O11
  isplitl [O12]; · iexists _; iexact O12
  iintro ⟨I4, I5, ⟨%eM4, M4⟩, ⟨%eM5, M5⟩, ⟨%eM6, M6⟩, ⟨%eO10, O10⟩, ⟨%eO11, O11⟩, ⟨%eO12, O12⟩⟩
  isplitl [S0 S1 S2 S3 M4 M5 M6 Hg]
  · isplitl [S0 S1 S2 S3 M4 M5 M6]
    · isplitl [S0]; · iexact S0
      isplitl [S1]; · iexact S1
      isplitl [S2]; · iexact S2
      isplitl [S3]; · iexact S3
      isplitl [M4]
      · unfold owns; iexists _; isplitr
        swap; · iexact M4
        ipureintro; exact View.read_writes_of_cover _ _ _ _ _ (coverMemLast_s4 m c t hj _)
      isplitl [M5]
      · unfold owns; iexists _; isplitr
        swap; · iexact M5
        ipureintro; exact View.read_writes_of_cover _ _ _ _ _ (coverMemLast_s5 m c t hj _)
      unfold owns; iexists _; isplitr
      swap; · iexact M6
      ipureintro; exact View.read_writes_of_cover _ _ _ _ _ (coverMemLast_s6 m c t hj _)
    iexact Hg
  isplitl [Ho]; · iexact Ho
  isplitl [I0]; · iexact I0
  isplitl [I1]; · iexact I1
  isplitl [I2]; · iexact I2
  isplitl [I3]; · iexact I3
  isplitl [I4]; · iexact I4
  isplitl [I5]; · iexact I5
  isplitl [O6]; · iexact O6
  isplitl [O7]; · iexact O7
  isplitl [O8]; · iexact O8
  isplitl [O9]; · iexact O9
  isplitl [O10]
  · unfold owns; iexists _; isplitr
    swap; · iexact O10
    ipureintro; exact View.read_writes_of_cover _ _ _ _ _ (coverMemLast_o4 m c t hj _)
  isplitl [O11]
  · unfold owns; iexists _; isplitr
    swap; · iexact O11
    ipureintro; exact View.read_writes_of_cover _ _ _ _ _ (coverMemLast_o5 m c t hj _)
  unfold owns; iexists _; isplitr
  swap; · iexact O12
  ipureintro; exact View.read_writes_of_cover _ _ _ _ _ (coverMemLast_o6 m c t hj _)

end Cert.Kernel.Body

end
-- ==== Proof.KBodyFrame.lean ====
/-
  The frame of the fused kernel's program: it runs to the end, faults nowhere, and leaves its argument arrays unchanged.
  The body obligation at a point is the obligation of the case its inner step selects; the region is launched with the
  invariant that tracks the running statistics between points, and the host operations after it touch no argument.
-/
import proofs.«130741_j67869073212268_2_alg».proof.Proof.KBodyPointA0
import proofs.«130741_j67869073212268_2_alg».proof.Proof.KBodyPointA1
import proofs.«130741_j67869073212268_2_alg».proof.Proof.KBodyPointB
import proofs.«130741_j67869073212268_2_alg».proof.Proof.KBodyPointC
import proofs.«130741_j67869073212268_2_alg».proof.Proof.KBodyPointD
import proofs.«130741_j67869073212268_2_alg».proof.Proof.KBodyPointE
import proofs.«130741_j67869073212268_2_alg».proof.Proof.KBodyPointG

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The body at any point: by the inner step. -/
theorem sound_body (c : Dev nD) (t : Fin cfg0.N) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  by_cases hA : t.val % 16 = 0
  · by_cases hz : t.val = 0
    · exact pointA0 m c t hA hz
    · exact pointA1 m c t hA hz
  · by_cases hB : t.val % 16 ≤ 6
    · exact pointB m c t ⟨by omega, hB⟩ (by omega)
    · by_cases hC : t.val % 16 = 7
      · exact pointC m c t hC (by omega)
      · by_cases hD : t.val % 16 = 8
        · exact pointD m c t hD (by omega)
        · by_cases hE : t.val % 16 ≤ 14
          · exact pointE m c t ⟨by omega, hE⟩ (by omega)
          · exact pointG m c t (by omega) (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch its own back: the statistics' named contents are forgotten. -/
theorem hout (c : Dev nD) : (dats m 0 c).Φ (Fin.last cfg0.N) ⊢ Pipeline.ΦA spec0 c := by
  have hN : cfg0.N = 128 := N_0
  have hl : (Fin.last cfg0.N).val ≠ 0 := by rw [Fin.val_last]; omega
  rw [show (dats m 0 c).Φ (Fin.last cfg0.N) = PhiS m c (Fin.last cfg0.N).val (Nat.le_of_lt_succ (Fin.last cfg0.N).isLt) from rfl,
    PhiS_pos m c _ _ hl, PhiA_eq]
  rw [memPart_pos m c _ _ (by rw [Fin.val_last]; omega)]
  iintro ⟨⟨S0, S1, S2, S3, M4, M5, M6⟩, Hg⟩
  isplitl [S0 S1 S2 S3 M4 M5 M6]
  · isplitl [S0]; · iexists _; iexact S0
    isplitl [S1]; · iexists _; iexact S1
    isplitl [S2]; · iexists _; iexact S2
    isplitl [S3]; · iexists _; iexact S3
    isplitl [M4]; · iexists _; iexact M4
    isplitl [M5]; · iexists _; iexact M5
    iexists _; iexact M6
  iexact Hg

/-! ## The run and the frame -/

variable (ρ : Dev nD → PrngReg)

set_option backward.isDefEq.respectTransparency.types false in
/-- For any values, from any memory with zero counters: every weakly fair execution of the program terminates, and every
    final state has every array of the pipeline at what the proof data computes and every other unscoped buffer as the
    host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its four argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.BodyDefs.lean ====
/-
  What the runs of the fused kernel's body share.

  The grid is 8 row blocks by 16 inner steps; point `t` has inner step `j = t mod 16`. The body branches on `j` alone:
  `j = 0` resets the four statistics of the similarity sweep, `j = 8` resets the three of the memory sweep, `j < 8`
  updates the former from one 512-column tile, `j ≥ 8` the latter from one 1024-column tile, `j = 7` copies the four
  similarity statistics to their output blocks and `j = 15` the three memory statistics to theirs. Here: each branch
  condition as a proposition of the grid coordinates with the inner steps at which it holds, decided over the 128
  points; the staging memrefs the body is called with at a point and the seven scratch memrefs it carries from point to
  point; and the region's invariant with those seven written out.
-/
import proofs.«130741_j67869073212268_2_alg».proof.Proof.Gen.KernelIdeal.Frame
import proofs.«130741_j67869073212268_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branch conditions, and where they hold -/

/-- `j = 0`: the similarity statistics are reset. -/
abbrev cInitSim (i : grid0.Coords) : Prop := (Scalar.cmpi .ne (Scalar.extui (Scalar.cmpi .eq (BitVec.ofNat 32 (i 1).val) 0#32)) 0#32) = 1#1
/-- `j = 8`: the memory statistics are reset. -/
abbrev cInitMem (i : grid0.Coords) : Prop := (Scalar.cmpi .ne (Scalar.extui (Scalar.cmpi .eq (BitVec.ofNat 32 (i 1).val) 8#32)) 0#32) = 1#1
/-- `j < 8`: a similarity tile. -/
abbrev cSim (i : grid0.Coords) : Prop := k0_cond3 i = 1#1
/-- `j ≥ 8`: a memory tile. -/
abbrev cMem (i : grid0.Coords) : Prop := (Scalar.cmpi .ne (Scalar.extui (Scalar.cmpi .sge (BitVec.ofNat 32 (i 1).val) 8#32)) 0#32) = 1#1
/-- `j = 7`: the similarity statistics are copied out. -/
abbrev cOutSim (i : grid0.Coords) : Prop := k0_cond5 i = 1#1
/-- `j = 15`: the memory statistics are copied out. -/
abbrev cOutMem (i : grid0.Coords) : Prop := k0_cond6 i = 1#1

theorem hInitSim : ∀ t : Fin cfg0.N, cInitSim (grid0.coords t) ↔ t.val % 16 = 0 :=
  (by decide +kernel : ∀ t : Fin grid0.N, cInitSim (grid0.coords t) ↔ t.val % 16 = 0)
theorem hInitMem : ∀ t : Fin cfg0.N, cInitMem (grid0.coords t) ↔ t.val % 16 = 8 :=
  (by decide +kernel : ∀ t : Fin grid0.N, cInitMem (grid0.coords t) ↔ t.val % 16 = 8)
theorem hSim : ∀ t : Fin cfg0.N, cSim (grid0.coords t) ↔ t.val % 16 < 8 :=
  (by decide +kernel : ∀ t : Fin grid0.N, cSim (grid0.coords t) ↔ t.val % 16 < 8)
theorem hMem : ∀ t : Fin cfg0.N, cMem (grid0.coords t) ↔ 8 ≤ t.val % 16 :=
  (by decide +kernel : ∀ t : Fin grid0.N, cMem (grid0.coords t) ↔ 8 ≤ t.val % 16)
theorem hOutSim : ∀ t : Fin cfg0.N, cOutSim (grid0.coords t) ↔ t.val % 16 = 7 :=
  (by decide +kernel : ∀ t : Fin grid0.N, cOutSim (grid0.coords t) ↔ t.val % 16 = 7)
theorem hOutMem : ∀ t : Fin cfg0.N, cOutMem (grid0.coords t) ↔ t.val % 16 = 15 :=
  (by decide +kernel : ∀ t : Fin grid0.N, cOutMem (grid0.coords t) ↔ t.val % 16 = 15)

/-! ## The memrefs the body is called with -/

abbrev ms0 (t : Fin cfg0.N) : Memref sig .tc .vmem S512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x4096 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x1 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x1 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x1 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S512x1 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S512x1 .f32 := win0_12.stage (cfg0.slots t 12)
abbrev hs12 (t : Fin cfg0.N) : (ms12 t).IsWhole := hstage0_12 ((cfg0.slots t 12).cast nbuf0_12)
abbrev sc0 : Memref sig .tc .vmem S512x1 .f32 := Memref.whole cc0_scratch0
abbrev sc1 : Memref sig .tc .vmem S512x1 .f32 := Memref.whole cc0_scratch1
abbrev sc2 : Memref sig .tc .vmem S512x1 .f32 := Memref.whole cc0_scratch2
abbrev sc3 : Memref sig .tc .vmem S512x1 .f32 := Memref.whole cc0_scratch3
abbrev sc4 : Memref sig .tc .vmem S512x1 .f32 := Memref.whole cc0_scratch4
abbrev sc5 : Memref sig .tc .vmem S512x1 .f32 := Memref.whole cc0_scratch5
abbrev sc6 : Memref sig .tc .vmem S512x1 .f32 := Memref.whole cc0_scratch6

/-- The region's invariant with the seven scratch buffers written out as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)) := by
  unfold Pipeline.ΦA; rw [scopedRest0_eq]; simp only [sc0, sc1, sc2, sc3, sc4, sc5, sc6, owns_whole]; try rfl

end Cert.KernelIdeal.Body

end
-- ==== Proof.BodyRunSimFirst.lean ====
/-
  The body at the first similarity tile (inner step j = 0). The four similarity statistics are first reset — the running
  maximum to the large negative start value, the three sums to zero — and then updated from the tile exactly as at any
  later similarity tile: the 512 × 1024 block of normalised rows and the tile's 1024 × 512 slice of the transposed
  rows are multiplied and scaled; the label block and label tile give the positive-pair mask; the running maximum is
  raised to the tile's row maximum, the exponential sum is rescaled and the tile's terms added, and the two positive
  sums are increased. Each statistic's buffer is stored whole twice (the reset, then the update).
-/
import proofs.«130741_j67869073212268_2_alg».proof.Proof.BodyDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body's triple at the first similarity tile, on any whole memrefs: the four inputs at `x0`–`x3`, the four similarity statistics at anything; it runs to the inputs as they were and each statistic's buffer with its pieces written. -/
noncomputable def runSimFirst (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole)
    (p1 : cInitSim i) (n2 : ¬cInitMem i) (p3 : cSim i) (n4 : ¬cMem i) (n5 : ¬cOutSim i) (n6 : ¬cOutMem i)
    (x0 : Vec F S512x1024 .bf16) (x1 : Vec F S1024x4096 .bf16) (x2 : Vec F S512x1 .i32) (x3 : Vec F S1x512 .i32) :
    Σ' (L0 : List (View.Piece (Elt F) S512x1 .f32)) (L1 : List (View.Piece (Elt F) S512x1 .f32)) (L2 : List (View.Piece (Elt F) S512x1 .f32)), { L3 : List (View.Piece (Elt F) S512x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg15.view.loc (c : Thread nD τ) ↦[arg15.view.set]{fullShare} arg15.view.writes (Elt F) f L0)
                ∗ (∃ f, arg16.view.loc (c : Thread nD τ) ↦[arg16.view.set]{fullShare} arg16.view.writes (Elt F) f L1)
                ∗ (∃ f, arg17.view.loc (c : Thread nD τ) ↦[arg17.view.set]{fullShare} arg17.view.writes (Elt F) f L2)
                ∗ (∃ f, arg18.view.loc (c : Thread nD τ) ↦[arg18.view.set]{fullShare} arg18.view.writes (Elt F) f L3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?L0, ?L1, ?L2, ?L3, fun E K => ?run⟩
  case run =>
    simp only [cc0__fused_kernel_eq_skeleton]; unfold cc0__fused_kernel_skel
    unfold owns
    iintro ⟨⟨%f_arg2, %hf_arg2, H_arg2⟩, ⟨%f_arg3, %hf_arg3, H_arg3⟩, ⟨%f_arg4, %hf_arg4, H_arg4⟩, ⟨%f_arg5, %hf_arg5, H_arg5⟩, ⟨%d_arg15, %f_arg15, -, H_arg15⟩, ⟨%d_arg16, %f_arg16, -, H_arg16⟩, ⟨%d_arg17, %f_arg17, -, H_arg17⟩, ⟨%d_arg18, %f_arg18, -, H_arg18⟩, Hk⟩
    obtain rfl := harg2.eq_unread hf_arg2; obtain rfl := harg3.eq_unread hf_arg3; obtain rfl := harg4.eq_unread hf_arg4; obtain rfl := harg5.eq_unread hf_arg5
    sl_exec (disch := first | exact p1 | exact n2 | exact p3 | exact n4 | exact n5 | exact n6)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg15]; · iexists _; iexact H_arg15
    isplitl [H_arg16]; · iexists _; iexact H_arg16
    isplitl [H_arg17]; · iexists _; iexact H_arg17
    iexists _; iexact H_arg18

end Cert.KernelIdeal.Body

end
-- ==== Proof.BodyRunSimMid.lean ====
/-
  The body at a middle similarity tile (inner step 1 ≤ j ≤ 6): no reset, no copy-out. The four similarity statistics
  are read as the previous tile left them and updated from this tile: the running maximum raised to the tile's row
  maximum, the exponential sum rescaled by `exp (old maximum - new maximum)` and the tile's off-diagonal terms added,
  the positives' similarity sum and the positives' count increased by the tile's row sums.
-/
import proofs.«130741_j67869073212268_2_alg».proof.Proof.BodyDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body's triple at a middle similarity tile, on any whole memrefs: the four inputs at `x0`–`x3`, the four similarity statistics at `y0`–`y3`; it runs to the inputs as they were and each statistic's buffer with its pieces written. -/
noncomputable def runSimMid (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole)
    (n1 : ¬cInitSim i) (n2 : ¬cInitMem i) (p3 : cSim i) (n4 : ¬cMem i) (n5 : ¬cOutSim i) (n6 : ¬cOutMem i)
    (x0 : Vec F S512x1024 .bf16) (x1 : Vec F S1024x4096 .bf16) (x2 : Vec F S512x1 .i32) (x3 : Vec F S1x512 .i32) (y0 : Vec F S512x1 .f32) (y1 : Vec F S512x1 .f32) (y2 : Vec F S512x1 .f32) (y3 : Vec F S512x1 .f32) :
    Σ' (L0 : List (View.Piece (Elt F) S512x1 .f32)) (L1 : List (View.Piece (Elt F) S512x1 .f32)) (L2 : List (View.Piece (Elt F) S512x1 .f32)), { L3 : List (View.Piece (Elt F) S512x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg15 fullShare y0
            ∗ owns (c : Thread nD τ) arg16 fullShare y1
            ∗ owns (c : Thread nD τ) arg17 fullShare y2
            ∗ owns (c : Thread nD τ) arg18 fullShare y3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg15.view.loc (c : Thread nD τ) ↦[arg15.view.set]{fullShare} arg15.view.writes (Elt F) f L0)
                ∗ (∃ f, arg16.view.loc (c : Thread nD τ) ↦[arg16.view.set]{fullShare} arg16.view.writes (Elt F) f L1)
                ∗ (∃ f, arg17.view.loc (c : Thread nD τ) ↦[arg17.view.set]{fullShare} arg17.view.writes (Elt F) f L2)
                ∗ (∃ f, arg18.view.loc (c : Thread nD τ) ↦[arg18.view.set]{fullShare} arg18.view.writes (Elt F) f L3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?L0, ?L1, ?L2, ?L3, fun E K => ?run⟩
  case run =>
    simp only [cc0__fused_kernel_eq_skeleton]; unfold cc0__fused_kernel_skel
    unfold owns
    iintro ⟨⟨%f_arg2, %hf_arg2, H_arg2⟩, ⟨%f_arg3, %hf_arg3, H_arg3⟩, ⟨%f_arg4, %hf_arg4, H_arg4⟩, ⟨%f_arg5, %hf_arg5, H_arg5⟩, ⟨%f_arg15, %hf_arg15, H_arg15⟩, ⟨%f_arg16, %hf_arg16, H_arg16⟩, ⟨%f_arg17, %hf_arg17, H_arg17⟩, ⟨%f_arg18, %hf_arg18, H_arg18⟩, Hk⟩
    obtain rfl := harg2.eq_unread hf_arg2; obtain rfl := harg3.eq_unread hf_arg3; obtain rfl := harg4.eq_unread hf_arg4; obtain rfl := harg5.eq_unread hf_arg5; obtain rfl := harg15.eq_unread hf_arg15; obtain rfl := harg16.eq_unread hf_arg16; obtain rfl := harg17.eq_unread hf_arg17; obtain rfl := harg18.eq_unread hf_arg18
    sl_exec (disch := first | exact n1 | exact n2 | exact p3 | exact n4 | exact n5 | exact n6)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg15]; · iexists _; iexact H_arg15
    isplitl [H_arg16]; · iexists _; iexact H_arg16
    isplitl [H_arg17]; · iexists _; iexact H_arg17
    iexists _; iexact H_arg18

end Cert.KernelIdeal.Body

end
-- ==== Proof.BodyRunSimLast.lean ====
/-
  The body at the last similarity tile (inner step j = 7): the update of a middle similarity tile, after which each of
  the four similarity statistics is read back and stored whole into its output block.
-/
import proofs.«130741_j67869073212268_2_alg».proof.Proof.BodyDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body's triple at the last similarity tile, on any whole memrefs: the four inputs at `x0`–`x3`, the four similarity statistics at `y0`–`y3`, the four output blocks at anything; it runs to the inputs as they were and each statistic's buffer and each output block with its pieces written. -/
noncomputable def runSimLast (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole)
    (n1 : ¬cInitSim i) (n2 : ¬cInitMem i) (p3 : cSim i) (n4 : ¬cMem i) (p5 : cOutSim i) (n6 : ¬cOutMem i)
    (x0 : Vec F S512x1024 .bf16) (x1 : Vec F S1024x4096 .bf16) (x2 : Vec F S512x1 .i32) (x3 : Vec F S1x512 .i32) (y0 : Vec F S512x1 .f32) (y1 : Vec F S512x1 .f32) (y2 : Vec F S512x1 .f32) (y3 : Vec F S512x1 .f32) :
    Σ' (L0 : List (View.Piece (Elt F) S512x1 .f32)) (L1 : List (View.Piece (Elt F) S512x1 .f32)) (L2 : List (View.Piece (Elt F) S512x1 .f32)) (L3 : List (View.Piece (Elt F) S512x1 .f32)) (O0 : List (View.Piece (Elt F) S512x1 .f32)) (O1 : List (View.Piece (Elt F) S512x1 .f32)) (O2 : List (View.Piece (Elt F) S512x1 .f32)), { O3 : List (View.Piece (Elt F) S512x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg15 fullShare y0
            ∗ owns (c : Thread nD τ) arg16 fullShare y1
            ∗ owns (c : Thread nD τ) arg17 fullShare y2
            ∗ owns (c : Thread nD τ) arg18 fullShare y3
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg15.view.loc (c : Thread nD τ) ↦[arg15.view.set]{fullShare} arg15.view.writes (Elt F) f L0)
                ∗ (∃ f, arg16.view.loc (c : Thread nD τ) ↦[arg16.view.set]{fullShare} arg16.view.writes (Elt F) f L1)
                ∗ (∃ f, arg17.view.loc (c : Thread nD τ) ↦[arg17.view.set]{fullShare} arg17.view.writes (Elt F) f L2)
                ∗ (∃ f, arg18.view.loc (c : Thread nD τ) ↦[arg18.view.set]{fullShare} arg18.view.writes (Elt F) f L3)
                ∗ (∃ f, arg8.view.loc (c : Thread nD τ) ↦[arg8.view.set]{fullShare} arg8.view.writes (Elt F) f O0)
                ∗ (∃ f, arg9.view.loc (c : Thread nD τ) ↦[arg9.view.set]{fullShare} arg9.view.writes (Elt F) f O1)
                ∗ (∃ f, arg10.view.loc (c : Thread nD τ) ↦[arg10.view.set]{fullShare} arg10.view.writes (Elt F) f O2)
                ∗ (∃ f, arg11.view.loc (c : Thread nD τ) ↦[arg11.view.set]{fullShare} arg11.view.writes (Elt F) f O3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?L0, ?L1, ?L2, ?L3, ?O0, ?O1, ?O2, ?O3, fun E K => ?run⟩
  case run =>
    simp only [cc0__fused_kernel_eq_skeleton]; unfold cc0__fused_kernel_skel
    unfold owns
    iintro ⟨⟨%f_arg2, %hf_arg2, H_arg2⟩, ⟨%f_arg3, %hf_arg3, H_arg3⟩, ⟨%f_arg4, %hf_arg4, H_arg4⟩, ⟨%f_arg5, %hf_arg5, H_arg5⟩, ⟨%f_arg15, %hf_arg15, H_arg15⟩, ⟨%f_arg16, %hf_arg16, H_arg16⟩, ⟨%f_arg17, %hf_arg17, H_arg17⟩, ⟨%f_arg18, %hf_arg18, H_arg18⟩, ⟨%d_arg8, %f_arg8, -, H_arg8⟩, ⟨%d_arg9, %f_arg9, -, H_arg9⟩, ⟨%d_arg10, %f_arg10, -, H_arg10⟩, ⟨%d_arg11, %f_arg11, -, H_arg11⟩, Hk⟩
    obtain rfl := harg2.eq_unread hf_arg2; obtain rfl := harg3.eq_unread hf_arg3; obtain rfl := harg4.eq_unread hf_arg4; obtain rfl := harg5.eq_unread hf_arg5; obtain rfl := harg15.eq_unread hf_arg15; obtain rfl := harg16.eq_unread hf_arg16; obtain rfl := harg17.eq_unread hf_arg17; obtain rfl := harg18.eq_unread hf_arg18
    sl_exec (disch := first | exact n1 | exact n2 | exact p3 | exact n4 | exact p5 | exact n6)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg15]; · iexists _; iexact H_arg15
    isplitl [H_arg16]; · iexists _; iexact H_arg16
    isplitl [H_arg17]; · iexists _; iexact H_arg17
    isplitl [H_arg18]; · iexists _; iexact H_arg18
    isplitl [H_arg8]; · iexists _; iexact H_arg8
    isplitl [H_arg9]; · iexists _; iexact H_arg9
    isplitl [H_arg10]; · iexists _; iexact H_arg10
    iexists _; iexact H_arg11

end Cert.KernelIdeal.Body

end
-- ==== Proof.BodyRunMemFirst.lean ====
/-
  The body at the first memory tile (inner step j = 8). The three memory statistics are reset to zero and then updated
  from the tile as at any later memory tile: the row sums of `exp` of the logits, of target times logit, and of the
  targets are added. Each statistic's buffer is stored whole twice.
-/
import proofs.«130741_j67869073212268_2_alg».proof.Proof.BodyDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body's triple at the first memory tile, on any whole memrefs: the two input tiles at `x4`, `x5`, the three memory statistics at anything; it runs to the inputs as they were and each statistic's buffer with its pieces written. -/
noncomputable def runMemFirst (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole)
    (n1 : ¬cInitSim i) (p2 : cInitMem i) (n3 : ¬cSim i) (p4 : cMem i) (n5 : ¬cOutSim i) (n6 : ¬cOutMem i)
    (x4 : Vec F S512x1024 .f32) (x5 : Vec F S512x1024 .bf16) :
    Σ' (L4 : List (View.Piece (Elt F) S512x1 .f32)) (L5 : List (View.Piece (Elt F) S512x1 .f32)), { L6 : List (View.Piece (Elt F) S512x1 .f32) //
      ∀ (E : Set ℕ) (K : PUnit → sProp 𝕄),
        iprop(owns (c : Thread nD τ) arg6 fullShare x4
            ∗ owns (c : Thread nD τ) arg7 fullShare x5
            ∗ (∃ d, owns (c : Thread nD τ) arg19 fullShare d)
            ∗ (∃ d, owns (c : Thread nD τ) arg20 fullShare d)
            ∗ (∃ d, owns (c : Thread nD τ) arg21 fullShare d)
            ∗ (iprop(owns (c : Thread nD τ) arg6 fullShare x4
                ∗ owns (c : Thread nD τ) arg7 fullShare x5
                ∗ (∃ f, arg19.view.loc (c : Thread nD τ) ↦[arg19.view.set]{fullShare} arg19.view.writes (Elt F) f L4)
                ∗ (∃ f, arg20.view.loc (c : Thread nD τ) ↦[arg20.view.set]{fullShare} arg20.view.writes (Elt F) f L5)
                ∗ (∃ f, arg21.view.loc (c : Thread nD τ) ↦[arg21.view.set]{fullShare} arg21.view.writes (Elt F) f L6)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?L4, ?L5, ?L6, fun E K => ?run⟩
  case run =>
    simp only [cc0__fused_kernel_eq_skeleton]; unfold cc0__fused_kernel_skel
    unfold owns
    iintro ⟨⟨%f_arg6, %hf_arg6, H_arg6⟩, ⟨%f_arg7, %hf_arg7, H_arg7⟩, ⟨%d_arg19, %f_arg19, -, H_arg19⟩, ⟨%d_arg20, %f_arg20, -, H_arg20⟩, ⟨%d_arg21, %f_arg21, -, H_arg21⟩, Hk⟩
    obtain rfl := harg6.eq_unread hf_arg6; obtain rfl := harg7.eq_unread hf_arg7
    sl_exec (disch := first | exact n1 | exact p2 | exact n3 | exact p4 | exact n5 | exact n6)
    sl_step
    iapply Hk
    isplitl [H_arg6]
    · iexists _; isplitr; · ipureintro; exact harg6.read_unread _
      iexact H_arg6
    isplitl [H_arg7]
    · iexists _; isplitr; · ipureintro; exact harg7.read_unread _
      iexact H_arg7
    isplitl [H_arg19]; · iexists _; iexact H_arg19
    isplitl [H_arg20]; · iexists _; iexact H_arg20
    iexists _; iexact H_arg21

end Cert.KernelIdeal.Body

end
-- ==== Proof.BodyRunMemMid.lean ====
/-
  The body at a middle memory tile (inner step 9 ≤ j ≤ 14): no reset, no similarity update, no copy-out. The tile of
  memory logits and the tile of memory targets are read once each; each of the three memory statistics is read, the
  tile's row sums are added (of `exp` of the logits; of target times logit; of the targets), and it is stored back
  whole. Nothing else is touched. What each statistic's buffer ends with is found as the list of pieces stored into it.
-/
import proofs.«130741_j67869073212268_2_alg».proof.Proof.BodyDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's triple at a middle memory tile, on any whole memrefs: from the two input tiles at `x4`, `x5` and the
    three memory statistics at `y4`, `y5`, `y6`, it runs to the inputs as they were and each statistic's buffer with
    its pieces written. -/
noncomputable def runMemMid (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole)
    (n1 : ¬cInitSim i) (n2 : ¬cInitMem i) (n3 : ¬cSim i) (p4 : cMem i) (n5 : ¬cOutSim i) (n6 : ¬cOutMem i)
    (x4 : Vec F S512x1024 .f32) (x5 : Vec F S512x1024 .bf16) (y4 y5 y6 : Vec F S512x1 .f32) :
    Σ' (L4 : List (View.Piece (Elt F) S512x1 .f32)) (L5 : List (View.Piece (Elt F) S512x1 .f32)), { L6 : List (View.Piece (Elt F) S512x1 .f32) //
      ∀ (E : Set ℕ) (K : PUnit → sProp 𝕄),
        iprop(owns (c : Thread nD τ) arg6 fullShare x4 ∗ owns (c : Thread nD τ) arg7 fullShare x5
            ∗ owns (c : Thread nD τ) arg19 fullShare y4 ∗ owns (c : Thread nD τ) arg20 fullShare y5 ∗ owns (c : Thread nD τ) arg21 fullShare y6
            ∗ (iprop(owns (c : Thread nD τ) arg6 fullShare x4 ∗ owns (c : Thread nD τ) arg7 fullShare x5
                ∗ (∃ f, arg19.view.loc (c : Thread nD τ) ↦[arg19.view.set]{fullShare} arg19.view.writes (Elt F) f L4)
                ∗ (∃ f, arg20.view.loc (c : Thread nD τ) ↦[arg20.view.set]{fullShare} arg20.view.writes (Elt F) f L5)
                ∗ (∃ f, arg21.view.loc (c : Thread nD τ) ↦[arg21.view.set]{fullShare} arg21.view.writes (Elt F) f L6)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?L4, ?L5, ?L6, fun E K => ?run⟩
  case run =>
    simp only [cc0__fused_kernel_eq_skeleton]; unfold cc0__fused_kernel_skel
    unfold owns
    iintro ⟨⟨%f4, %hf4, H4⟩, ⟨%f5, %hf5, H5⟩, ⟨%g4, %hg4, S4⟩, ⟨%g5, %hg5, S5⟩, ⟨%g6, %hg6, S6⟩, Hk⟩
    obtain rfl := harg6.eq_unread hf4; obtain rfl := harg7.eq_unread hf5
    obtain rfl := harg19.eq_unread hg4; obtain rfl := harg20.eq_unread hg5; obtain rfl := harg21.eq_unread hg6
    sl_exec (disch := first | exact n1 | exact n2 | exact n3 | exact p4 | exact n5 | exact n6)
    sl_step
    iapply Hk
    isplitl [H4]
    · iexists _; isplitr; · ipureintro; exact harg6.read_unread _
      iexact H4
    isplitl [H5]
    · iexists _; isplitr; · ipureintro; exact harg7.read_unread _
      iexact H5
    isplitl [S4]; · iexists _; iexact S4
    isplitl [S5]; · iexists _; iexact S5
    iexists _; iexact S6

end Cert.KernelIdeal.Body

end
-- ==== Proof.BodyRunMemLast.lean ====
/-
  The body at the last memory tile (inner step j = 15): the update of a middle memory tile, after which each of the
  three memory statistics is read back and stored whole into its output block.
-/
import proofs.«130741_j67869073212268_2_alg».proof.Proof.BodyDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body's triple at the last memory tile, on any whole memrefs: the two input tiles at `x4`, `x5`, the three memory statistics at `y4`–`y6`, the three output blocks at anything; it runs to the inputs as they were and each statistic's buffer and each output block with its pieces written. -/
noncomputable def runMemLast (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole)
    (n1 : ¬cInitSim i) (n2 : ¬cInitMem i) (n3 : ¬cSim i) (p4 : cMem i) (n5 : ¬cOutSim i) (p6 : cOutMem i)
    (x4 : Vec F S512x1024 .f32) (x5 : Vec F S512x1024 .bf16) (y4 : Vec F S512x1 .f32) (y5 : Vec F S512x1 .f32) (y6 : Vec F S512x1 .f32) :
    Σ' (L4 : List (View.Piece (Elt F) S512x1 .f32)) (L5 : List (View.Piece (Elt F) S512x1 .f32)) (L6 : List (View.Piece (Elt F) S512x1 .f32)) (O4 : List (View.Piece (Elt F) S512x1 .f32)) (O5 : List (View.Piece (Elt F) S512x1 .f32)), { O6 : List (View.Piece (Elt F) S512x1 .f32) //
      ∀ (E : Set ℕ) (K : PUnit → sProp 𝕄),
        iprop(owns (c : Thread nD τ) arg6 fullShare x4
            ∗ owns (c : Thread nD τ) arg7 fullShare x5
            ∗ owns (c : Thread nD τ) arg19 fullShare y4
            ∗ owns (c : Thread nD τ) arg20 fullShare y5
            ∗ owns (c : Thread nD τ) arg21 fullShare y6
            ∗ (∃ d, owns (c : Thread nD τ) arg12 fullShare d)
            ∗ (∃ d, owns (c : Thread nD τ) arg13 fullShare d)
            ∗ (∃ d, owns (c : Thread nD τ) arg14 fullShare d)
            ∗ (iprop(owns (c : Thread nD τ) arg6 fullShare x4
                ∗ owns (c : Thread nD τ) arg7 fullShare x5
                ∗ (∃ f, arg19.view.loc (c : Thread nD τ) ↦[arg19.view.set]{fullShare} arg19.view.writes (Elt F) f L4)
                ∗ (∃ f, arg20.view.loc (c : Thread nD τ) ↦[arg20.view.set]{fullShare} arg20.view.writes (Elt F) f L5)
                ∗ (∃ f, arg21.view.loc (c : Thread nD τ) ↦[arg21.view.set]{fullShare} arg21.view.writes (Elt F) f L6)
                ∗ (∃ f, arg12.view.loc (c : Thread nD τ) ↦[arg12.view.set]{fullShare} arg12.view.writes (Elt F) f O4)
                ∗ (∃ f, arg13.view.loc (c : Thread nD τ) ↦[arg13.view.set]{fullShare} arg13.view.writes (Elt F) f O5)
                ∗ (∃ f, arg14.view.loc (c : Thread nD τ) ↦[arg14.view.set]{fullShare} arg14.view.writes (Elt F) f O6)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?L4, ?L5, ?L6, ?O4, ?O5, ?O6, fun E K => ?run⟩
  case run =>
    simp only [cc0__fused_kernel_eq_skeleton]; unfold cc0__fused_kernel_skel
    unfold owns
    iintro ⟨⟨%f_arg6, %hf_arg6, H_arg6⟩, ⟨%f_arg7, %hf_arg7, H_arg7⟩, ⟨%f_arg19, %hf_arg19, H_arg19⟩, ⟨%f_arg20, %hf_arg20, H_arg20⟩, ⟨%f_arg21, %hf_arg21, H_arg21⟩, ⟨%d_arg12, %f_arg12, -, H_arg12⟩, ⟨%d_arg13, %f_arg13, -, H_arg13⟩, ⟨%d_arg14, %f_arg14, -, H_arg14⟩, Hk⟩
    obtain rfl := harg6.eq_unread hf_arg6; obtain rfl := harg7.eq_unread hf_arg7; obtain rfl := harg19.eq_unread hf_arg19; obtain rfl := harg20.eq_unread hf_arg20; obtain rfl := harg21.eq_unread hf_arg21
    sl_exec (disch := first | exact n1 | exact n2 | exact n3 | exact p4 | exact n5 | exact p6)
    sl_step
    iapply Hk
    isplitl [H_arg6]
    · iexists _; isplitr; · ipureintro; exact harg6.read_unread _
      iexact H_arg6
    isplitl [H_arg7]
    · iexists _; isplitr; · ipureintro; exact harg7.read_unread _
      iexact H_arg7
    isplitl [H_arg19]; · iexists _; iexact H_arg19
    isplitl [H_arg20]; · iexists _; iexact H_arg20
    isplitl [H_arg21]; · iexists _; iexact H_arg21
    isplitl [H_arg12]; · iexists _; iexact H_arg12
    isplitl [H_arg13]; · iexists _; iexact H_arg13
    iexists _; iexact H_arg14

end Cert.KernelIdeal.Body

end
-- ==== Proof.BodyAccum.lean ====
/-
  What the seven running statistics and the seven output blocks hold after each grid point.

  Each case of the body stores whole 512 × 1 columns: the statistics it updates and, at the last tile of a sweep, the
  output blocks it copies them to. What a buffer holds after a case is its stored pieces read back; the pieces cover the
  column (each store is the whole column), so the read-back does not depend on what the buffer held before. The state
  after point `n` is computed from the state after point `n - 1` by the case that the inner step `n mod 16` selects:
  the case replaces what it stores and leaves the rest. Before the first point nothing is known, and the first point
  (a first similarity tile) resets the similarity statistics before it reads them.
-/
import proofs.«130741_j67869073212268_2_alg».proof.Proof.BodyRunSimFirst
import proofs.«130741_j67869073212268_2_alg».proof.Proof.BodyRunSimMid
import proofs.«130741_j67869073212268_2_alg».proof.Proof.BodyRunSimLast
import proofs.«130741_j67869073212268_2_alg».proof.Proof.BodyRunMemFirst
import proofs.«130741_j67869073212268_2_alg».proof.Proof.BodyRunMemMid
import proofs.«130741_j67869073212268_2_alg».proof.Proof.BodyRunMemLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The view through which a 512 × 1 column's contents are stated (any whole buffer of that shape serves: a read-back
    of covering pieces does not depend on it). -/
abbrev VS : View sig .tc .vmem S512x1 .f32 := (sc0 : Memref sig .tc .vmem S512x1 .f32).view

/-- Pieces read back over unspecified contents. -/
abbrev rd (L : List (View.Piece (Elt F) S512x1 .f32)) : Vec F S512x1 .f32 :=
  VS.read (Elt F) (VS.writes (Elt F) VS.junk L)

/-- The seven statistics (`s0`–`s3` of the similarity sweep: maximum, exponential sum, positives' similarity sum,
    positives' count; `s4`–`s6` of the memory sweep: exponential sum, target-weighted logit sum, target sum) and the
    seven output blocks they are copied to. -/
structure St (F : FTy → Type) [FloatOps F] where
  s0 : Vec F S512x1 .f32
  s1 : Vec F S512x1 .f32
  s2 : Vec F S512x1 .f32
  s3 : Vec F S512x1 .f32
  s4 : Vec F S512x1 .f32
  s5 : Vec F S512x1 .f32
  s6 : Vec F S512x1 .f32
  o0 : Vec F S512x1 .f32
  o1 : Vec F S512x1 .f32
  o2 : Vec F S512x1 .f32
  o3 : Vec F S512x1 .f32
  o4 : Vec F S512x1 .f32
  o5 : Vec F S512x1 .f32
  o6 : Vec F S512x1 .f32

/-- Nothing known: every column at unspecified contents. -/
def St.unknown : St F :=
  ⟨rd [], rd [], rd [], rd [], rd [], rd [], rd [], rd [], rd [], rd [], rd [], rd [], rd [], rd []⟩

/-! ## The cases at a point -/

/-- The run of that case at point `t`, at the point's staging memrefs and input blocks. -/
def atSimFirst (c : Dev nD) (t : Fin cfg0.N) (h : t.val % 16 = 0) :=
  runSimFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hInitSim t).mpr (by omega)) (fun hc => absurd ((hInitMem t).mp hc) (by omega)) ((hSim t).mpr (by omega)) (fun hc => absurd ((hMem t).mp hc) (by omega)) (fun hc => absurd ((hOutSim t).mp hc) (by omega)) (fun hc => absurd ((hOutMem t).mp hc) (by omega)) (iblk m c 0 t) (iblk m c 1 t) (iblk m c 2 t) (iblk m c 3 t)

/-- The run of that case at point `t`, at the point's staging memrefs and input blocks, the carried statistics at what the point before left (`p`). -/
def atSimMid (c : Dev nD) (t : Fin cfg0.N) (h : 1 ≤ t.val % 16 ∧ t.val % 16 ≤ 6) (p : St F) :=
  runSimMid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (fun hc => absurd ((hInitSim t).mp hc) (by omega)) (fun hc => absurd ((hInitMem t).mp hc) (by omega)) ((hSim t).mpr (by omega)) (fun hc => absurd ((hMem t).mp hc) (by omega)) (fun hc => absurd ((hOutSim t).mp hc) (by omega)) (fun hc => absurd ((hOutMem t).mp hc) (by omega)) (iblk m c 0 t) (iblk m c 1 t) (iblk m c 2 t) (iblk m c 3 t) p.s0 p.s1 p.s2 p.s3

/-- The run of that case at point `t`, at the point's staging memrefs and input blocks, the carried statistics at what the point before left (`p`). -/
def atSimLast (c : Dev nD) (t : Fin cfg0.N) (h : t.val % 16 = 7) (p : St F) :=
  runSimLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (fun hc => absurd ((hInitSim t).mp hc) (by omega)) (fun hc => absurd ((hInitMem t).mp hc) (by omega)) ((hSim t).mpr (by omega)) (fun hc => absurd ((hMem t).mp hc) (by omega)) ((hOutSim t).mpr (by omega)) (fun hc => absurd ((hOutMem t).mp hc) (by omega)) (iblk m c 0 t) (iblk m c 1 t) (iblk m c 2 t) (iblk m c 3 t) p.s0 p.s1 p.s2 p.s3

/-- The run of that case at point `t`, at the point's staging memrefs and input blocks. -/
def atMemFirst (c : Dev nD) (t : Fin cfg0.N) (h : t.val % 16 = 8) :=
  runMemFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (fun hc => absurd ((hInitSim t).mp hc) (by omega)) ((hInitMem t).mpr (by omega)) (fun hc => absurd ((hSim t).mp hc) (by omega)) ((hMem t).mpr (by omega)) (fun hc => absurd ((hOutSim t).mp hc) (by omega)) (fun hc => absurd ((hOutMem t).mp hc) (by omega)) (iblk m c 4 t) (iblk m c 5 t)

/-- The run of that case at point `t`, at the point's staging memrefs and input blocks, the carried statistics at what the point before left (`p`). -/
def atMemMid (c : Dev nD) (t : Fin cfg0.N) (h : 9 ≤ t.val % 16 ∧ t.val % 16 ≤ 14) (p : St F) :=
  runMemMid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (fun hc => absurd ((hInitSim t).mp hc) (by omega)) (fun hc => absurd ((hInitMem t).mp hc) (by omega)) (fun hc => absurd ((hSim t).mp hc) (by omega)) ((hMem t).mpr (by omega)) (fun hc => absurd ((hOutSim t).mp hc) (by omega)) (fun hc => absurd ((hOutMem t).mp hc) (by omega)) (iblk m c 4 t) (iblk m c 5 t) p.s4 p.s5 p.s6

/-- The run of that case at point `t`, at the point's staging memrefs and input blocks, the carried statistics at what the point before left (`p`). -/
def atMemLast (c : Dev nD) (t : Fin cfg0.N) (h : t.val % 16 = 15) (p : St F) :=
  runMemLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (fun hc => absurd ((hInitSim t).mp hc) (by omega)) (fun hc => absurd ((hInitMem t).mp hc) (by omega)) (fun hc => absurd ((hSim t).mp hc) (by omega)) ((hMem t).mpr (by omega)) (fun hc => absurd ((hOutSim t).mp hc) (by omega)) ((hOutMem t).mpr (by omega)) (iblk m c 4 t) (iblk m c 5 t) p.s4 p.s5 p.s6

/-- The statistics and output blocks after that case at point `t`: what it stores, read back; everything else as before. -/
def stepSimFirst (c : Dev nD) (t : Fin cfg0.N) (h : t.val % 16 = 0) (p : St F) : St F :=
  { p with s0 := rd (atSimFirst m c t h).1
           s1 := rd (atSimFirst m c t h).2.1
           s2 := rd (atSimFirst m c t h).2.2.1
           s3 := rd (atSimFirst m c t h).2.2.2.1 }

/-- The statistics and output blocks after that case at point `t`: what it stores, read back; everything else as before. -/
def stepSimMid (c : Dev nD) (t : Fin cfg0.N) (h : 1 ≤ t.val % 16 ∧ t.val % 16 ≤ 6) (p : St F) : St F :=
  { p with s0 := rd (atSimMid m c t h p).1
           s1 := rd (atSimMid m c t h p).2.1
           s2 := rd (atSimMid m c t h p).2.2.1
           s3 := rd (atSimMid m c t h p).2.2.2.1 }

/-- The statistics and output blocks after that case at point `t`: what it stores, read back; everything else as before. -/
def stepSimLast (c : Dev nD) (t : Fin cfg0.N) (h : t.val % 16 = 7) (p : St F) : St F :=
  { p with s0 := rd (atSimLast m c t h p).1
           s1 := rd (atSimLast m c t h p).2.1
           s2 := rd (atSimLast m c t h p).2.2.1
           s3 := rd (atSimLast m c t h p).2.2.2.1
           o0 := rd (atSimLast m c t h p).2.2.2.2.1
           o1 := rd (atSimLast m c t h p).2.2.2.2.2.1
           o2 := rd (atSimLast m c t h p).2.2.2.2.2.2.1
           o3 := rd (atSimLast m c t h p).2.2.2.2.2.2.2.1 }

/-- The statistics and output blocks after that case at point `t`: what it stores, read back; everything else as before. -/
def stepMemFirst (c : Dev nD) (t : Fin cfg0.N) (h : t.val % 16 = 8) (p : St F) : St F :=
  { p with s4 := rd (atMemFirst m c t h).1
           s5 := rd (atMemFirst m c t h).2.1
           s6 := rd (atMemFirst m c t h).2.2.1 }

/-- The statistics and output blocks after that case at point `t`: what it stores, read back; everything else as before. -/
def stepMemMid (c : Dev nD) (t : Fin cfg0.N) (h : 9 ≤ t.val % 16 ∧ t.val % 16 ≤ 14) (p : St F) : St F :=
  { p with s4 := rd (atMemMid m c t h p).1
           s5 := rd (atMemMid m c t h p).2.1
           s6 := rd (atMemMid m c t h p).2.2.1 }

/-- The statistics and output blocks after that case at point `t`: what it stores, read back; everything else as before. -/
def stepMemLast (c : Dev nD) (t : Fin cfg0.N) (h : t.val % 16 = 15) (p : St F) : St F :=
  { p with s4 := rd (atMemLast m c t h p).1
           s5 := rd (atMemLast m c t h p).2.1
           s6 := rd (atMemLast m c t h p).2.2.1
           o4 := rd (atMemLast m c t h p).2.2.2.1
           o5 := rd (atMemLast m c t h p).2.2.2.2.1
           o6 := rd (atMemLast m c t h p).2.2.2.2.2.1 }

/-! ## Each case's stores cover the columns they are made into -/

theorem coverSimFirst_s0 (c : Dev nD) (t : Fin cfg0.N) (h : t.val % 16 = 0) (y : S512x1.Idx) :
    ∃ pc ∈ (atSimFirst m c t h).1, y ∈ pc.1.set :=
  View.cover_of_tiledL (atSimFirst m c t h).1 S512x1.size (by sl_kernel_rfl) y
theorem coverSimFirst_s1 (c : Dev nD) (t : Fin cfg0.N) (h : t.val % 16 = 0) (y : S512x1.Idx) :
    ∃ pc ∈ (atSimFirst m c t h).2.1, y ∈ pc.1.set :=
  View.cover_of_tiledL (atSimFirst m c t h).2.1 S512x1.size (by sl_kernel_rfl) y
theorem coverSimFirst_s2 (c : Dev nD) (t : Fin cfg0.N) (h : t.val % 16 = 0) (y : S512x1.Idx) :
    ∃ pc ∈ (atSimFirst m c t h).2.2.1, y ∈ pc.1.set :=
  View.cover_of_tiledL (atSimFirst m c t h).2.2.1 S512x1.size (by sl_kernel_rfl) y
theorem coverSimFirst_s3 (c : Dev nD) (t : Fin cfg0.N) (h : t.val % 16 = 0) (y : S512x1.Idx) :
    ∃ pc ∈ (atSimFirst m c t h).2.2.2.1, y ∈ pc.1.set :=
  View.cover_of_tiledL (atSimFirst m c t h).2.2.2.1 S512x1.size (by sl_kernel_rfl) y
theorem coverSimMid_s0 (c : Dev nD) (t : Fin cfg0.N) (h : 1 ≤ t.val % 16 ∧ t.val % 16 ≤ 6) (p : St F) (y : S512x1.Idx) :
    ∃ pc ∈ (atSimMid m c t h p).1, y ∈ pc.1.set :=
  View.cover_of_tiledL (atSimMid m c t h p).1 S512x1.size (by sl_kernel_rfl) y
theorem coverSimMid_s1 (c : Dev nD) (t : Fin cfg0.N) (h : 1 ≤ t.val % 16 ∧ t.val % 16 ≤ 6) (p : St F) (y : S512x1.Idx) :
    ∃ pc ∈ (atSimMid m c t h p).2.1, y ∈ pc.1.set :=
  View.cover_of_tiledL (atSimMid m c t h p).2.1 S512x1.size (by sl_kernel_rfl) y
theorem coverSimMid_s2 (c : Dev nD) (t : Fin cfg0.N) (h : 1 ≤ t.val % 16 ∧ t.val % 16 ≤ 6) (p : St F) (y : S512x1.Idx) :
    ∃ pc ∈ (atSimMid m c t h p).2.2.1, y ∈ pc.1.set :=
  View.cover_of_tiledL (atSimMid m c t h p).2.2.1 S512x1.size (by sl_kernel_rfl) y
theorem coverSimMid_s3 (c : Dev nD) (t : Fin cfg0.N) (h : 1 ≤ t.val % 16 ∧ t.val % 16 ≤ 6) (p : St F) (y : S512x1.Idx) :
    ∃ pc ∈ (atSimMid m c t h p).2.2.2.1, y ∈ pc.1.set :=
  View.cover_of_tiledL (atSimMid m c t h p).2.2.2.1 S512x1.size (by sl_kernel_rfl) y
theorem coverSimLast_s0 (c : Dev nD) (t : Fin cfg0.N) (h : t.val % 16 = 7) (p : St F) (y : S512x1.Idx) :
    ∃ pc ∈ (atSimLast m c t h p).1, y ∈ pc.1.set :=
  View.cover_of_tiledL (atSimLast m c t h p).1 S512x1.size (by sl_kernel_rfl) y
theorem coverSimLast_s1 (c : Dev nD) (t : Fin cfg0.N) (h : t.val % 16 = 7) (p : St F) (y : S512x1.Idx) :
    ∃ pc ∈ (atSimLast m c t h p).2.1, y ∈ pc.1.set :=
  View.cover_of_tiledL (atSimLast m c t h p).2.1 S512x1.size (by sl_kernel_rfl) y
theorem coverSimLast_s2 (c : Dev nD) (t : Fin cfg0.N) (h : t.val % 16 = 7) (p : St F) (y : S512x1.Idx) :
    ∃ pc ∈ (atSimLast m c t h p).2.2.1, y ∈ pc.1.set :=
  View.cover_of_tiledL (atSimLast m c t h p).2.2.1 S512x1.size (by sl_kernel_rfl) y
theorem coverSimLast_s3 (c : Dev nD) (t : Fin cfg0.N) (h : t.val % 16 = 7) (p : St F) (y : S512x1.Idx) :
    ∃ pc ∈ (atSimLast m c t h p).2.2.2.1, y ∈ pc.1.set :=
  View.cover_of_tiledL (atSimLast m c t h p).2.2.2.1 S512x1.size (by sl_kernel_rfl) y
theorem coverSimLast_o0 (c : Dev nD) (t : Fin cfg0.N) (h : t.val % 16 = 7) (p : St F) (y : S512x1.Idx) :
    ∃ pc ∈ (atSimLast m c t h p).2.2.2.2.1, y ∈ pc.1.set :=
  View.cover_of_tiledL (atSimLast m c t h p).2.2.2.2.1 S512x1.size (by sl_kernel_rfl) y
theorem coverSimLast_o1 (c : Dev nD) (t : Fin cfg0.N) (h : t.val % 16 = 7) (p : St F) (y : S512x1.Idx) :
    ∃ pc ∈ (atSimLast m c t h p).2.2.2.2.2.1, y ∈ pc.1.set :=
  View.cover_of_tiledL (atSimLast m c t h p).2.2.2.2.2.1 S512x1.size (by sl_kernel_rfl) y
theorem coverSimLast_o2 (c : Dev nD) (t : Fin cfg0.N) (h : t.val % 16 = 7) (p : St F) (y : S512x1.Idx) :
    ∃ pc ∈ (atSimLast m c t h p).2.2.2.2.2.2.1, y ∈ pc.1.set :=
  View.cover_of_tiledL (atSimLast m c t h p).2.2.2.2.2.2.1 S512x1.size (by sl_kernel_rfl) y
theorem coverSimLast_o3 (c : Dev nD) (t : Fin cfg0.N) (h : t.val % 16 = 7) (p : St F) (y : S512x1.Idx) :
    ∃ pc ∈ (atSimLast m c t h p).2.2.2.2.2.2.2.1, y ∈ pc.1.set :=
  View.cover_of_tiledL (atSimLast m c t h p).2.2.2.2.2.2.2.1 S512x1.size (by sl_kernel_rfl) y
theorem coverMemFirst_s4 (c : Dev nD) (t : Fin cfg0.N) (h : t.val % 16 = 8) (y : S512x1.Idx) :
    ∃ pc ∈ (atMemFirst m c t h).1, y ∈ pc.1.set :=
  View.cover_of_tiledL (atMemFirst m c t h).1 S512x1.size (by sl_kernel_rfl) y
theorem coverMemFirst_s5 (c : Dev nD) (t : Fin cfg0.N) (h : t.val % 16 = 8) (y : S512x1.Idx) :
    ∃ pc ∈ (atMemFirst m c t h).2.1, y ∈ pc.1.set :=
  View.cover_of_tiledL (atMemFirst m c t h).2.1 S512x1.size (by sl_kernel_rfl) y
theorem coverMemFirst_s6 (c : Dev nD) (t : Fin cfg0.N) (h : t.val % 16 = 8) (y : S512x1.Idx) :
    ∃ pc ∈ (atMemFirst m c t h).2.2.1, y ∈ pc.1.set :=
  View.cover_of_tiledL (atMemFirst m c t h).2.2.1 S512x1.size (by sl_kernel_rfl) y
theorem coverMemMid_s4 (c : Dev nD) (t : Fin cfg0.N) (h : 9 ≤ t.val % 16 ∧ t.val % 16 ≤ 14) (p : St F) (y : S512x1.Idx) :
    ∃ pc ∈ (atMemMid m c t h p).1, y ∈ pc.1.set :=
  View.cover_of_tiledL (atMemMid m c t h p).1 S512x1.size (by sl_kernel_rfl) y
theorem coverMemMid_s5 (c : Dev nD) (t : Fin cfg0.N) (h : 9 ≤ t.val % 16 ∧ t.val % 16 ≤ 14) (p : St F) (y : S512x1.Idx) :
    ∃ pc ∈ (atMemMid m c t h p).2.1, y ∈ pc.1.set :=
  View.cover_of_tiledL (atMemMid m c t h p).2.1 S512x1.size (by sl_kernel_rfl) y
theorem coverMemMid_s6 (c : Dev nD) (t : Fin cfg0.N) (h : 9 ≤ t.val % 16 ∧ t.val % 16 ≤ 14) (p : St F) (y : S512x1.Idx) :
    ∃ pc ∈ (atMemMid m c t h p).2.2.1, y ∈ pc.1.set :=
  View.cover_of_tiledL (atMemMid m c t h p).2.2.1 S512x1.size (by sl_kernel_rfl) y
theorem coverMemLast_s4 (c : Dev nD) (t : Fin cfg0.N) (h : t.val % 16 = 15) (p : St F) (y : S512x1.Idx) :
    ∃ pc ∈ (atMemLast m c t h p).1, y ∈ pc.1.set :=
  View.cover_of_tiledL (atMemLast m c t h p).1 S512x1.size (by sl_kernel_rfl) y
theorem coverMemLast_s5 (c : Dev nD) (t : Fin cfg0.N) (h : t.val % 16 = 15) (p : St F) (y : S512x1.Idx) :
    ∃ pc ∈ (atMemLast m c t h p).2.1, y ∈ pc.1.set :=
  View.cover_of_tiledL (atMemLast m c t h p).2.1 S512x1.size (by sl_kernel_rfl) y
theorem coverMemLast_s6 (c : Dev nD) (t : Fin cfg0.N) (h : t.val % 16 = 15) (p : St F) (y : S512x1.Idx) :
    ∃ pc ∈ (atMemLast m c t h p).2.2.1, y ∈ pc.1.set :=
  View.cover_of_tiledL (atMemLast m c t h p).2.2.1 S512x1.size (by sl_kernel_rfl) y
theorem coverMemLast_o4 (c : Dev nD) (t : Fin cfg0.N) (h : t.val % 16 = 15) (p : St F) (y : S512x1.Idx) :
    ∃ pc ∈ (atMemLast m c t h p).2.2.2.1, y ∈ pc.1.set :=
  View.cover_of_tiledL (atMemLast m c t h p).2.2.2.1 S512x1.size (by sl_kernel_rfl) y
theorem coverMemLast_o5 (c : Dev nD) (t : Fin cfg0.N) (h : t.val % 16 = 15) (p : St F) (y : S512x1.Idx) :
    ∃ pc ∈ (atMemLast m c t h p).2.2.2.2.1, y ∈ pc.1.set :=
  View.cover_of_tiledL (atMemLast m c t h p).2.2.2.2.1 S512x1.size (by sl_kernel_rfl) y
theorem coverMemLast_o6 (c : Dev nD) (t : Fin cfg0.N) (h : t.val % 16 = 15) (p : St F) (y : S512x1.Idx) :
    ∃ pc ∈ (atMemLast m c t h p).2.2.2.2.2.1, y ∈ pc.1.set :=
  View.cover_of_tiledL (atMemLast m c t h p).2.2.2.2.2.1 S512x1.size (by sl_kernel_rfl) y

/-- What that case does not store it leaves. -/
theorem stepSimFirst_keeps (c : Dev nD) (t : Fin cfg0.N) (h : t.val % 16 = 0) (p : St F) :
    (stepSimFirst m c t h p).s4 = p.s4 ∧ (stepSimFirst m c t h p).s5 = p.s5 ∧ (stepSimFirst m c t h p).s6 = p.s6 ∧ (stepSimFirst m c t h p).o0 = p.o0 ∧ (stepSimFirst m c t h p).o1 = p.o1 ∧ (stepSimFirst m c t h p).o2 = p.o2 ∧ (stepSimFirst m c t h p).o3 = p.o3 ∧ (stepSimFirst m c t h p).o4 = p.o4 ∧ (stepSimFirst m c t h p).o5 = p.o5 ∧ (stepSimFirst m c t h p).o6 = p.o6 := by
  unfold stepSimFirst; exact ⟨rfl, rfl, rfl, rfl, rfl, rfl, rfl, rfl, rfl, rfl⟩
/-- What that case does not store it leaves. -/
theorem stepSimMid_keeps (c : Dev nD) (t : Fin cfg0.N) (h : 1 ≤ t.val % 16 ∧ t.val % 16 ≤ 6) (p : St F) :
    (stepSimMid m c t h p).s4 = p.s4 ∧ (stepSimMid m c t h p).s5 = p.s5 ∧ (stepSimMid m c t h p).s6 = p.s6 ∧ (stepSimMid m c t h p).o0 = p.o0 ∧ (stepSimMid m c t h p).o1 = p.o1 ∧ (stepSimMid m c t h p).o2 = p.o2 ∧ (stepSimMid m c t h p).o3 = p.o3 ∧ (stepSimMid m c t h p).o4 = p.o4 ∧ (stepSimMid m c t h p).o5 = p.o5 ∧ (stepSimMid m c t h p).o6 = p.o6 := by
  unfold stepSimMid; exact ⟨rfl, rfl, rfl, rfl, rfl, rfl, rfl, rfl, rfl, rfl⟩
/-- What that case does not store it leaves. -/
theorem stepSimLast_keeps (c : Dev nD) (t : Fin cfg0.N) (h : t.val % 16 = 7) (p : St F) :
    (stepSimLast m c t h p).s4 = p.s4 ∧ (stepSimLast m c t h p).s5 = p.s5 ∧ (stepSimLast m c t h p).s6 = p.s6 ∧ (stepSimLast m c t h p).o4 = p.o4 ∧ (stepSimLast m c t h p).o5 = p.o5 ∧ (stepSimLast m c t h p).o6 = p.o6 := by
  unfold stepSimLast; exact ⟨rfl, rfl, rfl, rfl, rfl, rfl⟩
/-- What that case does not store it leaves. -/
theorem stepMemFirst_keeps (c : Dev nD) (t : Fin cfg0.N) (h : t.val % 16 = 8) (p : St F) :
    (stepMemFirst m c t h p).s0 = p.s0 ∧ (stepMemFirst m c t h p).s1 = p.s1 ∧ (stepMemFirst m c t h p).s2 = p.s2 ∧ (stepMemFirst m c t h p).s3 = p.s3 ∧ (stepMemFirst m c t h p).o0 = p.o0 ∧ (stepMemFirst m c t h p).o1 = p.o1 ∧ (stepMemFirst m c t h p).o2 = p.o2 ∧ (stepMemFirst m c t h p).o3 = p.o3 ∧ (stepMemFirst m c t h p).o4 = p.o4 ∧ (stepMemFirst m c t h p).o5 = p.o5 ∧ (stepMemFirst m c t h p).o6 = p.o6 := by
  unfold stepMemFirst; exact ⟨rfl, rfl, rfl, rfl, rfl, rfl, rfl, rfl, rfl, rfl, rfl⟩
/-- What that case does not store it leaves. -/
theorem stepMemMid_keeps (c : Dev nD) (t : Fin cfg0.N) (h : 9 ≤ t.val % 16 ∧ t.val % 16 ≤ 14) (p : St F) :
    (stepMemMid m c t h p).s0 = p.s0 ∧ (stepMemMid m c t h p).s1 = p.s1 ∧ (stepMemMid m c t h p).s2 = p.s2 ∧ (stepMemMid m c t h p).s3 = p.s3 ∧ (stepMemMid m c t h p).o0 = p.o0 ∧ (stepMemMid m c t h p).o1 = p.o1 ∧ (stepMemMid m c t h p).o2 = p.o2 ∧ (stepMemMid m c t h p).o3 = p.o3 ∧ (stepMemMid m c t h p).o4 = p.o4 ∧ (stepMemMid m c t h p).o5 = p.o5 ∧ (stepMemMid m c t h p).o6 = p.o6 := by
  unfold stepMemMid; exact ⟨rfl, rfl, rfl, rfl, rfl, rfl, rfl, rfl, rfl, rfl, rfl⟩
/-- What that case does not store it leaves. -/
theorem stepMemLast_keeps (c : Dev nD) (t : Fin cfg0.N) (h : t.val % 16 = 15) (p : St F) :
    (stepMemLast m c t h p).s0 = p.s0 ∧ (stepMemLast m c t h p).s1 = p.s1 ∧ (stepMemLast m c t h p).s2 = p.s2 ∧ (stepMemLast m c t h p).s3 = p.s3 ∧ (stepMemLast m c t h p).o0 = p.o0 ∧ (stepMemLast m c t h p).o1 = p.o1 ∧ (stepMemLast m c t h p).o2 = p.o2 ∧ (stepMemLast m c t h p).o3 = p.o3 := by
  unfold stepMemLast; exact ⟨rfl, rfl, rfl, rfl, rfl, rfl, rfl, rfl⟩

/-! ## The state after each point -/

/-- The state after point `n`: the case the inner step selects, applied to the state after point `n - 1` (to nothing
    known at the first point). -/
def outsAt (c : Dev nD) : (n : ℕ) → n < cfg0.N → St F
  | 0, hn => stepSimFirst m c ⟨0, hn⟩ (Nat.zero_mod _) St.unknown
  | n + 1, hn =>
    if h0 : (n + 1) % 16 = 0 then stepSimFirst m c ⟨n + 1, hn⟩ h0 (outsAt c n (Nat.lt_of_succ_lt hn))
    else if h1 : (n + 1) % 16 ≤ 6 then stepSimMid m c ⟨n + 1, hn⟩ ⟨by show 1 ≤ (n + 1) % 16; omega, h1⟩ (outsAt c n (Nat.lt_of_succ_lt hn))
    else if h2 : (n + 1) % 16 = 7 then stepSimLast m c ⟨n + 1, hn⟩ h2 (outsAt c n (Nat.lt_of_succ_lt hn))
    else if h3 : (n + 1) % 16 = 8 then stepMemFirst m c ⟨n + 1, hn⟩ h3 (outsAt c n (Nat.lt_of_succ_lt hn))
    else if h4 : (n + 1) % 16 ≤ 14 then stepMemMid m c ⟨n + 1, hn⟩ ⟨by show 9 ≤ (n + 1) % 16; omega, h4⟩ (outsAt c n (Nat.lt_of_succ_lt hn))
    else stepMemLast m c ⟨n + 1, hn⟩ (by show (n + 1) % 16 = 15; omega) (outsAt c n (Nat.lt_of_succ_lt hn))

/-- The position before a point is a position. -/
theorem pred_lt (t : Fin cfg0.N) : t.val - 1 < cfg0.N := Nat.lt_of_le_of_lt (Nat.sub_le _ _) t.isLt

/-- The state the body finds at point `t`: the state after the point before, nothing known at the first point. -/
def prevAt (c : Dev nD) (t : Fin cfg0.N) : St F :=
  if t.val = 0 then St.unknown else outsAt m c (t.val - 1) (pred_lt t)

theorem outsAt_simFirst (c : Dev nD) (t : Fin cfg0.N) (h : t.val % 16 = 0) :
    outsAt m c t.val t.isLt = stepSimFirst m c t h (prevAt m c t) := by
  obtain ⟨n, hn⟩ := t
  dsimp only at h
  cases n with
  | zero => unfold prevAt; rw [if_pos rfl]; rfl
  | succ n => unfold prevAt; rw [if_neg (Nat.succ_ne_zero n)]; exact (dif_pos h)

theorem outsAt_simMid (c : Dev nD) (t : Fin cfg0.N) (h : 1 ≤ t.val % 16 ∧ t.val % 16 ≤ 6) :
    outsAt m c t.val t.isLt = stepSimMid m c t h (prevAt m c t) := by
  obtain ⟨n, hn⟩ := t
  dsimp only at h
  cases n with
  | zero => exact absurd h.1 (by simp)
  | succ n => unfold prevAt; rw [if_neg (Nat.succ_ne_zero n)]; exact (dif_neg (by have := h.1; omega)).trans (dif_pos h.2)

theorem outsAt_simLast (c : Dev nD) (t : Fin cfg0.N) (h : t.val % 16 = 7) :
    outsAt m c t.val t.isLt = stepSimLast m c t h (prevAt m c t) := by
  obtain ⟨n, hn⟩ := t
  dsimp only at h
  cases n with
  | zero => exact absurd h (by simp)
  | succ n => unfold prevAt; rw [if_neg (Nat.succ_ne_zero n)]; exact (dif_neg (by omega)).trans ((dif_neg (by omega)).trans (dif_pos h))

theorem outsAt_memFirst (c : Dev nD) (t : Fin cfg0.N) (h : t.val % 16 = 8) :
    outsAt m c t.val t.isLt = stepMemFirst m c t h (prevAt m c t) := by
  obtain ⟨n, hn⟩ := t
  dsimp only at h
  cases n with
  | zero => exact absurd h (by simp)
  | succ n => unfold prevAt; rw [if_neg (Nat.succ_ne_zero n)]; exact (dif_neg (by omega)).trans ((dif_neg (by omega)).trans ((dif_neg (by omega)).trans (dif_pos h)))

theorem outsAt_memMid (c : Dev nD) (t : Fin cfg0.N) (h : 9 ≤ t.val % 16 ∧ t.val % 16 ≤ 14) :
    outsAt m c t.val t.isLt = stepMemMid m c t h (prevAt m c t) := by
  obtain ⟨n, hn⟩ := t
  dsimp only at h
  cases n with
  | zero => exact absurd h.1 (by simp)
  | succ n => unfold prevAt; rw [if_neg (Nat.succ_ne_zero n)]; exact (dif_neg (by have := h.1; omega)).trans ((dif_neg (by have := h.1; omega)).trans ((dif_neg (by have := h.1; omega)).trans ((dif_neg (by have := h.1; omega)).trans (dif_pos h.2))))

theorem outsAt_memLast (c : Dev nD) (t : Fin cfg0.N) (h : t.val % 16 = 15) :
    outsAt m c t.val t.isLt = stepMemLast m c t h (prevAt m c t) := by
  obtain ⟨n, hn⟩ := t
  dsimp only at h
  cases n with
  | zero => exact absurd h (by simp)
  | succ n => unfold prevAt; rw [if_neg (Nat.succ_ne_zero n)]; exact (dif_neg (by omega)).trans ((dif_neg (by omega)).trans ((dif_neg (by omega)).trans ((dif_neg (by omega)).trans (dif_neg (by omega)))))

/-! From here on the state and the cases' runs are used through the equations and lemmas above only. -/
attribute [irreducible] outsAt atSimFirst atSimMid atSimLast atMemFirst atMemMid atMemLast

end Cert.KernelIdeal.Body

end
-- ==== Proof.BodyData.lean ====
/-
  The proof data of the fused kernel's region, and what each window's staging buffer holds at a point.

  The proof data follow the state after each point (the seven running statistics and the seven output blocks). Between
  points the four similarity statistics are held at the state's components; the three memory statistics too while the
  memory sweep is under way, and at anything before its first tile, which resets them. Each input window's staging buffer
  holds its block. An output block's staging buffer is left at the state's component where the body stores it and handed
  back as found where it does not; the similarity sweep's four blocks, stored at the seventh inner step and written back
  only at the fifteenth, still hold at every point in between what the seventh step stored.
-/
import proofs.«130741_j67869073212268_2_alg».proof.Proof.BodyAccum

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The windows at a point: where the outputs are idle and where they are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem idle6 : ∀ t : Fin cfg0.N, t.val % 16 ≠ 7 → cfg0.idle 6 (grid0.coords t) = true := by decide +kernel
theorem live6 : ∀ t : Fin cfg0.N, t.val % 16 = 7 → cfg0.idle 6 (grid0.coords t) = false := by decide +kernel
theorem idle7 : ∀ t : Fin cfg0.N, t.val % 16 ≠ 7 → cfg0.idle 7 (grid0.coords t) = true := by decide +kernel
theorem live7 : ∀ t : Fin cfg0.N, t.val % 16 = 7 → cfg0.idle 7 (grid0.coords t) = false := by decide +kernel
theorem idle8 : ∀ t : Fin cfg0.N, t.val % 16 ≠ 7 → cfg0.idle 8 (grid0.coords t) = true := by decide +kernel
theorem live8 : ∀ t : Fin cfg0.N, t.val % 16 = 7 → cfg0.idle 8 (grid0.coords t) = false := by decide +kernel
theorem idle9 : ∀ t : Fin cfg0.N, t.val % 16 ≠ 7 → cfg0.idle 9 (grid0.coords t) = true := by decide +kernel
theorem live9 : ∀ t : Fin cfg0.N, t.val % 16 = 7 → cfg0.idle 9 (grid0.coords t) = false := by decide +kernel
theorem idle10 : ∀ t : Fin cfg0.N, t.val % 16 ≠ 15 → cfg0.idle 10 (grid0.coords t) = true := by decide +kernel
theorem live10 : ∀ t : Fin cfg0.N, t.val % 16 = 15 → cfg0.idle 10 (grid0.coords t) = false := by decide +kernel
theorem idle11 : ∀ t : Fin cfg0.N, t.val % 16 ≠ 15 → cfg0.idle 11 (grid0.coords t) = true := by decide +kernel
theorem live11 : ∀ t : Fin cfg0.N, t.val % 16 = 15 → cfg0.idle 11 (grid0.coords t) = false := by decide +kernel
theorem idle12 : ∀ t : Fin cfg0.N, t.val % 16 ≠ 15 → cfg0.idle 12 (grid0.coords t) = true := by decide +kernel
theorem live12 : ∀ t : Fin cfg0.N, t.val % 16 = 15 → cfg0.idle 12 (grid0.coords t) = false := by decide +kernel
theorem flushAt6 (t : Fin cfg0.N) (h : t.val % 16 = 15) : (cfg0.win 6).flush t = true := (flush0_6 t).mpr h
theorem noFlush6 (t : Fin cfg0.N) (h : t.val % 16 ≠ 15) : (cfg0.win 6).flush t = false :=
  Bool.eq_false_iff.mpr fun hf => h ((flush0_6 t).mp hf)
theorem noFetch6 : ∀ t : Fin cfg0.N, (cfg0.win 6).fetch t = false := by decide +kernel
theorem flushAt7 (t : Fin cfg0.N) (h : t.val % 16 = 15) : (cfg0.win 7).flush t = true := (flush0_7 t).mpr h
theorem noFlush7 (t : Fin cfg0.N) (h : t.val % 16 ≠ 15) : (cfg0.win 7).flush t = false :=
  Bool.eq_false_iff.mpr fun hf => h ((flush0_7 t).mp hf)
theorem noFetch7 : ∀ t : Fin cfg0.N, (cfg0.win 7).fetch t = false := by decide +kernel
theorem flushAt8 (t : Fin cfg0.N) (h : t.val % 16 = 15) : (cfg0.win 8).flush t = true := (flush0_8 t).mpr h
theorem noFlush8 (t : Fin cfg0.N) (h : t.val % 16 ≠ 15) : (cfg0.win 8).flush t = false :=
  Bool.eq_false_iff.mpr fun hf => h ((flush0_8 t).mp hf)
theorem noFetch8 : ∀ t : Fin cfg0.N, (cfg0.win 8).fetch t = false := by decide +kernel
theorem flushAt9 (t : Fin cfg0.N) (h : t.val % 16 = 15) : (cfg0.win 9).flush t = true := (flush0_9 t).mpr h
theorem noFlush9 (t : Fin cfg0.N) (h : t.val % 16 ≠ 15) : (cfg0.win 9).flush t = false :=
  Bool.eq_false_iff.mpr fun hf => h ((flush0_9 t).mp hf)
theorem noFetch9 : ∀ t : Fin cfg0.N, (cfg0.win 9).fetch t = false := by decide +kernel
theorem flushAt10 (t : Fin cfg0.N) (h : t.val % 16 = 15) : (cfg0.win 10).flush t = true := (flush0_10 t).mpr h
theorem noFlush10 (t : Fin cfg0.N) (h : t.val % 16 ≠ 15) : (cfg0.win 10).flush t = false :=
  Bool.eq_false_iff.mpr fun hf => h ((flush0_10 t).mp hf)
theorem noFetch10 : ∀ t : Fin cfg0.N, (cfg0.win 10).fetch t = false := by decide +kernel
theorem flushAt11 (t : Fin cfg0.N) (h : t.val % 16 = 15) : (cfg0.win 11).flush t = true := (flush0_11 t).mpr h
theorem noFlush11 (t : Fin cfg0.N) (h : t.val % 16 ≠ 15) : (cfg0.win 11).flush t = false :=
  Bool.eq_false_iff.mpr fun hf => h ((flush0_11 t).mp hf)
theorem noFetch11 : ∀ t : Fin cfg0.N, (cfg0.win 11).fetch t = false := by decide +kernel
theorem flushAt12 (t : Fin cfg0.N) (h : t.val % 16 = 15) : (cfg0.win 12).flush t = true := (flush0_12 t).mpr h
theorem noFlush12 (t : Fin cfg0.N) (h : t.val % 16 ≠ 15) : (cfg0.win 12).flush t = false :=
  Bool.eq_false_iff.mpr fun hf => h ((flush0_12 t).mp hf)
theorem noFetch12 : ∀ t : Fin cfg0.N, (cfg0.win 12).fetch t = false := by decide +kernel

/-! ## The invariant between points -/

/-- The three memory statistics between points: named while the memory sweep is under way (the point just done has
    inner step at least 8), at anything otherwise (the sweep's first tile resets them before reading them). -/
def memPart (c : Dev nD) (n : ℕ) (hn : n < cfg0.N) : sProp 𝕄 :=
  if 8 ≤ n % 16 then
    iprop(owns (c : Thread nD τ) sc4 fullShare (outsAt m c n hn).s4 ∗ owns (c : Thread nD τ) sc5 fullShare (outsAt m c n hn).s5 ∗ owns (c : Thread nD τ) sc6 fullShare (outsAt m c n hn).s6)
  else
    iprop((∃ d, owns (c : Thread nD τ) sc4 fullShare d) ∗ (∃ d, owns (c : Thread nD τ) sc5 fullShare d) ∗ (∃ d, owns (c : Thread nD τ) sc6 fullShare d))

theorem memPart_pos (c : Dev nD) (n : ℕ) (hn : n < cfg0.N) (h : 8 ≤ n % 16) :
    memPart m c n hn = iprop(owns (c : Thread nD τ) sc4 fullShare (outsAt m c n hn).s4 ∗ owns (c : Thread nD τ) sc5 fullShare (outsAt m c n hn).s5 ∗ owns (c : Thread nD τ) sc6 fullShare (outsAt m c n hn).s6) := by
  unfold memPart; rw [if_pos h]
theorem memPart_neg (c : Dev nD) (n : ℕ) (hn : n < cfg0.N) (h : ¬8 ≤ n % 16) :
    memPart m c n hn = iprop((∃ d, owns (c : Thread nD τ) sc4 fullShare d) ∗ (∃ d, owns (c : Thread nD τ) sc5 fullShare d) ∗ (∃ d, owns (c : Thread nD τ) sc6 fullShare d)) := by
  unfold memPart; rw [if_neg h]

/-- The region's invariant before position `n`: before the first point every scratch at anything; afterwards the four
    similarity statistics at what the point before left, the memory statistics as `memPart` says, and the generator
    register at some state. -/
def PhiS (c : Dev nD) : (n : ℕ) → n ≤ cfg0.N → sProp 𝕄
  | 0, _ => Pipeline.ΦA spec0 c
  | n + 1, hn => iprop(iprop(owns (c : Thread nD τ) sc0 fullShare (outsAt m c n hn).s0 ∗ owns (c : Thread nD τ) sc1 fullShare (outsAt m c n hn).s1 ∗ owns (c : Thread nD τ) sc2 fullShare (outsAt m c n hn).s2 ∗ owns (c : Thread nD τ) sc3 fullShare (outsAt m c n hn).s3 ∗ memPart m c n hn) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) sc0 fullShare (outsAt m c n hn).s0 ∗ owns (c : Thread nD τ) sc1 fullShare (outsAt m c n hn).s1 ∗ owns (c : Thread nD τ) sc2 fullShare (outsAt m c n hn).s2 ∗ owns (c : Thread nD τ) sc3 fullShare (outsAt m c n hn).s3 ∗ memPart m c n hn) ∗ (∃ r, prngReg c r)) := rfl
theorem PhiS_pos (c : Dev nD) (n : ℕ) (h : n ≤ cfg0.N) (hz : n ≠ 0) :
    PhiS m c n h = iprop(iprop(owns (c : Thread nD τ) sc0 fullShare (outsAt m c (n - 1) (by omega)).s0 ∗ owns (c : Thread nD τ) sc1 fullShare (outsAt m c (n - 1) (by omega)).s1 ∗ owns (c : Thread nD τ) sc2 fullShare (outsAt m c (n - 1) (by omega)).s2 ∗ owns (c : Thread nD τ) sc3 fullShare (outsAt m c (n - 1) (by omega)).s3 ∗ memPart m c (n - 1) (by omega)) ∗ (∃ r, prngReg c r)) := by
  cases n with
  | zero => exact absurd rfl hz
  | succ n => rfl

theorem prevAt_pos (c : Dev nD) (t : Fin cfg0.N) (hz : t.val ≠ 0) : prevAt m c t = outsAt m c (t.val - 1) (pred_lt t) := by
  unfold prevAt; rw [if_neg hz]
theorem prevAt_zero (c : Dev nD) (t : Fin cfg0.N) (hz : t.val = 0) : prevAt m c t = (St.unknown : St F) := by
  unfold prevAt; rw [if_pos hz]

/-! ## The pipeline's proof data -/

/-- The proof data on core `c`: the arrays as the region finds them; after the body at point `t` each input's buffer at
    its block and each output's at the state's component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).o0
    | ⟨7, _⟩ => (outsAt m c t.val t.isLt).o1
    | ⟨8, _⟩ => (outsAt m c t.val t.isLt).o2
    | ⟨9, _⟩ => (outsAt m c t.val t.isLt).o3
    | ⟨10, _⟩ => (outsAt m c t.val t.isLt).o4
    | ⟨11, _⟩ => (outsAt m c t.val t.isLt).o5
    | ⟨12, _⟩ => (outsAt m c t.val t.isLt).o6
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).o0 := by dsimp only [dats]
theorem after7 (c : Dev nD) (t : Fin cfg0.N) : (dats m 0 c).after 7 t = (outsAt m c t.val t.isLt).o1 := by dsimp only [dats]
theorem after8 (c : Dev nD) (t : Fin cfg0.N) : (dats m 0 c).after 8 t = (outsAt m c t.val t.isLt).o2 := by dsimp only [dats]
theorem after9 (c : Dev nD) (t : Fin cfg0.N) : (dats m 0 c).after 9 t = (outsAt m c t.val t.isLt).o3 := by dsimp only [dats]
theorem after10 (c : Dev nD) (t : Fin cfg0.N) : (dats m 0 c).after 10 t = (outsAt m c t.val t.isLt).o4 := by dsimp only [dats]
theorem after11 (c : Dev nD) (t : Fin cfg0.N) : (dats m 0 c).after 11 t = (outsAt m c t.val t.isLt).o5 := by dsimp only [dats]
theorem after12 (c : Dev nD) (t : Fin cfg0.N) : (dats m 0 c).after 12 t = (outsAt m c t.val t.isLt).o6 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## An output block of the similarity sweep through the memory sweep

The four similarity statistics are stored to their output blocks at inner step 7, and those blocks are written back
only at inner step 15. In between the body does not touch them, so at every point of the memory sweep the block's
staging buffer still holds what step 7 stored. -/

/-- Through the memory sweep the similarity sweep's output components do not change. -/
theorem o_kept (c : Dev nD) (t : Fin cfg0.N) (h : 8 ≤ t.val % 16) :
    (outsAt m c t.val t.isLt).o0 = (outsAt m c (t.val - 1) (pred_lt t)).o0
    ∧ (outsAt m c t.val t.isLt).o1 = (outsAt m c (t.val - 1) (pred_lt t)).o1
    ∧ (outsAt m c t.val t.isLt).o2 = (outsAt m c (t.val - 1) (pred_lt t)).o2
    ∧ (outsAt m c t.val t.isLt).o3 = (outsAt m c (t.val - 1) (pred_lt t)).o3 := by
  have hz : t.val ≠ 0 := by intro h0; rw [h0] at h; exact absurd h (by simp)
  by_cases h8 : t.val % 16 = 8
  · rw [outsAt_memFirst m c t h8, prevAt_pos m c t hz]
    have k := stepMemFirst_keeps m c t h8 (outsAt m c (t.val - 1) (pred_lt t))
    exact ⟨k.2.2.2.2.1, k.2.2.2.2.2.1, k.2.2.2.2.2.2.1, k.2.2.2.2.2.2.2.1⟩
  · by_cases h15 : t.val % 16 = 15
    · rw [outsAt_memLast m c t h15, prevAt_pos m c t hz]
      have k := stepMemLast_keeps m c t h15 (outsAt m c (t.val - 1) (pred_lt t))
      exact ⟨k.2.2.2.2.1, k.2.2.2.2.2.1, k.2.2.2.2.2.2.1, k.2.2.2.2.2.2.2⟩
    · have h9 : 9 ≤ t.val % 16 ∧ t.val % 16 ≤ 14 := ⟨by omega, by omega⟩
      rw [outsAt_memMid m c t h9, prevAt_pos m c t hz]
      have k := stepMemMid_keeps m c t h9 (outsAt m c (t.val - 1) (pred_lt t))
      exact ⟨k.2.2.2.2.1, k.2.2.2.2.2.1, k.2.2.2.2.2.2.1, k.2.2.2.2.2.2.2.1⟩

/-- Through the memory sweep the similarity statistics themselves do not change either. -/
theorem s_kept (c : Dev nD) (t : Fin cfg0.N) (h : 8 ≤ t.val % 16) :
    (outsAt m c t.val t.isLt).s0 = (outsAt m c (t.val - 1) (pred_lt t)).s0
    ∧ (outsAt m c t.val t.isLt).s1 = (outsAt m c (t.val - 1) (pred_lt t)).s1
    ∧ (outsAt m c t.val t.isLt).s2 = (outsAt m c (t.val - 1) (pred_lt t)).s2
    ∧ (outsAt m c t.val t.isLt).s3 = (outsAt m c (t.val - 1) (pred_lt t)).s3 := by
  have hz : t.val ≠ 0 := by intro h0; rw [h0] at h; exact absurd h (by simp)
  by_cases h8 : t.val % 16 = 8
  · rw [outsAt_memFirst m c t h8, prevAt_pos m c t hz]
    have k := stepMemFirst_keeps m c t h8 (outsAt m c (t.val - 1) (pred_lt t))
    exact ⟨k.1, k.2.1, k.2.2.1, k.2.2.2.1⟩
  · by_cases h15 : t.val % 16 = 15
    · rw [outsAt_memLast m c t h15, prevAt_pos m c t hz]
      have k := stepMemLast_keeps m c t h15 (outsAt m c (t.val - 1) (pred_lt t))
      exact ⟨k.1, k.2.1, k.2.2.1, k.2.2.2.1⟩
    · have h9 : 9 ≤ t.val % 16 ∧ t.val % 16 ≤ 14 := ⟨by omega, by omega⟩
      rw [outsAt_memMid m c t h9, prevAt_pos m c t hz]
      have k := stepMemMid_keeps m c t h9 (outsAt m c (t.val - 1) (pred_lt t))
      exact ⟨k.1, k.2.1, k.2.2.1, k.2.2.2.1⟩

/-- At every point of the memory sweep, output block 0's staging buffer holds what the point before left in the state. -/
theorem held6 (c : Dev nD) : ∀ (n : ℕ) (hn : n < cfg0.N), 8 ≤ n % 16 → ∀ d,
    (dats m 0 c).before 6 ⟨n, hn⟩ d = (outsAt m c (n - 1) (Nat.lt_of_le_of_lt (Nat.sub_le _ _) hn)).o0 := by
  intro n
  induction n with
  | zero => intro hn h; exact absurd h (by simp)
  | succ k ih =>
    intro hn h d
    have hk : k < cfg0.N := Nat.lt_of_succ_lt hn
    rw [(dats m 0 c).before_of_pos 6 ⟨k + 1, hn⟩ (Nat.succ_ne_zero k) (noFetch6 _) d]
    simp only [Nat.add_sub_cancel]
    rw [noFlush6 ⟨k, hk⟩ (by show k % 16 ≠ 15; omega), if_neg Bool.false_ne_true]
    unfold Dat.left
    by_cases h8 : (k + 1) % 16 = 8
    · rw [live6 ⟨k, hk⟩ (by show k % 16 = 7; omega)]
      show (dats m 0 c).kept 6 ⟨k, hk⟩ d = _
      unfold Dat.kept
      rw [Pipeline.fill_of_clip_none 6 _ (fun _ => rfl) d ((dats m 0 c).after 6 ⟨k, hk⟩), Pipeline.Window.fill_cut, after6]
    · rw [idle6 ⟨k, hk⟩ (by show k % 16 ≠ 7; omega)]
      show (dats m 0 c).before 6 ⟨k, hk⟩ d = _
      rw [ih hk (by omega) d]
      exact ((o_kept m c ⟨k, hk⟩ (by show 8 ≤ k % 16; omega)).1).symm

/-- At every point of the memory sweep, output block 1's staging buffer holds what the point before left in the state. -/
theorem held7 (c : Dev nD) : ∀ (n : ℕ) (hn : n < cfg0.N), 8 ≤ n % 16 → ∀ d,
    (dats m 0 c).before 7 ⟨n, hn⟩ d = (outsAt m c (n - 1) (Nat.lt_of_le_of_lt (Nat.sub_le _ _) hn)).o1 := by
  intro n
  induction n with
  | zero => intro hn h; exact absurd h (by simp)
  | succ k ih =>
    intro hn h d
    have hk : k < cfg0.N := Nat.lt_of_succ_lt hn
    rw [(dats m 0 c).before_of_pos 7 ⟨k + 1, hn⟩ (Nat.succ_ne_zero k) (noFetch7 _) d]
    simp only [Nat.add_sub_cancel]
    rw [noFlush7 ⟨k, hk⟩ (by show k % 16 ≠ 15; omega), if_neg Bool.false_ne_true]
    unfold Dat.left
    by_cases h8 : (k + 1) % 16 = 8
    · rw [live7 ⟨k, hk⟩ (by show k % 16 = 7; omega)]
      show (dats m 0 c).kept 7 ⟨k, hk⟩ d = _
      unfold Dat.kept
      rw [Pipeline.fill_of_clip_none 7 _ (fun _ => rfl) d ((dats m 0 c).after 7 ⟨k, hk⟩), Pipeline.Window.fill_cut, after7]
    · rw [idle7 ⟨k, hk⟩ (by show k % 16 ≠ 7; omega)]
      show (dats m 0 c).before 7 ⟨k, hk⟩ d = _
      rw [ih hk (by omega) d]
      exact ((o_kept m c ⟨k, hk⟩ (by show 8 ≤ k % 16; omega)).2.1).symm

/-- At every point of the memory sweep, output block 2's staging buffer holds what the point before left in the state. -/
theorem held8 (c : Dev nD) : ∀ (n : ℕ) (hn : n < cfg0.N), 8 ≤ n % 16 → ∀ d,
    (dats m 0 c).before 8 ⟨n, hn⟩ d = (outsAt m c (n - 1) (Nat.lt_of_le_of_lt (Nat.sub_le _ _) hn)).o2 := by
  intro n
  induction n with
  | zero => intro hn h; exact absurd h (by simp)
  | succ k ih =>
    intro hn h d
    have hk : k < cfg0.N := Nat.lt_of_succ_lt hn
    rw [(dats m 0 c).before_of_pos 8 ⟨k + 1, hn⟩ (Nat.succ_ne_zero k) (noFetch8 _) d]
    simp only [Nat.add_sub_cancel]
    rw [noFlush8 ⟨k, hk⟩ (by show k % 16 ≠ 15; omega), if_neg Bool.false_ne_true]
    unfold Dat.left
    by_cases h8 : (k + 1) % 16 = 8
    · rw [live8 ⟨k, hk⟩ (by show k % 16 = 7; omega)]
      show (dats m 0 c).kept 8 ⟨k, hk⟩ d = _
      unfold Dat.kept
      rw [Pipeline.fill_of_clip_none 8 _ (fun _ => rfl) d ((dats m 0 c).after 8 ⟨k, hk⟩), Pipeline.Window.fill_cut, after8]
    · rw [idle8 ⟨k, hk⟩ (by show k % 16 ≠ 7; omega)]
      show (dats m 0 c).before 8 ⟨k, hk⟩ d = _
      rw [ih hk (by omega) d]
      exact ((o_kept m c ⟨k, hk⟩ (by show 8 ≤ k % 16; omega)).2.2.1).symm

/-- At every point of the memory sweep, output block 3's staging buffer holds what the point before left in the state. -/
theorem held9 (c : Dev nD) : ∀ (n : ℕ) (hn : n < cfg0.N), 8 ≤ n % 16 → ∀ d,
    (dats m 0 c).before 9 ⟨n, hn⟩ d = (outsAt m c (n - 1) (Nat.lt_of_le_of_lt (Nat.sub_le _ _) hn)).o3 := by
  intro n
  induction n with
  | zero => intro hn h; exact absurd h (by simp)
  | succ k ih =>
    intro hn h d
    have hk : k < cfg0.N := Nat.lt_of_succ_lt hn
    rw [(dats m 0 c).before_of_pos 9 ⟨k + 1, hn⟩ (Nat.succ_ne_zero k) (noFetch9 _) d]
    simp only [Nat.add_sub_cancel]
    rw [noFlush9 ⟨k, hk⟩ (by show k % 16 ≠ 15; omega), if_neg Bool.false_ne_true]
    unfold Dat.left
    by_cases h8 : (k + 1) % 16 = 8
    · rw [live9 ⟨k, hk⟩ (by show k % 16 = 7; omega)]
      show (dats m 0 c).kept 9 ⟨k, hk⟩ d = _
      unfold Dat.kept
      rw [Pipeline.fill_of_clip_none 9 _ (fun _ => rfl) d ((dats m 0 c).after 9 ⟨k, hk⟩), Pipeline.Window.fill_cut, after9]
    · rw [idle9 ⟨k, hk⟩ (by show k % 16 ≠ 7; omega)]
      show (dats m 0 c).before 9 ⟨k, hk⟩ d = _
      rw [ih hk (by omega) d]
      exact ((o_kept m c ⟨k, hk⟩ (by show 8 ≤ k % 16; omega)).2.2.2).symm

/-! ## What the body must leave in each window's buffer, by the window's kind at the point -/

theorem leavesIn0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live0 t], after0]
theorem leavesIn1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live1 t], after1]
theorem leavesIn2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live2 t], after2]
theorem leavesIn3 (c : Dev nD) (t : Fin cfg0.N) :
    (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [live3 t], after3]
theorem leavesIn4 (c : Dev nD) (t : Fin cfg0.N) :
    (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [live4 t], after4]
theorem leavesIn5 (c : Dev nD) (t : Fin cfg0.N) :
    (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [live5 t], after5]
theorem leavesIdle6 (c : Dev nD) (t : Fin cfg0.N) (hi : cfg0.idle 6 (grid0.coords t) = true) (hf : (cfg0.win 6).flush t = false) :
    (dats m 0 c).leavesExact 6 t = iprop(∃ d, owns (c : Thread nD τ) (ms6 t) fullShare ((dats m 0 c).before 6 t d)) :=
  Dat.leavesExact_idle (dats m 0 c) 6 t hi hf
theorem leavesLive6 (c : Dev nD) (t : Fin cfg0.N) (hl : cfg0.idle 6 (grid0.coords t) = false) :
    (dats m 0 c).leavesExact 6 t = owns (c : Thread nD τ) (ms6 t) fullShare (outsAt m c t.val t.isLt).o0 := by
  rw [show (dats m 0 c).leavesExact 6 t = owns (c : Thread nD τ) (ms6 t) fullShare ((dats m 0 c).after 6 t) from by
    unfold Dat.leavesExact; rw [hl], after6]
theorem leavesIdle7 (c : Dev nD) (t : Fin cfg0.N) (hi : cfg0.idle 7 (grid0.coords t) = true) (hf : (cfg0.win 7).flush t = false) :
    (dats m 0 c).leavesExact 7 t = iprop(∃ d, owns (c : Thread nD τ) (ms7 t) fullShare ((dats m 0 c).before 7 t d)) :=
  Dat.leavesExact_idle (dats m 0 c) 7 t hi hf
theorem leavesLive7 (c : Dev nD) (t : Fin cfg0.N) (hl : cfg0.idle 7 (grid0.coords t) = false) :
    (dats m 0 c).leavesExact 7 t = owns (c : Thread nD τ) (ms7 t) fullShare (outsAt m c t.val t.isLt).o1 := by
  rw [show (dats m 0 c).leavesExact 7 t = owns (c : Thread nD τ) (ms7 t) fullShare ((dats m 0 c).after 7 t) from by
    unfold Dat.leavesExact; rw [hl], after7]
theorem leavesIdle8 (c : Dev nD) (t : Fin cfg0.N) (hi : cfg0.idle 8 (grid0.coords t) = true) (hf : (cfg0.win 8).flush t = false) :
    (dats m 0 c).leavesExact 8 t = iprop(∃ d, owns (c : Thread nD τ) (ms8 t) fullShare ((dats m 0 c).before 8 t d)) :=
  Dat.leavesExact_idle (dats m 0 c) 8 t hi hf
theorem leavesLive8 (c : Dev nD) (t : Fin cfg0.N) (hl : cfg0.idle 8 (grid0.coords t) = false) :
    (dats m 0 c).leavesExact 8 t = owns (c : Thread nD τ) (ms8 t) fullShare (outsAt m c t.val t.isLt).o2 := by
  rw [show (dats m 0 c).leavesExact 8 t = owns (c : Thread nD τ) (ms8 t) fullShare ((dats m 0 c).after 8 t) from by
    unfold Dat.leavesExact; rw [hl], after8]
theorem leavesIdle9 (c : Dev nD) (t : Fin cfg0.N) (hi : cfg0.idle 9 (grid0.coords t) = true) (hf : (cfg0.win 9).flush t = false) :
    (dats m 0 c).leavesExact 9 t = iprop(∃ d, owns (c : Thread nD τ) (ms9 t) fullShare ((dats m 0 c).before 9 t d)) :=
  Dat.leavesExact_idle (dats m 0 c) 9 t hi hf
theorem leavesLive9 (c : Dev nD) (t : Fin cfg0.N) (hl : cfg0.idle 9 (grid0.coords t) = false) :
    (dats m 0 c).leavesExact 9 t = owns (c : Thread nD τ) (ms9 t) fullShare (outsAt m c t.val t.isLt).o3 := by
  rw [show (dats m 0 c).leavesExact 9 t = owns (c : Thread nD τ) (ms9 t) fullShare ((dats m 0 c).after 9 t) from by
    unfold Dat.leavesExact; rw [hl], after9]
theorem leavesIdle10 (c : Dev nD) (t : Fin cfg0.N) (hi : cfg0.idle 10 (grid0.coords t) = true) (hf : (cfg0.win 10).flush t = false) :
    (dats m 0 c).leavesExact 10 t = iprop(∃ d, owns (c : Thread nD τ) (ms10 t) fullShare ((dats m 0 c).before 10 t d)) :=
  Dat.leavesExact_idle (dats m 0 c) 10 t hi hf
theorem leavesLive10 (c : Dev nD) (t : Fin cfg0.N) (hl : cfg0.idle 10 (grid0.coords t) = false) :
    (dats m 0 c).leavesExact 10 t = owns (c : Thread nD τ) (ms10 t) fullShare (outsAt m c t.val t.isLt).o4 := by
  rw [show (dats m 0 c).leavesExact 10 t = owns (c : Thread nD τ) (ms10 t) fullShare ((dats m 0 c).after 10 t) from by
    unfold Dat.leavesExact; rw [hl], after10]
theorem leavesIdle11 (c : Dev nD) (t : Fin cfg0.N) (hi : cfg0.idle 11 (grid0.coords t) = true) (hf : (cfg0.win 11).flush t = false) :
    (dats m 0 c).leavesExact 11 t = iprop(∃ d, owns (c : Thread nD τ) (ms11 t) fullShare ((dats m 0 c).before 11 t d)) :=
  Dat.leavesExact_idle (dats m 0 c) 11 t hi hf
theorem leavesLive11 (c : Dev nD) (t : Fin cfg0.N) (hl : cfg0.idle 11 (grid0.coords t) = false) :
    (dats m 0 c).leavesExact 11 t = owns (c : Thread nD τ) (ms11 t) fullShare (outsAt m c t.val t.isLt).o5 := by
  rw [show (dats m 0 c).leavesExact 11 t = owns (c : Thread nD τ) (ms11 t) fullShare ((dats m 0 c).after 11 t) from by
    unfold Dat.leavesExact; rw [hl], after11]
theorem leavesIdle12 (c : Dev nD) (t : Fin cfg0.N) (hi : cfg0.idle 12 (grid0.coords t) = true) (hf : (cfg0.win 12).flush t = false) :
    (dats m 0 c).leavesExact 12 t = iprop(∃ d, owns (c : Thread nD τ) (ms12 t) fullShare ((dats m 0 c).before 12 t d)) :=
  Dat.leavesExact_idle (dats m 0 c) 12 t hi hf
theorem leavesLive12 (c : Dev nD) (t : Fin cfg0.N) (hl : cfg0.idle 12 (grid0.coords t) = false) :
    (dats m 0 c).leavesExact 12 t = owns (c : Thread nD τ) (ms12 t) fullShare (outsAt m c t.val t.isLt).o6 := by
  rw [show (dats m 0 c).leavesExact 12 t = owns (c : Thread nD τ) (ms12 t) fullShare ((dats m 0 c).after 12 t) from by
    unfold Dat.leavesExact; rw [hl], after12]
theorem leavesBack6 (c : Dev nD) (t : Fin cfg0.N) (hi : cfg0.idle 6 (grid0.coords t) = true) (hf : (cfg0.win 6).flush t = true) :
    (dats m 0 c).leavesExact 6 t = owns (c : Thread nD τ) (ms6 t) fullShare (outsAt m c t.val t.isLt).o0 := by
  rw [show (dats m 0 c).leavesExact 6 t = owns (c : Thread nD τ) (ms6 t) fullShare ((dats m 0 c).after 6 t) from by
    unfold Dat.leavesExact; rw [hi, hf], after6]
theorem heldAt6 (c : Dev nD) (t : Fin cfg0.N) (h : 8 ≤ t.val % 16) (d) :
    (dats m 0 c).before 6 t d = (outsAt m c (t.val - 1) (pred_lt t)).o0 := held6 m c t.val t.isLt h d
theorem leavesBack7 (c : Dev nD) (t : Fin cfg0.N) (hi : cfg0.idle 7 (grid0.coords t) = true) (hf : (cfg0.win 7).flush t = true) :
    (dats m 0 c).leavesExact 7 t = owns (c : Thread nD τ) (ms7 t) fullShare (outsAt m c t.val t.isLt).o1 := by
  rw [show (dats m 0 c).leavesExact 7 t = owns (c : Thread nD τ) (ms7 t) fullShare ((dats m 0 c).after 7 t) from by
    unfold Dat.leavesExact; rw [hi, hf], after7]
theorem heldAt7 (c : Dev nD) (t : Fin cfg0.N) (h : 8 ≤ t.val % 16) (d) :
    (dats m 0 c).before 7 t d = (outsAt m c (t.val - 1) (pred_lt t)).o1 := held7 m c t.val t.isLt h d
theorem leavesBack8 (c : Dev nD) (t : Fin cfg0.N) (hi : cfg0.idle 8 (grid0.coords t) = true) (hf : (cfg0.win 8).flush t = true) :
    (dats m 0 c).leavesExact 8 t = owns (c : Thread nD τ) (ms8 t) fullShare (outsAt m c t.val t.isLt).o2 := by
  rw [show (dats m 0 c).leavesExact 8 t = owns (c : Thread nD τ) (ms8 t) fullShare ((dats m 0 c).after 8 t) from by
    unfold Dat.leavesExact; rw [hi, hf], after8]
theorem heldAt8 (c : Dev nD) (t : Fin cfg0.N) (h : 8 ≤ t.val % 16) (d) :
    (dats m 0 c).before 8 t d = (outsAt m c (t.val - 1) (pred_lt t)).o2 := held8 m c t.val t.isLt h d
theorem leavesBack9 (c : Dev nD) (t : Fin cfg0.N) (hi : cfg0.idle 9 (grid0.coords t) = true) (hf : (cfg0.win 9).flush t = true) :
    (dats m 0 c).leavesExact 9 t = owns (c : Thread nD τ) (ms9 t) fullShare (outsAt m c t.val t.isLt).o3 := by
  rw [show (dats m 0 c).leavesExact 9 t = owns (c : Thread nD τ) (ms9 t) fullShare ((dats m 0 c).after 9 t) from by
    unfold Dat.leavesExact; rw [hi, hf], after9]
theorem heldAt9 (c : Dev nD) (t : Fin cfg0.N) (h : 8 ≤ t.val % 16) (d) :
    (dats m 0 c).before 9 t d = (outsAt m c (t.val - 1) (pred_lt t)).o3 := held9 m c t.val t.isLt h d

/-! ## The body obligation, at a generic point -/

/-- What the body is called with at point `t`: the invariant, nothing owed, and every window's current staging buffer
    at what it then holds, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

end Cert.KernelIdeal.Body

end
-- ==== Proof.BodyPointA0.lean ====
/-
  The body obligation at the very first point: a first similarity tile with nothing known about the scratch.
-/
import proofs.«130741_j67869073212268_2_alg».proof.Proof.BodyData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 8000000 in
/-- At such a point the body, called with the invariant and every window's staging buffer at what it holds, runs to the
    next point's invariant and every buffer at what it must leave. -/
theorem pointA0 (c : Dev nD) (t : Fin cfg0.N) (hj : t.val % 16 = 0) (hz : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5]
  have hlt : t.val < cfg0.N := t.isLt
  have hN : t.val < 128 := lt_of_lt_of_eq t.isLt (show cfg0.N = 128 from N_0)
  rw [leavesIdle6 m c t (idle6 t (by omega)) (noFlush6 t (by omega)), leavesIdle7 m c t (idle7 t (by omega)) (noFlush7 t (by omega)), leavesIdle8 m c t (idle8 t (by omega)) (noFlush8 t (by omega)), leavesIdle9 m c t (idle9 t (by omega)) (noFlush9 t (by omega)), leavesIdle10 m c t (idle10 t (by omega)) (noFlush10 t (by omega)), leavesIdle11 m c t (idle11 t (by omega)) (noFlush11 t (by omega)), leavesIdle12 m c t (idle12 t (by omega)) (noFlush12 t (by omega))]
  rw [memPart_neg m c t.val t.isLt (by omega)]
  rw [outsAt_simFirst m c t hj, prevAt_zero m c t hz]
  unfold stepSimFirst; dsimp only
  rw [PhiS_castSucc m c t, PhiS_zero m c _ _ hz, PhiA_eq]
  iintro ⟨⟨⟨Z0, Z1, Z2, Z3, Z4, Z5, Z6⟩, Hg⟩, Ho, ⟨%d0, I0⟩, ⟨%d1, I1⟩, ⟨%d2, I2⟩, ⟨%d3, I3⟩, ⟨%d4, I4⟩, ⟨%d5, I5⟩, O6, O7, O8, O9, O10, O11, O12⟩
  iapply ((atSimFirst m c t hj).2.2.2.2 Set.univ _)
  isplitl [I0]; · iexact I0
  isplitl [I1]; · iexact I1
  isplitl [I2]; · iexact I2
  isplitl [I3]; · iexact I3
  isplitl [Z0]; · iexact Z0
  isplitl [Z1]; · iexact Z1
  isplitl [Z2]; · iexact Z2
  isplitl [Z3]; · iexact Z3
  iintro ⟨I0, I1, I2, I3, ⟨%eS0, S0⟩, ⟨%eS1, S1⟩, ⟨%eS2, S2⟩, ⟨%eS3, S3⟩⟩
  isplitl [S0 S1 S2 S3 Z4 Z5 Z6 Hg]
  · isplitl [S0 S1 S2 S3 Z4 Z5 Z6]
    · isplitl [S0]
      · unfold owns; iexists _; isplitr
        swap; · iexact S0
        ipureintro; exact View.read_writes_of_cover _ _ _ _ _ (coverSimFirst_s0 m c t hj)
      isplitl [S1]
      · unfold owns; iexists _; isplitr
        swap; · iexact S1
        ipureintro; exact View.read_writes_of_cover _ _ _ _ _ (coverSimFirst_s1 m c t hj)
      isplitl [S2]
      · unfold owns; iexists _; isplitr
        swap; · iexact S2
        ipureintro; exact View.read_writes_of_cover _ _ _ _ _ (coverSimFirst_s2 m c t hj)
      isplitl [S3]
      · unfold owns; iexists _; isplitr
        swap; · iexact S3
        ipureintro; exact View.read_writes_of_cover _ _ _ _ _ (coverSimFirst_s3 m c t hj)
      isplitl [Z4]; · iexact Z4
      isplitl [Z5]; · iexact Z5
      iexact Z6
    iexact Hg
  isplitl [Ho]; · iexact Ho
  isplitl [I0]; · iexact I0
  isplitl [I1]; · iexact I1
  isplitl [I2]; · iexact I2
  isplitl [I3]; · iexact I3
  isplitl [I4]; · iexact I4
  isplitl [I5]; · iexact I5
  isplitl [O6]; · iexact O6
  isplitl [O7]; · iexact O7
  isplitl [O8]; · iexact O8
  isplitl [O9]; · iexact O9
  isplitl [O10]; · iexact O10
  isplitl [O11]; · iexact O11
  iexact O12

end Cert.KernelIdeal.Body

end
-- ==== Proof.BodyPointA1.lean ====
/-
  The body obligation at the first similarity tile of a later row block: the statistics the previous row block left are overwritten by the reset.
-/
import proofs.«130741_j67869073212268_2_alg».proof.Proof.BodyData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 8000000 in
/-- At such a point the body, called with the invariant and every window's staging buffer at what it holds, runs to the
    next point's invariant and every buffer at what it must leave. -/
theorem pointA1 (c : Dev nD) (t : Fin cfg0.N) (hj : t.val % 16 = 0) (hz : t.val ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5]
  have hlt : t.val < cfg0.N := t.isLt
  have hN : t.val < 128 := lt_of_lt_of_eq t.isLt (show cfg0.N = 128 from N_0)
  rw [leavesIdle6 m c t (idle6 t (by omega)) (noFlush6 t (by omega)), leavesIdle7 m c t (idle7 t (by omega)) (noFlush7 t (by omega)), leavesIdle8 m c t (idle8 t (by omega)) (noFlush8 t (by omega)), leavesIdle9 m c t (idle9 t (by omega)) (noFlush9 t (by omega)), leavesIdle10 m c t (idle10 t (by omega)) (noFlush10 t (by omega)), leavesIdle11 m c t (idle11 t (by omega)) (noFlush11 t (by omega)), leavesIdle12 m c t (idle12 t (by omega)) (noFlush12 t (by omega))]
  rw [memPart_neg m c t.val t.isLt (by omega)]
  rw [outsAt_simFirst m c t hj, prevAt_pos m c t hz]
  unfold stepSimFirst; dsimp only
  rw [PhiS_castSucc m c t, PhiS_pos m c _ _ hz, memPart_pos m c (t.val - 1) (by omega) (by omega)]
  iintro ⟨⟨⟨S0, S1, S2, S3, M4, M5, M6⟩, Hg⟩, Ho, ⟨%d0, I0⟩, ⟨%d1, I1⟩, ⟨%d2, I2⟩, ⟨%d3, I3⟩, ⟨%d4, I4⟩, ⟨%d5, I5⟩, O6, O7, O8, O9, O10, O11, O12⟩
  iapply ((atSimFirst m c t hj).2.2.2.2 Set.univ _)
  isplitl [I0]; · iexact I0
  isplitl [I1]; · iexact I1
  isplitl [I2]; · iexact I2
  isplitl [I3]; · iexact I3
  isplitl [S0]; · iexists _; iexact S0
  isplitl [S1]; · iexists _; iexact S1
  isplitl [S2]; · iexists _; iexact S2
  isplitl [S3]; · iexists _; iexact S3
  iintro ⟨I0, I1, I2, I3, ⟨%eS0, S0⟩, ⟨%eS1, S1⟩, ⟨%eS2, S2⟩, ⟨%eS3, S3⟩⟩
  isplitl [S0 S1 S2 S3 M4 M5 M6 Hg]
  · isplitl [S0 S1 S2 S3 M4 M5 M6]
    · isplitl [S0]
      · unfold owns; iexists _; isplitr
        swap; · iexact S0
        ipureintro; exact View.read_writes_of_cover _ _ _ _ _ (coverSimFirst_s0 m c t hj)
      isplitl [S1]
      · unfold owns; iexists _; isplitr
        swap; · iexact S1
        ipureintro; exact View.read_writes_of_cover _ _ _ _ _ (coverSimFirst_s1 m c t hj)
      isplitl [S2]
      · unfold owns; iexists _; isplitr
        swap; · iexact S2
        ipureintro; exact View.read_writes_of_cover _ _ _ _ _ (coverSimFirst_s2 m c t hj)
      isplitl [S3]
      · unfold owns; iexists _; isplitr
        swap; · iexact S3
        ipureintro; exact View.read_writes_of_cover _ _ _ _ _ (coverSimFirst_s3 m c t hj)
      isplitl [M4]; · iexists _; iexact M4
      isplitl [M5]; · iexists _; iexact M5
      iexists _; iexact M6
    iexact Hg
  isplitl [Ho]; · iexact Ho
  isplitl [I0]; · iexact I0
  isplitl [I1]; · iexact I1
  isplitl [I2]; · iexact I2
  isplitl [I3]; · iexact I3
  isplitl [I4]; · iexact I4
  isplitl [I5]; · iexact I5
  isplitl [O6]; · iexact O6
  isplitl [O7]; · iexact O7
  isplitl [O8]; · iexact O8
  isplitl [O9]; · iexact O9
  isplitl [O10]; · iexact O10
  isplitl [O11]; · iexact O11
  iexact O12

end Cert.KernelIdeal.Body

end
-- ==== Proof.BodyPointB.lean ====
/-
  The body obligation at a middle similarity tile.
-/
import proofs.«130741_j67869073212268_2_alg».proof.Proof.BodyData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 8000000 in
/-- At such a point the body, called with the invariant and every window's staging buffer at what it holds, runs to the
    next point's invariant and every buffer at what it must leave. -/
theorem pointB (c : Dev nD) (t : Fin cfg0.N) (hj : 1 ≤ t.val % 16 ∧ t.val % 16 ≤ 6) (hz : t.val ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5]
  have hlt : t.val < cfg0.N := t.isLt
  have hN : t.val < 128 := lt_of_lt_of_eq t.isLt (show cfg0.N = 128 from N_0)
  rw [leavesIdle6 m c t (idle6 t (by omega)) (noFlush6 t (by omega)), leavesIdle7 m c t (idle7 t (by omega)) (noFlush7 t (by omega)), leavesIdle8 m c t (idle8 t (by omega)) (noFlush8 t (by omega)), leavesIdle9 m c t (idle9 t (by omega)) (noFlush9 t (by omega)), leavesIdle10 m c t (idle10 t (by omega)) (noFlush10 t (by omega)), leavesIdle11 m c t (idle11 t (by omega)) (noFlush11 t (by omega)), leavesIdle12 m c t (idle12 t (by omega)) (noFlush12 t (by omega))]
  rw [memPart_neg m c t.val t.isLt (by omega)]
  rw [outsAt_simMid m c t hj, prevAt_pos m c t hz]
  unfold stepSimMid; dsimp only
  rw [PhiS_castSucc m c t, PhiS_pos m c _ _ hz, memPart_neg m c (t.val - 1) (by omega) (by omega)]
  iintro ⟨⟨⟨S0, S1, S2, S3, Z4, Z5, Z6⟩, Hg⟩, Ho, ⟨%d0, I0⟩, ⟨%d1, I1⟩, ⟨%d2, I2⟩, ⟨%d3, I3⟩, ⟨%d4, I4⟩, ⟨%d5, I5⟩, O6, O7, O8, O9, O10, O11, O12⟩
  iapply ((atSimMid m c t hj (outsAt m c (t.val - 1) (pred_lt t))).2.2.2.2 Set.univ _)
  isplitl [I0]; · iexact I0
  isplitl [I1]; · iexact I1
  isplitl [I2]; · iexact I2
  isplitl [I3]; · iexact I3
  isplitl [S0]; · iexact S0
  isplitl [S1]; · iexact S1
  isplitl [S2]; · iexact S2
  isplitl [S3]; · iexact S3
  iintro ⟨I0, I1, I2, I3, ⟨%eS0, S0⟩, ⟨%eS1, S1⟩, ⟨%eS2, S2⟩, ⟨%eS3, S3⟩⟩
  isplitl [S0 S1 S2 S3 Z4 Z5 Z6 Hg]
  · isplitl [S0 S1 S2 S3 Z4 Z5 Z6]
    · isplitl [S0]
      · unfold owns; iexists _; isplitr
        swap; · iexact S0
        ipureintro; exact View.read_writes_of_cover _ _ _ _ _ (coverSimMid_s0 m c t hj _)
      isplitl [S1]
      · unfold owns; iexists _; isplitr
        swap; · iexact S1
        ipureintro; exact View.read_writes_of_cover _ _ _ _ _ (coverSimMid_s1 m c t hj _)
      isplitl [S2]
      · unfold owns; iexists _; isplitr
        swap; · iexact S2
        ipureintro; exact View.read_writes_of_cover _ _ _ _ _ (coverSimMid_s2 m c t hj _)
      isplitl [S3]
      · unfold owns; iexists _; isplitr
        swap; · iexact S3
        ipureintro; exact View.read_writes_of_cover _ _ _ _ _ (coverSimMid_s3 m c t hj _)
      isplitl [Z4]; · iexact Z4
      isplitl [Z5]; · iexact Z5
      iexact Z6
    iexact Hg
  isplitl [Ho]; · iexact Ho
  isplitl [I0]; · iexact I0
  isplitl [I1]; · iexact I1
  isplitl [I2]; · iexact I2
  isplitl [I3]; · iexact I3
  isplitl [I4]; · iexact I4
  isplitl [I5]; · iexact I5
  isplitl [O6]; · iexact O6
  isplitl [O7]; · iexact O7
  isplitl [O8]; · iexact O8
  isplitl [O9]; · iexact O9
  isplitl [O10]; · iexact O10
  isplitl [O11]; · iexact O11
  iexact O12

end Cert.KernelIdeal.Body

end
-- ==== Proof.BodyPointC.lean ====
/-
  The body obligation at the last similarity tile, which also stores the four similarity output blocks.
-/
import proofs.«130741_j67869073212268_2_alg».proof.Proof.BodyData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 8000000 in
/-- At such a point the body, called with the invariant and every window's staging buffer at what it holds, runs to the
    next point's invariant and every buffer at what it must leave. -/
theorem pointC (c : Dev nD) (t : Fin cfg0.N) (hj : t.val % 16 = 7) (hz : t.val ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5]
  have hlt : t.val < cfg0.N := t.isLt
  have hN : t.val < 128 := lt_of_lt_of_eq t.isLt (show cfg0.N = 128 from N_0)
  rw [leavesIdle10 m c t (idle10 t (by omega)) (noFlush10 t (by omega)), leavesIdle11 m c t (idle11 t (by omega)) (noFlush11 t (by omega)), leavesIdle12 m c t (idle12 t (by omega)) (noFlush12 t (by omega))]
  rw [leavesLive6 m c t (live6 t (by omega)), leavesLive7 m c t (live7 t (by omega)), leavesLive8 m c t (live8 t (by omega)), leavesLive9 m c t (live9 t (by omega))]
  rw [memPart_neg m c t.val t.isLt (by omega)]
  rw [outsAt_simLast m c t hj, prevAt_pos m c t hz]
  have e_s0 : (stepSimLast m c t hj (outsAt m c (t.val - 1) (pred_lt t))).s0 = rd (atSimLast m c t hj (outsAt m c (t.val - 1) (pred_lt t))).1 := rfl
  have e_s1 : (stepSimLast m c t hj (outsAt m c (t.val - 1) (pred_lt t))).s1 = rd (atSimLast m c t hj (outsAt m c (t.val - 1) (pred_lt t))).2.1 := rfl
  have e_s2 : (stepSimLast m c t hj (outsAt m c (t.val - 1) (pred_lt t))).s2 = rd (atSimLast m c t hj (outsAt m c (t.val - 1) (pred_lt t))).2.2.1 := rfl
  have e_s3 : (stepSimLast m c t hj (outsAt m c (t.val - 1) (pred_lt t))).s3 = rd (atSimLast m c t hj (outsAt m c (t.val - 1) (pred_lt t))).2.2.2.1 := rfl
  have e_o0 : (stepSimLast m c t hj (outsAt m c (t.val - 1) (pred_lt t))).o0 = rd (atSimLast m c t hj (outsAt m c (t.val - 1) (pred_lt t))).2.2.2.2.1 := rfl
  have e_o1 : (stepSimLast m c t hj (outsAt m c (t.val - 1) (pred_lt t))).o1 = rd (atSimLast m c t hj (outsAt m c (t.val - 1) (pred_lt t))).2.2.2.2.2.1 := rfl
  have e_o2 : (stepSimLast m c t hj (outsAt m c (t.val - 1) (pred_lt t))).o2 = rd (atSimLast m c t hj (outsAt m c (t.val - 1) (pred_lt t))).2.2.2.2.2.2.1 := rfl
  have e_o3 : (stepSimLast m c t hj (outsAt m c (t.val - 1) (pred_lt t))).o3 = rd (atSimLast m c t hj (outsAt m c (t.val - 1) (pred_lt t))).2.2.2.2.2.2.2.1 := rfl
  rw [PhiS_castSucc m c t, PhiS_pos m c _ _ hz, memPart_neg m c (t.val - 1) (by omega) (by omega)]
  iintro ⟨⟨⟨S0, S1, S2, S3, Z4, Z5, Z6⟩, Hg⟩, Ho, ⟨%d0, I0⟩, ⟨%d1, I1⟩, ⟨%d2, I2⟩, ⟨%d3, I3⟩, ⟨%d4, I4⟩, ⟨%d5, I5⟩, ⟨%u6, O6⟩, ⟨%u7, O7⟩, ⟨%u8, O8⟩, ⟨%u9, O9⟩, O10, O11, O12⟩
  iapply ((atSimLast m c t hj (outsAt m c (t.val - 1) (pred_lt t))).2.2.2.2.2.2.2.2 Set.univ _)
  isplitl [I0]; · iexact I0
  isplitl [I1]; · iexact I1
  isplitl [I2]; · iexact I2
  isplitl [I3]; · iexact I3
  isplitl [S0]; · iexact S0
  isplitl [S1]; · iexact S1
  isplitl [S2]; · iexact S2
  isplitl [S3]; · iexact S3
  isplitl [O6]; · iexists _; iexact O6
  isplitl [O7]; · iexists _; iexact O7
  isplitl [O8]; · iexists _; iexact O8
  isplitl [O9]; · iexists _; iexact O9
  iintro ⟨I0, I1, I2, I3, ⟨%eS0, S0⟩, ⟨%eS1, S1⟩, ⟨%eS2, S2⟩, ⟨%eS3, S3⟩, ⟨%eO6, O6⟩, ⟨%eO7, O7⟩, ⟨%eO8, O8⟩, ⟨%eO9, O9⟩⟩
  isplitl [S0 S1 S2 S3 Z4 Z5 Z6 Hg]
  · isplitl [S0 S1 S2 S3 Z4 Z5 Z6]
    · isplitl [S0]
      · unfold owns; iexists _; isplitr
        swap; · iexact S0
        ipureintro; exact (View.read_writes_of_cover _ _ _ _ _ (coverSimLast_s0 m c t hj _)).trans e_s0.symm
      isplitl [S1]
      · unfold owns; iexists _; isplitr
        swap; · iexact S1
        ipureintro; exact (View.read_writes_of_cover _ _ _ _ _ (coverSimLast_s1 m c t hj _)).trans e_s1.symm
      isplitl [S2]
      · unfold owns; iexists _; isplitr
        swap; · iexact S2
        ipureintro; exact (View.read_writes_of_cover _ _ _ _ _ (coverSimLast_s2 m c t hj _)).trans e_s2.symm
      isplitl [S3]
      · unfold owns; iexists _; isplitr
        swap; · iexact S3
        ipureintro; exact (View.read_writes_of_cover _ _ _ _ _ (coverSimLast_s3 m c t hj _)).trans e_s3.symm
      isplitl [Z4]; · iexact Z4
      isplitl [Z5]; · iexact Z5
      iexact Z6
    iexact Hg
  isplitl [Ho]; · iexact Ho
  isplitl [I0]; · iexact I0
  isplitl [I1]; · iexact I1
  isplitl [I2]; · iexact I2
  isplitl [I3]; · iexact I3
  isplitl [I4]; · iexact I4
  isplitl [I5]; · iexact I5
  isplitl [O6]
  · unfold owns; iexists _; isplitr
    swap; · iexact O6
    ipureintro; exact (View.read_writes_of_cover _ _ _ _ _ (coverSimLast_o0 m c t hj _)).trans e_o0.symm
  isplitl [O7]
  · unfold owns; iexists _; isplitr
    swap; · iexact O7
    ipureintro; exact (View.read_writes_of_cover _ _ _ _ _ (coverSimLast_o1 m c t hj _)).trans e_o1.symm
  isplitl [O8]
  · unfold owns; iexists _; isplitr
    swap; · iexact O8
    ipureintro; exact (View.read_writes_of_cover _ _ _ _ _ (coverSimLast_o2 m c t hj _)).trans e_o2.symm
  isplitl [O9]
  · unfold owns; iexists _; isplitr
    swap; · iexact O9
    ipureintro; exact (View.read_writes_of_cover _ _ _ _ _ (coverSimLast_o3 m c t hj _)).trans e_o3.symm
  isplitl [O10]; · iexact O10
  isplitl [O11]; · iexact O11
  iexact O12

end Cert.KernelIdeal.Body

end
-- ==== Proof.BodyPointD.lean ====
/-
  The body obligation at the first memory tile, which resets the three memory statistics.
-/
import proofs.«130741_j67869073212268_2_alg».proof.Proof.BodyData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 8000000 in
/-- At such a point the body, called with the invariant and every window's staging buffer at what it holds, runs to the
    next point's invariant and every buffer at what it must leave. -/
theorem pointD (c : Dev nD) (t : Fin cfg0.N) (hj : t.val % 16 = 8) (hz : t.val ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5]
  have hlt : t.val < cfg0.N := t.isLt
  have hN : t.val < 128 := lt_of_lt_of_eq t.isLt (show cfg0.N = 128 from N_0)
  rw [leavesIdle6 m c t (idle6 t (by omega)) (noFlush6 t (by omega)), leavesIdle7 m c t (idle7 t (by omega)) (noFlush7 t (by omega)), leavesIdle8 m c t (idle8 t (by omega)) (noFlush8 t (by omega)), leavesIdle9 m c t (idle9 t (by omega)) (noFlush9 t (by omega)), leavesIdle10 m c t (idle10 t (by omega)) (noFlush10 t (by omega)), leavesIdle11 m c t (idle11 t (by omega)) (noFlush11 t (by omega)), leavesIdle12 m c t (idle12 t (by omega)) (noFlush12 t (by omega))]
  rw [memPart_pos m c t.val t.isLt (by omega)]
  rw [outsAt_memFirst m c t hj, prevAt_pos m c t hz]
  unfold stepMemFirst; dsimp only
  rw [PhiS_castSucc m c t, PhiS_pos m c _ _ hz, memPart_neg m c (t.val - 1) (by omega) (by omega)]
  iintro ⟨⟨⟨S0, S1, S2, S3, Z4, Z5, Z6⟩, Hg⟩, Ho, ⟨%d0, I0⟩, ⟨%d1, I1⟩, ⟨%d2, I2⟩, ⟨%d3, I3⟩, ⟨%d4, I4⟩, ⟨%d5, I5⟩, O6, O7, O8, O9, O10, O11, O12⟩
  iapply ((atMemFirst m c t hj).2.2.2 Set.univ _)
  isplitl [I4]; · iexact I4
  isplitl [I5]; · iexact I5
  isplitl [Z4]; · iexact Z4
  isplitl [Z5]; · iexact Z5
  isplitl [Z6]; · iexact Z6
  iintro ⟨I4, I5, ⟨%eM4, M4⟩, ⟨%eM5, M5⟩, ⟨%eM6, M6⟩⟩
  isplitl [S0 S1 S2 S3 M4 M5 M6 Hg]
  · isplitl [S0 S1 S2 S3 M4 M5 M6]
    · isplitl [S0]; · iexact S0
      isplitl [S1]; · iexact S1
      isplitl [S2]; · iexact S2
      isplitl [S3]; · iexact S3
      isplitl [M4]
      · unfold owns; iexists _; isplitr
        swap; · iexact M4
        ipureintro; exact View.read_writes_of_cover _ _ _ _ _ (coverMemFirst_s4 m c t hj)
      isplitl [M5]
      · unfold owns; iexists _; isplitr
        swap; · iexact M5
        ipureintro; exact View.read_writes_of_cover _ _ _ _ _ (coverMemFirst_s5 m c t hj)
      unfold owns; iexists _; isplitr
      swap; · iexact M6
      ipureintro; exact View.read_writes_of_cover _ _ _ _ _ (coverMemFirst_s6 m c t hj)
    iexact Hg
  isplitl [Ho]; · iexact Ho
  isplitl [I0]; · iexact I0
  isplitl [I1]; · iexact I1
  isplitl [I2]; · iexact I2
  isplitl [I3]; · iexact I3
  isplitl [I4]; · iexact I4
  isplitl [I5]; · iexact I5
  isplitl [O6]; · iexact O6
  isplitl [O7]; · iexact O7
  isplitl [O8]; · iexact O8
  isplitl [O9]; · iexact O9
  isplitl [O10]; · iexact O10
  isplitl [O11]; · iexact O11
  iexact O12

end Cert.KernelIdeal.Body

end
-- ==== Proof.BodyPointE.lean ====
/-
  The body obligation at a middle memory tile.
-/
import proofs.«130741_j67869073212268_2_alg».proof.Proof.BodyData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 8000000 in
/-- At such a point the body, called with the invariant and every window's staging buffer at what it holds, runs to the
    next point's invariant and every buffer at what it must leave. -/
theorem pointE (c : Dev nD) (t : Fin cfg0.N) (hj : 9 ≤ t.val % 16 ∧ t.val % 16 ≤ 14) (hz : t.val ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5]
  have hlt : t.val < cfg0.N := t.isLt
  have hN : t.val < 128 := lt_of_lt_of_eq t.isLt (show cfg0.N = 128 from N_0)
  rw [leavesIdle6 m c t (idle6 t (by omega)) (noFlush6 t (by omega)), leavesIdle7 m c t (idle7 t (by omega)) (noFlush7 t (by omega)), leavesIdle8 m c t (idle8 t (by omega)) (noFlush8 t (by omega)), leavesIdle9 m c t (idle9 t (by omega)) (noFlush9 t (by omega)), leavesIdle10 m c t (idle10 t (by omega)) (noFlush10 t (by omega)), leavesIdle11 m c t (idle11 t (by omega)) (noFlush11 t (by omega)), leavesIdle12 m c t (idle12 t (by omega)) (noFlush12 t (by omega))]
  rw [memPart_pos m c t.val t.isLt (by omega)]
  rw [outsAt_memMid m c t hj, prevAt_pos m c t hz]
  unfold stepMemMid; dsimp only
  rw [PhiS_castSucc m c t, PhiS_pos m c _ _ hz, memPart_pos m c (t.val - 1) (by omega) (by omega)]
  iintro ⟨⟨⟨S0, S1, S2, S3, M4, M5, M6⟩, Hg⟩, Ho, ⟨%d0, I0⟩, ⟨%d1, I1⟩, ⟨%d2, I2⟩, ⟨%d3, I3⟩, ⟨%d4, I4⟩, ⟨%d5, I5⟩, O6, O7, O8, O9, O10, O11, O12⟩
  iapply ((atMemMid m c t hj (outsAt m c (t.val - 1) (pred_lt t))).2.2.2 Set.univ _)
  isplitl [I4]; · iexact I4
  isplitl [I5]; · iexact I5
  isplitl [M4]; · iexact M4
  isplitl [M5]; · iexact M5
  isplitl [M6]; · iexact M6
  iintro ⟨I4, I5, ⟨%eM4, M4⟩, ⟨%eM5, M5⟩, ⟨%eM6, M6⟩⟩
  isplitl [S0 S1 S2 S3 M4 M5 M6 Hg]
  · isplitl [S0 S1 S2 S3 M4 M5 M6]
    · isplitl [S0]; · iexact S0
      isplitl [S1]; · iexact S1
      isplitl [S2]; · iexact S2
      isplitl [S3]; · iexact S3
      isplitl [M4]
      · unfold owns; iexists _; isplitr
        swap; · iexact M4
        ipureintro; exact View.read_writes_of_cover _ _ _ _ _ (coverMemMid_s4 m c t hj _)
      isplitl [M5]
      · unfold owns; iexists _; isplitr
        swap; · iexact M5
        ipureintro; exact View.read_writes_of_cover _ _ _ _ _ (coverMemMid_s5 m c t hj _)
      unfold owns; iexists _; isplitr
      swap; · iexact M6
      ipureintro; exact View.read_writes_of_cover _ _ _ _ _ (coverMemMid_s6 m c t hj _)
    iexact Hg
  isplitl [Ho]; · iexact Ho
  isplitl [I0]; · iexact I0
  isplitl [I1]; · iexact I1
  isplitl [I2]; · iexact I2
  isplitl [I3]; · iexact I3
  isplitl [I4]; · iexact I4
  isplitl [I5]; · iexact I5
  isplitl [O6]; · iexact O6
  isplitl [O7]; · iexact O7
  isplitl [O8]; · iexact O8
  isplitl [O9]; · iexact O9
  isplitl [O10]; · iexact O10
  isplitl [O11]; · iexact O11
  iexact O12

end Cert.KernelIdeal.Body

end
-- ==== Proof.BodyPointG.lean ====
/-
  The body obligation at the last memory tile, which stores the three memory output blocks and hands the four similarity blocks to the write-back as the seventh step left them.
-/
import proofs.«130741_j67869073212268_2_alg».proof.Proof.BodyData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 8000000 in
/-- At such a point the body, called with the invariant and every window's staging buffer at what it holds, runs to the
    next point's invariant and every buffer at what it must leave. -/
theorem pointG (c : Dev nD) (t : Fin cfg0.N) (hj : t.val % 16 = 15) (hz : t.val ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5]
  have hlt : t.val < cfg0.N := t.isLt
  have hN : t.val < 128 := lt_of_lt_of_eq t.isLt (show cfg0.N = 128 from N_0)
  rw [leavesLive10 m c t (live10 t (by omega)), leavesLive11 m c t (live11 t (by omega)), leavesLive12 m c t (live12 t (by omega))]
  rw [leavesBack6 m c t (idle6 t (by omega)) (flushAt6 t (by omega)), leavesBack7 m c t (idle7 t (by omega)) (flushAt7 t (by omega)), leavesBack8 m c t (idle8 t (by omega)) (flushAt8 t (by omega)), leavesBack9 m c t (idle9 t (by omega)) (flushAt9 t (by omega))]
  rw [memPart_pos m c t.val t.isLt (by omega)]
  rw [outsAt_memLast m c t hj, prevAt_pos m c t hz]
  unfold stepMemLast; dsimp only
  rw [PhiS_castSucc m c t, PhiS_pos m c _ _ hz, memPart_pos m c (t.val - 1) (by omega) (by omega)]
  simp only [heldAt6 m c t (by omega), heldAt7 m c t (by omega), heldAt8 m c t (by omega), heldAt9 m c t (by omega)]
  iintro ⟨⟨⟨S0, S1, S2, S3, M4, M5, M6⟩, Hg⟩, Ho, ⟨%d0, I0⟩, ⟨%d1, I1⟩, ⟨%d2, I2⟩, ⟨%d3, I3⟩, ⟨%d4, I4⟩, ⟨%d5, I5⟩, ⟨%u6, O6⟩, ⟨%u7, O7⟩, ⟨%u8, O8⟩, ⟨%u9, O9⟩, ⟨%u10, O10⟩, ⟨%u11, O11⟩, ⟨%u12, O12⟩⟩
  iapply ((atMemLast m c t hj (outsAt m c (t.val - 1) (pred_lt t))).2.2.2.2.2.2 Set.univ _)
  isplitl [I4]; · iexact I4
  isplitl [I5]; · iexact I5
  isplitl [M4]; · iexact M4
  isplitl [M5]; · iexact M5
  isplitl [M6]; · iexact M6
  isplitl [O10]; · iexists _; iexact O10
  isplitl [O11]; · iexists _; iexact O11
  isplitl [O12]; · iexists _; iexact O12
  iintro ⟨I4, I5, ⟨%eM4, M4⟩, ⟨%eM5, M5⟩, ⟨%eM6, M6⟩, ⟨%eO10, O10⟩, ⟨%eO11, O11⟩, ⟨%eO12, O12⟩⟩
  isplitl [S0 S1 S2 S3 M4 M5 M6 Hg]
  · isplitl [S0 S1 S2 S3 M4 M5 M6]
    · isplitl [S0]; · iexact S0
      isplitl [S1]; · iexact S1
      isplitl [S2]; · iexact S2
      isplitl [S3]; · iexact S3
      isplitl [M4]
      · unfold owns; iexists _; isplitr
        swap; · iexact M4
        ipureintro; exact View.read_writes_of_cover _ _ _ _ _ (coverMemLast_s4 m c t hj _)
      isplitl [M5]
      · unfold owns; iexists _; isplitr
        swap; · iexact M5
        ipureintro; exact View.read_writes_of_cover _ _ _ _ _ (coverMemLast_s5 m c t hj _)
      unfold owns; iexists _; isplitr
      swap; · iexact M6
      ipureintro; exact View.read_writes_of_cover _ _ _ _ _ (coverMemLast_s6 m c t hj _)
    iexact Hg
  isplitl [Ho]; · iexact Ho
  isplitl [I0]; · iexact I0
  isplitl [I1]; · iexact I1
  isplitl [I2]; · iexact I2
  isplitl [I3]; · iexact I3
  isplitl [I4]; · iexact I4
  isplitl [I5]; · iexact I5
  isplitl [O6]; · iexact O6
  isplitl [O7]; · iexact O7
  isplitl [O8]; · iexact O8
  isplitl [O9]; · iexact O9
  isplitl [O10]
  · unfold owns; iexists _; isplitr
    swap; · iexact O10
    ipureintro; exact View.read_writes_of_cover _ _ _ _ _ (coverMemLast_o4 m c t hj _)
  isplitl [O11]
  · unfold owns; iexists _; isplitr
    swap; · iexact O11
    ipureintro; exact View.read_writes_of_cover _ _ _ _ _ (coverMemLast_o5 m c t hj _)
  unfold owns; iexists _; isplitr
  swap; · iexact O12
  ipureintro; exact View.read_writes_of_cover _ _ _ _ _ (coverMemLast_o6 m c t hj _)

end Cert.KernelIdeal.Body

end
-- ==== Proof.BodyFrame.lean ====
/-
  The frame of the fused kernel's program: it runs to the end, faults nowhere, and leaves its argument arrays unchanged.
  The body obligation at a point is the obligation of the case its inner step selects; the region is launched with the
  invariant that tracks the running statistics between points, and the host operations after it touch no argument.
-/
import proofs.«130741_j67869073212268_2_alg».proof.Proof.BodyPointA0
import proofs.«130741_j67869073212268_2_alg».proof.Proof.BodyPointA1
import proofs.«130741_j67869073212268_2_alg».proof.Proof.BodyPointB
import proofs.«130741_j67869073212268_2_alg».proof.Proof.BodyPointC
import proofs.«130741_j67869073212268_2_alg».proof.Proof.BodyPointD
import proofs.«130741_j67869073212268_2_alg».proof.Proof.BodyPointE
import proofs.«130741_j67869073212268_2_alg».proof.Proof.BodyPointG

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The body at any point: by the inner step. -/
theorem sound_body (c : Dev nD) (t : Fin cfg0.N) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  by_cases hA : t.val % 16 = 0
  · by_cases hz : t.val = 0
    · exact pointA0 m c t hA hz
    · exact pointA1 m c t hA hz
  · by_cases hB : t.val % 16 ≤ 6
    · exact pointB m c t ⟨by omega, hB⟩ (by omega)
    · by_cases hC : t.val % 16 = 7
      · exact pointC m c t hC (by omega)
      · by_cases hD : t.val % 16 = 8
        · exact pointD m c t hD (by omega)
        · by_cases hE : t.val % 16 ≤ 14
          · exact pointE m c t ⟨by omega, hE⟩ (by omega)
          · exact pointG m c t (by omega) (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch its own back: the statistics' named contents are forgotten. -/
theorem hout (c : Dev nD) : (dats m 0 c).Φ (Fin.last cfg0.N) ⊢ Pipeline.ΦA spec0 c := by
  have hN : cfg0.N = 128 := N_0
  have hl : (Fin.last cfg0.N).val ≠ 0 := by rw [Fin.val_last]; omega
  rw [show (dats m 0 c).Φ (Fin.last cfg0.N) = PhiS m c (Fin.last cfg0.N).val (Nat.le_of_lt_succ (Fin.last cfg0.N).isLt) from rfl,
    PhiS_pos m c _ _ hl, PhiA_eq]
  rw [memPart_pos m c _ _ (by rw [Fin.val_last]; omega)]
  iintro ⟨⟨S0, S1, S2, S3, M4, M5, M6⟩, Hg⟩
  isplitl [S0 S1 S2 S3 M4 M5 M6]
  · isplitl [S0]; · iexists _; iexact S0
    isplitl [S1]; · iexists _; iexact S1
    isplitl [S2]; · iexists _; iexact S2
    isplitl [S3]; · iexists _; iexact S3
    isplitl [M4]; · iexists _; iexact M4
    isplitl [M5]; · iexists _; iexact M5
    iexists _; iexact M6
  iexact Hg

/-! ## The run and the frame -/

variable (ρ : Dev nD → PrngReg)

set_option backward.isDefEq.respectTransparency.types false in
/-- For any values, from any memory with zero counters: every weakly fair execution of the program terminates, and every
    final state has every array of the pipeline at what the proof data computes and every other unscoped buffer as the
    host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its four argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.ValMemTile.lean ====
/-
  One memory tile's arithmetic, read at a row.

  At a memory tile the body loads a 512 × 1024 tile of memory logits `x` and the same tile of memory targets `w`
  (stored in a narrower format and widened, which changes nothing on the extended reals), and adds to each of three
  512 × 1 columns the tile's row sums: of `exp x`, of `w · x` (target times logit, in that order) and of `w`.
  Here each of the three stored columns is read at row `r`: the old entry plus the sum over the tile's 1024 columns.
  The reduction along the columns starts from the zero word and is, on the extended reals, the bare sum; the reduced
  vector of 512 entries is kept as a 512 × 1 column, whose entry at row `r` is the vector's entry `r`.
-/
import proofs.«130741_j67869073212268_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Value

open Cert.KernelIdeal Cert.KernelIdeal.Gen
open Idealize.ShloMosaic Idealize.ShloMosaic.ValueIdx
open scoped BigOperators

/-- A vector of 512 entries kept as a 512 × 1 column reads, at row `r` (whatever the unit coordinate), entry `r`. -/
theorem column_of_vector (v : FVec Ideal S512 .f32) (h : S512.ShapeCasts S512x1) (r : Fin 512) (z : Fin 1) :
    shapeCast S512x1 v h (ix2 r z) = v (ix1 r) :=
  shapeCast_apply v h _ _ (by
    have hz : z.val = 0 := by omega
    rw [Shape.rowMajor_val_one, Shape.rowMajor_val_two]
    show r.val = r.val * 1 + z.val
    omega)

/-- The sum along the columns of a 512 × 1024 tile, started from the zero word, is at row `r` the sum of the row's
    1024 entries. -/
theorem row_sum (src : FVec Ideal S512x1024 .f32) (h : S512x1024.Reduces [1] S512) (hφ : FKind.Formats .f32)
    (hacc : (0x00000000#32 : BitVec 32) = 0x00000000#32) (r : Fin 512) :
    multiReduction .add [1] S512 src 0x00000000#32 h hφ hacc (ix1 r) = ∑ cidx : Fin 1024, src (ix2 r cidx) := by
  refine (Ideal.multiReduction_add_single src 0x00000000#32 h hφ hacc (ix1 r)).trans ?_
  refine Finset.sum_congr rfl fun k _ => congrArg src (funext fun a => ?_)
  match a with
  | ⟨0, _⟩ => rfl
  | ⟨1, _⟩ => rfl

/-- The widened targets are the stored targets, entry by entry. -/
theorem widened_at (w : Vec Ideal S512x1024 .bf16) (i : S512x1024.Idx) : k0_pay12 (F := Ideal) w i = w i := by
  unfold k0_pay12
  exact congrFun (shapeCast_self w _) i

/-- The exponential-sum column after a memory tile: the old entry plus the row's sum of `exp` of the logits. -/
theorem expsum_at (x : Vec Ideal S512x1024 .f32) (y : Vec Ideal S512x1 .f32) (r : Fin 512) :
    k0_pay13 (F := Ideal) x y (ix2 r 0) = y (ix2 r 0) + ∑ cidx : Fin 1024, Ideal.exp (x (ix2 r cidx)) := by
  unfold k0_pay13
  refine (congrFun (shapeCast_self _ _) _).trans ?_
  refine congrArg (y (ix2 r 0) + ·) ?_
  refine (column_of_vector _ _ r 0).trans ?_
  exact row_sum _ _ _ _ r

/-- The target-weighted logit sum after a memory tile: the old entry plus the row's sum of target times logit. -/
theorem wsum_at (x : Vec Ideal S512x1024 .f32) (w : Vec Ideal S512x1024 .bf16) (y : Vec Ideal S512x1 .f32) (r : Fin 512) :
    k0_pay14 (F := Ideal) x w y (ix2 r 0) = y (ix2 r 0) + ∑ cidx : Fin 1024, w (ix2 r cidx) * x (ix2 r cidx) := by
  unfold k0_pay14
  refine (congrFun (shapeCast_self _ _) _).trans ?_
  refine congrArg (y (ix2 r 0) + ·) ?_
  refine (column_of_vector _ _ r 0).trans ?_
  refine (row_sum _ _ _ _ r).trans ?_
  exact Finset.sum_congr rfl fun cidx _ => congrArg (· * x (ix2 r cidx)) (widened_at w (ix2 r cidx))

/-- The target sum after a memory tile: the old entry plus the row's sum of the targets. -/
theorem tsum_at (w : Vec Ideal S512x1024 .bf16) (y : Vec Ideal S512x1 .f32) (r : Fin 512) :
    k0_pay15 (F := Ideal) w y (ix2 r 0) = y (ix2 r 0) + ∑ cidx : Fin 1024, w (ix2 r cidx) := by
  unfold k0_pay15
  refine (congrFun (shapeCast_self _ _) _).trans ?_
  refine congrArg (y (ix2 r 0) + ·) ?_
  refine (column_of_vector _ _ r 0).trans ?_
  refine (row_sum _ _ _ _ r).trans ?_
  exact Finset.sum_congr rfl fun cidx _ => widened_at w (ix2 r cidx)

/-- The zero column a sweep's reset stores reads `0` everywhere. -/
theorem zero_column_at (i : S512x1.Idx) :
    (shapeCast S512x1 (broadcast S512x1 (Scalar.ofBits (F := Ideal) .f32 0x00000000#32)) shapeCasts_S512x1_S512x1 : FVec Ideal S512x1 .f32) i = 0 :=
  (congrFun (shapeCast_self _ _) i).trans Ideal.ofBits_zero_f32

end Cert.KernelIdeal.Value

end
-- ==== Proof.LossSpec.lean ====
/-
  The supervised-contrastive loss with a memory bank, as ONE function of the four argument arrays on the extended reals.

  Inputs: `q` (4096 rows of 1024 features), integer labels `lab` (one per row), memory-bank logits `ml` and
  memory-bank targets `mt` (4096 rows of 8192 entries each).

  Row `i` of `q` is divided by `max (‖q i‖, eps)`; the similarity of rows `i`, `j` is the inner product of the
  two normalised rows, and its logit is that similarity divided by the temperature. `rowMax i` is the largest
  logit of row `i`, the diagonal entry included. In-batch positives of row `i` are the rows `j ≠ i` with the
  same label. The denominator of row `i` is the sum over `j ≠ i` of `exp (logit i j - rowMax i)` plus the
  sum over the memory bank of `exp (ml i k)` (the memory logits are NOT shifted by the row maximum, so the
  value depends on `rowMax` itself and not only on differences). The log-probability of an in-batch column is
  `logit i j - rowMax i - log (denominator i)`, of a memory column `ml i k - log (denominator i)`. Row `i`
  contributes the target-weighted sum of its log-probabilities divided by the sum of its targets; the loss is
  minus the mean of the 4096 contributions.

  Sums are `Finset` sums over `Fin n` with no initial term; a program that starts its sum from the zero word
  meets this by `zero_add`.
-/
import Idealize.ShloMosaic.PureOps.Ideal
import Idealize.ShloMosaic.Lib.ValueIdx

noncomputable section

open scoped BigOperators

namespace Cert.SupCon

open Idealize.ShloMosaic Idealize.ShloMosaic.ValueIdx

/-- A 4096 × 1024 array of extended reals. -/
abbrev QArr : Type := (⟨2, ![4096, 1024]⟩ : Shape).Idx → EReal
/-- 4096 label words. -/
abbrev LArr : Type := (⟨1, ![4096]⟩ : Shape).Idx → BitVec 32
/-- A 4096 × 8192 array of extended reals. -/
abbrev MArr : Type := (⟨2, ![4096, 8192]⟩ : Shape).Idx → EReal

/-- The norm floor: the binary32 word nearest `1e-8`. -/
def eps : EReal := Ideal.ofBits .f32 0x322BCC77#32
/-- The temperature: the binary32 word nearest `0.07`, which is `9395241 / 2^27`. -/
def temp : EReal := Ideal.ofBits .f32 0x3D8F5C29#32
/-- The number of rows, `4096`, as the binary32 word the mean divides by. -/
def rows : EReal := Ideal.ofBits .f32 0x45800000#32

variable (q : QArr) (lab : LArr) (ml mt : MArr)

/-- The squared norm of row `i`. -/
def sumSq (i : Fin 4096) : EReal := ∑ k : Fin 1024, q (ix2 i k) * q (ix2 i k)
/-- What row `i` is divided by: its norm, floored at `eps`. -/
def den (i : Fin 4096) : EReal := max (Ideal.sqrt (sumSq q i)) eps
/-- The normalised row. -/
def qn (i : Fin 4096) (k : Fin 1024) : EReal := Ideal.div (q (ix2 i k)) (den q i)
/-- The cosine similarity of rows `i` and `j`. -/
def sim (i j : Fin 4096) : EReal := ∑ k : Fin 1024, qn q i k * qn q j k
/-- The similarity over the temperature. -/
def logit (i j : Fin 4096) : EReal := Ideal.div (sim q i j) temp
/-- The largest logit of row `i` (the diagonal included); the supremum of the empty set is `⊥`. -/
def rowMax (i : Fin 4096) : EReal := Finset.univ.sup (logit q i)
/-- `0` on the diagonal, `1` off it. -/
def notSelf (i j : Fin 4096) : EReal := if i = j then 0 else 1
/-- The in-batch positive-pair mask: same label, self excluded. -/
def pos (i j : Fin 4096) : EReal := (if lab (ix1 i) = lab (ix1 j) then 1 else 0) * notSelf i j
/-- The in-batch part of row `i`'s denominator. -/
def expSrc (i : Fin 4096) : EReal := ∑ j : Fin 4096, Ideal.exp (logit q i j - rowMax q i) * notSelf i j
/-- The memory-bank part of row `i`'s denominator. -/
def expMem (i : Fin 4096) : EReal := ∑ k : Fin 8192, Ideal.exp (ml (ix2 i k))
/-- The logarithm of row `i`'s denominator. -/
def logDen (i : Fin 4096) : EReal := Ideal.log (expSrc q i + expMem ml i)
/-- The target-weighted sum of row `i`'s log-probabilities: in-batch columns, then memory columns. -/
def num (i : Fin 4096) : EReal :=
  (∑ j : Fin 4096, pos lab i j * (logit q i j - rowMax q i - logDen q ml i))
    + ∑ k : Fin 8192, mt (ix2 i k) * (ml (ix2 i k) - logDen q ml i)
/-- The sum of row `i`'s targets: in-batch positives, then memory targets. -/
def cnt (i : Fin 4096) : EReal := (∑ j : Fin 4096, pos lab i j) + ∑ k : Fin 8192, mt (ix2 i k)
/-- The loss: minus the mean over the rows of `num i / cnt i`. -/
def loss : EReal := - Ideal.div (∑ i : Fin 4096, Ideal.div (num q lab ml mt i) (cnt lab mt i)) rows

end Cert.SupCon

end
-- ==== Proof.TiledModel.lean ====
/-
  The tiled computation of the loss, as a function of the four argument arrays on the extended reals: what one
  row's running statistics are after each column tile, in the order and grouping in which they are updated.

  The 4096 similarity columns of a row are visited in 8 tiles of 512 consecutive columns, then the 8192 memory
  columns in 8 tiles of 1024. Over the similarity tiles a row carries four numbers:
    `m`  the running maximum of the scaled similarities seen so far, started at a large finite negative number;
    `e`  the sum, over the off-diagonal columns seen so far, of `exp (x - m)` — when a tile raises the maximum from
          `m` to `m'` the old sum is rescaled by `exp (m - m')` before the tile's own terms are added;
    `s1` the sum of the scaled similarities of the in-batch positives seen so far (unshifted);
    `np` the number of in-batch positives seen so far.
  Over the memory tiles it carries three: `em` the sum of `exp` of the memory logits, `s2` the target-weighted sum
  of the memory logits, `nm` the sum of the memory targets.
  The scaled similarity is the cosine similarity TIMES the reciprocal of the temperature (the specification
  divides by the temperature). A row's contribution is
    `((s1 - m · np) - log (e + em) · (np + nm)) + s2`   divided by   `max (np + nm) 1`,
  and the loss is minus the mean of the contributions.
-/
import proofs.«130741_j67869073212268_2_alg».proof.Proof.LossSpec

noncomputable section

open scoped BigOperators

namespace Cert.SupConTiled

open Idealize.ShloMosaic Idealize.ShloMosaic.ValueIdx Cert.SupCon

/-- The reciprocal of the temperature `9395241 / 2^27`, exactly. -/
def invTemp : EReal := ((134217728 / 9395241 : ℝ) : EReal)
/-- The running maximum's starting value: the binary32 word of `-0.7` times the largest finite binary32 number. -/
def negBig : EReal := Ideal.ofBits .f32 0xFF333332#32

/-- Column `c` of similarity tile `J`. -/
def colOf (J : Fin 8) (c : Fin 512) : Fin 4096 := ⟨512 * J.val + c.val, by omega⟩
/-- Column `c` of memory tile `K`. -/
def memColOf (K : Fin 8) (c : Fin 1024) : Fin 8192 := ⟨1024 * K.val + c.val, by omega⟩

variable (q : QArr) (lab : LArr) (ml mt : MArr)

/-- The scaled similarity of rows `i`, `j`: the cosine similarity times the reciprocal temperature. -/
def scaled (i j : Fin 4096) : EReal := sim q i j * invTemp

/-- The largest scaled similarity of row `i` within tile `J`. -/
def tileMax (i : Fin 4096) (J : Fin 8) : EReal := Finset.univ.sup fun c : Fin 512 => scaled q i (colOf J c)

/-- A row's statistics over the similarity tiles. -/
structure SimStats where
  /-- running maximum -/
  m : EReal
  /-- rescaled sum of exponentials, diagonal excluded -/
  e : EReal
  /-- sum of the positives' scaled similarities -/
  s1 : EReal
  /-- number of in-batch positives -/
  np : EReal

/-- Before the first similarity tile. -/
def simInit : SimStats := ⟨negBig, 0, 0, 0⟩

/-- One similarity tile's update of row `i`'s statistics. -/
def simStep (i : Fin 4096) (J : Fin 8) (s : SimStats) : SimStats :=
  let m' := max s.m (tileMax q i J)
  { m := m'
    e := Ideal.exp (s.m - m') * s.e + ∑ c : Fin 512, Ideal.exp (scaled q i (colOf J c) - m') * notSelf i (colOf J c)
    s1 := s.s1 + ∑ c : Fin 512, pos lab i (colOf J c) * scaled q i (colOf J c)
    np := s.np + ∑ c : Fin 512, pos lab i (colOf J c) }

/-- Row `i`'s statistics after the first `n` similarity tiles (`n` beyond 8 changes nothing). -/
def simAfter (i : Fin 4096) : ℕ → SimStats
  | 0 => simInit
  | n + 1 => if h : n < 8 then simStep q lab i ⟨n, h⟩ (simAfter i n) else simAfter i n

/-- A row's statistics over the memory tiles. -/
structure MemStats where
  /-- sum of exponentials of the memory logits -/
  em : EReal
  /-- target-weighted sum of the memory logits -/
  s2 : EReal
  /-- sum of the memory targets -/
  nm : EReal

/-- Before the first memory tile. -/
def memInit : MemStats := ⟨0, 0, 0⟩

/-- One memory tile's update of row `i`'s statistics. -/
def memStep (i : Fin 4096) (K : Fin 8) (s : MemStats) : MemStats :=
  { em := s.em + ∑ c : Fin 1024, Ideal.exp (ml (ix2 i (memColOf K c)))
    s2 := s.s2 + ∑ c : Fin 1024, mt (ix2 i (memColOf K c)) * ml (ix2 i (memColOf K c))
    nm := s.nm + ∑ c : Fin 1024, mt (ix2 i (memColOf K c)) }

/-- Row `i`'s statistics after the first `n` memory tiles (`n` beyond 8 changes nothing). -/
def memAfter (i : Fin 4096) : ℕ → MemStats
  | 0 => memInit
  | n + 1 => if h : n < 8 then memStep ml mt i ⟨n, h⟩ (memAfter i n) else memAfter i n

/-- Row `i`'s contribution, from its final statistics. -/
def rowTerm (i : Fin 4096) : EReal :=
  let S := simAfter q lab i 8
  let T := memAfter ml mt i 8
  let ld := Ideal.log (S.e + T.em)
  let npt := S.np + T.nm
  Ideal.div (((S.s1 - S.m * S.np) - ld * npt) + T.s2) (max npt 1)

/-- The tiled loss: minus the mean of the rows' contributions. -/
def loss : EReal := - Ideal.div (∑ i : Fin 4096, rowTerm q lab ml mt i) rows

end Cert.SupConTiled

end
-- ==== Proof.ValCommon.lean ====
/-
  Rows of a row block. The grid's row block `b` (of 8) holds the 512 consecutive rows `512·b, …, 512·b + 511` of the
  4096; row `r` of the block is global row `512·b + r`.
-/
import Mathlib.Data.Fin.Basic

namespace Cert.KernelIdeal.Value

/-- Row `r` of row block `b`, as a row of the whole array. -/
def rowOf (b : Fin 8) (r : Fin 512) : Fin 4096 := ⟨512 * b.val + r.val, by omega⟩

theorem rowOf_val (b : Fin 8) (r : Fin 512) : (rowOf b r).val = 512 * b.val + r.val := rfl

end Cert.KernelIdeal.Value
-- ==== Proof.ValMemInputs.lean ====
/-
  The memory sweep's two inputs, read at an entry.

  The memory logits `ml` and the memory targets `mt` are the program's third and fourth arguments, 4096 × 8192 each.
  At the grid point of row block `b` and memory tile `K` (inner step `8 + K`) the body is handed the 512 × 1024 block
  of rows `512·b …` and columns `1024·K …` of each: of the logits as they are, and of the targets after a change of
  storage format done before the region, which changes nothing on the extended reals. So entry `(r, k)` of the block is
  entry `(512·b + r, 1024·K + k)` of the argument.
-/
import proofs.«130741_j67869073212268_2_alg».proof.Proof.BodyDefs
import proofs.«130741_j67869073212268_2_alg».proof.Proof.TiledModel
import proofs.«130741_j67869073212268_2_alg».proof.Proof.ValCommon
import Idealize.ShloMosaic.Lib.Pipeline.Value

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (m : (ℓ : Loc nD τ sig) → Buf (Elt Ideal) ℓ)

/-- The memory logits: the third argument as the program finds it. -/
abbrev ml (c : Dev nD) : Cert.SupCon.MArr := m ((c : Thread nD τ).loc main_arg2)
/-- The memory targets: the fourth argument as the program finds it. -/
abbrev mt (c : Dev nD) : Cert.SupCon.MArr := m ((c : Thread nD τ).loc main_arg3)

/-- The logits' block at point `t` is block (t / 16, max (t mod 16 − 8, 0)). -/
theorem logits_block_index : ∀ t : Fin cfg0.N, win0_4.index t 0 = t.val / 16 ∧ win0_4.index t 1 = t.val % 16 - 8 :=
  (by decide +kernel : ∀ t : Fin grid0.N, win0_4.index t 0 = t.val / 16 ∧ win0_4.index t 1 = t.val % 16 - 8)
/-- The targets' block at point `t` is the same block. -/
theorem targets_block_index : ∀ t : Fin cfg0.N, win0_5.index t 0 = t.val / 16 ∧ win0_5.index t 1 = t.val % 16 - 8 :=
  (by decide +kernel : ∀ t : Fin grid0.N, win0_5.index t 0 = t.val / 16 ∧ win0_5.index t 1 = t.val % 16 - 8)

/-- Entry `(r, k)` of the logits' block at the point of row block `b` and memory tile `K`. -/
theorem logits_block_at (c : Dev nD) (t : Fin cfg0.N) (b K : Fin 8) (ht : t.val = 16 * b.val + 8 + K.val) (r : Fin 512) (cidx : Fin 1024) :
    (iblk m c 4 t : Vec Ideal S512x1024 .f32) (ix2 r cidx) = ml m c (ix2 (rowOf b r) (Cert.SupConTiled.memColOf K cidx)) := by
  have hi := logits_block_index t
  unfold iblk
  rw [View.read_apply]
  show V m c main_arg2 _ = m ((c : Thread nD τ).loc main_arg2) _
  rw [V_main_arg2 m c]
  refine congrArg _ (funext fun a => Fin.ext ?_)
  match a with
  | ⟨0, _⟩ => show win0_4.index t 0 * 512 + 1 * r.val = 512 * b.val + r.val; rw [hi.1]; omega
  | ⟨1, _⟩ => show win0_4.index t 1 * 1024 + 1 * cidx.val = 1024 * K.val + cidx.val; rw [hi.2]; omega

/-- The array the targets' window reads is the fourth argument in a narrower storage format. -/
theorem targets_array (c : Dev nD) : (V m c main_v12 : S4096x8192.Idx → EReal)
    = truncf (F := Ideal) .bf16 (m ((c : Thread nD τ).loc main_arg3) : FVec Ideal S4096x8192 .f32) bitsLt_bf16_f32 := by
  show StableHlo.after hostOps0 (fun b => m (c, b)) (Proc.devRef .tc main_v12) = _
  after_results

/-- Entry `(r, k)` of the targets' block at the point of row block `b` and memory tile `K`. -/
theorem targets_block_at (c : Dev nD) (t : Fin cfg0.N) (b K : Fin 8) (ht : t.val = 16 * b.val + 8 + K.val) (r : Fin 512) (cidx : Fin 1024) :
    (iblk m c 5 t : Vec Ideal S512x1024 .bf16) (ix2 r cidx) = mt m c (ix2 (rowOf b r) (Cert.SupConTiled.memColOf K cidx)) := by
  have hi := targets_block_index t
  unfold iblk
  rw [View.read_apply]
  show (V m c main_v12 : S4096x8192.Idx → EReal) _ = m ((c : Thread nD τ).loc main_arg3) _
  rw [targets_array m c]
  show m ((c : Thread nD τ).loc main_arg3) _ = m ((c : Thread nD τ).loc main_arg3) _
  refine congrArg _ (funext fun a => Fin.ext ?_)
  match a with
  | ⟨0, _⟩ => show win0_5.index t 0 * 512 + 1 * r.val = 512 * b.val + r.val; rw [hi.1]; omega
  | ⟨1, _⟩ => show win0_5.index t 1 * 1024 + 1 * cidx.val = 1024 * K.val + cidx.val; rw [hi.2]; omega

end Cert.KernelIdeal.Value

end
-- ==== Proof.ValMemPieces.lean ====
/-
  What each memory-sweep case of the body leaves in the three memory statistics, as arithmetic.

  Each case stores whole 512 × 1 columns, so what a buffer holds afterwards is the payload of its last store. At a middle
  memory tile that is the old column plus the tile's row sums; at the first memory tile the column is first set to zero
  and the same update is then made of the zero column just stored; at the last memory tile the update is followed by a
  copy of each statistic into its output block, which therefore holds the same column. The payloads are the body's
  own terms over the tile of logits, the tile of targets and the old column.
-/
import proofs.«130741_j67869073212268_2_alg».proof.Proof.BodyAccum
import Idealize.ShloMosaic.Lib.Pipeline.Value
import Idealize.ShloMosaic.Lib.ValueIdx
import Idealize.ShloMosaic.Lib.Tactic

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable {F : FTy → Type} [FloatOps F] [Named F]
variable (m : (ℓ : Loc nD τ sig) → Buf (Elt F) ℓ)

/-- Every store and load of the body is at offset (0, 0). -/
theorem offsets_zero : (![0, 0] : Fin 2 → Nat) = fun _ => 0 := funext fun a => by fin_cases a <;> rfl

/-! ## A middle memory tile: each statistic is stored once, the old column plus the tile's row sums -/

/-- The exponential sum after a middle memory tile. -/
theorem memMid_s4 (c : Dev nD) (t : Fin cfg0.N) (h : 9 ≤ t.val % 16 ∧ t.val % 16 ≤ 14) (p : St F) :
    (stepMemMid m c t h p).s4 = k0_pay13 (iblk m c 4 t) p.s4 := by
  show rd (F := F) _ = _
  refine (View.read_writes_eq_canon VS VS.junk _ (coverMemMid_s4 m c t h p)).trans ?_
  unfold atMemMid runMemMid
  dsimp only
  sl_unfold_words
  rw [View.canon_unit_zero offsets_zero]
  simp only [View.readAt_eq_ld, (hs4 t).read_unread, (hs5 t).read_unread, (Memref.isWhole_whole cc0_scratch4).read_unread,
    View.ld_unit_zero (S := S512x1024) offsets_zero, View.ld_unit_zero (S := S512x1) offsets_zero]

/-- The target-weighted logit sum after a middle memory tile. -/
theorem memMid_s5 (c : Dev nD) (t : Fin cfg0.N) (h : 9 ≤ t.val % 16 ∧ t.val % 16 ≤ 14) (p : St F) :
    (stepMemMid m c t h p).s5 = k0_pay14 (iblk m c 4 t) (iblk m c 5 t) p.s5 := by
  show rd (F := F) _ = _
  refine (View.read_writes_eq_canon VS VS.junk _ (coverMemMid_s5 m c t h p)).trans ?_
  unfold atMemMid runMemMid
  dsimp only
  sl_unfold_words
  rw [View.canon_unit_zero offsets_zero]
  simp only [View.readAt_eq_ld, (hs4 t).read_unread, (hs5 t).read_unread, (Memref.isWhole_whole cc0_scratch5).read_unread,
    View.ld_unit_zero (S := S512x1024) offsets_zero, View.ld_unit_zero (S := S512x1) offsets_zero]

/-- The target sum after a middle memory tile. -/
theorem memMid_s6 (c : Dev nD) (t : Fin cfg0.N) (h : 9 ≤ t.val % 16 ∧ t.val % 16 ≤ 14) (p : St F) :
    (stepMemMid m c t h p).s6 = k0_pay15 (iblk m c 5 t) p.s6 := by
  show rd (F := F) _ = _
  refine (View.read_writes_eq_canon VS VS.junk _ (coverMemMid_s6 m c t h p)).trans ?_
  unfold atMemMid runMemMid
  dsimp only
  sl_unfold_words
  rw [View.canon_unit_zero offsets_zero]
  simp only [View.readAt_eq_ld, (hs4 t).read_unread, (hs5 t).read_unread, (Memref.isWhole_whole cc0_scratch6).read_unread,
    View.ld_unit_zero (S := S512x1024) offsets_zero, View.ld_unit_zero (S := S512x1) offsets_zero]

/-! ## The first memory tile: each statistic is stored twice, the zero column and then the update of what was just
    stored; the last store is what the buffer holds -/

/-- The exponential sum after the first memory tile: the update of the zero column. -/
theorem memFirst_s4 (c : Dev nD) (t : Fin cfg0.N) (h : t.val % 16 = 8) (p : St F) :
    (stepMemFirst m c t h p).s4 = k0_pay13 (iblk m c 4 t) (k0_pay5 (F := F)) := by
  show rd (F := F) _ = _
  refine (View.read_writes_eq_canon VS VS.junk _ (coverMemFirst_s4 m c t h)).trans ?_
  unfold atMemFirst runMemFirst
  dsimp only
  sl_unfold_words
  rw [View.canon_cons_unit_zero (S := S512x1) offsets_zero, View.readCov_unit_zero (S := S512x1) _ offsets_zero]
  simp only [View.readAt_eq_ld, (hs4 t).read_unread, (hs5 t).read_unread,
    View.ld_unit_zero (S := S512x1024) offsets_zero, View.ld_unit_zero (S := S512x1) offsets_zero]

/-- The target-weighted logit sum after the first memory tile: the update of the zero column. -/
theorem memFirst_s5 (c : Dev nD) (t : Fin cfg0.N) (h : t.val % 16 = 8) (p : St F) :
    (stepMemFirst m c t h p).s5 = k0_pay14 (iblk m c 4 t) (iblk m c 5 t) (k0_pay6 (F := F)) := by
  show rd (F := F) _ = _
  refine (View.read_writes_eq_canon VS VS.junk _ (coverMemFirst_s5 m c t h)).trans ?_
  unfold atMemFirst runMemFirst
  dsimp only
  sl_unfold_words
  rw [View.canon_cons_unit_zero (S := S512x1) offsets_zero, View.readCov_unit_zero (S := S512x1) _ offsets_zero]
  simp only [View.readAt_eq_ld, (hs4 t).read_unread, (hs5 t).read_unread,
    View.ld_unit_zero (S := S512x1024) offsets_zero, View.ld_unit_zero (S := S512x1) offsets_zero]

/-- The target sum after the first memory tile: the update of the zero column. -/
theorem memFirst_s6 (c : Dev nD) (t : Fin cfg0.N) (h : t.val % 16 = 8) (p : St F) :
    (stepMemFirst m c t h p).s6 = k0_pay15 (iblk m c 5 t) (k0_pay7 (F := F)) := by
  show rd (F := F) _ = _
  refine (View.read_writes_eq_canon VS VS.junk _ (coverMemFirst_s6 m c t h)).trans ?_
  unfold atMemFirst runMemFirst
  dsimp only
  sl_unfold_words
  rw [View.canon_cons_unit_zero (S := S512x1) offsets_zero, View.readCov_unit_zero (S := S512x1) _ offsets_zero]
  simp only [View.readAt_eq_ld, (hs4 t).read_unread, (hs5 t).read_unread,
    View.ld_unit_zero (S := S512x1024) offsets_zero, View.ld_unit_zero (S := S512x1) offsets_zero]

/-! ## The last memory tile: the update of a middle tile, and each statistic read back into its output block -/

/-- The exponential sum after the last memory tile. -/
theorem memLast_s4 (c : Dev nD) (t : Fin cfg0.N) (h : t.val % 16 = 15) (p : St F) :
    (stepMemLast m c t h p).s4 = k0_pay13 (iblk m c 4 t) p.s4 := by
  show rd (F := F) _ = _
  refine (View.read_writes_eq_canon VS VS.junk _ (coverMemLast_s4 m c t h p)).trans ?_
  unfold atMemLast runMemLast
  dsimp only
  sl_unfold_words
  rw [View.canon_unit_zero offsets_zero]
  simp only [View.readAt_eq_ld, (hs4 t).read_unread, (hs5 t).read_unread, (Memref.isWhole_whole cc0_scratch4).read_unread,
    View.ld_unit_zero (S := S512x1024) offsets_zero, View.ld_unit_zero (S := S512x1) offsets_zero]

/-- Its output block holds the same column. -/
theorem memLast_o4 (c : Dev nD) (t : Fin cfg0.N) (h : t.val % 16 = 15) (p : St F) :
    (stepMemLast m c t h p).o4 = k0_pay13 (iblk m c 4 t) p.s4 := by
  show rd (F := F) _ = _
  refine (View.read_writes_eq_canon VS VS.junk _ (coverMemLast_o4 m c t h p)).trans ?_
  unfold atMemLast runMemLast
  dsimp only
  sl_unfold_words
  rw [View.canon_unit_zero offsets_zero, View.readCov_unit_zero (S := S512x1) _ offsets_zero]
  simp only [View.readAt_eq_ld, (hs4 t).read_unread, (hs5 t).read_unread, (Memref.isWhole_whole cc0_scratch4).read_unread,
    View.ld_unit_zero (S := S512x1024) offsets_zero, View.ld_unit_zero (S := S512x1) offsets_zero]

/-- The target-weighted logit sum after the last memory tile. -/
theorem memLast_s5 (c : Dev nD) (t : Fin cfg0.N) (h : t.val % 16 = 15) (p : St F) :
    (stepMemLast m c t h p).s5 = k0_pay14 (iblk m c 4 t) (iblk m c 5 t) p.s5 := by
  show rd (F := F) _ = _
  refine (View.read_writes_eq_canon VS VS.junk _ (coverMemLast_s5 m c t h p)).trans ?_
  unfold atMemLast runMemLast
  dsimp only
  sl_unfold_words
  rw [View.canon_unit_zero offsets_zero]
  simp only [View.readAt_eq_ld, (hs4 t).read_unread, (hs5 t).read_unread, (Memref.isWhole_whole cc0_scratch5).read_unread,
    View.ld_unit_zero (S := S512x1024) offsets_zero, View.ld_unit_zero (S := S512x1) offsets_zero]

/-- Its output block holds the same column. -/
theorem memLast_o5 (c : Dev nD) (t : Fin cfg0.N) (h : t.val % 16 = 15) (p : St F) :
    (stepMemLast m c t h p).o5 = k0_pay14 (iblk m c 4 t) (iblk m c 5 t) p.s5 := by
  show rd (F := F) _ = _
  refine (View.read_writes_eq_canon VS VS.junk _ (coverMemLast_o5 m c t h p)).trans ?_
  unfold atMemLast runMemLast
  dsimp only
  sl_unfold_words
  rw [View.canon_unit_zero offsets_zero, View.readCov_unit_zero (S := S512x1) _ offsets_zero]
  simp only [View.readAt_eq_ld, (hs4 t).read_unread, (hs5 t).read_unread, (Memref.isWhole_whole cc0_scratch5).read_unread,
    View.ld_unit_zero (S := S512x1024) offsets_zero, View.ld_unit_zero (S := S512x1) offsets_zero]

/-- The target sum after the last memory tile. -/
theorem memLast_s6 (c : Dev nD) (t : Fin cfg0.N) (h : t.val % 16 = 15) (p : St F) :
    (stepMemLast m c t h p).s6 = k0_pay15 (iblk m c 5 t) p.s6 := by
  show rd (F := F) _ = _
  refine (View.read_writes_eq_canon VS VS.junk _ (coverMemLast_s6 m c t h p)).trans ?_
  unfold atMemLast runMemLast
  dsimp only
  sl_unfold_words
  rw [View.canon_unit_zero offsets_zero]
  simp only [View.readAt_eq_ld, (hs4 t).read_unread, (hs5 t).read_unread, (Memref.isWhole_whole cc0_scratch6).read_unread,
    View.ld_unit_zero (S := S512x1024) offsets_zero, View.ld_unit_zero (S := S512x1) offsets_zero]

/-- Its output block holds the same column. -/
theorem memLast_o6 (c : Dev nD) (t : Fin cfg0.N) (h : t.val % 16 = 15) (p : St F) :
    (stepMemLast m c t h p).o6 = k0_pay15 (iblk m c 5 t) p.s6 := by
  show rd (F := F) _ = _
  refine (View.read_writes_eq_canon VS VS.junk _ (coverMemLast_o6 m c t h p)).trans ?_
  unfold atMemLast runMemLast
  dsimp only
  sl_unfold_words
  rw [View.canon_unit_zero offsets_zero, View.readCov_unit_zero (S := S512x1) _ offsets_zero]
  simp only [View.readAt_eq_ld, (hs4 t).read_unread, (hs5 t).read_unread, (Memref.isWhole_whole cc0_scratch6).read_unread,
    View.ld_unit_zero (S := S512x1024) offsets_zero, View.ld_unit_zero (S := S512x1) offsets_zero]

end Cert.KernelIdeal.Value

end
-- ==== Proof.ValMemInv.lean ====
/-
  The memory sweep computes the model's memory statistics.

  Fix a row block `b`. Its memory sweep is the eight grid points `16·b + 8 + K`, `K = 0 … 7`; point `K` is handed
  columns `1024·K …` of the block's rows of the memory logits and targets. For a row `r` of the block, global row
  `i = 512·b + r`, each point adds to the three statistics the row's sums over that tile — of `exp` of the logits, of
  target times logit, of the targets — and the first point starts from zero. That is the model's `memStep`, from
  `memInit`: after point `K` the three columns hold, at row `r`, the model's statistics of row `i` after `K + 1`
  tiles (induction on `K`). At the last point the three output blocks are copies of the three columns.
-/
import proofs.«130741_j67869073212268_2_alg».proof.Proof.ValMemTile
import proofs.«130741_j67869073212268_2_alg».proof.Proof.ValMemInputs
import proofs.«130741_j67869073212268_2_alg».proof.Proof.ValMemPieces

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

open Cert.SupCon Cert.SupConTiled

variable (m : (ℓ : Loc nD τ sig) → Buf (Elt Ideal) ℓ)

/-- The model's statistics after one more memory tile. -/
theorem memAfter_step (ml mt : MArr) (i : Fin 4096) (n : ℕ) (h : n < 8) :
    memAfter ml mt i (n + 1) = memStep ml mt i ⟨n, h⟩ (memAfter ml mt i n) := by
  rw [memAfter, dif_pos h]

/-- The state the body finds at a point that is not the first is the state after the point before. -/
theorem prevAt_succ (c : Dev nD) (n : ℕ) (hn : n < cfg0.N) (hn1 : n + 1 < cfg0.N) :
    prevAt m c ⟨n + 1, hn1⟩ = outsAt m c n hn := by
  unfold prevAt
  rw [if_neg (Nat.succ_ne_zero n)]
  rfl

theorem zero5 (i : S512x1.Idx) : k0_pay5 (F := Ideal) i = 0 := by unfold k0_pay5; exact zero_column_at i
theorem zero6 (i : S512x1.Idx) : k0_pay6 (F := Ideal) i = 0 := by unfold k0_pay6; exact zero_column_at i
theorem zero7 (i : S512x1.Idx) : k0_pay7 (F := Ideal) i = 0 := by unfold k0_pay7; exact zero_column_at i

/-- The three columns after a memory tile, at row `r`: for a tile of logits `x` and of targets `w` whose row `r` is
    `L` and `T`, and old columns `y4`, `y5`, `y6`. -/
theorem tile_update (x : Vec Ideal S512x1024 .f32) (w : Vec Ideal S512x1024 .bf16) (r : Fin 512) (L T : Fin 1024 → EReal)
    (hx : ∀ cidx, x (ix2 r cidx) = L cidx) (hw : ∀ cidx, w (ix2 r cidx) = T cidx) (y4 y5 y6 : Vec Ideal S512x1 .f32) :
    k0_pay13 (F := Ideal) x y4 (ix2 r 0) = y4 (ix2 r 0) + ∑ cidx : Fin 1024, Ideal.exp (L cidx)
    ∧ k0_pay14 (F := Ideal) x w y5 (ix2 r 0) = y5 (ix2 r 0) + ∑ cidx : Fin 1024, T cidx * L cidx
    ∧ k0_pay15 (F := Ideal) w y6 (ix2 r 0) = y6 (ix2 r 0) + ∑ cidx : Fin 1024, T cidx :=
  ⟨(expsum_at x y4 r).trans (congrArg (y4 (ix2 r 0) + ·) (Finset.sum_congr rfl fun cidx _ => congrArg Ideal.exp (hx cidx))),
    (wsum_at x w y5 r).trans (congrArg (y5 (ix2 r 0) + ·) (Finset.sum_congr rfl fun cidx _ => congrArg₂ (· * ·) (hw cidx) (hx cidx))),
    (tsum_at w y6 r).trans (congrArg (y6 (ix2 r 0) + ·) (Finset.sum_congr rfl fun cidx _ => hw cidx))⟩

/-- The three statistics' columns of a state hold, at row `r`, the model's statistics `S`. -/
def Holds (s : St Ideal) (r : Fin 512) (S : MemStats) : Prop :=
  s.s4 (ix2 r 0) = S.em ∧ s.s5 (ix2 r 0) = S.s2 ∧ s.s6 (ix2 r 0) = S.nm

/-- The three output blocks of a state hold, at row `r`, the model's statistics `S`. -/
def HoldsOut (s : St Ideal) (r : Fin 512) (S : MemStats) : Prop :=
  s.o4 (ix2 r 0) = S.em ∧ s.o5 (ix2 r 0) = S.s2 ∧ s.o6 (ix2 r 0) = S.nm

/-- The first memory tile of a row block: from zero. -/
theorem first_holds (c : Dev nD) (t : Fin cfg0.N) (h8 : t.val % 16 = 8) (b K : Fin 8) (ht : t.val = 16 * b.val + 8 + K.val)
    (r : Fin 512) : Holds (outsAt m c t.val t.isLt) r (memStep (ml m c) (mt m c) (rowOf b r) K memInit) := by
  obtain ⟨u4, u5, u6⟩ := tile_update (iblk m c 4 t) (iblk m c 5 t) r _ _
    (fun cidx => logits_block_at m c t b K ht r cidx) (fun cidx => targets_block_at m c t b K ht r cidx)
    (k0_pay5 (F := Ideal)) (k0_pay6 (F := Ideal)) (k0_pay7 (F := Ideal))
  rw [zero5] at u4; rw [zero6] at u5; rw [zero7] at u6
  rw [outsAt_memFirst m c t h8]
  unfold Holds
  rw [memFirst_s4 (F := Ideal) m c t h8, memFirst_s5 (F := Ideal) m c t h8, memFirst_s6 (F := Ideal) m c t h8]
  exact ⟨u4, u5, u6⟩

/-- A middle memory tile: one more step of the model. -/
theorem mid_holds (c : Dev nD) (t : Fin cfg0.N) (hm : 9 ≤ t.val % 16 ∧ t.val % 16 ≤ 14) (b K : Fin 8)
    (ht : t.val = 16 * b.val + 8 + K.val) (r : Fin 512) (S : MemStats) (hp : Holds (prevAt m c t) r S) :
    Holds (outsAt m c t.val t.isLt) r (memStep (ml m c) (mt m c) (rowOf b r) K S) := by
  obtain ⟨u4, u5, u6⟩ := tile_update (iblk m c 4 t) (iblk m c 5 t) r _ _
    (fun cidx => logits_block_at m c t b K ht r cidx) (fun cidx => targets_block_at m c t b K ht r cidx)
    (prevAt m c t).s4 (prevAt m c t).s5 (prevAt m c t).s6
  obtain ⟨p4, p5, p6⟩ := hp
  rw [p4] at u4; rw [p5] at u5; rw [p6] at u6
  rw [outsAt_memMid m c t hm]
  unfold Holds
  rw [memMid_s4 (F := Ideal) m c t hm, memMid_s5 (F := Ideal) m c t hm, memMid_s6 (F := Ideal) m c t hm]
  exact ⟨u4, u5, u6⟩

/-- The last memory tile: one more step of the model, in the three columns and in the three output blocks. -/
theorem last_holds (c : Dev nD) (t : Fin cfg0.N) (hl : t.val % 16 = 15) (b K : Fin 8)
    (ht : t.val = 16 * b.val + 8 + K.val) (r : Fin 512) (S : MemStats) (hp : Holds (prevAt m c t) r S) :
    Holds (outsAt m c t.val t.isLt) r (memStep (ml m c) (mt m c) (rowOf b r) K S)
    ∧ HoldsOut (outsAt m c t.val t.isLt) r (memStep (ml m c) (mt m c) (rowOf b r) K S) := by
  obtain ⟨u4, u5, u6⟩ := tile_update (iblk m c 4 t) (iblk m c 5 t) r _ _
    (fun cidx => logits_block_at m c t b K ht r cidx) (fun cidx => targets_block_at m c t b K ht r cidx)
    (prevAt m c t).s4 (prevAt m c t).s5 (prevAt m c t).s6
  obtain ⟨p4, p5, p6⟩ := hp
  rw [p4] at u4; rw [p5] at u5; rw [p6] at u6
  rw [outsAt_memLast m c t hl]
  unfold Holds HoldsOut
  rw [memLast_s4 (F := Ideal) m c t hl, memLast_s5 (F := Ideal) m c t hl, memLast_s6 (F := Ideal) m c t hl,
    memLast_o4 (F := Ideal) m c t hl, memLast_o5 (F := Ideal) m c t hl, memLast_o6 (F := Ideal) m c t hl]
  exact ⟨⟨u4, u5, u6⟩, ⟨u4, u5, u6⟩⟩

/-- After memory tile `k` of row block `b` the three columns hold, at every row, the model's statistics after `k + 1`
    tiles. -/
theorem mem_sweep (c : Dev nD) (b : Fin 8) : ∀ (k : ℕ) (hk : k < 8) (hn : 16 * b.val + 8 + k < cfg0.N) (r : Fin 512),
    Holds (outsAt m c (16 * b.val + 8 + k) hn) r (memAfter (ml m c) (mt m c) (rowOf b r) (k + 1))
  | 0, hk, hn, r => by
    rw [memAfter_step _ _ _ 0 hk]
    exact first_holds m c ⟨16 * b.val + 8 + 0, hn⟩ (by dsimp only; omega) b ⟨0, hk⟩ rfl r
  | k + 1, hk, hn, r => by
    have hn' : 16 * b.val + 8 + k < cfg0.N := by omega
    have ih := mem_sweep c b k (by omega) hn' r
    have hp : prevAt m c ⟨16 * b.val + 8 + k + 1, hn⟩ = outsAt m c (16 * b.val + 8 + k) hn' := prevAt_succ m c _ hn' hn
    rw [memAfter_step _ _ _ (k + 1) hk]
    by_cases h15 : k + 1 = 7
    · exact (last_holds m c ⟨16 * b.val + 8 + k + 1, hn⟩ (by dsimp only; omega) b ⟨k + 1, hk⟩ rfl r _ (by rw [hp]; exact ih)).1
    · exact mid_holds m c ⟨16 * b.val + 8 + k + 1, hn⟩ (by dsimp only; omega) b ⟨k + 1, hk⟩ rfl r _ (by rw [hp]; exact ih)

/-- THE MEMORY SWEEP. At the point of row block `b` and memory tile `K` the three memory statistics hold, at row `r`,
    the model's statistics of global row `512·b + r` after `K + 1` tiles. -/
theorem mem_stats (c : Dev nD) (b K : Fin 8) (r : Fin 512) (t : Fin cfg0.N) (ht : t.val = 16 * b.val + 8 + K.val) :
    (outsAt (F := Ideal) m c t.val t.isLt).s4 (ix2 r 0) = (memAfter (ml m c) (mt m c) (rowOf b r) (K.val + 1)).em
    ∧ (outsAt (F := Ideal) m c t.val t.isLt).s5 (ix2 r 0) = (memAfter (ml m c) (mt m c) (rowOf b r) (K.val + 1)).s2
    ∧ (outsAt (F := Ideal) m c t.val t.isLt).s6 (ix2 r 0) = (memAfter (ml m c) (mt m c) (rowOf b r) (K.val + 1)).nm := by
  obtain ⟨n, hn⟩ := t
  dsimp only at ht
  subst ht
  exact mem_sweep m c b K.val K.isLt hn r

/-- At the last memory tile the three output blocks hold the model's final memory statistics. -/
theorem mem_outs (c : Dev nD) (b : Fin 8) (r : Fin 512) (t : Fin cfg0.N) (ht : t.val = 16 * b.val + 15) :
    (outsAt (F := Ideal) m c t.val t.isLt).o4 (ix2 r 0) = (memAfter (ml m c) (mt m c) (rowOf b r) 8).em
    ∧ (outsAt (F := Ideal) m c t.val t.isLt).o5 (ix2 r 0) = (memAfter (ml m c) (mt m c) (rowOf b r) 8).s2
    ∧ (outsAt (F := Ideal) m c t.val t.isLt).o6 (ix2 r 0) = (memAfter (ml m c) (mt m c) (rowOf b r) 8).nm := by
  have hN : cfg0.N = 128 := N_0
  have hn' : 16 * b.val + 8 + 6 < cfg0.N := by have := t.isLt; omega
  have ih := mem_sweep m c b 6 (by omega) hn' r
  obtain ⟨n, hn⟩ := t
  dsimp only at ht
  subst ht
  have hp : prevAt m c ⟨16 * b.val + 8 + 6 + 1, hn⟩ = outsAt m c (16 * b.val + 8 + 6) hn' := prevAt_succ m c _ hn' hn
  rw [memAfter_step _ _ _ 7 (by omega)]
  exact (last_holds m c ⟨16 * b.val + 8 + 6 + 1, hn⟩ (by dsimp only; omega) b ⟨7, by omega⟩ rfl r _ (by rw [hp]; exact ih)).2

end Cert.KernelIdeal.Value

end
-- ==== Proof.ValTailArrays.lean ====
/-
  The seven result arrays after the region.

  Each of the seven 4096 × 1 result arrays is written back block by block: the block of row block `b` (rows
  `512·b … 512·b + 511`) once, at the last point `16·b + 15` of the row block, from the output block the body filled.
  The eight blocks cover the 4096 rows. So each array ends holding, at row `i = 512·b + r`, what the output block of
  row block `b` holds at row `r` at point `16·b + 15`.
  For the three memory statistics that is the model's statistic of row `i` after all eight memory tiles. The four
  similarity statistics are copied out at inner step 7 and are not touched by the memory sweep, so at point
  `16·b + 15` their output blocks still hold what they held at point `16·b + 7`; what they hold there is taken as a
  hypothesis (`SimOuts`): the model's similarity statistics of row `i` after all eight similarity tiles.
  The statements are for any proof data whose body leaves output window `w`'s buffer at the state's component.
-/
import proofs.«130741_j67869073212268_2_alg».proof.Proof.ValMemInv
import Idealize.ShloMosaic.Lib.Pipeline.Value

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

open Cert.SupCon Cert.SupConTiled

variable (m : (ℓ : Loc nD τ sig) → Buf (Elt Ideal) ℓ)

/-- A statistic of every global row, as a 4096 × 1 array. -/
def colArr (f : Fin 4096 → EReal) : S4096x1.Idx → EReal := fun i => f ⟨(i 0).val, (i 0).isLt⟩

theorem colArr_at (f : Fin 4096 → EReal) (i : Fin 4096) (z : Fin 1) : colArr f (ix2 i z) = f i := rfl

/-- WHAT THE SIMILARITY SWEEP IS ASSUMED TO LEAVE: at the last similarity tile of row block `b` (point `16·b + 7`) the
    four similarity output blocks hold, at row `r`, the model's similarity statistics of row `512·b + r` after all eight
    similarity tiles. -/
def SimOuts (c : Dev nD) (q : QArr) (lab : LArr) : Prop :=
  ∀ (b : Fin 8) (r : Fin 512),
    (outsAt (F := Ideal) m c (16 * b.val + 7) (by have := b.isLt; rw [show cfg0.N = 128 from N_0]; omega)).o0 (ix2 r 0) = (simAfter q lab (rowOf b r) 8).m
    ∧ (outsAt (F := Ideal) m c (16 * b.val + 7) (by have := b.isLt; rw [show cfg0.N = 128 from N_0]; omega)).o1 (ix2 r 0) = (simAfter q lab (rowOf b r) 8).e
    ∧ (outsAt (F := Ideal) m c (16 * b.val + 7) (by have := b.isLt; rw [show cfg0.N = 128 from N_0]; omega)).o2 (ix2 r 0) = (simAfter q lab (rowOf b r) 8).s1
    ∧ (outsAt (F := Ideal) m c (16 * b.val + 7) (by have := b.isLt; rw [show cfg0.N = 128 from N_0]; omega)).o3 (ix2 r 0) = (simAfter q lab (rowOf b r) 8).np

/-- Through a row block's memory sweep the four similarity output blocks do not change. -/
theorem sim_outs_kept (c : Dev nD) (b : Fin 8) : ∀ (k : ℕ) (hk : k ≤ 8) (hn : 16 * b.val + 7 + k < cfg0.N) (hn0 : 16 * b.val + 7 < cfg0.N),
    (outsAt m c (16 * b.val + 7 + k) hn).o0 = (outsAt m c (16 * b.val + 7) hn0).o0
    ∧ (outsAt m c (16 * b.val + 7 + k) hn).o1 = (outsAt m c (16 * b.val + 7) hn0).o1
    ∧ (outsAt m c (16 * b.val + 7 + k) hn).o2 = (outsAt m c (16 * b.val + 7) hn0).o2
    ∧ (outsAt m c (16 * b.val + 7 + k) hn).o3 = (outsAt m c (16 * b.val + 7) hn0).o3
  | 0, _, hn, hn0 => ⟨rfl, rfl, rfl, rfl⟩
  | k + 1, hk, hn, hn0 => by
    have hn' : 16 * b.val + 7 + k < cfg0.N := by omega
    obtain ⟨i0, i1, i2, i3⟩ := sim_outs_kept c b k (by omega) hn' hn0
    have hp : prevAt m c ⟨16 * b.val + 7 + k + 1, hn⟩ = outsAt m c (16 * b.val + 7 + k) hn' := prevAt_succ m c _ hn' hn
    by_cases h0 : k = 0
    · have e := outsAt_memFirst m c ⟨16 * b.val + 7 + k + 1, hn⟩ (by dsimp only; omega)
      rw [hp] at e
      exact ⟨(congrArg St.o0 e).trans i0, (congrArg St.o1 e).trans i1, (congrArg St.o2 e).trans i2, (congrArg St.o3 e).trans i3⟩
    · by_cases h7 : k = 7
      · have e := outsAt_memLast m c ⟨16 * b.val + 7 + k + 1, hn⟩ (by dsimp only; omega)
        rw [hp] at e
        exact ⟨(congrArg St.o0 e).trans i0, (congrArg St.o1 e).trans i1, (congrArg St.o2 e).trans i2, (congrArg St.o3 e).trans i3⟩
      · have e := outsAt_memMid m c ⟨16 * b.val + 7 + k + 1, hn⟩ (by dsimp only; omega)
        rw [hp] at e
        exact ⟨(congrArg St.o0 e).trans i0, (congrArg St.o1 e).trans i1, (congrArg St.o2 e).trans i2, (congrArg St.o3 e).trans i3⟩

/-- At a row block's last point the four similarity output blocks hold the model's final similarity statistics. -/
theorem sim_outs_at_last (c : Dev nD) (q : QArr) (lab : LArr) (hsim : SimOuts m c q lab) (b : Fin 8) (r : Fin 512) (t : Fin cfg0.N)
    (ht : t.val = 16 * b.val + 15) :
    (outsAt m c t.val t.isLt).o0 (ix2 r 0) = (simAfter q lab (rowOf b r) 8).m
    ∧ (outsAt m c t.val t.isLt).o1 (ix2 r 0) = (simAfter q lab (rowOf b r) 8).e
    ∧ (outsAt m c t.val t.isLt).o2 (ix2 r 0) = (simAfter q lab (rowOf b r) 8).s1
    ∧ (outsAt m c t.val t.isLt).o3 (ix2 r 0) = (simAfter q lab (rowOf b r) 8).np := by
  have hN : cfg0.N = 128 := N_0
  obtain ⟨n, hn⟩ := t
  dsimp only at ht
  subst ht
  obtain ⟨k0, k1, k2, k3⟩ := sim_outs_kept m c b 8 le_rfl hn (by omega)
  obtain ⟨s0, s1, s2, s3⟩ := hsim b r
  exact ⟨(congrFun k0 _).trans s0, (congrFun k1 _).trans s1, (congrFun k2 _).trans s2, (congrFun k3 _).trans s3⟩

/-! ## Window by window: what is written back, where, and the array at the end -/

/-- Output window 6's block at point `t` is block (t / 16, 0). -/
theorem out_index6 : ∀ t : Fin cfg0.N, win0_6.index t 0 = t.val / 16 ∧ win0_6.index t 1 = 0 :=
  (by decide +kernel : ∀ t : Fin grid0.N, win0_6.index t 0 = t.val / 16 ∧ win0_6.index t 1 = 0)

/-- A row of the array is in point `t`'s block iff each coordinate is in the block's range. -/
theorem mem_blk6 (t : Fin cfg0.N) (i : S4096x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v13_0).slice (win0_6.rect t)).set ↔ _
  rw [View.set_slice_whole, Rect.mem_set_unit]
  exact Iff.rfl

/-- What a write-back of window 6 writes is the block of the model's statistic. -/
theorem flushed6 (c : Dev nD) (q : QArr) (lab : LArr) (hsim : SimOuts m c q lab) (dat : Dat τ (Elt Ideal) Unit ℕ (UR sig nD τ) ℕ cfg0 c)
    (hafter : ∀ t, dat.after 6 t = (outsAt m c t.val t.isLt).o0) (t : Fin cfg0.N) (hf : (cfg0.win 6).flush t = true) :
    dat.flushed 6 t = ((cfg0.win 6).blk t).view.read (Elt Ideal) (colArr fun i => (simAfter q lab i 8).m) := by
  have h15 := (flush0_6 t).mp hf
  have hN : cfg0.N = 128 := N_0
  have hb : t.val / 16 < 8 := by have := t.isLt; omega
  have hi := out_index6 t
  show (cfg0.win 6).cut (grid0.coords t) (dat.after 6 t) = _
  rw [hafter t]
  funext j
  have hj0 : (j 0).val < 512 := (j 0).isLt
  have hj1 : (j 1).val < 1 := (j 1).isLt
  show (outsAt m c t.val t.isLt).o0 ((cfg0.win 6).xinj (grid0.coords t) j) = colArr (fun i => (simAfter q lab i 8).m) (((cfg0.win 6).blk t).view.emb j)
  have e : (cfg0.win 6).xinj (grid0.coords t) j = ix2 (⟨(j 0).val, hj0⟩ : Fin 512) (0 : Fin 1) :=
    funext fun a => Fin.ext (match a with | ⟨0, _⟩ => rfl | ⟨1, _⟩ => by show (j 1).val = 0; omega)
  rw [e, (sim_outs_at_last m c q lab hsim ⟨t.val / 16, hb⟩ ⟨(j 0).val, hj0⟩ t (by dsimp only; omega)).1]
  unfold colArr
  refine congrArg (fun i => (simAfter q lab i 8).m) (Fin.ext ?_)
  show 512 * (t.val / 16) + (j 0).val = win0_6.index t 0 * 512 + 1 * (j 0).val
  rw [hi.1]; omega

/-- The eight write-backs of window 6 cover the array. -/
theorem cover6 (i : S4096x1.Idx) : ∃ t : Fin cfg0.N, (cfg0.win 6).flush t = true ∧ i ∈ ((cfg0.win 6).blk t).view.set := by
  have hN : cfg0.N = 128 := N_0
  have hi0 : (i 0).val < 4096 := (i 0).isLt
  have hi1 : (i 1).val < 1 := (i 1).isLt
  have hi := out_index6 ⟨16 * ((i 0).val / 512) + 15, by omega⟩
  refine ⟨⟨16 * ((i 0).val / 512) + 15, by omega⟩, (flush0_6 _).mpr (by dsimp only; omega), ?_⟩
  rw [mem_blk6]
  intro a
  match a with
  | ⟨0, _⟩ =>
    show win0_6.index _ 0 * 512 ≤ (i 0).val ∧ (i 0).val < win0_6.index _ 0 * 512 + 512
    rw [hi.1]; dsimp only; omega
  | ⟨1, _⟩ =>
    show win0_6.index _ 1 * 1 ≤ (i 1).val ∧ (i 1).val < win0_6.index _ 1 * 1 + 1
    rw [hi.2]; omega

/-- THE ARRAY of window 6 after the region: the model's statistic, row by row. -/
theorem final6 (c : Dev nD) (q : QArr) (lab : LArr) (hsim : SimOuts m c q lab) (dat : Dat τ (Elt Ideal) Unit ℕ (UR sig nD τ) ℕ cfg0 c)
    (hafter : ∀ t, dat.after 6 t = (outsAt m c t.val t.isLt).o0) :
    dat.arrAt 6 cfg0.N = (colArr fun i => (simAfter q lab i 8).m) :=
  dat.arrAt_eq_of_cover 6 (colArr fun i => (simAfter q lab i 8).m) (flushed6 m c q lab hsim dat hafter) cover6

/-- Output window 7's block at point `t` is block (t / 16, 0). -/
theorem out_index7 : ∀ t : Fin cfg0.N, win0_7.index t 0 = t.val / 16 ∧ win0_7.index t 1 = 0 :=
  (by decide +kernel : ∀ t : Fin grid0.N, win0_7.index t 0 = t.val / 16 ∧ win0_7.index t 1 = 0)

/-- A row of the array is in point `t`'s block iff each coordinate is in the block's range. -/
theorem mem_blk7 (t : Fin cfg0.N) (i : S4096x1.Idx) :
    i ∈ ((cfg0.win 7).blk t).view.set ↔ ∀ a : Fin 2, win0_7.index t a * S512x1.size a ≤ (i a).val ∧ (i a).val < win0_7.index t a * S512x1.size a + S512x1.size a := by
  show i ∈ ((View.whole main_v13_1).slice (win0_7.rect t)).set ↔ _
  rw [View.set_slice_whole, Rect.mem_set_unit]
  exact Iff.rfl

/-- What a write-back of window 7 writes is the block of the model's statistic. -/
theorem flushed7 (c : Dev nD) (q : QArr) (lab : LArr) (hsim : SimOuts m c q lab) (dat : Dat τ (Elt Ideal) Unit ℕ (UR sig nD τ) ℕ cfg0 c)
    (hafter : ∀ t, dat.after 7 t = (outsAt m c t.val t.isLt).o1) (t : Fin cfg0.N) (hf : (cfg0.win 7).flush t = true) :
    dat.flushed 7 t = ((cfg0.win 7).blk t).view.read (Elt Ideal) (colArr fun i => (simAfter q lab i 8).e) := by
  have h15 := (flush0_7 t).mp hf
  have hN : cfg0.N = 128 := N_0
  have hb : t.val / 16 < 8 := by have := t.isLt; omega
  have hi := out_index7 t
  show (cfg0.win 7).cut (grid0.coords t) (dat.after 7 t) = _
  rw [hafter t]
  funext j
  have hj0 : (j 0).val < 512 := (j 0).isLt
  have hj1 : (j 1).val < 1 := (j 1).isLt
  show (outsAt m c t.val t.isLt).o1 ((cfg0.win 7).xinj (grid0.coords t) j) = colArr (fun i => (simAfter q lab i 8).e) (((cfg0.win 7).blk t).view.emb j)
  have e : (cfg0.win 7).xinj (grid0.coords t) j = ix2 (⟨(j 0).val, hj0⟩ : Fin 512) (0 : Fin 1) :=
    funext fun a => Fin.ext (match a with | ⟨0, _⟩ => rfl | ⟨1, _⟩ => by show (j 1).val = 0; omega)
  rw [e, (sim_outs_at_last m c q lab hsim ⟨t.val / 16, hb⟩ ⟨(j 0).val, hj0⟩ t (by dsimp only; omega)).2.1]
  unfold colArr
  refine congrArg (fun i => (simAfter q lab i 8).e) (Fin.ext ?_)
  show 512 * (t.val / 16) + (j 0).val = win0_7.index t 0 * 512 + 1 * (j 0).val
  rw [hi.1]; omega

/-- The eight write-backs of window 7 cover the array. -/
theorem cover7 (i : S4096x1.Idx) : ∃ t : Fin cfg0.N, (cfg0.win 7).flush t = true ∧ i ∈ ((cfg0.win 7).blk t).view.set := by
  have hN : cfg0.N = 128 := N_0
  have hi0 : (i 0).val < 4096 := (i 0).isLt
  have hi1 : (i 1).val < 1 := (i 1).isLt
  have hi := out_index7 ⟨16 * ((i 0).val / 512) + 15, by omega⟩
  refine ⟨⟨16 * ((i 0).val / 512) + 15, by omega⟩, (flush0_7 _).mpr (by dsimp only; omega), ?_⟩
  rw [mem_blk7]
  intro a
  match a with
  | ⟨0, _⟩ =>
    show win0_7.index _ 0 * 512 ≤ (i 0).val ∧ (i 0).val < win0_7.index _ 0 * 512 + 512
    rw [hi.1]; dsimp only; omega
  | ⟨1, _⟩ =>
    show win0_7.index _ 1 * 1 ≤ (i 1).val ∧ (i 1).val < win0_7.index _ 1 * 1 + 1
    rw [hi.2]; omega

/-- THE ARRAY of window 7 after the region: the model's statistic, row by row. -/
theorem final7 (c : Dev nD) (q : QArr) (lab : LArr) (hsim : SimOuts m c q lab) (dat : Dat τ (Elt Ideal) Unit ℕ (UR sig nD τ) ℕ cfg0 c)
    (hafter : ∀ t, dat.after 7 t = (outsAt m c t.val t.isLt).o1) :
    dat.arrAt 7 cfg0.N = (colArr fun i => (simAfter q lab i 8).e) :=
  dat.arrAt_eq_of_cover 7 (colArr fun i => (simAfter q lab i 8).e) (flushed7 m c q lab hsim dat hafter) cover7

/-- Output window 8's block at point `t` is block (t / 16, 0). -/
theorem out_index8 : ∀ t : Fin cfg0.N, win0_8.index t 0 = t.val / 16 ∧ win0_8.index t 1 = 0 :=
  (by decide +kernel : ∀ t : Fin grid0.N, win0_8.index t 0 = t.val / 16 ∧ win0_8.index t 1 = 0)

/-- A row of the array is in point `t`'s block iff each coordinate is in the block's range. -/
theorem mem_blk8 (t : Fin cfg0.N) (i : S4096x1.Idx) :
    i ∈ ((cfg0.win 8).blk t).view.set ↔ ∀ a : Fin 2, win0_8.index t a * S512x1.size a ≤ (i a).val ∧ (i a).val < win0_8.index t a * S512x1.size a + S512x1.size a := by
  show i ∈ ((View.whole main_v13_2).slice (win0_8.rect t)).set ↔ _
  rw [View.set_slice_whole, Rect.mem_set_unit]
  exact Iff.rfl

/-- What a write-back of window 8 writes is the block of the model's statistic. -/
theorem flushed8 (c : Dev nD) (q : QArr) (lab : LArr) (hsim : SimOuts m c q lab) (dat : Dat τ (Elt Ideal) Unit ℕ (UR sig nD τ) ℕ cfg0 c)
    (hafter : ∀ t, dat.after 8 t = (outsAt m c t.val t.isLt).o2) (t : Fin cfg0.N) (hf : (cfg0.win 8).flush t = true) :
    dat.flushed 8 t = ((cfg0.win 8).blk t).view.read (Elt Ideal) (colArr fun i => (simAfter q lab i 8).s1) := by
  have h15 := (flush0_8 t).mp hf
  have hN : cfg0.N = 128 := N_0
  have hb : t.val / 16 < 8 := by have := t.isLt; omega
  have hi := out_index8 t
  show (cfg0.win 8).cut (grid0.coords t) (dat.after 8 t) = _
  rw [hafter t]
  funext j
  have hj0 : (j 0).val < 512 := (j 0).isLt
  have hj1 : (j 1).val < 1 := (j 1).isLt
  show (outsAt m c t.val t.isLt).o2 ((cfg0.win 8).xinj (grid0.coords t) j) = colArr (fun i => (simAfter q lab i 8).s1) (((cfg0.win 8).blk t).view.emb j)
  have e : (cfg0.win 8).xinj (grid0.coords t) j = ix2 (⟨(j 0).val, hj0⟩ : Fin 512) (0 : Fin 1) :=
    funext fun a => Fin.ext (match a with | ⟨0, _⟩ => rfl | ⟨1, _⟩ => by show (j 1).val = 0; omega)
  rw [e, (sim_outs_at_last m c q lab hsim ⟨t.val / 16, hb⟩ ⟨(j 0).val, hj0⟩ t (by dsimp only; omega)).2.2.1]
  unfold colArr
  refine congrArg (fun i => (simAfter q lab i 8).s1) (Fin.ext ?_)
  show 512 * (t.val / 16) + (j 0).val = win0_8.index t 0 * 512 + 1 * (j 0).val
  rw [hi.1]; omega

/-- The eight write-backs of window 8 cover the array. -/
theorem cover8 (i : S4096x1.Idx) : ∃ t : Fin cfg0.N, (cfg0.win 8).flush t = true ∧ i ∈ ((cfg0.win 8).blk t).view.set := by
  have hN : cfg0.N = 128 := N_0
  have hi0 : (i 0).val < 4096 := (i 0).isLt
  have hi1 : (i 1).val < 1 := (i 1).isLt
  have hi := out_index8 ⟨16 * ((i 0).val / 512) + 15, by omega⟩
  refine ⟨⟨16 * ((i 0).val / 512) + 15, by omega⟩, (flush0_8 _).mpr (by dsimp only; omega), ?_⟩
  rw [mem_blk8]
  intro a
  match a with
  | ⟨0, _⟩ =>
    show win0_8.index _ 0 * 512 ≤ (i 0).val ∧ (i 0).val < win0_8.index _ 0 * 512 + 512
    rw [hi.1]; dsimp only; omega
  | ⟨1, _⟩ =>
    show win0_8.index _ 1 * 1 ≤ (i 1).val ∧ (i 1).val < win0_8.index _ 1 * 1 + 1
    rw [hi.2]; omega

/-- THE ARRAY of window 8 after the region: the model's statistic, row by row. -/
theorem final8 (c : Dev nD) (q : QArr) (lab : LArr) (hsim : SimOuts m c q lab) (dat : Dat τ (Elt Ideal) Unit ℕ (UR sig nD τ) ℕ cfg0 c)
    (hafter : ∀ t, dat.after 8 t = (outsAt m c t.val t.isLt).o2) :
    dat.arrAt 8 cfg0.N = (colArr fun i => (simAfter q lab i 8).s1) :=
  dat.arrAt_eq_of_cover 8 (colArr fun i => (simAfter q lab i 8).s1) (flushed8 m c q lab hsim dat hafter) cover8

/-- Output window 9's block at point `t` is block (t / 16, 0). -/
theorem out_index9 : ∀ t : Fin cfg0.N, win0_9.index t 0 = t.val / 16 ∧ win0_9.index t 1 = 0 :=
  (by decide +kernel : ∀ t : Fin grid0.N, win0_9.index t 0 = t.val / 16 ∧ win0_9.index t 1 = 0)

/-- A row of the array is in point `t`'s block iff each coordinate is in the block's range. -/
theorem mem_blk9 (t : Fin cfg0.N) (i : S4096x1.Idx) :
    i ∈ ((cfg0.win 9).blk t).view.set ↔ ∀ a : Fin 2, win0_9.index t a * S512x1.size a ≤ (i a).val ∧ (i a).val < win0_9.index t a * S512x1.size a + S512x1.size a := by
  show i ∈ ((View.whole main_v13_3).slice (win0_9.rect t)).set ↔ _
  rw [View.set_slice_whole, Rect.mem_set_unit]
  exact Iff.rfl

/-- What a write-back of window 9 writes is the block of the model's statistic. -/
theorem flushed9 (c : Dev nD) (q : QArr) (lab : LArr) (hsim : SimOuts m c q lab) (dat : Dat τ (Elt Ideal) Unit ℕ (UR sig nD τ) ℕ cfg0 c)
    (hafter : ∀ t, dat.after 9 t = (outsAt m c t.val t.isLt).o3) (t : Fin cfg0.N) (hf : (cfg0.win 9).flush t = true) :
    dat.flushed 9 t = ((cfg0.win 9).blk t).view.read (Elt Ideal) (colArr fun i => (simAfter q lab i 8).np) := by
  have h15 := (flush0_9 t).mp hf
  have hN : cfg0.N = 128 := N_0
  have hb : t.val / 16 < 8 := by have := t.isLt; omega
  have hi := out_index9 t
  show (cfg0.win 9).cut (grid0.coords t) (dat.after 9 t) = _
  rw [hafter t]
  funext j
  have hj0 : (j 0).val < 512 := (j 0).isLt
  have hj1 : (j 1).val < 1 := (j 1).isLt
  show (outsAt m c t.val t.isLt).o3 ((cfg0.win 9).xinj (grid0.coords t) j) = colArr (fun i => (simAfter q lab i 8).np) (((cfg0.win 9).blk t).view.emb j)
  have e : (cfg0.win 9).xinj (grid0.coords t) j = ix2 (⟨(j 0).val, hj0⟩ : Fin 512) (0 : Fin 1) :=
    funext fun a => Fin.ext (match a with | ⟨0, _⟩ => rfl | ⟨1, _⟩ => by show (j 1).val = 0; omega)
  rw [e, (sim_outs_at_last m c q lab hsim ⟨t.val / 16, hb⟩ ⟨(j 0).val, hj0⟩ t (by dsimp only; omega)).2.2.2]
  unfold colArr
  refine congrArg (fun i => (simAfter q lab i 8).np) (Fin.ext ?_)
  show 512 * (t.val / 16) + (j 0).val = win0_9.index t 0 * 512 + 1 * (j 0).val
  rw [hi.1]; omega

/-- The eight write-backs of window 9 cover the array. -/
theorem cover9 (i : S4096x1.Idx) : ∃ t : Fin cfg0.N, (cfg0.win 9).flush t = true ∧ i ∈ ((cfg0.win 9).blk t).view.set := by
  have hN : cfg0.N = 128 := N_0
  have hi0 : (i 0).val < 4096 := (i 0).isLt
  have hi1 : (i 1).val < 1 := (i 1).isLt
  have hi := out_index9 ⟨16 * ((i 0).val / 512) + 15, by omega⟩
  refine ⟨⟨16 * ((i 0).val / 512) + 15, by omega⟩, (flush0_9 _).mpr (by dsimp only; omega), ?_⟩
  rw [mem_blk9]
  intro a
  match a with
  | ⟨0, _⟩ =>
    show win0_9.index _ 0 * 512 ≤ (i 0).val ∧ (i 0).val < win0_9.index _ 0 * 512 + 512
    rw [hi.1]; dsimp only; omega
  | ⟨1, _⟩ =>
    show win0_9.index _ 1 * 1 ≤ (i 1).val ∧ (i 1).val < win0_9.index _ 1 * 1 + 1
    rw [hi.2]; omega

/-- THE ARRAY of window 9 after the region: the model's statistic, row by row. -/
theorem final9 (c : Dev nD) (q : QArr) (lab : LArr) (hsim : SimOuts m c q lab) (dat : Dat τ (Elt Ideal) Unit ℕ (UR sig nD τ) ℕ cfg0 c)
    (hafter : ∀ t, dat.after 9 t = (outsAt m c t.val t.isLt).o3) :
    dat.arrAt 9 cfg0.N = (colArr fun i => (simAfter q lab i 8).np) :=
  dat.arrAt_eq_of_cover 9 (colArr fun i => (simAfter q lab i 8).np) (flushed9 m c q lab hsim dat hafter) cover9

/-- Output window 10's block at point `t` is block (t / 16, 0). -/
theorem out_index10 : ∀ t : Fin cfg0.N, win0_10.index t 0 = t.val / 16 ∧ win0_10.index t 1 = 0 :=
  (by decide +kernel : ∀ t : Fin grid0.N, win0_10.index t 0 = t.val / 16 ∧ win0_10.index t 1 = 0)

/-- A row of the array is in point `t`'s block iff each coordinate is in the block's range. -/
theorem mem_blk10 (t : Fin cfg0.N) (i : S4096x1.Idx) :
    i ∈ ((cfg0.win 10).blk t).view.set ↔ ∀ a : Fin 2, win0_10.index t a * S512x1.size a ≤ (i a).val ∧ (i a).val < win0_10.index t a * S512x1.size a + S512x1.size a := by
  show i ∈ ((View.whole main_v13_4).slice (win0_10.rect t)).set ↔ _
  rw [View.set_slice_whole, Rect.mem_set_unit]
  exact Iff.rfl

/-- What a write-back of window 10 writes is the block of the model's statistic. -/
theorem flushed10 (c : Dev nD) (dat : Dat τ (Elt Ideal) Unit ℕ (UR sig nD τ) ℕ cfg0 c)
    (hafter : ∀ t, dat.after 10 t = (outsAt m c t.val t.isLt).o4) (t : Fin cfg0.N) (hf : (cfg0.win 10).flush t = true) :
    dat.flushed 10 t = ((cfg0.win 10).blk t).view.read (Elt Ideal) (colArr fun i => (memAfter (ml m c) (mt m c) i 8).em) := by
  have h15 := (flush0_10 t).mp hf
  have hN : cfg0.N = 128 := N_0
  have hb : t.val / 16 < 8 := by have := t.isLt; omega
  have hi := out_index10 t
  show (cfg0.win 10).cut (grid0.coords t) (dat.after 10 t) = _
  rw [hafter t]
  funext j
  have hj0 : (j 0).val < 512 := (j 0).isLt
  have hj1 : (j 1).val < 1 := (j 1).isLt
  show (outsAt m c t.val t.isLt).o4 ((cfg0.win 10).xinj (grid0.coords t) j) = colArr (fun i => (memAfter (ml m c) (mt m c) i 8).em) (((cfg0.win 10).blk t).view.emb j)
  have e : (cfg0.win 10).xinj (grid0.coords t) j = ix2 (⟨(j 0).val, hj0⟩ : Fin 512) (0 : Fin 1) :=
    funext fun a => Fin.ext (match a with | ⟨0, _⟩ => rfl | ⟨1, _⟩ => by show (j 1).val = 0; omega)
  rw [e, (mem_outs m c ⟨t.val / 16, hb⟩ ⟨(j 0).val, hj0⟩ t (by dsimp only; omega)).1]
  unfold colArr
  refine congrArg (fun i => (memAfter (ml m c) (mt m c) i 8).em) (Fin.ext ?_)
  show 512 * (t.val / 16) + (j 0).val = win0_10.index t 0 * 512 + 1 * (j 0).val
  rw [hi.1]; omega

/-- The eight write-backs of window 10 cover the array. -/
theorem cover10 (i : S4096x1.Idx) : ∃ t : Fin cfg0.N, (cfg0.win 10).flush t = true ∧ i ∈ ((cfg0.win 10).blk t).view.set := by
  have hN : cfg0.N = 128 := N_0
  have hi0 : (i 0).val < 4096 := (i 0).isLt
  have hi1 : (i 1).val < 1 := (i 1).isLt
  have hi := out_index10 ⟨16 * ((i 0).val / 512) + 15, by omega⟩
  refine ⟨⟨16 * ((i 0).val / 512) + 15, by omega⟩, (flush0_10 _).mpr (by dsimp only; omega), ?_⟩
  rw [mem_blk10]
  intro a
  match a with
  | ⟨0, _⟩ =>
    show win0_10.index _ 0 * 512 ≤ (i 0).val ∧ (i 0).val < win0_10.index _ 0 * 512 + 512
    rw [hi.1]; dsimp only; omega
  | ⟨1, _⟩ =>
    show win0_10.index _ 1 * 1 ≤ (i 1).val ∧ (i 1).val < win0_10.index _ 1 * 1 + 1
    rw [hi.2]; omega

/-- THE ARRAY of window 10 after the region: the model's statistic, row by row. -/
theorem final10 (c : Dev nD) (dat : Dat τ (Elt Ideal) Unit ℕ (UR sig nD τ) ℕ cfg0 c)
    (hafter : ∀ t, dat.after 10 t = (outsAt m c t.val t.isLt).o4) :
    dat.arrAt 10 cfg0.N = (colArr fun i => (memAfter (ml m c) (mt m c) i 8).em) :=
  dat.arrAt_eq_of_cover 10 (colArr fun i => (memAfter (ml m c) (mt m c) i 8).em) (flushed10 m c dat hafter) cover10

/-- Output window 11's block at point `t` is block (t / 16, 0). -/
theorem out_index11 : ∀ t : Fin cfg0.N, win0_11.index t 0 = t.val / 16 ∧ win0_11.index t 1 = 0 :=
  (by decide +kernel : ∀ t : Fin grid0.N, win0_11.index t 0 = t.val / 16 ∧ win0_11.index t 1 = 0)

/-- A row of the array is in point `t`'s block iff each coordinate is in the block's range. -/
theorem mem_blk11 (t : Fin cfg0.N) (i : S4096x1.Idx) :
    i ∈ ((cfg0.win 11).blk t).view.set ↔ ∀ a : Fin 2, win0_11.index t a * S512x1.size a ≤ (i a).val ∧ (i a).val < win0_11.index t a * S512x1.size a + S512x1.size a := by
  show i ∈ ((View.whole main_v13_5).slice (win0_11.rect t)).set ↔ _
  rw [View.set_slice_whole, Rect.mem_set_unit]
  exact Iff.rfl

/-- What a write-back of window 11 writes is the block of the model's statistic. -/
theorem flushed11 (c : Dev nD) (dat : Dat τ (Elt Ideal) Unit ℕ (UR sig nD τ) ℕ cfg0 c)
    (hafter : ∀ t, dat.after 11 t = (outsAt m c t.val t.isLt).o5) (t : Fin cfg0.N) (hf : (cfg0.win 11).flush t = true) :
    dat.flushed 11 t = ((cfg0.win 11).blk t).view.read (Elt Ideal) (colArr fun i => (memAfter (ml m c) (mt m c) i 8).s2) := by
  have h15 := (flush0_11 t).mp hf
  have hN : cfg0.N = 128 := N_0
  have hb : t.val / 16 < 8 := by have := t.isLt; omega
  have hi := out_index11 t
  show (cfg0.win 11).cut (grid0.coords t) (dat.after 11 t) = _
  rw [hafter t]
  funext j
  have hj0 : (j 0).val < 512 := (j 0).isLt
  have hj1 : (j 1).val < 1 := (j 1).isLt
  show (outsAt m c t.val t.isLt).o5 ((cfg0.win 11).xinj (grid0.coords t) j) = colArr (fun i => (memAfter (ml m c) (mt m c) i 8).s2) (((cfg0.win 11).blk t).view.emb j)
  have e : (cfg0.win 11).xinj (grid0.coords t) j = ix2 (⟨(j 0).val, hj0⟩ : Fin 512) (0 : Fin 1) :=
    funext fun a => Fin.ext (match a with | ⟨0, _⟩ => rfl | ⟨1, _⟩ => by show (j 1).val = 0; omega)
  rw [e, (mem_outs m c ⟨t.val / 16, hb⟩ ⟨(j 0).val, hj0⟩ t (by dsimp only; omega)).2.1]
  unfold colArr
  refine congrArg (fun i => (memAfter (ml m c) (mt m c) i 8).s2) (Fin.ext ?_)
  show 512 * (t.val / 16) + (j 0).val = win0_11.index t 0 * 512 + 1 * (j 0).val
  rw [hi.1]; omega

/-- The eight write-backs of window 11 cover the array. -/
theorem cover11 (i : S4096x1.Idx) : ∃ t : Fin cfg0.N, (cfg0.win 11).flush t = true ∧ i ∈ ((cfg0.win 11).blk t).view.set := by
  have hN : cfg0.N = 128 := N_0
  have hi0 : (i 0).val < 4096 := (i 0).isLt
  have hi1 : (i 1).val < 1 := (i 1).isLt
  have hi := out_index11 ⟨16 * ((i 0).val / 512) + 15, by omega⟩
  refine ⟨⟨16 * ((i 0).val / 512) + 15, by omega⟩, (flush0_11 _).mpr (by dsimp only; omega), ?_⟩
  rw [mem_blk11]
  intro a
  match a with
  | ⟨0, _⟩ =>
    show win0_11.index _ 0 * 512 ≤ (i 0).val ∧ (i 0).val < win0_11.index _ 0 * 512 + 512
    rw [hi.1]; dsimp only; omega
  | ⟨1, _⟩ =>
    show win0_11.index _ 1 * 1 ≤ (i 1).val ∧ (i 1).val < win0_11.index _ 1 * 1 + 1
    rw [hi.2]; omega

/-- THE ARRAY of window 11 after the region: the model's statistic, row by row. -/
theorem final11 (c : Dev nD) (dat : Dat τ (Elt Ideal) Unit ℕ (UR sig nD τ) ℕ cfg0 c)
    (hafter : ∀ t, dat.after 11 t = (outsAt m c t.val t.isLt).o5) :
    dat.arrAt 11 cfg0.N = (colArr fun i => (memAfter (ml m c) (mt m c) i 8).s2) :=
  dat.arrAt_eq_of_cover 11 (colArr fun i => (memAfter (ml m c) (mt m c) i 8).s2) (flushed11 m c dat hafter) cover11

/-- Output window 12's block at point `t` is block (t / 16, 0). -/
theorem out_index12 : ∀ t : Fin cfg0.N, win0_12.index t 0 = t.val / 16 ∧ win0_12.index t 1 = 0 :=
  (by decide +kernel : ∀ t : Fin grid0.N, win0_12.index t 0 = t.val / 16 ∧ win0_12.index t 1 = 0)

/-- A row of the array is in point `t`'s block iff each coordinate is in the block's range. -/
theorem mem_blk12 (t : Fin cfg0.N) (i : S4096x1.Idx) :
    i ∈ ((cfg0.win 12).blk t).view.set ↔ ∀ a : Fin 2, win0_12.index t a * S512x1.size a ≤ (i a).val ∧ (i a).val < win0_12.index t a * S512x1.size a + S512x1.size a := by
  show i ∈ ((View.whole main_v13_6).slice (win0_12.rect t)).set ↔ _
  rw [View.set_slice_whole, Rect.mem_set_unit]
  exact Iff.rfl

/-- What a write-back of window 12 writes is the block of the model's statistic. -/
theorem flushed12 (c : Dev nD) (dat : Dat τ (Elt Ideal) Unit ℕ (UR sig nD τ) ℕ cfg0 c)
    (hafter : ∀ t, dat.after 12 t = (outsAt m c t.val t.isLt).o6) (t : Fin cfg0.N) (hf : (cfg0.win 12).flush t = true) :
    dat.flushed 12 t = ((cfg0.win 12).blk t).view.read (Elt Ideal) (colArr fun i => (memAfter (ml m c) (mt m c) i 8).nm) := by
  have h15 := (flush0_12 t).mp hf
  have hN : cfg0.N = 128 := N_0
  have hb : t.val / 16 < 8 := by have := t.isLt; omega
  have hi := out_index12 t
  show (cfg0.win 12).cut (grid0.coords t) (dat.after 12 t) = _
  rw [hafter t]
  funext j
  have hj0 : (j 0).val < 512 := (j 0).isLt
  have hj1 : (j 1).val < 1 := (j 1).isLt
  show (outsAt m c t.val t.isLt).o6 ((cfg0.win 12).xinj (grid0.coords t) j) = colArr (fun i => (memAfter (ml m c) (mt m c) i 8).nm) (((cfg0.win 12).blk t).view.emb j)
  have e : (cfg0.win 12).xinj (grid0.coords t) j = ix2 (⟨(j 0).val, hj0⟩ : Fin 512) (0 : Fin 1) :=
    funext fun a => Fin.ext (match a with | ⟨0, _⟩ => rfl | ⟨1, _⟩ => by show (j 1).val = 0; omega)
  rw [e, (mem_outs m c ⟨t.val / 16, hb⟩ ⟨(j 0).val, hj0⟩ t (by dsimp only; omega)).2.2]
  unfold colArr
  refine congrArg (fun i => (memAfter (ml m c) (mt m c) i 8).nm) (Fin.ext ?_)
  show 512 * (t.val / 16) + (j 0).val = win0_12.index t 0 * 512 + 1 * (j 0).val
  rw [hi.1]; omega

/-- The eight write-backs of window 12 cover the array. -/
theorem cover12 (i : S4096x1.Idx) : ∃ t : Fin cfg0.N, (cfg0.win 12).flush t = true ∧ i ∈ ((cfg0.win 12).blk t).view.set := by
  have hN : cfg0.N = 128 := N_0
  have hi0 : (i 0).val < 4096 := (i 0).isLt
  have hi1 : (i 1).val < 1 := (i 1).isLt
  have hi := out_index12 ⟨16 * ((i 0).val / 512) + 15, by omega⟩
  refine ⟨⟨16 * ((i 0).val / 512) + 15, by omega⟩, (flush0_12 _).mpr (by dsimp only; omega), ?_⟩
  rw [mem_blk12]
  intro a
  match a with
  | ⟨0, _⟩ =>
    show win0_12.index _ 0 * 512 ≤ (i 0).val ∧ (i 0).val < win0_12.index _ 0 * 512 + 512
    rw [hi.1]; dsimp only; omega
  | ⟨1, _⟩ =>
    show win0_12.index _ 1 * 1 ≤ (i 1).val ∧ (i 1).val < win0_12.index _ 1 * 1 + 1
    rw [hi.2]; omega

/-- THE ARRAY of window 12 after the region: the model's statistic, row by row. -/
theorem final12 (c : Dev nD) (dat : Dat τ (Elt Ideal) Unit ℕ (UR sig nD τ) ℕ cfg0 c)
    (hafter : ∀ t, dat.after 12 t = (outsAt m c t.val t.isLt).o6) :
    dat.arrAt 12 cfg0.N = (colArr fun i => (memAfter (ml m c) (mt m c) i 8).nm) :=
  dat.arrAt_eq_of_cover 12 (colArr fun i => (memAfter (ml m c) (mt m c) i 8).nm) (flushed12 m c dat hafter) cover12

end Cert.KernelIdeal.Value

end
-- ==== Proof.ValTailOps.lean ====
/-
  The host operations after the region, as one function of the seven result arrays.

  The region leaves seven 4096 × 1 arrays: per row the running maximum `m`, the rescaled exponential sum `e`, the
  positives' similarity sum `s1`, the positives' count `np`, and the memory sweep's exponential sum `em`,
  target-weighted logit sum `s2` and target sum `nm`. The operations after it read each as a vector of 4096 entries
  and compute, per row,
      ((s1 − m · np) − log (e + em) · (np + nm)) + s2    divided by    max (np + nm) 1,
  then sum the 4096 rows starting from zero, divide by the word of 4096 and negate. When the seven arrays hold the
  model's final statistics row by row, that is the model's loss: the row's value is the model's `rowTerm`, a sum
  started from zero is the bare sum, and the word `0x3F800000` is 1.
-/
import proofs.«130741_j67869073212268_2_alg».proof.Proof.BodyDefs
import proofs.«130741_j67869073212268_2_alg».proof.Proof.TiledModel
import Idealize.ShloMosaic.Lib.Pipeline.Value
import Idealize.ShloMosaic.Lib.StableHlo.Run
import Idealize.ShloMosaic.PureOps.Ideal.Laws

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

open Cert.SupCon Cert.SupConTiled Idealize.ShloMosaic.StableHlo

/-- A 4096 × 1 array read as a vector of 4096 entries. -/
abbrev asVector (a : S4096x1.Idx → EReal) : S4096.Idx → EReal := shapeCast S4096 a shapeCasts_S4096x1_S4096

/-- Entry `i` of the vector is entry `(i, 0)` of the array. -/
theorem asVector_at (a : S4096x1.Idx → EReal) (i : Fin 4096) : asVector a (ix1 i) = a (ix2 i 0) :=
  shapeCast_apply a shapeCasts_S4096x1_S4096 _ _ (by
    rw [Shape.rowMajor_val_one, Shape.rowMajor_val_two]
    show i.val * 1 + 0 = i.val
    omega)

/-- The rows' contributions, from the seven arrays. -/
def hostTailRow (a0 a1 a2 a3 a4 a5 a6 : S4096x1.Idx → EReal) : S4096.Idx → EReal :=
  Host.divf (F := Ideal)
    (addf
      (subf (subf (asVector a2) (mulf (asVector a0) (asVector a3)))
        (mulf (Host.log (F := Ideal) (addf (asVector a1) (asVector a4))) (addf (asVector a3) (asVector a6))))
      (asVector a5))
    (maximumf (addf (asVector a3) (asVector a6))
      (broadcastInDim S4096 ![] bcast_S_S4096 (constant (F := Ideal) S_ .f32 0x3F800000#32)))

/-- The operations after the region, from the seven arrays. -/
def hostTail (a0 a1 a2 a3 a4 a5 a6 : S4096x1.Idx → EReal) : S_.Idx → EReal :=
  Host.negf (F := Ideal)
    (Host.divf (F := Ideal)
      (Host.reduceAdd (F := Ideal) (hostTailRow a0 a1 a2 a3 a4 a5 a6) (constant (F := Ideal) S_ .f32 0x00000000#32)
        reducesTo_S4096_S_d0 h_S_)
      (constant (F := Ideal) S_ .f32 0x45800000#32))

set_option maxHeartbeats 4000000 in
/-- What the result buffer holds after the 24 operations, over any contents of the buffers they find. -/
theorem hostTail_of_valuation (W : Valuation τ sig (Elt Ideal)) :
    StableHlo.after (hostOps1 (F := Ideal)) W (Proc.devRef .tc main_v34)
      = hostTail (W (Proc.devRef .tc main_v13_0)) (W (Proc.devRef .tc main_v13_1)) (W (Proc.devRef .tc main_v13_2))
          (W (Proc.devRef .tc main_v13_3)) (W (Proc.devRef .tc main_v13_4)) (W (Proc.devRef .tc main_v13_5))
          (W (Proc.devRef .tc main_v13_6)) := by
  after_results_simp
  rfl

/-- The binary32 word `0x3F800000` is 1. -/
theorem one_word : Ideal.ofBits .f32 0x3F800000#32 = 1 := by
  simp [Ideal.ofBits, Ideal.ieee, -EReal.coe_mul]
  first | done | norm_num | (rw [← EReal.coe_one]; congr 1; norm_num)

variable (q : QArr) (lab : LArr) (ml mt : MArr)

/-- A row's contribution is the model's, when the seven arrays hold the model's final statistics of that row. -/
theorem hostTailRow_at (a0 a1 a2 a3 a4 a5 a6 : S4096x1.Idx → EReal) (i : Fin 4096)
    (h0 : a0 (ix2 i 0) = (simAfter q lab i 8).m) (h1 : a1 (ix2 i 0) = (simAfter q lab i 8).e)
    (h2 : a2 (ix2 i 0) = (simAfter q lab i 8).s1) (h3 : a3 (ix2 i 0) = (simAfter q lab i 8).np)
    (h4 : a4 (ix2 i 0) = (memAfter ml mt i 8).em) (h5 : a5 (ix2 i 0) = (memAfter ml mt i 8).s2)
    (h6 : a6 (ix2 i 0) = (memAfter ml mt i 8).nm) :
    hostTailRow a0 a1 a2 a3 a4 a5 a6 (ix1 i) = rowTerm q lab ml mt i := by
  unfold hostTailRow
  show Ideal.div (((asVector a2 (ix1 i) - asVector a0 (ix1 i) * asVector a3 (ix1 i))
      - Ideal.log (asVector a1 (ix1 i) + asVector a4 (ix1 i)) * (asVector a3 (ix1 i) + asVector a6 (ix1 i))) + asVector a5 (ix1 i))
      (max (asVector a3 (ix1 i) + asVector a6 (ix1 i)) (Ideal.ofBits .f32 0x3F800000#32)) = _
  rw [asVector_at, asVector_at, asVector_at, asVector_at, asVector_at, asVector_at, asVector_at, h0, h1, h2, h3, h4, h5, h6, one_word]
  rfl

/-- The vector's 4096 indices are the 4096 rows. -/
def rowEquiv : S4096.Idx ≃ Fin 4096 where
  toFun j := j 0
  invFun := ix1
  left_inv j := (eq_ix1 j).symm
  right_inv _ := rfl

/-- THE HOST TAIL: from arrays holding the model's final statistics, the model's loss. -/
theorem hostTail_eq_loss (a0 a1 a2 a3 a4 a5 a6 : S4096x1.Idx → EReal)
    (h0 : ∀ i : Fin 4096, a0 (ix2 i 0) = (simAfter q lab i 8).m) (h1 : ∀ i : Fin 4096, a1 (ix2 i 0) = (simAfter q lab i 8).e)
    (h2 : ∀ i : Fin 4096, a2 (ix2 i 0) = (simAfter q lab i 8).s1) (h3 : ∀ i : Fin 4096, a3 (ix2 i 0) = (simAfter q lab i 8).np)
    (h4 : ∀ i : Fin 4096, a4 (ix2 i 0) = (memAfter ml mt i 8).em) (h5 : ∀ i : Fin 4096, a5 (ix2 i 0) = (memAfter ml mt i 8).s2)
    (h6 : ∀ i : Fin 4096, a6 (ix2 i 0) = (memAfter ml mt i 8).nm) :
    hostTail a0 a1 a2 a3 a4 a5 a6 = fun _ => Cert.SupConTiled.loss q lab ml mt := by
  funext j
  unfold hostTail
  show -(Ideal.div (Ideal.hostReduceAdd reducesTo_S4096_S_d0 (hostTailRow a0 a1 a2 a3 a4 a5 a6) (Ideal.ofBits .f32 0x00000000#32) j)
      (Ideal.ofBits .f32 0x45800000#32)) = _
  rw [Ideal.hostReduceAdd_total reducesTo_S4096_S_d0 (fun b => b.elim0), Ideal.ofBits_zero_f32, zero_add,
    ← Equiv.sum_comp rowEquiv.symm]
  unfold Cert.SupConTiled.loss
  refine congrArg (fun s => -(Ideal.div s rows)) (Finset.sum_congr rfl fun i _ => ?_)
  exact hostTailRow_at q lab ml mt a0 a1 a2 a3 a4 a5 a6 i (h0 i) (h1 i) (h2 i) (h3 i) (h4 i) (h5 i) (h6 i)

end Cert.KernelIdeal.Value

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.ValSimTile.lean ====
/-
  One similarity tile, read at a row.

  The body's arithmetic over the values it loads — the 512 × 1024 block A of normalised rows, the 1024 × 512 tile B of
  the transposed normalised rows, the label column and label row, and the four running statistics — read at an entry over
  the extended reals: the product tile scaled by the reciprocal temperature, the self mask from the global row and
  column numbers (32-bit words of numbers below 4096, which do not wrap), the positive-pair mask, the raised maximum
  (the row maximum is a fold of max from −∞, which is the supremum), the rescaling factor, the shifted exponentials, and
  the three updated sums (each row sum starts from the zero word and is the bare sum). Together they are the model's
  update of one row's statistics by one tile.
-/
import proofs.«130741_j67869073212268_2_alg».proof.Proof.Gen.KernelIdeal.Skeleton
import proofs.«130741_j67869073212268_2_alg».proof.Proof.TiledModel
import proofs.«130741_j67869073212268_2_alg».proof.Proof.LibColumnLayout
import proofs.«130741_j67869073212268_2_alg».proof.Proof.LibPlainMatmul
import proofs.«130741_j67869073212268_2_alg».proof.Proof.ValCommon
import Idealize.ShloMosaic.PureOps.IdealRules

noncomputable section

open scoped BigOperators

namespace Cert.KernelIdeal.Value

open Cert.KernelIdeal Cert.KernelIdeal.Gen
open Idealize.ShloMosaic Idealize.ShloMosaic.ValueIdx Idealize.ShloMosaic.ColumnLayout
open Cert.SupCon Cert.SupConTiled

/-- The named scale is the reciprocal temperature. -/
theorem invTemp_named :
    Named.named (F := Ideal) Cert.KernelIdeal.κ "inv_temperature" (φ := .f32) 0x41649249#32 = invTemp :=
  IdealRules.named_const.ideal_named_scalar _ _ _ _ rfl

/-- The scaled product tile at an entry: the inner product of the block's row with the tile's column, times the
    reciprocal temperature. -/
theorem pay16_apply (B : Vec Ideal S1024x512 .bf16) (A : Vec Ideal S512x1024 .bf16) (r cidx : Fin 512) :
    k0_pay16 (F := Ideal) B A (ix2 r cidx) = (∑ k : Fin 1024, A (ix2 r k) * B (ix2 k cidx)) * invTemp := by
  unfold k0_pay16
  show _ * _ = _
  refine congrArg₂ (· * ·) ?_ invTemp_named
  rw [shapeCast_self, shapeCast_self]
  exact PlainMatmul.matmul_zero_apply none A B r cidx

/-- Words of numbers below 4096 are equal exactly when the numbers are. -/
theorem word_eq_iff (k l : Fin 4096) : BitVec.ofNat 32 k.val = BitVec.ofNat 32 l.val ↔ k = l := by
  constructor
  · intro e
    have h := congrArg BitVec.toNat e
    rw [BitVec.toNat_ofNat, BitVec.toNat_ofNat] at h
    have hk := k.isLt
    have hl := l.isLt
    exact Fin.ext (by omega)
  · rintro rfl; rfl

/-- The "not equal" comparison of two such words, widened and converted, is 0 on the diagonal and 1 off it. -/
theorem sitofp_ne_word (k l : Fin 4096) :
    FloatOps.sitofp (F := Ideal) .f32 ((IntOp.cmpi .ne (BitVec.ofNat 32 k.val) (BitVec.ofNat 32 l.val)).setWidth 32)
      = if k = l then (0 : EReal) else 1 := by
  show ((((BitVec.ofBool (BitVec.ofNat 32 k.val != BitVec.ofNat 32 l.val)).setWidth 32).toInt : ℝ) : EReal) = _
  by_cases h : k = l
  · subst h; rw [if_pos rfl, bne_self_eq_false, show ((BitVec.ofBool false).setWidth 32).toInt = 0 from by decide]; norm_num
  · rw [if_neg h, bne_iff_ne.mpr (fun e => h ((word_eq_iff k l).mp e)), show ((BitVec.ofBool true).setWidth 32).toInt = 1 from by decide]; norm_num

/-- The "equal" comparison of two words, widened and converted, is 1 when they agree and 0 otherwise. -/
theorem sitofp_eq_word (x y : BitVec 32) :
    FloatOps.sitofp (F := Ideal) .f32 ((IntOp.cmpi .eq x y).setWidth 32) = if x = y then (1 : EReal) else 0 := by
  show ((((BitVec.ofBool (x == y)).setWidth 32).toInt : ℝ) : EReal) = _
  by_cases h : x = y
  · subst h; rw [if_pos rfl, beq_self_eq_true, show ((BitVec.ofBool true).setWidth 32).toInt = 1 from by decide]; norm_num
  · rw [if_neg h, beq_eq_false_iff_ne.mpr h, show ((BitVec.ofBool false).setWidth 32).toInt = 0 from by decide]; norm_num

/-- Block number times 512 plus an offset, computed on 32-bit words, is the word of the number. -/
theorem word_affine (b : Fin 8) (r : Fin 512) :
    Scalar.muli (BitVec.ofNat 32 b.val) 512#32 + BitVec.ofNat 32 r.val = BitVec.ofNat 32 (512 * b.val + r.val) := by
  apply BitVec.eq_of_toNat_eq
  have hb := b.isLt
  have hr := r.isLt
  show ((BitVec.ofNat 32 b.val * 512#32) + BitVec.ofNat 32 r.val).toNat = _
  rw [BitVec.toNat_add, BitVec.toNat_mul, BitVec.toNat_ofNat, BitVec.toNat_ofNat, BitVec.toNat_ofNat]
  show ((b.val % 2^32) * (512 % 2^32) % 2^32 + r.val % 2^32) % 2^32 = (512 * b.val + r.val) % 2^32
  omega

/-- The self mask at an entry: 0 where the global row and column numbers agree, 1 elsewhere. -/
theorem pay17_apply (b j : Fin 8) (r cidx : Fin 512) :
    k0_pay17 (F := Ideal) (BitVec.ofNat 32 b.val) (BitVec.ofNat 32 j.val) (ix2 r cidx)
      = notSelf (rowOf b r) (colOf j cidx) := by
  unfold k0_pay17
  show FloatOps.sitofp (F := Ideal) .f32 ((IntOp.cmpi .ne
      (broadcastTo S512x512 (addi (broadcast S512x1 (Scalar.muli (BitVec.ofNat 32 b.val) 512#32)) (iota .tc S512x1 32 [0] iota_S512x1_d0_w32)) broadcasts_S512x1_S512x512 (ix2 r cidx))
      (broadcastTo S512x512 (addi (broadcast S1x512 (Scalar.muli (BitVec.ofNat 32 j.val) 512#32)) (iota .tc S1x512 32 [1] iota_S1x512_d1_w32)) broadcasts_S1x512_S512x512 (ix2 r cidx))).setWidth 32) = _
  rw [broadcastTo_a1_ab_apply, broadcastTo_1b_ab_apply]
  show FloatOps.sitofp (F := Ideal) .f32 ((IntOp.cmpi .ne
      (Scalar.muli (BitVec.ofNat 32 b.val) 512#32 + iota .tc S512x1 32 [0] iota_S512x1_d0_w32 (ix2 r (0 : Fin 1)))
      (Scalar.muli (BitVec.ofNat 32 j.val) 512#32 + iota .tc S1x512 32 [1] iota_S1x512_d1_w32 (ix2 (0 : Fin 1) cidx))).setWidth 32) = _
  rw [iota_single_apply, iota_single_apply]
  show FloatOps.sitofp (F := Ideal) .f32 ((IntOp.cmpi .ne
      (Scalar.muli (BitVec.ofNat 32 b.val) 512#32 + BitVec.ofNat 32 r.val)
      (Scalar.muli (BitVec.ofNat 32 j.val) 512#32 + BitVec.ofNat 32 cidx.val)).setWidth 32) = _
  rw [word_affine, word_affine]
  exact sitofp_ne_word (rowOf b r) (colOf j cidx)

/-- The positive-pair mask at an entry: label agreement times the self mask. -/
theorem pay18_apply (a0 a1 : BitVec 32) (lr : Vec Ideal S512x1 .i32) (lc : Vec Ideal S1x512 .i32) (r cidx : Fin 512) :
    k0_pay18 (F := Ideal) a0 a1 lr lc (ix2 r cidx)
      = (if lr (ix2 r (0 : Fin 1)) = lc (ix2 (0 : Fin 1) cidx) then (1 : EReal) else 0) * k0_pay17 (F := Ideal) a0 a1 (ix2 r cidx) := by
  unfold k0_pay18
  show FloatOps.sitofp (F := Ideal) .f32 ((IntOp.cmpi .eq
      (broadcastTo S512x512 (shapeCast S512x1 lr shapeCasts_S512x1_S512x1) broadcasts_S512x1_S512x512 (ix2 r cidx))
      (broadcastTo S512x512 (shapeCast S1x512 lc shapeCasts_S1x512_S1x512) broadcasts_S1x512_S512x512 (ix2 r cidx))).setWidth 32) * _ = _
  rw [broadcastTo_a1_ab_apply, broadcastTo_1b_ab_apply, shapeCast_self, shapeCast_self]
  exact congrArg (· * _) (sitofp_eq_word _ _)

/-- The fold of max from the least element is the supremum. -/
theorem fold_max_eq_sup {n : ℕ} (f : Fin n → EReal) : (Finset.univ : Finset (Fin n)).fold max ⊥ f = Finset.univ.sup f := rfl

/-- The raised maximum at a row: the larger of the old maximum and the tile's row maximum. -/
theorem pay19_apply (B : Vec Ideal S1024x512 .bf16) (A : Vec Ideal S512x1024 .bf16) (m0 : Vec Ideal S512x1 .f32) (r : Fin 512) :
    k0_pay19 (F := Ideal) B A m0 (ix2 r (0 : Fin 1))
      = max (m0 (ix2 r (0 : Fin 1))) (Finset.univ.sup fun cidx : Fin 512 => k0_pay16 (F := Ideal) B A (ix2 r cidx)) := by
  unfold k0_pay19
  show max _ _ = _
  refine congrArg (max _) ?_
  refine (shapeCast_a_a1_apply _ _ r 0).trans ?_
  exact (rowMax_apply _ _ _ _ r).trans (fold_max_eq_sup _)

/-- The rescaling factor at a row. -/
theorem pay20_apply (B : Vec Ideal S1024x512 .bf16) (A : Vec Ideal S512x1024 .bf16) (m0 m1 : Vec Ideal S512x1 .f32) (r : Fin 512) :
    k0_pay20 (F := Ideal) B A m0 m1 (ix2 r (0 : Fin 1))
      = Ideal.exp (m1 (ix2 r (0 : Fin 1)) - k0_pay19 (F := Ideal) B A m0 (ix2 r (0 : Fin 1))) := by
  unfold k0_pay20
  rfl

/-- The shifted exponential at an entry. -/
theorem pay21_apply (B : Vec Ideal S1024x512 .bf16) (A : Vec Ideal S512x1024 .bf16) (m0 : Vec Ideal S512x1 .f32) (r cidx : Fin 512) :
    k0_pay21 (F := Ideal) B A m0 (ix2 r cidx)
      = Ideal.exp (k0_pay16 (F := Ideal) B A (ix2 r cidx) - k0_pay19 (F := Ideal) B A m0 (ix2 r (0 : Fin 1))) := by
  unfold k0_pay21
  show Ideal.exp (_ - broadcastTo S512x512 (k0_pay19 (F := Ideal) B A m0) broadcasts_S512x1_S512x512 (ix2 r cidx)) = _
  rw [broadcastTo_a1_ab_apply]

/-- The updated exponential sum at a row. -/
theorem pay8_apply (v40 : FVec Ideal S512x512 .f32) (v57 : FVec Ideal S512x1 .f32) (v60 : FVec Ideal S512x512 .f32)
    (v62 : Vec Ideal S512x1 .f32) (r : Fin 512) :
    k0_pay8 (F := Ideal) v40 v57 v60 v62 (ix2 r (0 : Fin 1))
      = v57 (ix2 r (0 : Fin 1)) * v62 (ix2 r (0 : Fin 1)) + ∑ cidx : Fin 512, v60 (ix2 r cidx) * v40 (ix2 r cidx) := by
  unfold k0_pay8
  rw [shapeCast_self]
  show _ * _ + _ = _
  refine congrArg (HAdd.hAdd (α := EReal) (β := EReal) (γ := EReal) _) ?_
  refine (shapeCast_a_a1_apply _ _ r 0).trans ?_
  exact rowSum_apply _ _ _ _ r

/-- The updated sum of the positives' similarities at a row. -/
theorem pay9_apply (v27 v50 : FVec Ideal S512x512 .f32) (v70 : Vec Ideal S512x1 .f32) (r : Fin 512) :
    k0_pay9 (F := Ideal) v27 v50 v70 (ix2 r (0 : Fin 1))
      = v70 (ix2 r (0 : Fin 1)) + ∑ cidx : Fin 512, v50 (ix2 r cidx) * v27 (ix2 r cidx) := by
  unfold k0_pay9
  rw [shapeCast_self]
  show _ + _ = _
  refine congrArg (HAdd.hAdd (α := EReal) (β := EReal) (γ := EReal) _) ?_
  refine (shapeCast_a_a1_apply _ _ r 0).trans ?_
  exact rowSum_apply _ _ _ _ r

/-- The updated count of positives at a row. -/
theorem pay10_apply (v50 : FVec Ideal S512x512 .f32) (v78 : Vec Ideal S512x1 .f32) (r : Fin 512) :
    k0_pay10 (F := Ideal) v50 v78 (ix2 r (0 : Fin 1))
      = v78 (ix2 r (0 : Fin 1)) + ∑ cidx : Fin 512, v50 (ix2 r cidx) := by
  unfold k0_pay10
  rw [shapeCast_self]
  show _ + _ = _
  refine congrArg (HAdd.hAdd (α := EReal) (β := EReal) (γ := EReal) _) ?_
  refine (shapeCast_a_a1_apply _ _ r 0).trans ?_
  exact rowSum_apply _ _ _ _ r

/-- The stored maximum is the raised maximum. -/
theorem pay11_eq (v54 : FVec Ideal S512x1 .f32) : k0_pay11 (F := Ideal) v54 = v54 := by
  unfold k0_pay11
  exact shapeCast_self _ _

section Step

variable (q : QArr) (lab : LArr)
variable (b j : Fin 8) (r : Fin 512)
variable (B : Vec Ideal S1024x512 .bf16) (A : Vec Ideal S512x1024 .bf16)
variable (lr : Vec Ideal S512x1 .i32) (lc : Vec Ideal S1x512 .i32)

/-- With the block's row the normalised row and the tile's columns the normalised rows of the tile's columns, the scaled
    product tile holds the scaled similarities. -/
theorem pay16_scaled (hA : ∀ k : Fin 1024, A (ix2 r k) = qn q (rowOf b r) k)
    (hB : ∀ (k : Fin 1024) (cidx : Fin 512), B (ix2 k cidx) = qn q (colOf j cidx) k) (cidx : Fin 512) :
    k0_pay16 (F := Ideal) B A (ix2 r cidx) = scaled q (rowOf b r) (colOf j cidx) := by
  rw [pay16_apply]
  unfold scaled sim
  exact congrArg (· * invTemp) (Finset.sum_congr rfl fun k _ => by rw [hA k, hB k cidx])

/-- The raised maximum is the model's. -/
theorem pay19_model (hA : ∀ k : Fin 1024, A (ix2 r k) = qn q (rowOf b r) k)
    (hB : ∀ (k : Fin 1024) (cidx : Fin 512), B (ix2 k cidx) = qn q (colOf j cidx) k)
    (m0 : Vec Ideal S512x1 .f32) (S : SimStats) (hm : m0 (ix2 r (0 : Fin 1)) = S.m) :
    k0_pay19 (F := Ideal) B A m0 (ix2 r (0 : Fin 1)) = max S.m (tileMax q (rowOf b r) j) := by
  rw [pay19_apply, hm]
  unfold tileMax
  exact congrArg (max S.m) (congrArg (Finset.sup Finset.univ) (funext fun cidx => pay16_scaled q b j r B A hA hB cidx))

/-- The positive-pair mask is the model's. -/
theorem pay18_pos (hlr : lr (ix2 r (0 : Fin 1)) = lab (ix1 (rowOf b r)))
    (hlc : ∀ cidx : Fin 512, lc (ix2 (0 : Fin 1) cidx) = lab (ix1 (colOf j cidx))) (cidx : Fin 512) :
    k0_pay18 (F := Ideal) (BitVec.ofNat 32 b.val) (BitVec.ofNat 32 j.val) lr lc (ix2 r cidx)
      = pos lab (rowOf b r) (colOf j cidx) := by
  rw [pay18_apply, pay17_apply, hlr, hlc cidx]
  rfl

/-- One similarity tile's update of the four statistics of a row, as the body computes it from the loaded values, is the
    model's update. -/
theorem tile_step (hA : ∀ k : Fin 1024, A (ix2 r k) = qn q (rowOf b r) k)
    (hB : ∀ (k : Fin 1024) (cidx : Fin 512), B (ix2 k cidx) = qn q (colOf j cidx) k)
    (hlr : lr (ix2 r (0 : Fin 1)) = lab (ix1 (rowOf b r)))
    (hlc : ∀ cidx : Fin 512, lc (ix2 (0 : Fin 1) cidx) = lab (ix1 (colOf j cidx)))
    (m0 e0 s0 n0 : Vec Ideal S512x1 .f32) (S : SimStats)
    (hm : m0 (ix2 r (0 : Fin 1)) = S.m) (he : e0 (ix2 r (0 : Fin 1)) = S.e)
    (hs : s0 (ix2 r (0 : Fin 1)) = S.s1) (hn : n0 (ix2 r (0 : Fin 1)) = S.np) :
    k0_pay11 (F := Ideal) (k0_pay19 (F := Ideal) B A m0) (ix2 r (0 : Fin 1)) = (simStep q lab (rowOf b r) j S).m
    ∧ k0_pay8 (F := Ideal) (k0_pay17 (F := Ideal) (BitVec.ofNat 32 b.val) (BitVec.ofNat 32 j.val))
        (k0_pay20 (F := Ideal) B A m0 m0) (k0_pay21 (F := Ideal) B A m0) e0 (ix2 r (0 : Fin 1))
        = (simStep q lab (rowOf b r) j S).e
    ∧ k0_pay9 (F := Ideal) (k0_pay16 (F := Ideal) B A)
        (k0_pay18 (F := Ideal) (BitVec.ofNat 32 b.val) (BitVec.ofNat 32 j.val) lr lc) s0 (ix2 r (0 : Fin 1))
        = (simStep q lab (rowOf b r) j S).s1
    ∧ k0_pay10 (F := Ideal) (k0_pay18 (F := Ideal) (BitVec.ofNat 32 b.val) (BitVec.ofNat 32 j.val) lr lc) n0
        (ix2 r (0 : Fin 1)) = (simStep q lab (rowOf b r) j S).np := by
  have hmax := pay19_model q b j r B A hA hB m0 S hm
  refine ⟨?_, ?_, ?_, ?_⟩
  · rw [pay11_eq]; exact hmax
  · rw [pay8_apply, pay20_apply, hmax, hm, he]
    show _ = Ideal.exp (S.m - max S.m (tileMax q (rowOf b r) j)) * S.e
        + ∑ cidx : Fin 512, Ideal.exp (scaled q (rowOf b r) (colOf j cidx) - max S.m (tileMax q (rowOf b r) j))
            * notSelf (rowOf b r) (colOf j cidx)
    refine congrArg (HAdd.hAdd (α := EReal) (β := EReal) (γ := EReal) _) (Finset.sum_congr rfl fun cidx _ => ?_)
    rw [pay21_apply, hmax, pay16_scaled q b j r B A hA hB cidx, pay17_apply]
  · rw [pay9_apply, hs]
    show _ = S.s1 + ∑ cidx : Fin 512, pos lab (rowOf b r) (colOf j cidx) * scaled q (rowOf b r) (colOf j cidx)
    refine congrArg (HAdd.hAdd (α := EReal) (β := EReal) (γ := EReal) _) (Finset.sum_congr rfl fun cidx _ => ?_)
    rw [pay18_pos lab b j r lr lc hlr hlc cidx, pay16_scaled q b j r B A hA hB cidx]
  · rw [pay10_apply, hn]
    show _ = S.np + ∑ cidx : Fin 512, pos lab (rowOf b r) (colOf j cidx)
    refine congrArg (HAdd.hAdd (α := EReal) (β := EReal) (γ := EReal) _) (Finset.sum_congr rfl fun cidx _ => ?_)
    exact pay18_pos lab b j r lr lc hlr hlc cidx

end Step

end Cert.KernelIdeal.Value

end
-- ==== Proof.ValSimDefs.lean ====
/-
  The tile of window 1's block that the body slices at a grid point, and the point's two coordinates as the words the
  body receives.
-/
import proofs.«130741_j67869073212268_2_alg».proof.Proof.Gen.KernelIdeal.Frame
import Idealize.ShloMosaic.Lib.Pipeline.Value

noncomputable section

namespace Cert.KernelIdeal.Value

open Cert.KernelIdeal Cert.KernelIdeal.Gen
open Idealize.ShloMosaic Idealize.ShloMosaic.TcCoe
open Idealize.SL Idealize.SL.Sem

variable {F : FTy → Type} [FloatOps F] [Named F]
variable (m : (ℓ : Loc nD τ sig) → Buf (Elt F) ℓ)

/-- The tile of the transposed normalised rows that the body slices out of window 1's block at point t: columns
    512·j … 512·j + 511, j the inner step. -/
def tileB (c : Dev nD) (t : Fin cfg0.N) (h3 : k0_cond3 (grid0.coords t) = 1#1) : Vec F S1024x512 .bf16 :=
  View.ld (iblk m c 1 t : Vec F S1024x4096 .bf16) (Rect.unit (s := S1024x4096) (k0_off1 (grid0.coords t)) S1024x512.size (k0_off1_inb (grid0.coords t) h3))

/-- The two grid coordinates of point t as the words the body receives. -/
abbrev w0 (t : Fin cfg0.N) : BitVec 32 := BitVec.ofNat 32 ((grid0.coords t) 0).val
abbrev w1 (t : Fin cfg0.N) : BitVec 32 := BitVec.ofNat 32 ((grid0.coords t) 1).val

end Cert.KernelIdeal.Value

end
-- ==== Proof.ValSimPieces.lean ====
/-
  What each case of the body stores in the four similarity statistics (and, at the last similarity tile, in their four
  output blocks), as the body's arithmetic over the values it loads.

  A middle or last similarity tile stores each statistic once: the update computed from the point's input blocks and the
  statistics the point before left. The first similarity tile stores each statistic twice, the reset and then the
  update computed from the reset values; the later store is what the buffer holds. At the last similarity tile each
  output block receives what the statistic's buffer was just left holding.
-/
import proofs.«130741_j67869073212268_2_alg».proof.Proof.BodyAccum
import proofs.«130741_j67869073212268_2_alg».proof.Proof.ValSimDefs
import Idealize.ShloMosaic.Lib.Pipeline.Value
import Idealize.ShloMosaic.Lib.Tactic

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic
open Idealize.SL Idealize.SL.Sem

variable {F : FTy → Type} [FloatOps F] [Named F]
variable (m : (ℓ : Loc nD τ sig) → Buf (Elt F) ℓ)

theorem hz : (![0, 0] : Fin 2 → Nat) = fun _ => 0 := funext fun a => by fin_cases a <;> rfl

/-- The running maximum after the body's update at point t, from the maximum m0 it finds. -/
def updM (c : Dev nD) (t : Fin cfg0.N) (h3 : cSim (grid0.coords t)) (m0 : Vec F S512x1 .f32) : Vec F S512x1 .f32 :=
  k0_pay11 (k0_pay19 (tileB m c t h3) (iblk m c 0 t) m0)
/-- The exponential sum after the update, from the maximum m0 and the sum e0 it finds. -/
def updE (c : Dev nD) (t : Fin cfg0.N) (h3 : cSim (grid0.coords t)) (m0 e0 : Vec F S512x1 .f32) : Vec F S512x1 .f32 :=
  k0_pay8 (k0_pay17 (w0 t) (w1 t)) (k0_pay20 (tileB m c t h3) (iblk m c 0 t) m0 m0) (k0_pay21 (tileB m c t h3) (iblk m c 0 t) m0) e0
/-- The positives' similarity sum after the update, from the sum s0 it finds. -/
def updS (c : Dev nD) (t : Fin cfg0.N) (h3 : cSim (grid0.coords t)) (s0 : Vec F S512x1 .f32) : Vec F S512x1 .f32 :=
  k0_pay9 (k0_pay16 (tileB m c t h3) (iblk m c 0 t)) (k0_pay18 (w0 t) (w1 t) (iblk m c 2 t) (iblk m c 3 t)) s0
/-- The positives' count after the update, from the count n0 it finds. -/
def updN (c : Dev nD) (t : Fin cfg0.N) (h3 : cSim (grid0.coords t)) (n0 : Vec F S512x1 .f32) : Vec F S512x1 .f32 :=
  k0_pay10 (k0_pay18 (w0 t) (w1 t) (iblk m c 2 t) (iblk m c 3 t)) n0

theorem simMid_s0 (c : Dev nD) (t : Fin cfg0.N) (h : 1 ≤ t.val % 16 ∧ t.val % 16 ≤ 6) (p : St F) :
    (stepSimMid m c t h p).s0 = updM m c t ((hSim t).mpr (by omega)) p.s0 := by
  have e0 : ∀ X : Vec F S512x1 .f32, View.read (Elt F) (View.whole cc0_scratch0) ((Memref.isWhole_whole cc0_scratch0).unread X) = X := fun X => (Memref.isWhole_whole cc0_scratch0).read_unread X
  have e1 : ∀ X : Vec F S512x1 .f32, View.read (Elt F) (View.whole cc0_scratch1) ((Memref.isWhole_whole cc0_scratch1).unread X) = X := fun X => (Memref.isWhole_whole cc0_scratch1).read_unread X
  have e2 : ∀ X : Vec F S512x1 .f32, View.read (Elt F) (View.whole cc0_scratch2) ((Memref.isWhole_whole cc0_scratch2).unread X) = X := fun X => (Memref.isWhole_whole cc0_scratch2).read_unread X
  have e3 : ∀ X : Vec F S512x1 .f32, View.read (Elt F) (View.whole cc0_scratch3) ((Memref.isWhole_whole cc0_scratch3).unread X) = X := fun X => (Memref.isWhole_whole cc0_scratch3).read_unread X
  unfold stepSimMid
  show VS.read (Elt F) (VS.writes (Elt F) VS.junk (atSimMid m c t h p).1) = _
  rw [View.read_writes_eq_canon _ _ _ (coverSimMid_s0 m c t h p)]
  unfold atSimMid runSimMid
  dsimp only
  try sl_unfold_run_names
  rw [View.canon_unit_zero hz]
  simp only [View.readAt_eq_ld, (hs0 t).read_unread, (hs1 t).read_unread, (hs2 t).read_unread, (hs3 t).read_unread, e0, e1, e2, e3, View.ld_unit_zero (S := S512x1024) hz, View.ld_unit_zero (S := S512x1) hz, View.ld_unit_zero (S := S1x512) hz]
  rfl

theorem simMid_s1 (c : Dev nD) (t : Fin cfg0.N) (h : 1 ≤ t.val % 16 ∧ t.val % 16 ≤ 6) (p : St F) :
    (stepSimMid m c t h p).s1 = updE m c t ((hSim t).mpr (by omega)) p.s0 p.s1 := by
  have e0 : ∀ X : Vec F S512x1 .f32, View.read (Elt F) (View.whole cc0_scratch0) ((Memref.isWhole_whole cc0_scratch0).unread X) = X := fun X => (Memref.isWhole_whole cc0_scratch0).read_unread X
  have e1 : ∀ X : Vec F S512x1 .f32, View.read (Elt F) (View.whole cc0_scratch1) ((Memref.isWhole_whole cc0_scratch1).unread X) = X := fun X => (Memref.isWhole_whole cc0_scratch1).read_unread X
  have e2 : ∀ X : Vec F S512x1 .f32, View.read (Elt F) (View.whole cc0_scratch2) ((Memref.isWhole_whole cc0_scratch2).unread X) = X := fun X => (Memref.isWhole_whole cc0_scratch2).read_unread X
  have e3 : ∀ X : Vec F S512x1 .f32, View.read (Elt F) (View.whole cc0_scratch3) ((Memref.isWhole_whole cc0_scratch3).unread X) = X := fun X => (Memref.isWhole_whole cc0_scratch3).read_unread X
  unfold stepSimMid
  show VS.read (Elt F) (VS.writes (Elt F) VS.junk (atSimMid m c t h p).2.1) = _
  rw [View.read_writes_eq_canon _ _ _ (coverSimMid_s1 m c t h p)]
  unfold atSimMid runSimMid
  dsimp only
  try sl_unfold_run_names
  rw [View.canon_unit_zero hz]
  simp only [View.readAt_eq_ld, (hs0 t).read_unread, (hs1 t).read_unread, (hs2 t).read_unread, (hs3 t).read_unread, e0, e1, e2, e3, View.ld_unit_zero (S := S512x1024) hz, View.ld_unit_zero (S := S512x1) hz, View.ld_unit_zero (S := S1x512) hz]
  rfl

theorem simMid_s2 (c : Dev nD) (t : Fin cfg0.N) (h : 1 ≤ t.val % 16 ∧ t.val % 16 ≤ 6) (p : St F) :
    (stepSimMid m c t h p).s2 = updS m c t ((hSim t).mpr (by omega)) p.s2 := by
  have e0 : ∀ X : Vec F S512x1 .f32, View.read (Elt F) (View.whole cc0_scratch0) ((Memref.isWhole_whole cc0_scratch0).unread X) = X := fun X => (Memref.isWhole_whole cc0_scratch0).read_unread X
  have e1 : ∀ X : Vec F S512x1 .f32, View.read (Elt F) (View.whole cc0_scratch1) ((Memref.isWhole_whole cc0_scratch1).unread X) = X := fun X => (Memref.isWhole_whole cc0_scratch1).read_unread X
  have e2 : ∀ X : Vec F S512x1 .f32, View.read (Elt F) (View.whole cc0_scratch2) ((Memref.isWhole_whole cc0_scratch2).unread X) = X := fun X => (Memref.isWhole_whole cc0_scratch2).read_unread X
  have e3 : ∀ X : Vec F S512x1 .f32, View.read (Elt F) (View.whole cc0_scratch3) ((Memref.isWhole_whole cc0_scratch3).unread X) = X := fun X => (Memref.isWhole_whole cc0_scratch3).read_unread X
  unfold stepSimMid
  show VS.read (Elt F) (VS.writes (Elt F) VS.junk (atSimMid m c t h p).2.2.1) = _
  rw [View.read_writes_eq_canon _ _ _ (coverSimMid_s2 m c t h p)]
  unfold atSimMid runSimMid
  dsimp only
  try sl_unfold_run_names
  rw [View.canon_unit_zero hz]
  simp only [View.readAt_eq_ld, (hs0 t).read_unread, (hs1 t).read_unread, (hs2 t).read_unread, (hs3 t).read_unread, e0, e1, e2, e3, View.ld_unit_zero (S := S512x1024) hz, View.ld_unit_zero (S := S512x1) hz, View.ld_unit_zero (S := S1x512) hz]
  rfl

theorem simMid_s3 (c : Dev nD) (t : Fin cfg0.N) (h : 1 ≤ t.val % 16 ∧ t.val % 16 ≤ 6) (p : St F) :
    (stepSimMid m c t h p).s3 = updN m c t ((hSim t).mpr (by omega)) p.s3 := by
  have e0 : ∀ X : Vec F S512x1 .f32, View.read (Elt F) (View.whole cc0_scratch0) ((Memref.isWhole_whole cc0_scratch0).unread X) = X := fun X => (Memref.isWhole_whole cc0_scratch0).read_unread X
  have e1 : ∀ X : Vec F S512x1 .f32, View.read (Elt F) (View.whole cc0_scratch1) ((Memref.isWhole_whole cc0_scratch1).unread X) = X := fun X => (Memref.isWhole_whole cc0_scratch1).read_unread X
  have e2 : ∀ X : Vec F S512x1 .f32, View.read (Elt F) (View.whole cc0_scratch2) ((Memref.isWhole_whole cc0_scratch2).unread X) = X := fun X => (Memref.isWhole_whole cc0_scratch2).read_unread X
  have e3 : ∀ X : Vec F S512x1 .f32, View.read (Elt F) (View.whole cc0_scratch3) ((Memref.isWhole_whole cc0_scratch3).unread X) = X := fun X => (Memref.isWhole_whole cc0_scratch3).read_unread X
  unfold stepSimMid
  show VS.read (Elt F) (VS.writes (Elt F) VS.junk (atSimMid m c t h p).2.2.2.1) = _
  rw [View.read_writes_eq_canon _ _ _ (coverSimMid_s3 m c t h p)]
  unfold atSimMid runSimMid
  dsimp only
  try sl_unfold_run_names
  rw [View.canon_unit_zero hz]
  simp only [View.readAt_eq_ld, (hs0 t).read_unread, (hs1 t).read_unread, (hs2 t).read_unread, (hs3 t).read_unread, e0, e1, e2, e3, View.ld_unit_zero (S := S512x1024) hz, View.ld_unit_zero (S := S512x1) hz, View.ld_unit_zero (S := S1x512) hz]
  rfl

theorem simLast_s0 (c : Dev nD) (t : Fin cfg0.N) (h : t.val % 16 = 7) (p : St F) :
    (stepSimLast m c t h p).s0 = updM m c t ((hSim t).mpr (by omega)) p.s0 := by
  have e0 : ∀ X : Vec F S512x1 .f32, View.read (Elt F) (View.whole cc0_scratch0) ((Memref.isWhole_whole cc0_scratch0).unread X) = X := fun X => (Memref.isWhole_whole cc0_scratch0).read_unread X
  have e1 : ∀ X : Vec F S512x1 .f32, View.read (Elt F) (View.whole cc0_scratch1) ((Memref.isWhole_whole cc0_scratch1).unread X) = X := fun X => (Memref.isWhole_whole cc0_scratch1).read_unread X
  have e2 : ∀ X : Vec F S512x1 .f32, View.read (Elt F) (View.whole cc0_scratch2) ((Memref.isWhole_whole cc0_scratch2).unread X) = X := fun X => (Memref.isWhole_whole cc0_scratch2).read_unread X
  have e3 : ∀ X : Vec F S512x1 .f32, View.read (Elt F) (View.whole cc0_scratch3) ((Memref.isWhole_whole cc0_scratch3).unread X) = X := fun X => (Memref.isWhole_whole cc0_scratch3).read_unread X
  unfold stepSimLast
  show VS.read (Elt F) (VS.writes (Elt F) VS.junk (atSimLast m c t h p).1) = _
  rw [View.read_writes_eq_canon _ _ _ (coverSimLast_s0 m c t h p)]
  unfold atSimLast runSimLast
  dsimp only
  try sl_unfold_run_names
  rw [View.canon_unit_zero hz]
  simp only [View.readAt_eq_ld, (hs0 t).read_unread, (hs1 t).read_unread, (hs2 t).read_unread, (hs3 t).read_unread, e0, e1, e2, e3, View.ld_unit_zero (S := S512x1024) hz, View.ld_unit_zero (S := S512x1) hz, View.ld_unit_zero (S := S1x512) hz]
  rfl

theorem simLast_s1 (c : Dev nD) (t : Fin cfg0.N) (h : t.val % 16 = 7) (p : St F) :
    (stepSimLast m c t h p).s1 = updE m c t ((hSim t).mpr (by omega)) p.s0 p.s1 := by
  have e0 : ∀ X : Vec F S512x1 .f32, View.read (Elt F) (View.whole cc0_scratch0) ((Memref.isWhole_whole cc0_scratch0).unread X) = X := fun X => (Memref.isWhole_whole cc0_scratch0).read_unread X
  have e1 : ∀ X : Vec F S512x1 .f32, View.read (Elt F) (View.whole cc0_scratch1) ((Memref.isWhole_whole cc0_scratch1).unread X) = X := fun X => (Memref.isWhole_whole cc0_scratch1).read_unread X
  have e2 : ∀ X : Vec F S512x1 .f32, View.read (Elt F) (View.whole cc0_scratch2) ((Memref.isWhole_whole cc0_scratch2).unread X) = X := fun X => (Memref.isWhole_whole cc0_scratch2).read_unread X
  have e3 : ∀ X : Vec F S512x1 .f32, View.read (Elt F) (View.whole cc0_scratch3) ((Memref.isWhole_whole cc0_scratch3).unread X) = X := fun X => (Memref.isWhole_whole cc0_scratch3).read_unread X
  unfold stepSimLast
  show VS.read (Elt F) (VS.writes (Elt F) VS.junk (atSimLast m c t h p).2.1) = _
  rw [View.read_writes_eq_canon _ _ _ (coverSimLast_s1 m c t h p)]
  unfold atSimLast runSimLast
  dsimp only
  try sl_unfold_run_names
  rw [View.canon_unit_zero hz]
  simp only [View.readAt_eq_ld, (hs0 t).read_unread, (hs1 t).read_unread, (hs2 t).read_unread, (hs3 t).read_unread, e0, e1, e2, e3, View.ld_unit_zero (S := S512x1024) hz, View.ld_unit_zero (S := S512x1) hz, View.ld_unit_zero (S := S1x512) hz]
  rfl

theorem simLast_s2 (c : Dev nD) (t : Fin cfg0.N) (h : t.val % 16 = 7) (p : St F) :
    (stepSimLast m c t h p).s2 = updS m c t ((hSim t).mpr (by omega)) p.s2 := by
  have e0 : ∀ X : Vec F S512x1 .f32, View.read (Elt F) (View.whole cc0_scratch0) ((Memref.isWhole_whole cc0_scratch0).unread X) = X := fun X => (Memref.isWhole_whole cc0_scratch0).read_unread X
  have e1 : ∀ X : Vec F S512x1 .f32, View.read (Elt F) (View.whole cc0_scratch1) ((Memref.isWhole_whole cc0_scratch1).unread X) = X := fun X => (Memref.isWhole_whole cc0_scratch1).read_unread X
  have e2 : ∀ X : Vec F S512x1 .f32, View.read (Elt F) (View.whole cc0_scratch2) ((Memref.isWhole_whole cc0_scratch2).unread X) = X := fun X => (Memref.isWhole_whole cc0_scratch2).read_unread X
  have e3 : ∀ X : Vec F S512x1 .f32, View.read (Elt F) (View.whole cc0_scratch3) ((Memref.isWhole_whole cc0_scratch3).unread X) = X := fun X => (Memref.isWhole_whole cc0_scratch3).read_unread X
  unfold stepSimLast
  show VS.read (Elt F) (VS.writes (Elt F) VS.junk (atSimLast m c t h p).2.2.1) = _
  rw [View.read_writes_eq_canon _ _ _ (coverSimLast_s2 m c t h p)]
  unfold atSimLast runSimLast
  dsimp only
  try sl_unfold_run_names
  rw [View.canon_unit_zero hz]
  simp only [View.readAt_eq_ld, (hs0 t).read_unread, (hs1 t).read_unread, (hs2 t).read_unread, (hs3 t).read_unread, e0, e1, e2, e3, View.ld_unit_zero (S := S512x1024) hz, View.ld_unit_zero (S := S512x1) hz, View.ld_unit_zero (S := S1x512) hz]
  rfl

theorem simLast_s3 (c : Dev nD) (t : Fin cfg0.N) (h : t.val % 16 = 7) (p : St F) :
    (stepSimLast m c t h p).s3 = updN m c t ((hSim t).mpr (by omega)) p.s3 := by
  have e0 : ∀ X : Vec F S512x1 .f32, View.read (Elt F) (View.whole cc0_scratch0) ((Memref.isWhole_whole cc0_scratch0).unread X) = X := fun X => (Memref.isWhole_whole cc0_scratch0).read_unread X
  have e1 : ∀ X : Vec F S512x1 .f32, View.read (Elt F) (View.whole cc0_scratch1) ((Memref.isWhole_whole cc0_scratch1).unread X) = X := fun X => (Memref.isWhole_whole cc0_scratch1).read_unread X
  have e2 : ∀ X : Vec F S512x1 .f32, View.read (Elt F) (View.whole cc0_scratch2) ((Memref.isWhole_whole cc0_scratch2).unread X) = X := fun X => (Memref.isWhole_whole cc0_scratch2).read_unread X
  have e3 : ∀ X : Vec F S512x1 .f32, View.read (Elt F) (View.whole cc0_scratch3) ((Memref.isWhole_whole cc0_scratch3).unread X) = X := fun X => (Memref.isWhole_whole cc0_scratch3).read_unread X
  unfold stepSimLast
  show VS.read (Elt F) (VS.writes (Elt F) VS.junk (atSimLast m c t h p).2.2.2.1) = _
  rw [View.read_writes_eq_canon _ _ _ (coverSimLast_s3 m c t h p)]
  unfold atSimLast runSimLast
  dsimp only
  try sl_unfold_run_names
  rw [View.canon_unit_zero hz]
  simp only [View.readAt_eq_ld, (hs0 t).read_unread, (hs1 t).read_unread, (hs2 t).read_unread, (hs3 t).read_unread, e0, e1, e2, e3, View.ld_unit_zero (S := S512x1024) hz, View.ld_unit_zero (S := S512x1) hz, View.ld_unit_zero (S := S1x512) hz]
  rfl

theorem simLast_o0 (c : Dev nD) (t : Fin cfg0.N) (h : t.val % 16 = 7) (p : St F) :
    (stepSimLast m c t h p).o0 = updM m c t ((hSim t).mpr (by omega)) p.s0 := by
  have e0 : ∀ X : Vec F S512x1 .f32, View.read (Elt F) (View.whole cc0_scratch0) ((Memref.isWhole_whole cc0_scratch0).unread X) = X := fun X => (Memref.isWhole_whole cc0_scratch0).read_unread X
  have e1 : ∀ X : Vec F S512x1 .f32, View.read (Elt F) (View.whole cc0_scratch1) ((Memref.isWhole_whole cc0_scratch1).unread X) = X := fun X => (Memref.isWhole_whole cc0_scratch1).read_unread X
  have e2 : ∀ X : Vec F S512x1 .f32, View.read (Elt F) (View.whole cc0_scratch2) ((Memref.isWhole_whole cc0_scratch2).unread X) = X := fun X => (Memref.isWhole_whole cc0_scratch2).read_unread X
  have e3 : ∀ X : Vec F S512x1 .f32, View.read (Elt F) (View.whole cc0_scratch3) ((Memref.isWhole_whole cc0_scratch3).unread X) = X := fun X => (Memref.isWhole_whole cc0_scratch3).read_unread X
  unfold stepSimLast
  show VS.read (Elt F) (VS.writes (Elt F) VS.junk (atSimLast m c t h p).2.2.2.2.1) = _
  rw [View.read_writes_eq_canon _ _ _ (coverSimLast_o0 m c t h p)]
  unfold atSimLast runSimLast
  dsimp only
  try sl_unfold_run_names
  have r0 : ∀ (inb : ∀ a, (![0, 0] : Fin 2 → Nat) a + S512x1.size a ≤ S512x1.size a) (w : Vec F S512x1 .f32), (sc0 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r1 : ∀ (inb : ∀ a, (![0, 0] : Fin 2 → Nat) a + S512x1.size a ≤ S512x1.size a) (w : Vec F S512x1 .f32), (sc1 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r2 : ∀ (inb : ∀ a, (![0, 0] : Fin 2 → Nat) a + S512x1.size a ≤ S512x1.size a) (w : Vec F S512x1 .f32), (sc2 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r3 : ∀ (inb : ∀ a, (![0, 0] : Fin 2 → Nat) a + S512x1.size a ≤ S512x1.size a) (w : Vec F S512x1 .f32), (sc3 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  rw [View.canon_unit_zero hz]
  simp only [r0, r1, r2, r3, View.readAt_eq_ld, (hs0 t).read_unread, (hs1 t).read_unread, (hs2 t).read_unread, (hs3 t).read_unread, e0, e1, e2, e3, View.ld_unit_zero (S := S512x1024) hz, View.ld_unit_zero (S := S512x1) hz, View.ld_unit_zero (S := S1x512) hz]
  rfl

theorem simLast_o1 (c : Dev nD) (t : Fin cfg0.N) (h : t.val % 16 = 7) (p : St F) :
    (stepSimLast m c t h p).o1 = updE m c t ((hSim t).mpr (by omega)) p.s0 p.s1 := by
  have e0 : ∀ X : Vec F S512x1 .f32, View.read (Elt F) (View.whole cc0_scratch0) ((Memref.isWhole_whole cc0_scratch0).unread X) = X := fun X => (Memref.isWhole_whole cc0_scratch0).read_unread X
  have e1 : ∀ X : Vec F S512x1 .f32, View.read (Elt F) (View.whole cc0_scratch1) ((Memref.isWhole_whole cc0_scratch1).unread X) = X := fun X => (Memref.isWhole_whole cc0_scratch1).read_unread X
  have e2 : ∀ X : Vec F S512x1 .f32, View.read (Elt F) (View.whole cc0_scratch2) ((Memref.isWhole_whole cc0_scratch2).unread X) = X := fun X => (Memref.isWhole_whole cc0_scratch2).read_unread X
  have e3 : ∀ X : Vec F S512x1 .f32, View.read (Elt F) (View.whole cc0_scratch3) ((Memref.isWhole_whole cc0_scratch3).unread X) = X := fun X => (Memref.isWhole_whole cc0_scratch3).read_unread X
  unfold stepSimLast
  show VS.read (Elt F) (VS.writes (Elt F) VS.junk (atSimLast m c t h p).2.2.2.2.2.1) = _
  rw [View.read_writes_eq_canon _ _ _ (coverSimLast_o1 m c t h p)]
  unfold atSimLast runSimLast
  dsimp only
  try sl_unfold_run_names
  have r0 : ∀ (inb : ∀ a, (![0, 0] : Fin 2 → Nat) a + S512x1.size a ≤ S512x1.size a) (w : Vec F S512x1 .f32), (sc0 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r1 : ∀ (inb : ∀ a, (![0, 0] : Fin 2 → Nat) a + S512x1.size a ≤ S512x1.size a) (w : Vec F S512x1 .f32), (sc1 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r2 : ∀ (inb : ∀ a, (![0, 0] : Fin 2 → Nat) a + S512x1.size a ≤ S512x1.size a) (w : Vec F S512x1 .f32), (sc2 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r3 : ∀ (inb : ∀ a, (![0, 0] : Fin 2 → Nat) a + S512x1.size a ≤ S512x1.size a) (w : Vec F S512x1 .f32), (sc3 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  rw [View.canon_unit_zero hz]
  simp only [r0, r1, r2, r3, View.readAt_eq_ld, (hs0 t).read_unread, (hs1 t).read_unread, (hs2 t).read_unread, (hs3 t).read_unread, e0, e1, e2, e3, View.ld_unit_zero (S := S512x1024) hz, View.ld_unit_zero (S := S512x1) hz, View.ld_unit_zero (S := S1x512) hz]
  rfl

theorem simLast_o2 (c : Dev nD) (t : Fin cfg0.N) (h : t.val % 16 = 7) (p : St F) :
    (stepSimLast m c t h p).o2 = updS m c t ((hSim t).mpr (by omega)) p.s2 := by
  have e0 : ∀ X : Vec F S512x1 .f32, View.read (Elt F) (View.whole cc0_scratch0) ((Memref.isWhole_whole cc0_scratch0).unread X) = X := fun X => (Memref.isWhole_whole cc0_scratch0).read_unread X
  have e1 : ∀ X : Vec F S512x1 .f32, View.read (Elt F) (View.whole cc0_scratch1) ((Memref.isWhole_whole cc0_scratch1).unread X) = X := fun X => (Memref.isWhole_whole cc0_scratch1).read_unread X
  have e2 : ∀ X : Vec F S512x1 .f32, View.read (Elt F) (View.whole cc0_scratch2) ((Memref.isWhole_whole cc0_scratch2).unread X) = X := fun X => (Memref.isWhole_whole cc0_scratch2).read_unread X
  have e3 : ∀ X : Vec F S512x1 .f32, View.read (Elt F) (View.whole cc0_scratch3) ((Memref.isWhole_whole cc0_scratch3).unread X) = X := fun X => (Memref.isWhole_whole cc0_scratch3).read_unread X
  unfold stepSimLast
  show VS.read (Elt F) (VS.writes (Elt F) VS.junk (atSimLast m c t h p).2.2.2.2.2.2.1) = _
  rw [View.read_writes_eq_canon _ _ _ (coverSimLast_o2 m c t h p)]
  unfold atSimLast runSimLast
  dsimp only
  try sl_unfold_run_names
  have r0 : ∀ (inb : ∀ a, (![0, 0] : Fin 2 → Nat) a + S512x1.size a ≤ S512x1.size a) (w : Vec F S512x1 .f32), (sc0 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r1 : ∀ (inb : ∀ a, (![0, 0] : Fin 2 → Nat) a + S512x1.size a ≤ S512x1.size a) (w : Vec F S512x1 .f32), (sc1 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r2 : ∀ (inb : ∀ a, (![0, 0] : Fin 2 → Nat) a + S512x1.size a ≤ S512x1.size a) (w : Vec F S512x1 .f32), (sc2 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r3 : ∀ (inb : ∀ a, (![0, 0] : Fin 2 → Nat) a + S512x1.size a ≤ S512x1.size a) (w : Vec F S512x1 .f32), (sc3 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  rw [View.canon_unit_zero hz]
  simp only [r0, r1, r2, r3, View.readAt_eq_ld, (hs0 t).read_unread, (hs1 t).read_unread, (hs2 t).read_unread, (hs3 t).read_unread, e0, e1, e2, e3, View.ld_unit_zero (S := S512x1024) hz, View.ld_unit_zero (S := S512x1) hz, View.ld_unit_zero (S := S1x512) hz]
  rfl

theorem simLast_o3 (c : Dev nD) (t : Fin cfg0.N) (h : t.val % 16 = 7) (p : St F) :
    (stepSimLast m c t h p).o3 = updN m c t ((hSim t).mpr (by omega)) p.s3 := by
  have e0 : ∀ X : Vec F S512x1 .f32, View.read (Elt F) (View.whole cc0_scratch0) ((Memref.isWhole_whole cc0_scratch0).unread X) = X := fun X => (Memref.isWhole_whole cc0_scratch0).read_unread X
  have e1 : ∀ X : Vec F S512x1 .f32, View.read (Elt F) (View.whole cc0_scratch1) ((Memref.isWhole_whole cc0_scratch1).unread X) = X := fun X => (Memref.isWhole_whole cc0_scratch1).read_unread X
  have e2 : ∀ X : Vec F S512x1 .f32, View.read (Elt F) (View.whole cc0_scratch2) ((Memref.isWhole_whole cc0_scratch2).unread X) = X := fun X => (Memref.isWhole_whole cc0_scratch2).read_unread X
  have e3 : ∀ X : Vec F S512x1 .f32, View.read (Elt F) (View.whole cc0_scratch3) ((Memref.isWhole_whole cc0_scratch3).unread X) = X := fun X => (Memref.isWhole_whole cc0_scratch3).read_unread X
  unfold stepSimLast
  show VS.read (Elt F) (VS.writes (Elt F) VS.junk (atSimLast m c t h p).2.2.2.2.2.2.2.1) = _
  rw [View.read_writes_eq_canon _ _ _ (coverSimLast_o3 m c t h p)]
  unfold atSimLast runSimLast
  dsimp only
  try sl_unfold_run_names
  have r0 : ∀ (inb : ∀ a, (![0, 0] : Fin 2 → Nat) a + S512x1.size a ≤ S512x1.size a) (w : Vec F S512x1 .f32), (sc0 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r1 : ∀ (inb : ∀ a, (![0, 0] : Fin 2 → Nat) a + S512x1.size a ≤ S512x1.size a) (w : Vec F S512x1 .f32), (sc1 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r2 : ∀ (inb : ∀ a, (![0, 0] : Fin 2 → Nat) a + S512x1.size a ≤ S512x1.size a) (w : Vec F S512x1 .f32), (sc2 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r3 : ∀ (inb : ∀ a, (![0, 0] : Fin 2 → Nat) a + S512x1.size a ≤ S512x1.size a) (w : Vec F S512x1 .f32), (sc3 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  rw [View.canon_unit_zero hz]
  simp only [r0, r1, r2, r3, View.readAt_eq_ld, (hs0 t).read_unread, (hs1 t).read_unread, (hs2 t).read_unread, (hs3 t).read_unread, e0, e1, e2, e3, View.ld_unit_zero (S := S512x1024) hz, View.ld_unit_zero (S := S512x1) hz, View.ld_unit_zero (S := S1x512) hz]
  rfl

theorem simFirst_s0 (c : Dev nD) (t : Fin cfg0.N) (h : t.val % 16 = 0) (p : St F) :
    (stepSimFirst m c t h p).s0 = updM m c t ((hSim t).mpr (by omega)) k0_pay1 := by
  have e0 : ∀ X : Vec F S512x1 .f32, View.read (Elt F) (View.whole cc0_scratch0) ((Memref.isWhole_whole cc0_scratch0).unread X) = X := fun X => (Memref.isWhole_whole cc0_scratch0).read_unread X
  have e1 : ∀ X : Vec F S512x1 .f32, View.read (Elt F) (View.whole cc0_scratch1) ((Memref.isWhole_whole cc0_scratch1).unread X) = X := fun X => (Memref.isWhole_whole cc0_scratch1).read_unread X
  have e2 : ∀ X : Vec F S512x1 .f32, View.read (Elt F) (View.whole cc0_scratch2) ((Memref.isWhole_whole cc0_scratch2).unread X) = X := fun X => (Memref.isWhole_whole cc0_scratch2).read_unread X
  have e3 : ∀ X : Vec F S512x1 .f32, View.read (Elt F) (View.whole cc0_scratch3) ((Memref.isWhole_whole cc0_scratch3).unread X) = X := fun X => (Memref.isWhole_whole cc0_scratch3).read_unread X
  unfold stepSimFirst
  show VS.read (Elt F) (VS.writes (Elt F) VS.junk (atSimFirst m c t h).1) = _
  rw [View.read_writes_eq_canon _ _ _ (coverSimFirst_s0 m c t h)]
  unfold atSimFirst runSimFirst
  dsimp only
  try sl_unfold_run_names
  have r0 : ∀ (inb : ∀ a, (![0, 0] : Fin 2 → Nat) a + S512x1.size a ≤ S512x1.size a) (w : Vec F S512x1 .f32), (sc0 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r1 : ∀ (inb : ∀ a, (![0, 0] : Fin 2 → Nat) a + S512x1.size a ≤ S512x1.size a) (w : Vec F S512x1 .f32), (sc1 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r2 : ∀ (inb : ∀ a, (![0, 0] : Fin 2 → Nat) a + S512x1.size a ≤ S512x1.size a) (w : Vec F S512x1 .f32), (sc2 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r3 : ∀ (inb : ∀ a, (![0, 0] : Fin 2 → Nat) a + S512x1.size a ≤ S512x1.size a) (w : Vec F S512x1 .f32), (sc3 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  rw [View.canon_cons_unit_zero (S := S512x1) hz]
  simp only [r0, r1, r2, r3, View.readAt_eq_ld, (hs0 t).read_unread, (hs1 t).read_unread, (hs2 t).read_unread, (hs3 t).read_unread, e0, e1, e2, e3, View.ld_unit_zero (S := S512x1024) hz, View.ld_unit_zero (S := S512x1) hz, View.ld_unit_zero (S := S1x512) hz]
  rfl

theorem simFirst_s1 (c : Dev nD) (t : Fin cfg0.N) (h : t.val % 16 = 0) (p : St F) :
    (stepSimFirst m c t h p).s1 = updE m c t ((hSim t).mpr (by omega)) k0_pay1 k0_pay2 := by
  have e0 : ∀ X : Vec F S512x1 .f32, View.read (Elt F) (View.whole cc0_scratch0) ((Memref.isWhole_whole cc0_scratch0).unread X) = X := fun X => (Memref.isWhole_whole cc0_scratch0).read_unread X
  have e1 : ∀ X : Vec F S512x1 .f32, View.read (Elt F) (View.whole cc0_scratch1) ((Memref.isWhole_whole cc0_scratch1).unread X) = X := fun X => (Memref.isWhole_whole cc0_scratch1).read_unread X
  have e2 : ∀ X : Vec F S512x1 .f32, View.read (Elt F) (View.whole cc0_scratch2) ((Memref.isWhole_whole cc0_scratch2).unread X) = X := fun X => (Memref.isWhole_whole cc0_scratch2).read_unread X
  have e3 : ∀ X : Vec F S512x1 .f32, View.read (Elt F) (View.whole cc0_scratch3) ((Memref.isWhole_whole cc0_scratch3).unread X) = X := fun X => (Memref.isWhole_whole cc0_scratch3).read_unread X
  unfold stepSimFirst
  show VS.read (Elt F) (VS.writes (Elt F) VS.junk (atSimFirst m c t h).2.1) = _
  rw [View.read_writes_eq_canon _ _ _ (coverSimFirst_s1 m c t h)]
  unfold atSimFirst runSimFirst
  dsimp only
  try sl_unfold_run_names
  have r0 : ∀ (inb : ∀ a, (![0, 0] : Fin 2 → Nat) a + S512x1.size a ≤ S512x1.size a) (w : Vec F S512x1 .f32), (sc0 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r1 : ∀ (inb : ∀ a, (![0, 0] : Fin 2 → Nat) a + S512x1.size a ≤ S512x1.size a) (w : Vec F S512x1 .f32), (sc1 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r2 : ∀ (inb : ∀ a, (![0, 0] : Fin 2 → Nat) a + S512x1.size a ≤ S512x1.size a) (w : Vec F S512x1 .f32), (sc2 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r3 : ∀ (inb : ∀ a, (![0, 0] : Fin 2 → Nat) a + S512x1.size a ≤ S512x1.size a) (w : Vec F S512x1 .f32), (sc3 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  rw [View.canon_cons_unit_zero (S := S512x1) hz]
  simp only [r0, r1, r2, r3, View.readAt_eq_ld, (hs0 t).read_unread, (hs1 t).read_unread, (hs2 t).read_unread, (hs3 t).read_unread, e0, e1, e2, e3, View.ld_unit_zero (S := S512x1024) hz, View.ld_unit_zero (S := S512x1) hz, View.ld_unit_zero (S := S1x512) hz]
  rfl

theorem simFirst_s2 (c : Dev nD) (t : Fin cfg0.N) (h : t.val % 16 = 0) (p : St F) :
    (stepSimFirst m c t h p).s2 = updS m c t ((hSim t).mpr (by omega)) k0_pay3 := by
  have e0 : ∀ X : Vec F S512x1 .f32, View.read (Elt F) (View.whole cc0_scratch0) ((Memref.isWhole_whole cc0_scratch0).unread X) = X := fun X => (Memref.isWhole_whole cc0_scratch0).read_unread X
  have e1 : ∀ X : Vec F S512x1 .f32, View.read (Elt F) (View.whole cc0_scratch1) ((Memref.isWhole_whole cc0_scratch1).unread X) = X := fun X => (Memref.isWhole_whole cc0_scratch1).read_unread X
  have e2 : ∀ X : Vec F S512x1 .f32, View.read (Elt F) (View.whole cc0_scratch2) ((Memref.isWhole_whole cc0_scratch2).unread X) = X := fun X => (Memref.isWhole_whole cc0_scratch2).read_unread X
  have e3 : ∀ X : Vec F S512x1 .f32, View.read (Elt F) (View.whole cc0_scratch3) ((Memref.isWhole_whole cc0_scratch3).unread X) = X := fun X => (Memref.isWhole_whole cc0_scratch3).read_unread X
  unfold stepSimFirst
  show VS.read (Elt F) (VS.writes (Elt F) VS.junk (atSimFirst m c t h).2.2.1) = _
  rw [View.read_writes_eq_canon _ _ _ (coverSimFirst_s2 m c t h)]
  unfold atSimFirst runSimFirst
  dsimp only
  try sl_unfold_run_names
  have r0 : ∀ (inb : ∀ a, (![0, 0] : Fin 2 → Nat) a + S512x1.size a ≤ S512x1.size a) (w : Vec F S512x1 .f32), (sc0 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r1 : ∀ (inb : ∀ a, (![0, 0] : Fin 2 → Nat) a + S512x1.size a ≤ S512x1.size a) (w : Vec F S512x1 .f32), (sc1 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r2 : ∀ (inb : ∀ a, (![0, 0] : Fin 2 → Nat) a + S512x1.size a ≤ S512x1.size a) (w : Vec F S512x1 .f32), (sc2 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r3 : ∀ (inb : ∀ a, (![0, 0] : Fin 2 → Nat) a + S512x1.size a ≤ S512x1.size a) (w : Vec F S512x1 .f32), (sc3 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  rw [View.canon_cons_unit_zero (S := S512x1) hz]
  simp only [r0, r1, r2, r3, View.readAt_eq_ld, (hs0 t).read_unread, (hs1 t).read_unread, (hs2 t).read_unread, (hs3 t).read_unread, e0, e1, e2, e3, View.ld_unit_zero (S := S512x1024) hz, View.ld_unit_zero (S := S512x1) hz, View.ld_unit_zero (S := S1x512) hz]
  rfl

theorem simFirst_s3 (c : Dev nD) (t : Fin cfg0.N) (h : t.val % 16 = 0) (p : St F) :
    (stepSimFirst m c t h p).s3 = updN m c t ((hSim t).mpr (by omega)) k0_pay4 := by
  have e0 : ∀ X : Vec F S512x1 .f32, View.read (Elt F) (View.whole cc0_scratch0) ((Memref.isWhole_whole cc0_scratch0).unread X) = X := fun X => (Memref.isWhole_whole cc0_scratch0).read_unread X
  have e1 : ∀ X : Vec F S512x1 .f32, View.read (Elt F) (View.whole cc0_scratch1) ((Memref.isWhole_whole cc0_scratch1).unread X) = X := fun X => (Memref.isWhole_whole cc0_scratch1).read_unread X
  have e2 : ∀ X : Vec F S512x1 .f32, View.read (Elt F) (View.whole cc0_scratch2) ((Memref.isWhole_whole cc0_scratch2).unread X) = X := fun X => (Memref.isWhole_whole cc0_scratch2).read_unread X
  have e3 : ∀ X : Vec F S512x1 .f32, View.read (Elt F) (View.whole cc0_scratch3) ((Memref.isWhole_whole cc0_scratch3).unread X) = X := fun X => (Memref.isWhole_whole cc0_scratch3).read_unread X
  unfold stepSimFirst
  show VS.read (Elt F) (VS.writes (Elt F) VS.junk (atSimFirst m c t h).2.2.2.1) = _
  rw [View.read_writes_eq_canon _ _ _ (coverSimFirst_s3 m c t h)]
  unfold atSimFirst runSimFirst
  dsimp only
  try sl_unfold_run_names
  have r0 : ∀ (inb : ∀ a, (![0, 0] : Fin 2 → Nat) a + S512x1.size a ≤ S512x1.size a) (w : Vec F S512x1 .f32), (sc0 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r1 : ∀ (inb : ∀ a, (![0, 0] : Fin 2 → Nat) a + S512x1.size a ≤ S512x1.size a) (w : Vec F S512x1 .f32), (sc1 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r2 : ∀ (inb : ∀ a, (![0, 0] : Fin 2 → Nat) a + S512x1.size a ≤ S512x1.size a) (w : Vec F S512x1 .f32), (sc2 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  have r3 : ∀ (inb : ∀ a, (![0, 0] : Fin 2 → Nat) a + S512x1.size a ≤ S512x1.size a) (w : Vec F S512x1 .f32), (sc3 : Memref sig .tc .vmem S512x1 .f32).view.readCov [(⟨Rect.unit ![0, 0] S512x1.size inb, w⟩ : View.Piece (Elt F) S512x1 .f32)] (Rect.unit ![0, 0] S512x1.size inb).toLoadRect = w := fun inb w => View.readCov_unit_zero (S := S512x1) _ hz inb w
  rw [View.canon_cons_unit_zero (S := S512x1) hz]
  simp only [r0, r1, r2, r3, View.readAt_eq_ld, (hs0 t).read_unread, (hs1 t).read_unread, (hs2 t).read_unread, (hs3 t).read_unread, e0, e1, e2, e3, View.ld_unit_zero (S := S512x1024) hz, View.ld_unit_zero (S := S512x1) hz, View.ld_unit_zero (S := S1x512) hz]
  rfl

end Cert.KernelIdeal.Value

end
-- ==== Proof.LibTypedViews.lean ====
/-
  Typed views of a buffer, there and back.

  A host function that the printer outlines reads and writes its buffers through typed views: contents at the
  value's type `T` are carried to the buffer's own type and back along the equation `x.ty_eq : x.ref.ty = T`
  (`TRef.toBuf`, `TRef.ofBuf`: two transports along that one equation, in opposite directions). Whatever the buffer,
  one transport followed by the other is the identity: the two composites below. A SINGLE view is the identity as
  well, but only where the two types are the same type — at a literal buffer `r` whose printed type is `T`, where
  `(TRef.of (T := T) r).ofBuf a = a` and `(TRef.of (T := T) r).toBuf a = a` are each `cast_eq _ _`; those are
  stated per buffer, since for an abstract buffer the equation does not even typecheck.

  What these are for: an equation between a term read off a run that passed through such views and the same term
  written without them. Taking the views off by these rewrites first keeps the comparison of the two terms from
  looking inside the functions under the views.
-/
import Idealize.ShloMosaic.Lib.StableHlo

namespace Cert.Lib.TypedViews

open Idealize.ShloMosaic Idealize.ShloMosaic.StableHlo

variable {sig : RefSig} {T : BufTy} {Val : EltTy → Type}

/-- Into the buffer's type and back out: the identity on contents at the value's type. -/
theorem ofBuf_toBuf (x : TRef sig T) (v : T.Contents Val) : x.ofBuf (x.toBuf v) = v := by
  unfold TRef.ofBuf TRef.toBuf
  rw [cast_cast, cast_eq]

/-- Out of the buffer's type and back in: the identity on contents at the buffer's type. -/
theorem toBuf_ofBuf (x : TRef sig T) (v : x.ref.ty.Contents Val) : x.toBuf (x.ofBuf v) = v := by
  unfold TRef.ofBuf TRef.toBuf
  rw [cast_cast, cast_eq]

end Cert.Lib.TypedViews
-- ==== Proof.RefSpecNorm.lean ====
/-
  The reference's normalised rows.

  The reference squares each entry of `q`, sums a row's squares from the zero word, takes the square root, floors it
  at the norm floor and divides the row by the result. Read at a row `i` and a feature `k` these are the
  specification's `sumSq`, `den` and `qn`: the sum from the zero word is the sum (`0 + s = s`), and every other
  step is the same operation on the same operands.
-/
import proofs.«130741_j67869073212268_2_alg».proof.Proof.RefRead
import proofs.«130741_j67869073212268_2_alg».proof.Proof.LossSpec

noncomputable section

open scoped BigOperators

namespace Cert.RefBridge

open Cert.ReferenceIdeal Cert.ReferenceIdeal.Read Idealize.ShloMosaic Idealize.ShloMosaic.ValueIdx

/-- The one coordinate of a size-one axis. -/
abbrev z1 : Fin 1 := ⟨0, Nat.one_pos⟩

/-! ## Index equations: the reference's composed index maps at coordinates -/

theorem idx_call0_v1 (i : Fin 4096) (k : Fin 1024) : idx_main_call0_v1 (ix1 i) k = ix2 i k := by
  funext a; match a with | ⟨0, _⟩ => rfl | ⟨1, _⟩ => rfl

theorem idx_call0_v2 (i : Fin 4096) : idx_main_call0_v2 (ix2 i z1) = ix1 i := by
  funext a; match a with | ⟨0, _⟩ => rfl

theorem idx_v1 (i : Fin 4096) : idx_main_v1 (ix2 i z1) = ix0 := funext fun a => a.elim0

theorem idx_v3 (i : Fin 4096) (k : Fin 1024) : idx_main_v3 (ix2 i k) = ix2 i z1 := by
  funext a; match a with | ⟨0, _⟩ => rfl | ⟨1, _⟩ => rfl

/-! ## The values -/

/-- The reference's row sum of squares is `sumSq`. -/
theorem call0_v1_at (x0 : (⟨S4096x1024, .f32⟩ : BufTy).Contents (Elt Ideal)) (i : Fin 4096) :
    val_main_call0_v1 (F := Ideal) x0 (ix1 i) = Cert.SupCon.sumSq x0 i := by
  rw [val_main_call0_v1_apply]
  simp only [idx_call0_v1, val_main_call0_cst_apply, val_main_call0_v0_apply, Ideal.ofBits_def, Ideal.ofBits_zero_f32,
    zero_add, Ideal.mulf_def]
  rfl

/-- The reference's floored row norm is `den`. -/
theorem v2_at (x0 : (⟨S4096x1024, .f32⟩ : BufTy).Contents (Elt Ideal)) (i : Fin 4096) :
    val_main_v2 (F := Ideal) x0 (ix2 i z1) = Cert.SupCon.den x0 i := by
  rw [val_main_v2_apply, val_main_v0_apply, val_main_call0_v2_apply, idx_call0_v2, call0_v1_at, val_main_v1_apply,
    val_main_cst_apply]
  simp only [Ideal.ofBits_def, Ideal.maximumf_def, Ideal.hostUnary_sqrt_def]
  rfl

/-- The reference's normalised entry is `qn`. -/
theorem v4_at (x0 : (⟨S4096x1024, .f32⟩ : BufTy).Contents (Elt Ideal)) (i : Fin 4096) (k : Fin 1024) :
    val_main_v4 (F := Ideal) x0 (ix2 i k) = Cert.SupCon.qn x0 i k := by
  rw [val_main_v4_apply, val_main_v3_apply, idx_v3, v2_at]
  simp only [Ideal.hostDivf_def]
  rfl

end Cert.RefBridge

end
-- ==== Proof.ValSimInputs.lean ====
/-
  The four input blocks of a similarity tile at an entry.

  At point t (row block t / 16, inner step t mod 16) window 0's block is rows 512·(t / 16) … of the array of normalised
  rows, window 1's block is the whole transposed array (of which the body slices columns 512·(t mod 16) …), window 2's
  block is the same rows of the label column and window 3's block is columns 512·min (t mod 16, 7) … of the label row.
  Read at an entry over the extended reals these are the specification's normalised entries and the label words.
-/
import proofs.«130741_j67869073212268_2_alg».proof.Proof.Gen.KernelIdeal.Frame
import proofs.«130741_j67869073212268_2_alg».proof.Proof.LossSpec
import proofs.«130741_j67869073212268_2_alg».proof.Proof.ValCommon
import proofs.«130741_j67869073212268_2_alg».proof.Proof.ValSimDefs
import proofs.«130741_j67869073212268_2_alg».proof.Proof.RefSpecNorm
import proofs.«130741_j67869073212268_2_alg».proof.Proof.LibColumnLayout
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open scoped BigOperators

namespace Cert.KernelIdeal.Value

open Cert.KernelIdeal Cert.KernelIdeal.Gen
open Idealize.ShloMosaic Idealize.ShloMosaic.TcCoe Idealize.ShloMosaic.ValueIdx
open Idealize.SL Idealize.SL.Sem

section Generic
variable {F : FTy → Type} [FloatOps F] [Named F]
variable (m : (ℓ : Loc nD τ sig) → Buf (Elt F) ℓ)

/-! ## Where each window's block sits, and the point's coordinates -/

theorem idx0_0 : ∀ t : Fin cfg0.N, win0_0.index t 0 = t.val / 16 ∧ win0_0.index t 1 = 0 :=
  (by decide +kernel : ∀ t : Fin grid0.N, win0_0.index t 0 = t.val / 16 ∧ win0_0.index t 1 = 0)
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = t.val / 16 ∧ win0_2.index t 1 = 0 :=
  (by decide +kernel : ∀ t : Fin grid0.N, win0_2.index t 0 = t.val / 16 ∧ win0_2.index t 1 = 0)
theorem idx0_3 : ∀ t : Fin cfg0.N, win0_3.index t 0 = 0 ∧ win0_3.index t 1 = min (t.val % 16) 7 :=
  (by decide +kernel : ∀ t : Fin grid0.N, win0_3.index t 0 = 0 ∧ win0_3.index t 1 = min (t.val % 16) 7)
/-- Point t has row block t / 16 and inner step t mod 16. -/
theorem coords_val : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)
/-- The slice of window 1's block the body loads starts at column 512 times the inner step. -/
theorem off1_val : ∀ t : Fin cfg0.N, k0_off1 (grid0.coords t) 0 = 0 ∧ k0_off1 (grid0.coords t) 1 = 512 * (t.val % 16) :=
  (by decide +kernel : ∀ t : Fin grid0.N, k0_off1 (grid0.coords t) 0 = 0 ∧ k0_off1 (grid0.coords t) 1 = 512 * (t.val % 16))

/-! ## The four input blocks at an entry, as entries of the arrays the region finds -/

/-- Window 0's block at point t, at entry (r, k): the array's entry at row 512·(t / 16) + r. -/
theorem iblk0_apply (c : Dev nD) (t : Fin cfg0.N) (r : Fin 512) (k : Fin 1024) (i : Fin 4096)
    (hi : i.val = 512 * (t.val / 16) + r.val) :
    (iblk m c 0 t : Vec F S512x1024 .bf16) (ix2 r k) = (V m c main_v8 : Vec F S4096x1024 .bf16) (ix2 i k) := by
  unfold iblk
  rw [View.read_apply]
  show V m c main_v8 _ = V m c main_v8 _
  congr 1
  funext a
  apply Fin.ext
  match a with
  | ⟨0, _⟩ => show win0_0.index t 0 * 512 + 1 * r.val = i.val; rw [(idx0_0 t).1, hi]; omega
  | ⟨1, _⟩ => show win0_0.index t 1 * 1024 + 1 * k.val = k.val; rw [(idx0_0 t).2]; omega

/-- Window 1's block at any point is the whole array. -/
theorem iblk1_apply (c : Dev nD) (t : Fin cfg0.N) (k : Fin 1024) (i : Fin 4096) :
    (iblk m c 1 t : Vec F S1024x4096 .bf16) (ix2 k i) = (V m c main_v9 : Vec F S1024x4096 .bf16) (ix2 k i) := by
  unfold iblk
  rw [View.read_apply]
  show V m c main_v9 _ = V m c main_v9 _
  congr 1
  funext a
  apply Fin.ext
  match a with
  | ⟨0, _⟩ => show win0_1.index t 0 * 1024 + 1 * k.val = k.val; rw [(idx0_1 t).1]; omega
  | ⟨1, _⟩ => show win0_1.index t 1 * 4096 + 1 * i.val = i.val; rw [(idx0_1 t).2]; omega

/-- Window 2's block at point t, at row r: the label column's entry at row 512·(t / 16) + r. -/
theorem iblk2_apply (c : Dev nD) (t : Fin cfg0.N) (r : Fin 512) (i : Fin 4096)
    (hi : i.val = 512 * (t.val / 16) + r.val) :
    (iblk m c 2 t : Vec F S512x1 .i32) (ix2 r (0 : Fin 1)) = (V m c main_v10 : Vec F S4096x1 .i32) (ix2 i (0 : Fin 1)) := by
  unfold iblk
  rw [View.read_apply]
  show V m c main_v10 _ = V m c main_v10 _
  congr 1
  funext a
  apply Fin.ext
  match a with
  | ⟨0, _⟩ => show win0_2.index t 0 * 512 + 1 * r.val = i.val; rw [(idx0_2 t).1, hi]; omega
  | ⟨1, _⟩ => show win0_2.index t 1 * 1 + 1 * 0 = 0; rw [(idx0_2 t).2]

/-- Window 3's block at point t, at column cidx: the label row's entry at column 512·min (t mod 16, 7) + cidx. -/
theorem iblk3_apply (c : Dev nD) (t : Fin cfg0.N) (cidx : Fin 512) (i : Fin 4096)
    (hi : i.val = 512 * min (t.val % 16) 7 + cidx.val) :
    (iblk m c 3 t : Vec F S1x512 .i32) (ix2 (0 : Fin 1) cidx) = (V m c main_v11 : Vec F S1x4096 .i32) (ix2 (0 : Fin 1) i) := by
  unfold iblk
  rw [View.read_apply]
  show V m c main_v11 _ = V m c main_v11 _
  congr 1
  funext a
  apply Fin.ext
  match a with
  | ⟨0, _⟩ => show win0_3.index t 0 * 1 + 1 * 0 = 0; rw [(idx0_3 t).1]
  | ⟨1, _⟩ => show win0_3.index t 1 * 512 + 1 * cidx.val = i.val; rw [(idx0_3 t).2, hi]; omega

/-- The tile the body slices at point t, at entry (k, cidx): window 1's block at column 512·(t mod 16) + cidx. -/
theorem tileB_apply (c : Dev nD) (t : Fin cfg0.N) (h3 : k0_cond3 (grid0.coords t) = 1#1) (k : Fin 1024) (cidx : Fin 512)
    (i : Fin 4096) (hi : i.val = 512 * (t.val % 16) + cidx.val) :
    tileB m c t h3 (ix2 k cidx) = (iblk m c 1 t : Vec F S1024x4096 .bf16) (ix2 k i) := by
  unfold tileB
  show (iblk m c 1 t : Vec F S1024x4096 .bf16) _ = (iblk m c 1 t : Vec F S1024x4096 .bf16) _
  congr 1
  funext a
  apply Fin.ext
  match a with
  | ⟨0, _⟩ => show k0_off1 (grid0.coords t) 0 + 1 * k.val = k.val; rw [(off1_val t).1]; omega
  | ⟨1, _⟩ => show k0_off1 (grid0.coords t) 1 + 1 * cidx.val = i.val; rw [(off1_val t).2, hi]; omega

end Generic

section AtIdeal
variable (m : (ℓ : Loc nD τ sig) → Buf (Elt Ideal) ℓ)

/-- The first argument array, as the memory holds it. -/
abbrev simQ (c : Dev nD) : Cert.SupCon.QArr := m ((c : Thread nD τ).loc main_arg0)
/-- The label array, as the memory holds it. -/
abbrev simLab (c : Dev nD) : Cert.SupCon.LArr := m ((c : Thread nD τ).loc main_arg1)

/-! ## The arrays the region finds, at an entry

The host operations before the region square the entries of the first argument, sum each row's squares from the zero
word, take the square root, floor it at the norm floor, divide the row by the result and narrow the quotient (the
identity on the extended reals); then transpose that array; and reshape the labels to a column and to a row. The
normalisation is, operation for operation, the one the reference program applies, whose entry is the specification's
normalised entry. -/

/-- The array window 0 reads holds the normalised rows. -/
theorem V8_apply (c : Dev nD) (i : Fin 4096) (k : Fin 1024) :
    (V m c main_v8 : Vec Ideal S4096x1024 .bf16) (ix2 i k) = Cert.SupCon.qn (simQ m c) i k := by
  have e : (V m c main_v8 : S4096x1024.Idx → EReal)
      = truncf (F := Ideal) .bf16 (Cert.ReferenceIdeal.Read.val_main_v4 (F := Ideal) (simQ m c)) bitsLt_bf16_f32 := by
    dsimp only [Gen.V, Gen.V0]
    simp only [Gen.hostOps0, List.flatten_cons, List.flatten_nil, List.append_nil, List.cons_append, List.nil_append]
    after_results
    rfl
  exact (congrFun e (ix2 i k)).trans (Cert.RefBridge.v4_at (simQ m c) i k)

/-- The array window 1 reads holds the normalised rows transposed. -/
theorem V9_apply (c : Dev nD) (k : Fin 1024) (i : Fin 4096) :
    (V m c main_v9 : Vec Ideal S1024x4096 .bf16) (ix2 k i) = Cert.SupCon.qn (simQ m c) i k := by
  have e : (V m c main_v9 : S1024x4096.Idx → EReal)
      = transpose S1024x4096 [1, 0]
          (truncf (F := Ideal) .bf16 (Cert.ReferenceIdeal.Read.val_main_v4 (F := Ideal) (simQ m c)) bitsLt_bf16_f32)
          transposes_S4096x1024_S1024x4096_1_0 := by
    dsimp only [Gen.V, Gen.V0]
    simp only [Gen.hostOps0, List.flatten_cons, List.flatten_nil, List.append_nil, List.cons_append, List.nil_append]
    after_results
    rfl
  exact ((congrFun e (ix2 k i)).trans (transpose_ix2_apply _ _ k i)).trans (Cert.RefBridge.v4_at (simQ m c) i k)

/-- The array window 2 reads holds the labels as a column. -/
theorem V10_apply (c : Dev nD) (i : Fin 4096) :
    (V m c main_v10 : Vec Ideal S4096x1 .i32) (ix2 i (0 : Fin 1)) = simLab m c (ix1 i) := by
  have e : (V m c main_v10 : S4096x1.Idx → BitVec 32) = shapeCast S4096x1 (simLab m c) shapeCasts_S4096_S4096x1 := by
    dsimp only [Gen.V, Gen.V0]
    simp only [Gen.hostOps0, List.flatten_cons, List.flatten_nil, List.append_nil, List.cons_append, List.nil_append]
    after_results
    rfl
  exact (congrFun e (ix2 i (0 : Fin 1))).trans (ColumnLayout.shapeCast_a_a1_apply _ _ i 0)

/-- The array window 3 reads holds the labels as a row. -/
theorem V11_apply (c : Dev nD) (i : Fin 4096) :
    (V m c main_v11 : Vec Ideal S1x4096 .i32) (ix2 (0 : Fin 1) i) = simLab m c (ix1 i) := by
  have e : (V m c main_v11 : S1x4096.Idx → BitVec 32) = shapeCast S1x4096 (simLab m c) shapeCasts_S4096_S1x4096 := by
    dsimp only [Gen.V, Gen.V0]
    simp only [Gen.hostOps0, List.flatten_cons, List.flatten_nil, List.append_nil, List.cons_append, List.nil_append]
    after_results
    rfl
  exact (congrFun e (ix2 (0 : Fin 1) i)).trans (shapeCast_a_1a_apply _ _ 0 i)

end AtIdeal

end Cert.KernelIdeal.Value

end
-- ==== Proof.ValSimInv.lean ====
/-
  The similarity sweep's statistics are the model's.

  By induction on the inner step within a row block. The first similarity tile resets the four statistics — the
  running maximum to the large negative start value, the three sums to zero, which are the model's initial statistics —
  and updates them from the first tile; every later similarity tile updates what the point before left. One update,
  from statistics that are the model's at a row, leaves the model's next statistics at that row: the point's input blocks
  are the normalised rows of the row block, the tile of the transposed normalised rows, and the labels of the block's
  rows and the tile's columns, and the point's two coordinate words are the row block's and the tile's numbers. At the
  last similarity tile the output blocks receive what the statistics' buffers were just left holding.
-/
import proofs.«130741_j67869073212268_2_alg».proof.Proof.ValSimTile
import proofs.«130741_j67869073212268_2_alg».proof.Proof.ValSimPieces
import proofs.«130741_j67869073212268_2_alg».proof.Proof.ValSimInputs

set_option maxRecDepth 16384

noncomputable section

open scoped BigOperators

namespace Cert.KernelIdeal.Value

open Cert.KernelIdeal Cert.KernelIdeal.Gen Cert.KernelIdeal.Body
open Idealize.ShloMosaic Idealize.ShloMosaic.TcCoe Idealize.ShloMosaic.ValueIdx
open Idealize.SL Idealize.SL.Sem
open Cert.SupCon Cert.SupConTiled

variable (m : (ℓ : Loc nD τ sig) → Buf (Elt Ideal) ℓ)

/-- The grid has 128 points. -/
theorem N128 : cfg0.N = 128 := N_0

/-- The four similarity statistics of a state, at row r of the row block, are the model's statistics S. -/
def Agrees (s : St Ideal) (r : Fin 512) (S : SimStats) : Prop :=
  s.s0 (ix2 r (0 : Fin 1)) = S.m ∧ s.s1 (ix2 r (0 : Fin 1)) = S.e
    ∧ s.s2 (ix2 r (0 : Fin 1)) = S.s1 ∧ s.s3 (ix2 r (0 : Fin 1)) = S.np

/-- The reset values: the large negative start of the maximum, and zero three times. -/
theorem pay1_at (r : Fin 512) : k0_pay1 (F := Ideal) (ix2 r (0 : Fin 1)) = simInit.m := by
  unfold k0_pay1; rw [shapeCast_self]; rfl
theorem pay2_at (r : Fin 512) : k0_pay2 (F := Ideal) (ix2 r (0 : Fin 1)) = simInit.e := by
  unfold k0_pay2; rw [shapeCast_self]; exact Ideal.ofBits_zero_f32
theorem pay3_at (r : Fin 512) : k0_pay3 (F := Ideal) (ix2 r (0 : Fin 1)) = simInit.s1 := by
  unfold k0_pay3; rw [shapeCast_self]; exact Ideal.ofBits_zero_f32
theorem pay4_at (r : Fin 512) : k0_pay4 (F := Ideal) (ix2 r (0 : Fin 1)) = simInit.np := by
  unfold k0_pay4; rw [shapeCast_self]; exact Ideal.ofBits_zero_f32

/-- The model's statistics after one more tile. -/
theorem simAfter_succ (q : QArr) (lab : LArr) (i : Fin 4096) (n : ℕ) (h : n < 8) :
    simAfter q lab i (n + 1) = simStep q lab i ⟨n, h⟩ (simAfter q lab i n) := by
  show (if h' : n < 8 then simStep q lab i ⟨n, h'⟩ (simAfter q lab i n) else simAfter q lab i n) = _
  exact dif_pos h

/-- One tile's update with the two coordinate words given by equations. -/
theorem tile_step_words (q : QArr) (lab : LArr) (b j : Fin 8) (r : Fin 512)
    (B : Vec Ideal S1024x512 .bf16) (A : Vec Ideal S512x1024 .bf16)
    (lr : Vec Ideal S512x1 .i32) (lc : Vec Ideal S1x512 .i32) (a0 a1 : BitVec 32)
    (h0 : a0 = BitVec.ofNat 32 b.val) (h1 : a1 = BitVec.ofNat 32 j.val)
    (hA : ∀ k : Fin 1024, A (ix2 r k) = qn q (rowOf b r) k)
    (hB : ∀ (k : Fin 1024) (cidx : Fin 512), B (ix2 k cidx) = qn q (colOf j cidx) k)
    (hlr : lr (ix2 r (0 : Fin 1)) = lab (ix1 (rowOf b r)))
    (hlc : ∀ cidx : Fin 512, lc (ix2 (0 : Fin 1) cidx) = lab (ix1 (colOf j cidx)))
    (m0 e0 s0 n0 : Vec Ideal S512x1 .f32) (S : SimStats)
    (hm : m0 (ix2 r (0 : Fin 1)) = S.m) (he : e0 (ix2 r (0 : Fin 1)) = S.e)
    (hs : s0 (ix2 r (0 : Fin 1)) = S.s1) (hn : n0 (ix2 r (0 : Fin 1)) = S.np) :
    k0_pay11 (F := Ideal) (k0_pay19 (F := Ideal) B A m0) (ix2 r (0 : Fin 1)) = (simStep q lab (rowOf b r) j S).m
    ∧ k0_pay8 (F := Ideal) (k0_pay17 (F := Ideal) a0 a1)
        (k0_pay20 (F := Ideal) B A m0 m0) (k0_pay21 (F := Ideal) B A m0) e0 (ix2 r (0 : Fin 1))
        = (simStep q lab (rowOf b r) j S).e
    ∧ k0_pay9 (F := Ideal) (k0_pay16 (F := Ideal) B A)
        (k0_pay18 (F := Ideal) a0 a1 lr lc) s0 (ix2 r (0 : Fin 1))
        = (simStep q lab (rowOf b r) j S).s1
    ∧ k0_pay10 (F := Ideal) (k0_pay18 (F := Ideal) a0 a1 lr lc) n0
        (ix2 r (0 : Fin 1)) = (simStep q lab (rowOf b r) j S).np := by
  subst h0 h1
  exact tile_step q lab b j r B A lr lc hA hB hlr hlc m0 e0 s0 n0 S hm he hs hn

/-- The body's update at a similarity tile, from statistics that are the model's, leaves the model's next statistics. -/
theorem upd_agrees (c : Dev nD) (t : Fin cfg0.N) (h3 : k0_cond3 (grid0.coords t) = 1#1) (b j : Fin 8)
    (hb : t.val / 16 = b.val) (hj : t.val % 16 = j.val) (r : Fin 512)
    (m0 e0 s0 n0 : Vec Ideal S512x1 .f32) (S : SimStats)
    (hm : m0 (ix2 r (0 : Fin 1)) = S.m) (he : e0 (ix2 r (0 : Fin 1)) = S.e)
    (hs : s0 (ix2 r (0 : Fin 1)) = S.s1) (hn : n0 (ix2 r (0 : Fin 1)) = S.np) :
    updM m c t h3 m0 (ix2 r (0 : Fin 1)) = (simStep (simQ m c) (simLab m c) (rowOf b r) j S).m
    ∧ updE m c t h3 m0 e0 (ix2 r (0 : Fin 1)) = (simStep (simQ m c) (simLab m c) (rowOf b r) j S).e
    ∧ updS m c t h3 s0 (ix2 r (0 : Fin 1)) = (simStep (simQ m c) (simLab m c) (rowOf b r) j S).s1
    ∧ updN m c t h3 n0 (ix2 r (0 : Fin 1)) = (simStep (simQ m c) (simLab m c) (rowOf b r) j S).np := by
  have hA : ∀ k : Fin 1024, (iblk m c 0 t : Vec Ideal S512x1024 .bf16) (ix2 r k) = qn (simQ m c) (rowOf b r) k := fun k =>
    (iblk0_apply m c t r k (rowOf b r) (by rw [rowOf_val, hb])).trans (V8_apply m c (rowOf b r) k)
  have hB : ∀ (k : Fin 1024) (cidx : Fin 512), tileB m c t h3 (ix2 k cidx) = qn (simQ m c) (colOf j cidx) k := fun k cidx =>
    ((tileB_apply m c t h3 k cidx (colOf j cidx) (by show 512 * j.val + cidx.val = _; rw [hj])).trans
      (iblk1_apply m c t k (colOf j cidx))).trans (V9_apply m c k (colOf j cidx))
  have hlr : (iblk m c 2 t : Vec Ideal S512x1 .i32) (ix2 r (0 : Fin 1)) = simLab m c (ix1 (rowOf b r)) :=
    (iblk2_apply m c t r (rowOf b r) (by rw [rowOf_val, hb])).trans (V10_apply m c (rowOf b r))
  have hlc : ∀ cidx : Fin 512, (iblk m c 3 t : Vec Ideal S1x512 .i32) (ix2 (0 : Fin 1) cidx) = simLab m c (ix1 (colOf j cidx)) := fun cidx =>
    (iblk3_apply m c t cidx (colOf j cidx) (by
      show 512 * j.val + cidx.val = _
      have := j.isLt
      rw [hj, Nat.min_eq_left (by omega)])).trans (V11_apply m c (colOf j cidx))
  have hw0 : w0 t = BitVec.ofNat 32 b.val := by rw [← hb]; exact congrArg (BitVec.ofNat 32) (coords_val t).1
  have hw1 : w1 t = BitVec.ofNat 32 j.val := by rw [← hj]; exact congrArg (BitVec.ofNat 32) (coords_val t).2
  unfold updM updE updS updN
  exact tile_step_words (simQ m c) (simLab m c) b j r (tileB m c t h3) (iblk m c 0 t) (iblk m c 2 t) (iblk m c 3 t)
    (w0 t) (w1 t) hw0 hw1 hA hB hlr hlc m0 e0 s0 n0 S hm he hs hn

/-- The state the body finds at a point other than the first is the state after the point before. -/
theorem prevAt_pos (c : Dev nD) (n : ℕ) (hn : n < cfg0.N) (h0 : n ≠ 0) :
    prevAt (F := Ideal) m c ⟨n, hn⟩ = outsAt m c (n - 1) (pred_lt ⟨n, hn⟩) := by
  unfold prevAt
  exact if_neg h0

/-- THE INVARIANT of the similarity sweep: after the point with row block b and inner step jn < 8, the four similarity
    statistics hold, at every row r of the block, the model's statistics of global row 512·b + r after jn + 1 tiles. -/
theorem sim_inv (c : Dev nD) : ∀ (jn : ℕ) (hj : jn < 8) (n : ℕ) (hn : n < cfg0.N) (b : Fin 8), n / 16 = b.val → n % 16 = jn →
    ∀ r : Fin 512, Agrees (outsAt (F := Ideal) m c n hn) r (simAfter (simQ m c) (simLab m c) (rowOf b r) (jn + 1))
  | 0, hj, n, hn, b, hb, hmod, r => by
    have h0 : (⟨n, hn⟩ : Fin cfg0.N).val % 16 = 0 := hmod
    have e : outsAt (F := Ideal) m c n hn = stepSimFirst m c ⟨n, hn⟩ h0 (prevAt m c ⟨n, hn⟩) := outsAt_simFirst m c ⟨n, hn⟩ h0
    have h3 : k0_cond3 (grid0.coords (⟨n, hn⟩ : Fin cfg0.N)) = 1#1 := (hSim ⟨n, hn⟩).mpr (by show n % 16 < 8; omega)
    have U := upd_agrees m c ⟨n, hn⟩ h3 b ⟨0, hj⟩ hb hmod r (k0_pay1 (F := Ideal)) (k0_pay2 (F := Ideal)) (k0_pay3 (F := Ideal)) (k0_pay4 (F := Ideal)) simInit
      (pay1_at r) (pay2_at r) (pay3_at r) (pay4_at r)
    have hS : simAfter (simQ m c) (simLab m c) (rowOf b r) (0 + 1)
        = simStep (simQ m c) (simLab m c) (rowOf b r) ⟨0, hj⟩ simInit := simAfter_succ _ _ _ 0 hj
    unfold Agrees
    rw [e, simFirst_s0, simFirst_s1, simFirst_s2, simFirst_s3, hS]
    exact U
  | jn + 1, hj, n, hn, b, hb, hmod, r => by
    have hN := N128
    have hn0 : n ≠ 0 := by omega
    have hp := prevAt_pos m c n hn hn0
    have IH := sim_inv c jn (by omega) (n - 1) (pred_lt ⟨n, hn⟩) b (by omega) (by omega) r
    obtain ⟨i0, i1, i2, i3⟩ := IH
    have h3 : k0_cond3 (grid0.coords (⟨n, hn⟩ : Fin cfg0.N)) = 1#1 := (hSim ⟨n, hn⟩).mpr (by show n % 16 < 8; omega)
    have U := upd_agrees m c ⟨n, hn⟩ h3 b ⟨jn + 1, hj⟩ hb hmod r
      (outsAt (F := Ideal) m c (n - 1) (pred_lt ⟨n, hn⟩)).s0 (outsAt (F := Ideal) m c (n - 1) (pred_lt ⟨n, hn⟩)).s1
      (outsAt (F := Ideal) m c (n - 1) (pred_lt ⟨n, hn⟩)).s2 (outsAt (F := Ideal) m c (n - 1) (pred_lt ⟨n, hn⟩)).s3
      (simAfter (simQ m c) (simLab m c) (rowOf b r) (jn + 1)) i0 i1 i2 i3
    have hS : simAfter (simQ m c) (simLab m c) (rowOf b r) (jn + 1 + 1)
        = simStep (simQ m c) (simLab m c) (rowOf b r) ⟨jn + 1, hj⟩ (simAfter (simQ m c) (simLab m c) (rowOf b r) (jn + 1)) :=
      simAfter_succ _ _ _ (jn + 1) hj
    unfold Agrees
    by_cases h6 : jn + 1 ≤ 6
    · have hm : 1 ≤ (⟨n, hn⟩ : Fin cfg0.N).val % 16 ∧ (⟨n, hn⟩ : Fin cfg0.N).val % 16 ≤ 6 := by
        show 1 ≤ n % 16 ∧ n % 16 ≤ 6; omega
      have e : outsAt (F := Ideal) m c n hn = stepSimMid m c ⟨n, hn⟩ hm (prevAt m c ⟨n, hn⟩) := outsAt_simMid m c ⟨n, hn⟩ hm
      rw [e, simMid_s0, simMid_s1, simMid_s2, simMid_s3, hp, hS]
      exact U
    · have hl : (⟨n, hn⟩ : Fin cfg0.N).val % 16 = 7 := by show n % 16 = 7; omega
      have e : outsAt (F := Ideal) m c n hn = stepSimLast m c ⟨n, hn⟩ hl (prevAt m c ⟨n, hn⟩) := outsAt_simLast m c ⟨n, hn⟩ hl
      rw [e, simLast_s0, simLast_s1, simLast_s2, simLast_s3, hp, hS]
      exact U

/-- At the last similarity tile each output block receives what its statistic's buffer was just left holding. -/
theorem sim_last_out (c : Dev nD) (n : ℕ) (hn : n < cfg0.N) (hl : n % 16 = 7) :
    (outsAt (F := Ideal) m c n hn).o0 = (outsAt (F := Ideal) m c n hn).s0
    ∧ (outsAt (F := Ideal) m c n hn).o1 = (outsAt (F := Ideal) m c n hn).s1
    ∧ (outsAt (F := Ideal) m c n hn).o2 = (outsAt (F := Ideal) m c n hn).s2
    ∧ (outsAt (F := Ideal) m c n hn).o3 = (outsAt (F := Ideal) m c n hn).s3 := by
  have hl' : (⟨n, hn⟩ : Fin cfg0.N).val % 16 = 7 := hl
  have e : outsAt (F := Ideal) m c n hn = stepSimLast m c ⟨n, hn⟩ hl' (prevAt m c ⟨n, hn⟩) := outsAt_simLast m c ⟨n, hn⟩ hl'
  rw [e]
  exact ⟨(simLast_o0 m c ⟨n, hn⟩ hl' _).trans (simLast_s0 m c ⟨n, hn⟩ hl' _).symm,
    (simLast_o1 m c ⟨n, hn⟩ hl' _).trans (simLast_s1 m c ⟨n, hn⟩ hl' _).symm,
    (simLast_o2 m c ⟨n, hn⟩ hl' _).trans (simLast_s2 m c ⟨n, hn⟩ hl' _).symm,
    (simLast_o3 m c ⟨n, hn⟩ hl' _).trans (simLast_s3 m c ⟨n, hn⟩ hl' _).symm⟩

/-- The point of row block b and inner step j < 8 is a grid point. -/
theorem pt_lt (b j : Fin 8) : 16 * b.val + j.val < cfg0.N := by
  have := b.isLt; have := j.isLt; rw [N128]; omega

/-- THE SIMILARITY SWEEP'S STATISTICS ARE THE MODEL'S: for every core, row block b, inner step j < 8 and row r of the
    block, after the point 16·b + j the four similarity statistics hold at row r the model's running maximum,
    exponential sum, positives' similarity sum and positives' count of global row 512·b + r after j + 1 tiles. -/
theorem sim_stats (c : Dev nD) (b j : Fin 8) (r : Fin 512) :
    (outsAt (F := Ideal) m c (16 * b.val + j.val) (pt_lt b j)).s0 (ix2 r (0 : Fin 1))
        = (simAfter (simQ m c) (simLab m c) (rowOf b r) (j.val + 1)).m
    ∧ (outsAt (F := Ideal) m c (16 * b.val + j.val) (pt_lt b j)).s1 (ix2 r (0 : Fin 1))
        = (simAfter (simQ m c) (simLab m c) (rowOf b r) (j.val + 1)).e
    ∧ (outsAt (F := Ideal) m c (16 * b.val + j.val) (pt_lt b j)).s2 (ix2 r (0 : Fin 1))
        = (simAfter (simQ m c) (simLab m c) (rowOf b r) (j.val + 1)).s1
    ∧ (outsAt (F := Ideal) m c (16 * b.val + j.val) (pt_lt b j)).s3 (ix2 r (0 : Fin 1))
        = (simAfter (simQ m c) (simLab m c) (rowOf b r) (j.val + 1)).np :=
  sim_inv m c j.val j.isLt (16 * b.val + j.val) (pt_lt b j) b (by have := j.isLt; omega) (by have := j.isLt; omega) r

/-- At inner step 7 the four output blocks hold the model's statistics after all eight similarity tiles. -/
theorem sim_outs (c : Dev nD) (b : Fin 8) (r : Fin 512) :
    (outsAt (F := Ideal) m c (16 * b.val + 7) (by have := b.isLt; rw [show cfg0.N = 128 from N_0]; omega)).o0 (ix2 r (0 : Fin 1))
        = (simAfter (simQ m c) (simLab m c) (rowOf b r) 8).m
    ∧ (outsAt (F := Ideal) m c (16 * b.val + 7) (by have := b.isLt; rw [show cfg0.N = 128 from N_0]; omega)).o1 (ix2 r (0 : Fin 1))
        = (simAfter (simQ m c) (simLab m c) (rowOf b r) 8).e
    ∧ (outsAt (F := Ideal) m c (16 * b.val + 7) (by have := b.isLt; rw [show cfg0.N = 128 from N_0]; omega)).o2 (ix2 r (0 : Fin 1))
        = (simAfter (simQ m c) (simLab m c) (rowOf b r) 8).s1
    ∧ (outsAt (F := Ideal) m c (16 * b.val + 7) (by have := b.isLt; rw [show cfg0.N = 128 from N_0]; omega)).o3 (ix2 r (0 : Fin 1))
        = (simAfter (simQ m c) (simLab m c) (rowOf b r) 8).np := by
  have hn : 16 * b.val + 7 < cfg0.N := by have := b.isLt; rw [N128]; omega
  have S := sim_inv m c 7 (by omega) (16 * b.val + 7) hn b (by omega) (by omega) r
  obtain ⟨q0, q1, q2, q3⟩ := sim_last_out m c (16 * b.val + 7) hn (by omega)
  obtain ⟨i0, i1, i2, i3⟩ := S
  exact ⟨(congrFun q0 _).trans i0, (congrFun q1 _).trans i1, (congrFun q2 _).trans i2, (congrFun q3 _).trans i3⟩

end Cert.KernelIdeal.Value

end
-- ==== Proof.ValTail.lean ====
/-
  The program's result is the tiled model's loss.

  After the region the program applies 24 host operations to the seven result arrays and leaves the scalar loss in its
  result buffer. The seven arrays hold, row by row, the model's final statistics (for the four similarity statistics
  under the hypothesis `SimOuts` on what the similarity sweep leaves); the 24 operations are one function of the seven
  arrays, and on arrays holding the model's statistics that function is the model's loss.
-/
import proofs.«130741_j67869073212268_2_alg».proof.Proof.ValTailArrays
import proofs.«130741_j67869073212268_2_alg».proof.Proof.ValTailOps
import proofs.«130741_j67869073212268_2_alg».proof.Proof.ValSimInv
import proofs.«130741_j67869073212268_2_alg».proof.Proof.BodyData
import Idealize.ShloMosaic.Lib.Pipeline.FrameSuffix

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

open Cert.SupCon Cert.SupConTiled

variable (m : (ℓ : Loc nD τ sig) → Buf (Elt Ideal) ℓ)

/-- THE RESULT. The program's result buffer after the run holds the tiled model's loss of the four argument arrays
    (the memory logits and targets as the program finds them), given what the similarity sweep leaves. -/
theorem result_eq_loss (c : Dev nD) (q : QArr) (lab : LArr) (hsim : SimOuts m c q lab) :
    Pipeline.afterTail₀ cfgs (dats m) 0 (V0 m) [hostOps1] c main_v34
      = fun _ => Cert.SupConTiled.loss q lab (ml m c) (mt m c) := by
  unfold Pipeline.afterTail₀
  show StableHlo.after hostOps1 _ (Proc.devRef .tc main_v34) = _
  rw [hostTail_of_valuation]
  exact hostTail_eq_loss q lab (ml m c) (mt m c) _ _ _ _ _ _ _
    (fun i => (congrFun ((Pipeline.withArrays_arr spec0 launch0.win.arr_inj c _ _ 6).trans
        (final6 m c q lab hsim (dats m 0 c) (after6 m c))) (ix2 i 0)).trans (colArr_at _ i 0))
    (fun i => (congrFun ((Pipeline.withArrays_arr spec0 launch0.win.arr_inj c _ _ 7).trans
        (final7 m c q lab hsim (dats m 0 c) (after7 m c))) (ix2 i 0)).trans (colArr_at _ i 0))
    (fun i => (congrFun ((Pipeline.withArrays_arr spec0 launch0.win.arr_inj c _ _ 8).trans
        (final8 m c q lab hsim (dats m 0 c) (after8 m c))) (ix2 i 0)).trans (colArr_at _ i 0))
    (fun i => (congrFun ((Pipeline.withArrays_arr spec0 launch0.win.arr_inj c _ _ 9).trans
        (final9 m c q lab hsim (dats m 0 c) (after9 m c))) (ix2 i 0)).trans (colArr_at _ i 0))
    (fun i => (congrFun ((Pipeline.withArrays_arr spec0 launch0.win.arr_inj c _ _ 10).trans
        (final10 m c (dats m 0 c) (after10 m c))) (ix2 i 0)).trans (colArr_at _ i 0))
    (fun i => (congrFun ((Pipeline.withArrays_arr spec0 launch0.win.arr_inj c _ _ 11).trans
        (final11 m c (dats m 0 c) (after11 m c))) (ix2 i 0)).trans (colArr_at _ i 0))
    (fun i => (congrFun ((Pipeline.withArrays_arr spec0 launch0.win.arr_inj c _ _ 12).trans
        (final12 m c (dats m 0 c) (after12 m c))) (ix2 i 0)).trans (colArr_at _ i 0))

/-- THE RESULT, with the similarity sweep's statistics proved: the program's result buffer after the run holds the tiled
    model's loss of the four argument arrays as the program finds them. -/
theorem result (c : Dev nD) :
    Pipeline.afterTail₀ cfgs (dats m) 0 (V0 m) [hostOps1] c main_v34
      = fun _ => Cert.SupConTiled.loss (simQ m c) (simLab m c) (m ((c : Thread nD τ).loc main_arg2)) (m ((c : Thread nD τ).loc main_arg3)) :=
  result_eq_loss m c (simQ m c) (simLab m c) (sim_outs m c)

end Cert.KernelIdeal.Value

end
-- ==== Proof.KernelValue.lean ====
/-
  The kernel's program, read at the exact instance, ends with its result at the tiled loss of its four argument arrays
  and leaves the arguments unchanged: the region's run puts every bypassing buffer at what the host operations after
  the region compute from the seven result arrays, and that value is the tiled loss.
-/
import proofs.«130741_j67869073212268_2_alg».proof.Proof.BodyFrame
import proofs.«130741_j67869073212268_2_alg».proof.Proof.ValTail

noncomputable section

namespace Cert.KernelIdeal.Value

open Cert.KernelIdeal Cert.KernelIdeal.Gen Cert.KernelIdeal.Body
open Idealize.ShloMosaic Idealize.ShloMosaic.TcCoe Idealize.SL.Sem

variable (m : (ℓ : Loc nD τ sig) → Buf (Elt Ideal) ℓ) (ρ : Dev nD → PrngReg)

/-- Every weakly fair execution of the kernel's program terminates with its result at the tiled loss of the arguments,
    the arguments unchanged. -/
theorem kernel_run :
    θ_run (defs (F := Ideal)) (onTc (τ := τ) (main (F := Ideal))) ⟨m, fun _ => 0, ρ⟩ (fun r => ∀ c : Dev nD,
      r.2.mem ((c.tc : Thread nD τ).loc main_v34) = (fun _ => Cert.SupConTiled.loss (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v34 (Pipeline.mem_restRefs_of main_v34 (by decide) (by decide))).trans (result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 4).trans (((dats m 0 c).arrAt_in 4 rfl _).trans ((A_eq m c 4).trans (V_main_arg2 m c))),
     ((h c).2 main_arg3 (Pipeline.mem_restRefs_of main_arg3 (by decide) (by decide))).trans (W_main_arg3 m (dats m) c)⟩)
    (run_main m ρ)

end Cert.KernelIdeal.Value

end
-- ==== Proof.RefSpecLogit.lean ====
/-
  The reference's similarities, logits and row maximum.

  The reference multiplies the normalised array by its transpose, divides every entry by the temperature, and takes each
  row's maximum by folding `max` from the word of `-∞` along the row. Read at rows `i`, `j` these are the
  specification's `sim`, `logit` and `rowMax`: the fold of `max` from `⊥` over a row is the row's supremum.
-/
import proofs.«130741_j67869073212268_2_alg».proof.Proof.RefSpecNorm

noncomputable section

open scoped BigOperators

namespace Cert.RefBridge

open Cert.ReferenceIdeal Cert.ReferenceIdeal.Gen Cert.ReferenceIdeal.Read Idealize.ShloMosaic Idealize.ShloMosaic.ValueIdx

/-! ## Index equations -/

theorem lidx_v6 (i j : Fin 4096) (k : Fin 1024) : lidx_main_v6 (ix2 i j) k = ix2 i k := by
  funext a; match a with | ⟨0, _⟩ => rfl | ⟨1, _⟩ => rfl

theorem ridx_v6 (i j : Fin 4096) (k : Fin 1024) : idx_main_v5 (ridx_main_v6 (ix2 i j) k) = ix2 j k := by
  funext a; match a with | ⟨0, _⟩ => rfl | ⟨1, _⟩ => rfl

theorem idx_v7 (i j : Fin 4096) : idx_main_v7 (ix2 i j) = ix0 := funext fun a => a.elim0

theorem idx_v10 (i : Fin 4096) : idx_main_v10 (ix2 i z1) = ix1 i := by
  funext a; match a with | ⟨0, _⟩ => rfl

theorem idx_v11 (i j : Fin 4096) : idx_main_v11 (ix2 i j) = ix2 i z1 := by
  funext a; match a with | ⟨0, _⟩ => rfl | ⟨1, _⟩ => rfl

/-! ## The values -/

/-- The reference's product of the normalised array with its transpose is `sim`. -/
theorem v6_at (x0 : (⟨S4096x1024, .f32⟩ : BufTy).Contents (Elt Ideal)) (i j : Fin 4096) :
    val_main_v6 (F := Ideal) x0 (ix2 i j) = Cert.SupCon.sim x0 i j := by
  rw [val_main_v6_apply]
  simp only [val_main_v5_apply, lidx_v6, ridx_v6, v4_at]
  rfl

/-- The reference's similarity over the temperature is `logit`. -/
theorem v8_at (x0 : (⟨S4096x1024, .f32⟩ : BufTy).Contents (Elt Ideal)) (i j : Fin 4096) :
    val_main_v8 (F := Ideal) x0 (ix2 i j) = Cert.SupCon.logit x0 i j := by
  rw [val_main_v8_apply, v6_at, val_main_v7_apply, val_main_cst_0_apply]
  simp only [Ideal.ofBits_def, Ideal.hostDivf_def]
  rfl

/-- The word `0xFF800000` is `-∞`. -/
theorem ofBits_negInf : Ideal.ofBits .f32 0xFF800000#32 = ⊥ := by simp [Ideal.ofBits, Ideal.ieee]

/-- The fold of `max` from `⊥` over a finite set is the supremum over it. -/
theorem fold_max_bot {ι : Type} (s : Finset ι) (f : ι → EReal) : s.fold max ⊥ f = s.sup f := rfl

/-- A row's `stablehlo.reduce` with a maximum body, read at row `i`: the fold of `max` from the initial value over
    the row's entries. -/
theorem rowFold (y : FVec Ideal S4096x4096 .f32) (c : FVec Ideal S_ .f32) (i : Fin 4096) :
    Host.reduce FloatOps.maximumf y c reducesTo_S4096x4096_S4096_d1 h_S_ (ix1 i)
      = (Finset.univ : Finset (Fin 4096)).fold max (c (Shape.Idx.first h_S_)) (fun k => y (ix2 i k)) := by
  have hr : S4096x4096.Reduces [1] S4096 := by decide
  rw [Host.reduce_eq_fold_single FloatOps.maximumf y c reducesTo_S4096x4096_S4096_d1 hr h_S_]
  have hf : (y ∘ hr.lift (ix1 i)) = fun k : Fin 4096 => y (ix2 i k) := funext fun k =>
    congrArg y (funext fun a => Fin.ext (by match a with | ⟨0, _⟩ => rfl | ⟨1, _⟩ => rfl))
  exact congrArg (fun f => Finset.fold max (c (Shape.Idx.first h_S_)) f (Finset.univ : Finset (Fin 4096))) hf

/-- The reference's row maximum is `rowMax`. -/
theorem v9_at (x0 : (⟨S4096x1024, .f32⟩ : BufTy).Contents (Elt Ideal)) (i : Fin 4096) :
    val_main_v9 (F := Ideal) x0 (ix1 i) = Cert.SupCon.rowMax x0 i := by
  unfold val_main_v9
  rw [rowFold]
  simp only [v8_at, val_main_cst_1_apply, Ideal.ofBits_def, ofBits_negInf]
  exact fold_max_bot _ _

/-- The reference's shifted logit is `logit - rowMax`. -/
theorem v12_at (x0 : (⟨S4096x1024, .f32⟩ : BufTy).Contents (Elt Ideal)) (i j : Fin 4096) :
    val_main_v12 (F := Ideal) x0 (ix2 i j) = Cert.SupCon.logit x0 i j - Cert.SupCon.rowMax x0 i := by
  rw [val_main_v12_apply, v8_at, val_main_v11_apply, idx_v11, val_main_v10_apply, idx_v10, v9_at]
  rfl

end Cert.RefBridge

end
-- ==== Proof.RefSpecMask.lean ====
/-
  The reference's two masks.

  The reference compares the label of row `i` with the label of row `j` and converts the one-bit answer to a float:
  `1` where the labels agree, `0` where they do not. It compares the row counter plus zero with the column counter in
  the same way and subtracts the answer from `1`: `0` on the diagonal and `1` off it, since two counters below `4096`
  are equal as 32-bit words exactly when they are equal. The product of the two is the specification's `pos`.
-/
import proofs.«130741_j67869073212268_2_alg».proof.Proof.RefSpecNorm

noncomputable section

open scoped BigOperators

namespace Cert.RefBridge

open Cert.ReferenceIdeal Cert.ReferenceIdeal.Read Idealize.ShloMosaic Idealize.ShloMosaic.ValueIdx

/-! ## Index equations -/

theorem idx_v13_v15 (i j : Fin 4096) : idx_main_v13 (idx_main_v15 (ix2 i j)) = ix1 i := by
  funext a; match a with | ⟨0, _⟩ => rfl

theorem idx_v14_v16 (i j : Fin 4096) : idx_main_v14 (idx_main_v16 (ix2 i j)) = ix1 j := by
  funext a; match a with | ⟨0, _⟩ => rfl

/-! ## Words -/

/-- An equality test converted to a float is `1` where the words are equal and `0` where they are not. -/
theorem uitofp_cmpi_eq {w : Nat} (a b : BitVec w) :
    FloatOps.uitofp (F := Ideal) .f32 (IntOp.cmpi .eq a b) = if a = b then (1 : EReal) else 0 := by
  by_cases h : a = b
  · rw [if_pos h, IntOp.cmpi_eq.mpr h]
    show (((1#1 : BitVec 1).toNat : ℝ) : EReal) = 1
    simp
  · rw [if_neg h, eq_zero_of_ne_one (fun h1 => h (IntOp.cmpi_eq.mp h1))]
    show (((0#1 : BitVec 1).toNat : ℝ) : EReal) = 0
    simp

/-- Two counters below `4096` are equal as 32-bit words exactly when they are equal. -/
theorem ofNat_eq_iff (i j : Fin 4096) : BitVec.ofNat 32 i.val = BitVec.ofNat 32 j.val ↔ i = j := by
  constructor
  · intro h
    have := congrArg BitVec.toNat h
    simp only [BitVec.toNat_ofNat] at this
    have hi := i.isLt; have hj := j.isLt
    exact Fin.ext (by omega)
  · rintro rfl; rfl

/-- The word of `1.0`. -/
theorem ofBits_one : Ideal.ofBits .f32 0x3F800000#32 = 1 := by
  simp [Ideal.ofBits, Ideal.ieee, -EReal.coe_mul]; norm_num

/-! ## The values -/

/-- The reference's label-agreement mask. -/
theorem v18_at (x1 : (⟨S4096, .i32⟩ : BufTy).Contents (Elt Ideal)) (i j : Fin 4096) :
    val_main_v18 (F := Ideal) x1 (ix2 i j) = if x1 (ix1 i) = x1 (ix1 j) then (1 : EReal) else 0 := by
  rw [val_main_v18_apply, val_main_v17_apply, val_main_v15_apply, val_main_v13_apply, idx_v13_v15, val_main_v16_apply,
    val_main_v14_apply, idx_v14_v16]
  exact uitofp_cmpi_eq _ _

/-- The reference's off-diagonal mask is `notSelf`. -/
theorem v26_at (i j : Fin 4096) : val_main_v26 (F := Ideal) (ix2 i j) = Cert.SupCon.notSelf i j := by
  rw [val_main_v26_apply, val_main_v25_apply, val_main_cst_2_apply, val_main_v24_apply, val_main_v23_apply,
    val_main_v22_apply, val_main_v19_apply, val_main_v21_apply, val_main_c_apply, val_main_v20_apply]
  rw [show IntOp.addi (BitVec.ofNat 32 ((ix2 i j : S4096x4096.Idx) 0).val) 0#32 = BitVec.ofNat 32 i.val from BitVec.add_zero _,
    show BitVec.ofNat 32 ((ix2 i j : S4096x4096.Idx) 1).val = BitVec.ofNat 32 j.val from rfl, uitofp_cmpi_eq]
  simp only [Ideal.ofBits_def, Ideal.subf_def, ofBits_one, ofNat_eq_iff]
  unfold Cert.SupCon.notSelf
  by_cases h : i = j
  · rw [if_pos h, if_pos h, ← EReal.coe_one, ← EReal.coe_sub, sub_self, EReal.coe_zero]
  · rw [if_neg h, if_neg h, sub_zero]

/-- The reference's in-batch target mask is `pos`. -/
theorem v27_at (x1 : (⟨S4096, .i32⟩ : BufTy).Contents (Elt Ideal)) (i j : Fin 4096) :
    val_main_v27 (F := Ideal) x1 (ix2 i j) = Cert.SupCon.pos x1 i j := by
  rw [val_main_v27_apply, v18_at, v26_at]
  rfl

end Cert.RefBridge

end
-- ==== Proof.RefSpecDen.lean ====
/-
  The reference's two denominators and their logarithm.

  The reference exponentiates the shifted logits, multiplies by the off-diagonal mask and sums each row from the zero
  word; it exponentiates the memory logits and sums each row from the zero word; it adds the two sums and takes the
  logarithm. Read at a row `i` these are the specification's `expSrc`, `expMem` and `logDen`.
-/
import proofs.«130741_j67869073212268_2_alg».proof.Proof.RefSpecLogit
import proofs.«130741_j67869073212268_2_alg».proof.Proof.RefSpecMask

noncomputable section

open scoped BigOperators

namespace Cert.RefBridge

open Cert.ReferenceIdeal Cert.ReferenceIdeal.Gen Cert.ReferenceIdeal.Read Idealize.ShloMosaic Idealize.ShloMosaic.ValueIdx

/-! ## Index equations -/

theorem idx_v32 (i k : Fin 4096) : idx_main_v32 (ix1 i) k = ix2 i k := by
  funext a; match a with | ⟨0, _⟩ => rfl | ⟨1, _⟩ => rfl

theorem idx_v34 (i : Fin 4096) (k : Fin 8192) : idx_main_v34 (ix1 i) k = ix2 i k := by
  funext a; match a with | ⟨0, _⟩ => rfl | ⟨1, _⟩ => rfl

/-! ## The values -/

/-- The reference's in-batch denominator is `expSrc`. -/
theorem v32_at (x0 : (⟨S4096x1024, .f32⟩ : BufTy).Contents (Elt Ideal)) (i : Fin 4096) :
    val_main_v32 (F := Ideal) x0 (ix1 i) = Cert.SupCon.expSrc x0 i := by
  rw [val_main_v32_apply]
  simp only [idx_v32, val_main_cst_3_apply, val_main_v30_apply, val_main_v29_apply, v12_at, v26_at, Ideal.ofBits_def,
    Ideal.ofBits_zero_f32, zero_add, Ideal.mulf_def, Ideal.hostUnary_exp_def]
  rfl

/-- The reference's memory-bank denominator is `expMem`. -/
theorem v34_at (x2 : (⟨S4096x8192, .f32⟩ : BufTy).Contents (Elt Ideal)) (i : Fin 4096) :
    val_main_v34 (F := Ideal) x2 (ix1 i) = Cert.SupCon.expMem x2 i := by
  rw [val_main_v34_apply]
  simp only [idx_v34, val_main_cst_4_apply, val_main_v33_apply, Ideal.ofBits_def, Ideal.ofBits_zero_f32, zero_add,
    Ideal.hostUnary_exp_def]
  rfl

/-- The reference's logarithm of the denominator is `logDen`. -/
theorem v36_at (x0 : (⟨S4096x1024, .f32⟩ : BufTy).Contents (Elt Ideal))
    (x2 : (⟨S4096x8192, .f32⟩ : BufTy).Contents (Elt Ideal)) (i : Fin 4096) :
    val_main_v36 (F := Ideal) x0 x2 (ix1 i) = Cert.SupCon.logDen x0 x2 i := by
  rw [val_main_v36_apply, val_main_v35_apply, v32_at, v34_at]
  simp only [Ideal.addf_def, Ideal.hostUnary_log_def]
  rfl

end Cert.RefBridge

end
-- ==== Proof.RefSpecJoin.lean ====
/-
  The reference's joined rows: 4096 in-batch columns followed by 8192 memory columns.

  The reference joins the in-batch target mask with the memory targets, and the shifted logits with the memory logits,
  along the columns; it subtracts the row's log-denominator from the joined logits, multiplies by the joined targets
  and sums each joined row from the zero word; it sums each joined row of targets likewise. A column below `4096` of a
  joined array is that column of the first piece, column `4096 + k` is column `k` of the second, and a sum over the
  `12288 = 4096 + 8192` joined columns is the sum over the first piece's plus the sum over the second's: these are the
  specification's `num` and `cnt`.
-/
import proofs.«130741_j67869073212268_2_alg».proof.Proof.RefSpecDen

noncomputable section

open scoped BigOperators

namespace Cert.RefBridge

open Cert.ReferenceIdeal Cert.ReferenceIdeal.Gen Cert.ReferenceIdeal.Read Idealize.ShloMosaic Idealize.ShloMosaic.ValueIdx

/-! ## The joined columns -/

/-- Column `j` of the first piece, among the joined columns. -/
abbrev colL (j : Fin 4096) : Fin 12288 := ⟨j.val, by have := j.isLt; omega⟩
/-- Column `k` of the second piece, among the joined columns. -/
abbrev colR (k : Fin 8192) : Fin 12288 := ⟨4096 + k.val, by have := k.isLt; omega⟩

/-- A sum over the joined columns is the sum over the first piece's columns plus the sum over the second's. -/
theorem sum_cols (f : Fin 12288 → EReal) :
    ∑ c : Fin 12288, f c = (∑ j : Fin 4096, f (colL j)) + ∑ k : Fin 8192, f (colR k) :=
  Fin.sum_univ_add (a := 4096) (b := 8192) f

/-- A joined array at a column of the first piece. -/
theorem concat_left {α : Type} (A : S4096x4096.Idx → α) (B : S4096x8192.Idx → α) (i j : Fin 4096) :
    concatenate S4096x12288 1 [⟨S4096x4096, A⟩, ⟨S4096x8192, B⟩] concatenates_S4096x4096_S4096x8192_S4096x12288_d1
      (ix2 i (colL j)) = A (ix2 i j) :=
  concatenate_pair_apply_left 1 A B _ (ix2 i (colL j)) rfl (ix2 i j)
    (fun b => match b with | ⟨0, _⟩ => rfl | ⟨1, _⟩ => rfl)

/-- A joined array at a column of the second piece. -/
theorem concat_right {α : Type} (A : S4096x4096.Idx → α) (B : S4096x8192.Idx → α) (i : Fin 4096) (k : Fin 8192) :
    concatenate S4096x12288 1 [⟨S4096x4096, A⟩, ⟨S4096x8192, B⟩] concatenates_S4096x4096_S4096x8192_S4096x12288_d1
      (ix2 i (colR k)) = B (ix2 i k) :=
  concatenate_pair_apply_right 1 A B _ (ix2 i (colR k)) rfl rfl (ix2 i k)
    (fun b hb => match b, hb with | ⟨0, _⟩, _ => rfl | ⟨1, _⟩, hb => absurd rfl hb)
    (Nat.add_comm _ _)

/-! ## Index equations -/

theorem idx_v37_v38 (i : Fin 4096) (c : Fin 12288) : idx_main_v37 (idx_main_v38 (ix2 i c)) = ix1 i := by
  funext a; match a with | ⟨0, _⟩ => rfl

theorem idx_v41 (i : Fin 4096) (c : Fin 12288) : idx_main_v41 (ix1 i) c = ix2 i c := by
  funext a; match a with | ⟨0, _⟩ => rfl | ⟨1, _⟩ => rfl

theorem idx_v42 (i : Fin 4096) (c : Fin 12288) : idx_main_v42 (ix1 i) c = ix2 i c := by
  funext a; match a with | ⟨0, _⟩ => rfl | ⟨1, _⟩ => rfl

/-! ## The values -/

/-- The joined targets at an in-batch column: `pos`. -/
theorem v28_left (x1 : (⟨S4096, .i32⟩ : BufTy).Contents (Elt Ideal)) (x3 : (⟨S4096x8192, .f32⟩ : BufTy).Contents (Elt Ideal))
    (i j : Fin 4096) : val_main_v28 (F := Ideal) x1 x3 (ix2 i (colL j)) = Cert.SupCon.pos x1 i j := by
  unfold val_main_v28
  rw [concat_left, v27_at]

/-- The joined targets at a memory column: the memory target. -/
theorem v28_right (x1 : (⟨S4096, .i32⟩ : BufTy).Contents (Elt Ideal)) (x3 : (⟨S4096x8192, .f32⟩ : BufTy).Contents (Elt Ideal))
    (i : Fin 4096) (k : Fin 8192) : val_main_v28 (F := Ideal) x1 x3 (ix2 i (colR k)) = x3 (ix2 i k) := by
  unfold val_main_v28
  rw [concat_right]

/-- The joined logits at an in-batch column: the shifted logit. -/
theorem v31_left (x0 : (⟨S4096x1024, .f32⟩ : BufTy).Contents (Elt Ideal)) (x2 : (⟨S4096x8192, .f32⟩ : BufTy).Contents (Elt Ideal))
    (i j : Fin 4096) :
    val_main_v31 (F := Ideal) x0 x2 (ix2 i (colL j)) = Cert.SupCon.logit x0 i j - Cert.SupCon.rowMax x0 i := by
  unfold val_main_v31
  rw [concat_left, v12_at]

/-- The joined logits at a memory column: the memory logit. -/
theorem v31_right (x0 : (⟨S4096x1024, .f32⟩ : BufTy).Contents (Elt Ideal)) (x2 : (⟨S4096x8192, .f32⟩ : BufTy).Contents (Elt Ideal))
    (i : Fin 4096) (k : Fin 8192) : val_main_v31 (F := Ideal) x0 x2 (ix2 i (colR k)) = x2 (ix2 i k) := by
  unfold val_main_v31
  rw [concat_right]

/-- The log-denominator spread along the joined row. -/
theorem v38_at (x0 : (⟨S4096x1024, .f32⟩ : BufTy).Contents (Elt Ideal)) (x2 : (⟨S4096x8192, .f32⟩ : BufTy).Contents (Elt Ideal))
    (i : Fin 4096) (c : Fin 12288) : val_main_v38 (F := Ideal) x0 x2 (ix2 i c) = Cert.SupCon.logDen x0 x2 i := by
  rw [val_main_v38_apply, val_main_v37_apply, idx_v37_v38, v36_at]

/-- The weighted log-probability at an in-batch column. -/
theorem v40_left (x0 : (⟨S4096x1024, .f32⟩ : BufTy).Contents (Elt Ideal)) (x1 : (⟨S4096, .i32⟩ : BufTy).Contents (Elt Ideal))
    (x2 x3 : (⟨S4096x8192, .f32⟩ : BufTy).Contents (Elt Ideal)) (i j : Fin 4096) :
    val_main_v40 (F := Ideal) x0 x1 x2 x3 (ix2 i (colL j))
      = Cert.SupCon.pos x1 i j * (Cert.SupCon.logit x0 i j - Cert.SupCon.rowMax x0 i - Cert.SupCon.logDen x0 x2 i) := by
  rw [val_main_v40_apply, v28_left, val_main_v39_apply, v31_left, v38_at]
  rfl

/-- The weighted log-probability at a memory column. -/
theorem v40_right (x0 : (⟨S4096x1024, .f32⟩ : BufTy).Contents (Elt Ideal)) (x1 : (⟨S4096, .i32⟩ : BufTy).Contents (Elt Ideal))
    (x2 x3 : (⟨S4096x8192, .f32⟩ : BufTy).Contents (Elt Ideal)) (i : Fin 4096) (k : Fin 8192) :
    val_main_v40 (F := Ideal) x0 x1 x2 x3 (ix2 i (colR k))
      = x3 (ix2 i k) * (x2 (ix2 i k) - Cert.SupCon.logDen x0 x2 i) := by
  rw [val_main_v40_apply, v28_right, val_main_v39_apply, v31_right, v38_at]
  rfl

/-- The reference's weighted row sum is `num`. -/
theorem v41_at (x0 : (⟨S4096x1024, .f32⟩ : BufTy).Contents (Elt Ideal)) (x1 : (⟨S4096, .i32⟩ : BufTy).Contents (Elt Ideal))
    (x2 x3 : (⟨S4096x8192, .f32⟩ : BufTy).Contents (Elt Ideal)) (i : Fin 4096) :
    val_main_v41 (F := Ideal) x0 x1 x2 x3 (ix1 i) = Cert.SupCon.num x0 x1 x2 x3 i := by
  rw [val_main_v41_apply, val_main_cst_5_apply, Ideal.ofBits_def, Ideal.ofBits_zero_f32, zero_add]
  simp only [idx_v41]
  rw [sum_cols]
  simp only [v40_left, v40_right]
  rfl

/-- The reference's row sum of targets is `cnt`. -/
theorem v42_at (x1 : (⟨S4096, .i32⟩ : BufTy).Contents (Elt Ideal)) (x3 : (⟨S4096x8192, .f32⟩ : BufTy).Contents (Elt Ideal))
    (i : Fin 4096) : val_main_v42 (F := Ideal) x1 x3 (ix1 i) = Cert.SupCon.cnt x1 x3 i := by
  rw [val_main_v42_apply, val_main_cst_6_apply, Ideal.ofBits_def, Ideal.ofBits_zero_f32, zero_add]
  simp only [idx_v42]
  rw [sum_cols]
  simp only [v28_left, v28_right]
  rfl

end Cert.RefBridge

end
-- ==== Proof.RefSpec.lean ====
/-
  The reference program's result is the specification.

  The reference divides each row's weighted sum by the row's sum of targets, sums the 4096 quotients from the zero word,
  divides by the word of `4096` and negates. With the earlier readings of its operations (normalised rows, logits and
  row maximum, masks, denominators, joined rows) every step is the specification's, so the one element of the result is
  `Cert.SupCon.loss` of the four arguments. No finiteness is assumed: each operation is read as the same extended-real
  operation on the same operands.
-/
import proofs.«130741_j67869073212268_2_alg».proof.Proof.RefSpecJoin

noncomputable section

open scoped BigOperators

namespace Cert.RefBridge

open Cert.ReferenceIdeal Cert.ReferenceIdeal.Gen Cert.ReferenceIdeal.Read Idealize.ShloMosaic Idealize.ShloMosaic.ValueIdx
open Idealize.SL.Sem

/-- A rank-1 index set is its coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {n : Nat} (f : (⟨1, ![n]⟩ : Shape).Idx → EReal) : ∑ j, f j = ∑ a : Fin n, f (ix1 a) := by
  rw [← Equiv.sum_comp (idxEquiv1 (n := n)).symm f]
  rfl

/-- The reference's per-row quotient. -/
theorem v43_at (x0 : (⟨S4096x1024, .f32⟩ : BufTy).Contents (Elt Ideal)) (x1 : (⟨S4096, .i32⟩ : BufTy).Contents (Elt Ideal))
    (x2 x3 : (⟨S4096x8192, .f32⟩ : BufTy).Contents (Elt Ideal)) (i : Fin 4096) :
    val_main_v43 (F := Ideal) x0 x1 x2 x3 (ix1 i)
      = Ideal.div (Cert.SupCon.num x0 x1 x2 x3 i) (Cert.SupCon.cnt x1 x3 i) := by
  rw [val_main_v43_apply, v41_at, v42_at]
  rfl

/-- The reference program's result, as a function of its four arguments, is the loss. -/
theorem ref_is_loss (x0 : (⟨Cert.ReferenceIdeal.S4096x1024, .f32⟩ : BufTy).Contents (Elt Ideal))
    (x1 : (⟨Cert.ReferenceIdeal.S4096, .i32⟩ : BufTy).Contents (Elt Ideal))
    (x2 x3 : (⟨Cert.ReferenceIdeal.S4096x8192, .f32⟩ : BufTy).Contents (Elt Ideal)) :
    Cert.ReferenceIdeal.Read.val_main_v46 (F := Ideal) x0 x1 x2 x3 = fun _ => Cert.SupCon.loss x0 x1 x2 x3 := by
  funext i
  rw [val_main_v46_apply, val_main_v45_apply, val_main_v44_apply, val_main_cst_7_apply, val_main_cst_8_apply,
    Ideal.ofBits_def, Ideal.ofBits_def, Ideal.ofBits_zero_f32, zero_add, sum_idx1]
  simp only [v43_at, Ideal.hostNegf_def, Ideal.negf_def, Ideal.hostDivf_def]
  rfl

/-- The reference's run leaves the loss of its four arguments' launch contents in its result buffer. -/
theorem run_result (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v46 (F := Ideal) m c
      = fun _ => Cert.SupCon.loss (m ((c.tc : Thread _ _).loc Cert.ReferenceIdeal.main_arg0))
          (m ((c.tc : Thread _ _).loc Cert.ReferenceIdeal.main_arg1)) (m ((c.tc : Thread _ _).loc Cert.ReferenceIdeal.main_arg2))
          (m ((c.tc : Thread _ _).loc Cert.ReferenceIdeal.main_arg3)) :=
  (val_main_v46_eq m c).trans (ref_is_loss _ _ _ _)

end Cert.RefBridge

end
-- ==== Proof.PreFactsElem.lean ====
/-
  Element facts behind the finiteness precondition, each at one symbolic index.

  * an entry whose absolute value is below the word of plus infinity is a real number;
  * an entry that equals the word of zero or the word of one is 0 or 1;
  * a one-bit word read as an unsigned integer is 0 or 1, and two indices below 4096 have equal 32-bit words
    exactly when they are equal;
  * the in-batch mask the precondition builds from the labels — (label i = label j) as a float times
    (1 - (i = j) as a float) — is the specification's `pos lab i j`;
  * the host's sum over the 12288 columns of row `i` is the initial value plus the `Fin 12288` sum of the row,
    and over a concatenation of a 4096-column block and an 8192-column block that sum is the sum of the two blocks' rows.
-/
import proofs.«130741_j67869073212268_2_alg».proof.Pre_finite_inputs
import proofs.«130741_j67869073212268_2_alg».proof.Proof.LossSpec
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.PreFacts

open Idealize.ShloMosaic Idealize.ShloMosaic.ValueIdx
open Cert.Pre_finite_inputs

/-- The binary32 word `0x7F800000` is plus infinity. -/
theorem ofBits_inf : Ideal.ofBits .f32 0x7F800000#32 = ⊤ := by simp [Ideal.ofBits, Ideal.ieee]

/-- `|x| < +∞` says `x` is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- `x = 0` or `x = 1`, from the two equality tests joined by `or`. -/
theorem zero_or_one (x : EReal)
    (h : IntOp.ori (Ideal.cmp .oeq x (Ideal.ofBits .f32 0x00000000#32))
      (Ideal.cmp .oeq x (Ideal.ofBits .f32 0x3F800000#32)) = 1#1) : x = 0 ∨ x = 1 := by
  rw [Ideal.ofBits_zero_f32, Ideal.ofBits_one_f32] at h
  by_cases h0 : x = 0
  · exact Or.inl h0
  · by_cases h1 : x = 1
    · exact Or.inr h1
    · exfalso
      simp [Ideal.cmp, h0, h1, IntOp.ori] at h

/-- A one-bit word made from a Boolean, read unsigned, as an extended real. -/
theorem ofBool_toNat_coe (b : Bool) : (((BitVec.ofBool b).toNat : ℝ) : EReal) = if b = true then 1 else 0 := by
  cases b <;> simp

/-- Two indices below 4096 have the same 32-bit word exactly when they are equal. -/
theorem ofNat_add_zero_beq (i j : Fin 4096) :
    (IntOp.addi (BitVec.ofNat 32 i.val) 0#32 == BitVec.ofNat 32 j.val) = decide (i = j) := by
  have hi := i.isLt
  have hj := j.isLt
  unfold IntOp.addi
  rw [BitVec.add_zero]
  by_cases hij : i = j
  · subst hij; simp
  · have hne : BitVec.ofNat 32 i.val ≠ BitVec.ofNat 32 j.val := by
      intro e
      have := congrArg BitVec.toNat e
      simp only [BitVec.toNat_ofNat] at this
      rw [Nat.mod_eq_of_lt (by omega), Nat.mod_eq_of_lt (by omega)] at this
      exact hij (Fin.ext this)
    simp [hij, hne]

end Cert.PreFacts

end
-- ==== Proof.PreFactsRow.lean ====
/-
  The precondition's fifth test, read row by row.

  The precondition builds, from the labels, the 4096 × 4096 array whose entry (i, j) is
  (label i = label j) as a float times (1 - (i = j) as a float): this is the specification's in-batch
  positive mask `pos lab i j` (`mask_apply`). It lays the memory targets `mt` to its right, sums every row of the
  4096 × 12288 result from the zero word (`rowSum_apply`, `concat_row`), and tests the sum to be greater than zero.
  So the test at row `i` says `0 < (∑ j, pos lab i j) + ∑ k, mt (i, k)`, which is `0 < cnt lab mt i` (`cnt_pos_of`).
-/
import proofs.«130741_j67869073212268_2_alg».proof.Proof.PreFactsElem

noncomputable section

open scoped BigOperators

namespace Cert.PreFacts

open Idealize.ShloMosaic Idealize.ShloMosaic.ValueIdx
open Cert.Pre_finite_inputs

variable [Facts]
open Facts

/-- The label column broadcast to the square reads label `i`. -/
theorem labRow_apply (lab : IVec S4096 32) (i j : Fin 4096) :
    broadcastInDim S4096x4096 ![0, 1] bcast_S4096x1_S4096x4096_0_1 (broadcastInDim S4096x1 ![0] bcast_S4096_S4096x1_0 lab) (ix2 i j)
      = lab (ix1 i) := by
  refine (broadcastInDim_apply _ _ _ (ix2 i j) (ix2 i (0 : Fin 1)) (fun a => ?_)).trans ?_
  · match a with
    | ⟨0, _⟩ => rfl
    | ⟨1, _⟩ => rfl
  · refine broadcastInDim_apply _ _ _ (ix2 i (0 : Fin 1)) (ix1 i) (fun a => ?_)
    match a with
    | ⟨0, _⟩ => rfl

/-- The label row broadcast to the square reads label `j`. -/
theorem labCol_apply (lab : IVec S4096 32) (i j : Fin 4096) :
    broadcastInDim S4096x4096 ![0, 1] bcast_S1x4096_S4096x4096_0_1 (broadcastInDim S1x4096 ![1] bcast_S4096_S1x4096_1 lab) (ix2 i j)
      = lab (ix1 j) := by
  refine (broadcastInDim_apply _ _ _ (ix2 i j) (ix2 (0 : Fin 1) j) (fun a => ?_)).trans ?_
  · match a with
    | ⟨0, _⟩ => rfl
    | ⟨1, _⟩ => rfl
  · refine broadcastInDim_apply _ _ _ (ix2 (0 : Fin 1) j) (ix1 j) (fun a => ?_)
    match a with
    | ⟨0, _⟩ => rfl

/-- A one-bit word made from a Boolean is 1 exactly when the Boolean is true. -/
theorem ofBool_eq_one (b : Bool) : BitVec.ofBool b = 1#1 ↔ b = true := by cases b <;> decide

theorem one_sub_one : (1 : EReal) - 1 = 0 := by
  rw [show (1 : EReal) = ((1 : ℝ) : EReal) from rfl, ← EReal.coe_sub]; simp

/-- The 4096 × 4096 array the precondition builds from the labels: (label i = label j) as a float times
    (1 - (i = j) as a float). -/
abbrev maskArr (lab : IVec S4096 32) : FVec Ideal S4096x4096 .f32 :=
  mulf (F := Ideal)
    (uitofp .f32 (cmpi .eq
      (broadcastInDim S4096x4096 ![0, 1] bcast_S4096x1_S4096x4096_0_1 (broadcastInDim S4096x1 ![0] bcast_S4096_S4096x1_0 lab))
      (broadcastInDim S4096x4096 ![0, 1] bcast_S1x4096_S4096x4096_0_1 (broadcastInDim S1x4096 ![1] bcast_S4096_S1x4096_1 lab))))
    (subf (broadcastInDim S4096x4096 ![] bcast_S_S4096x4096 (constant S_ .f32 0x3F800000#32))
      (uitofp .f32 (cmpi .eq
        (addi (iotaInDim S4096x4096 32 0) (broadcastInDim S4096x4096 ![] bcast_S_S4096x4096 (constantI S_ 32 0#32)))
        (iotaInDim S4096x4096 32 1))))

/-- That array is the specification's in-batch positive mask. -/
theorem mask_apply (lab : IVec S4096 32) (i j : Fin 4096) : maskArr lab (ix2 i j) = Cert.SupCon.pos lab i j := by
  show (((BitVec.ofBool
        (broadcastInDim S4096x4096 ![0, 1] bcast_S4096x1_S4096x4096_0_1 (broadcastInDim S4096x1 ![0] bcast_S4096_S4096x1_0 lab) (ix2 i j)
          == broadcastInDim S4096x4096 ![0, 1] bcast_S1x4096_S4096x4096_0_1 (broadcastInDim S1x4096 ![1] bcast_S4096_S1x4096_1 lab) (ix2 i j))).toNat : ℝ) : EReal)
      * (Ideal.ofBits .f32 0x3F800000#32
          - (((BitVec.ofBool (IntOp.addi (BitVec.ofNat 32 i.val) 0#32 == BitVec.ofNat 32 j.val)).toNat : ℝ) : EReal)) = _
  rw [labRow_apply, labCol_apply, Ideal.ofBits_one_f32, ofBool_toNat_coe, ofBool_toNat_coe, ofNat_add_zero_beq]
  unfold Cert.SupCon.pos Cert.SupCon.notSelf
  by_cases hl : lab (ix1 i) = lab (ix1 j) <;> by_cases hij : i = j <;> simp [hl, hij, one_sub_one]

/-- The host's sum over the columns of row `i`: the initial value plus the row's sum. -/
theorem rowSum_apply (C : FVec Ideal S4096x12288 .f32) (z : FVec Ideal S_ .f32) (i : Fin 4096) :
    Host.reduceAdd C z reducesTo_S4096x12288_S4096_d1 h_S_ (ix1 i) = z ix0 + ∑ k : Fin 12288, C (ix2 i k) := by
  have hR : S4096x12288.Reduces [1] S4096 := by decide
  refine (hostReduceAdd_apply C z _ _ (ix1 i)).trans ?_
  refine (Ideal.hostReduceAdd_single reducesTo_S4096x12288_S4096_d1 hR C _ (ix1 i)).trans ?_
  refine congrArg₂ (· + ·) (congrArg z (eq_ix0 _)) ?_
  show ∑ k : Fin 12288, C (hR.lift (ix1 i) k) = _
  refine Finset.sum_congr rfl (fun k _ => congrArg C ?_)
  funext c
  match c with
  | ⟨0, _⟩ => exact Fin.ext rfl
  | ⟨1, _⟩ => exact Fin.ext rfl

/-- A row of the concatenation of a 4096-column block and an 8192-column block sums to the two blocks' row sums. -/
theorem concat_row (A : FVec Ideal S4096x4096 .f32) (B : FVec Ideal S4096x8192 .f32) (i : Fin 4096) :
    ∑ k : Fin 12288, concatenate S4096x12288 1 [⟨S4096x4096, A⟩, ⟨S4096x8192, B⟩]
        concatenates_S4096x4096_S4096x8192_S4096x12288_d1 (ix2 i k)
      = (∑ j : Fin 4096, A (ix2 i j)) + ∑ k : Fin 8192, B (ix2 i k) := by
  refine (Fin.sum_univ_add (a := 4096) (b := 8192) (fun k : Fin (4096 + 8192) =>
    concatenate S4096x12288 1 [⟨S4096x4096, A⟩, ⟨S4096x8192, B⟩]
      concatenates_S4096x4096_S4096x8192_S4096x12288_d1 (ix2 i k))).trans ?_
  refine congrArg₂ (· + ·) (Finset.sum_congr rfl (fun j _ => ?_)) (Finset.sum_congr rfl (fun k _ => ?_))
  · exact concatenate_pair_apply_left (1 : Fin 2) A B _ (ix2 i (Fin.castAdd 8192 j)) rfl (ix2 i j)
      (fun b => match b with | ⟨0, _⟩ => rfl | ⟨1, _⟩ => rfl)
  · exact concatenate_pair_apply_right (1 : Fin 2) A B _ (ix2 i (Fin.natAdd 4096 k)) rfl rfl (ix2 i k)
      (fun b hb => match b, hb with | ⟨0, _⟩, _ => rfl | ⟨1, _⟩, hb => absurd rfl hb)
      (by show k.val + 4096 = 4096 + k.val; omega)

/-- The fifth test at row `i`: the row's sum of targets is positive. -/
theorem cnt_pos_of (lab : IVec S4096 32) (mt : FVec Ideal S4096x8192 .f32) (i : Fin 4096)
    (r : cmpf .ogt
        (Host.reduceAdd (F := Ideal)
          (concatenate S4096x12288 1 [⟨S4096x4096, maskArr lab⟩, ⟨S4096x8192, mt⟩]
            concatenates_S4096x4096_S4096x8192_S4096x12288_d1)
          (constant S_ .f32 0x00000000#32) reducesTo_S4096x12288_S4096_d1 h_S_)
        (broadcastInDim S4096 ![] bcast_S_S4096 (constant S_ .f32 0x00000000#32)) (ix1 i) = 1#1) :
    0 < Cert.SupCon.cnt lab mt i := by
  have r' : Ideal.cmp .ogt
      (Host.reduceAdd (F := Ideal)
        (concatenate S4096x12288 1 [⟨S4096x4096, maskArr lab⟩, ⟨S4096x8192, mt⟩]
          concatenates_S4096x4096_S4096x8192_S4096x12288_d1)
        (constant S_ .f32 0x00000000#32) reducesTo_S4096x12288_S4096_d1 h_S_ (ix1 i))
      (Ideal.ofBits .f32 0x00000000#32) = 1#1 := r
  rw [rowSum_apply, concat_row] at r'
  have hz : constant (F := Ideal) S_ .f32 0x00000000#32 ix0 = 0 := Ideal.ofBits_zero_f32
  rw [hz, Ideal.ofBits_zero_f32, zero_add] at r'
  simp only [mask_apply] at r'
  unfold Cert.SupCon.cnt
  exact of_decide_eq_true ((ofBool_eq_one _).1 (show BitVec.ofBool (decide ((0 : EReal) < _)) = 1#1 from r'))

end Cert.PreFacts

end
-- ==== Proof.PreFacts.lean ====
/-
  The finiteness precondition read as facts about the four argument arrays.

  The printed precondition is the conjunction of five tests, each an `and`-reduction of a one-bit array from the
  word 1: every entry of `q`, of `ml` and of `mt` has absolute value below plus infinity; every entry of `mt` is the
  word of zero or the word of one; and every row's sum of targets (in-batch positives, then memory targets) is
  greater than zero. When the conjunction is 1 every test is 1 at every index, so: the entries of `q` and `ml` are
  real numbers, the entries of `mt` are 0 or 1, and `cnt lab mt i` is positive for every row `i`.
-/
import proofs.«130741_j67869073212268_2_alg».proof.Proof.Gen.Pre_finite_inputs
import proofs.«130741_j67869073212268_2_alg».proof.Proof.PreFactsRow
import Idealize.ShloMosaic.Lib.ReduceAll

noncomputable section

open scoped BigOperators

namespace Cert.PreFacts

open Idealize.ShloMosaic Idealize.ShloMosaic.ValueIdx
open Cert.Pre_finite_inputs

/-- The scalar shape has one index. -/
instance subsingleton_scalar_idx : Subsingleton S_.Idx := ⟨fun a b => funext fun d => d.elim0⟩

theorem of_pre [Cert.Pre_finite_inputs.Facts]
    (q : Cert.SupCon.QArr) (lab : Cert.SupCon.LArr) (ml mt : Cert.SupCon.MArr)
    (h : Cert.Pre_finite_inputs.fn (F := Ideal) q lab ml mt = fun _ => 1#1) :
    (∀ (i : Fin 4096) (k : Fin 1024), ∃ r : ℝ, q (ix2 i k) = (r : EReal))
      ∧ (∀ (i : Fin 4096) (k : Fin 8192), ∃ r : ℝ, ml (ix2 i k) = (r : EReal))
      ∧ (∀ (i : Fin 4096) (k : Fin 8192), mt (ix2 i k) = 0 ∨ mt (ix2 i k) = 1)
      ∧ ∀ i : Fin 4096, 0 < Cert.SupCon.cnt lab mt i := by
  have e := congrFun h ValueIdx.ix0
  dsimp only [Cert.Pre_finite_inputs.fn, Cert.Pre_finite_inputs.fn_part1, Cert.Pre_finite_inputs.fn_part2] at e
  obtain ⟨e1234, e5⟩ := IntOp.andi_eq_one.1 (show IntOp.andi _ _ = 1#1 from e)
  obtain ⟨e123, e4⟩ := IntOp.andi_eq_one.1 (show IntOp.andi _ _ = 1#1 from e1234)
  obtain ⟨e12, -⟩ := IntOp.andi_eq_one.1 (show IntOp.andi _ _ = 1#1 from e123)
  obtain ⟨e1, e2⟩ := IntOp.andi_eq_one.1 (show IntOp.andi _ _ = 1#1 from e12)
  refine ⟨fun i k => ?_, fun i k => ?_, fun i k => ?_, fun i => ?_⟩
  · exact real_of_abs_lt _ (Host.reduce_andi_all _ _ _ _ _ e1 (ix2 i k))
  · exact real_of_abs_lt _ (Host.reduce_andi_all _ _ _ _ _ e2 (ix2 i k))
  · exact zero_or_one _ (Host.reduce_andi_all _ _ _ _ _ e4 (ix2 i k))
  · exact cnt_pos_of lab mt i (Host.reduce_andi_all _ _ _ _ _ e5 (ix1 i))

end Cert.PreFacts

end
-- ==== Proof.AlgConsts.lean ====
/-
  The three binary32 words of the loss as real numbers: the temperature is 9395241 / 2^27, so dividing by it is
  multiplying by 134217728 / 9395241; the norm floor is a positive real; the running maximum's start is a
  negative real.
-/
import proofs.«130741_j67869073212268_2_alg».proof.Proof.TiledModel

noncomputable section

namespace Cert.SupConTiled

open Idealize.ShloMosaic Cert.SupCon

/-- The temperature word is the real 9395241 / 2^27. -/
theorem temp_eq : temp = ((9395241 / 134217728 : ℝ) : EReal) := by
  simp [temp, Ideal.ofBits, Ideal.ieee, -EReal.coe_mul]; norm_num

/-- The norm floor is the real 11258999 / 2^50. -/
theorem eps_eq : eps = ((11258999 / 1125899906842624 : ℝ) : EReal) := by
  simp [eps, Ideal.ofBits, Ideal.ieee, -EReal.coe_mul]; norm_num

/-- The running maximum's start is the real -(11744050 · 2^104). -/
theorem negBig_eq : negBig = ((-(11744050 * 2 ^ 104) : ℝ) : EReal) := by
  simp [negBig, Ideal.ofBits, Ideal.ieee, -EReal.coe_mul]

/-- Dividing by the temperature is multiplying by its reciprocal, at every extended real. -/
theorem div_temp (x : EReal) : Ideal.div x temp = x * invTemp := by
  rw [temp_eq, Ideal.div_coe (by norm_num), invTemp]
  congr 2
  norm_num

end Cert.SupConTiled

end
-- ==== Proof.AlgSum.lean ====
/-
  General facts on finite suprema and sums used by the tile-by-tile induction: the supremum of finitely many
  embedded reals over a nonempty set is an embedded real that is attained; the first n of a tiles as a finite set,
  with its step from n to n + 1; a sum of zeros and ones is a natural number.
-/
import Idealize.ShloMosaic.PureOps.Ideal

noncomputable section

namespace Cert.AlgSum

open scoped BigOperators

variable {ι : Type*}

/-- The embedding of the reals into the extended reals commutes with the binary maximum. -/
theorem coe_max (a b : ℝ) : ((max a b : ℝ) : EReal) = max (a : EReal) (b : EReal) :=
  EReal.coe_strictMono.monotone.map_max

/-- The supremum of embedded reals over a nonempty finite set is the embedded largest of them. -/
theorem sup_coe (s : Finset ι) (hs : s.Nonempty) (f : ι → ℝ) :
    ∃ r : ℝ, s.sup (fun k => (f k : EReal)) = (r : EReal) ∧ (∀ k ∈ s, f k ≤ r) ∧ ∃ k ∈ s, f k = r := by
  obtain ⟨x, hx, hmax⟩ := Finset.exists_max_image s f hs
  refine ⟨f x, le_antisymm ?_ ?_, hmax, x, hx, rfl⟩
  · exact Finset.sup_le fun k hk => EReal.coe_le_coe_iff.mpr (hmax k hk)
  · exact Finset.le_sup (f := fun k => (f k : EReal)) hx

/-- The first n of a tiles. -/
def upTo (a n : ℕ) : Finset (Fin a) := Finset.univ.filter fun J => J.val < n

theorem upTo_zero (a : ℕ) : upTo a 0 = ∅ := by
  simp [upTo]

theorem upTo_all (a : ℕ) : upTo a a = Finset.univ := by
  simp [upTo]

theorem not_mem_upTo {a n : ℕ} (h : n < a) : (⟨n, h⟩ : Fin a) ∉ upTo a n := by
  simp [upTo]

theorem upTo_succ {a n : ℕ} (h : n < a) : upTo a (n + 1) = insert (⟨n, h⟩ : Fin a) (upTo a n) := by
  ext J
  simp only [upTo, Finset.mem_filter, Finset.mem_univ, true_and, Finset.mem_insert, Fin.ext_iff]
  omega

/-- A sum over the first n + 1 tiles is the sum over the first n plus tile n's term. -/
theorem sum_upTo_succ {M : Type*} [AddCommMonoid M] {a n : ℕ} (h : n < a) (g : Fin a → M) :
    ∑ J ∈ upTo a (n + 1), g J = (∑ J ∈ upTo a n, g J) + g ⟨n, h⟩ := by
  rw [upTo_succ h, Finset.sum_insert (not_mem_upTo h), add_comm]

/-- The supremum over the first n + 1 tiles is the larger of the supremum over the first n and tile n's value. -/
theorem sup_upTo_succ {a n : ℕ} (h : n < a) (g : Fin a → EReal) :
    (upTo a (n + 1)).sup g = max ((upTo a n).sup g) (g ⟨n, h⟩) := by
  rw [upTo_succ h, Finset.sup_insert, max_comm]

/-- A finite sum of zeros and ones is a natural number. -/
theorem sum_zero_one (s : Finset ι) (f : ι → ℝ) (hf : ∀ k ∈ s, f k = 0 ∨ f k = 1) :
    ∃ n : ℕ, ∑ k ∈ s, f k = (n : ℝ) := by
  classical
  induction s using Finset.induction_on with
  | empty => exact ⟨0, by simp⟩
  | insert a s ha ih =>
    obtain ⟨n, hn⟩ := ih fun k hk => hf k (Finset.mem_insert_of_mem hk)
    rw [Finset.sum_insert ha, hn]
    rcases hf a (Finset.mem_insert_self a s) with h | h
    · exact ⟨n, by rw [h, zero_add]⟩
    · exact ⟨n + 1, by rw [h]; push_cast; ring⟩

end Cert.AlgSum

end
-- ==== Proof.LibERealSum.lean ====
/-
  Finite sums of reals inside the extended reals: the embedding of the reals commutes with finite sums; a row of a
  0/1 selection matrix times a vector picks one entry, whatever extended reals the vector holds (zero times anything is
  zero there); and a masked sum of an affine family splits as the masked sum of the linear parts plus the mask's count
  times the constant — the step by which summing mask · (m · W + b) over neighbours becomes (Σ mask · m) · W + (Σ mask) · b.
-/
import Idealize.ShloMosaic.PureOps.Ideal

noncomputable section

namespace Cert.Lib.ERealSum

open scoped BigOperators

variable {ι : Type*}

/-- The embedding of the reals into the extended reals commutes with finite sums. -/
theorem coe_finset_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of embedded reals is the embedded real sum of products (a contraction of finite operands). -/
theorem sum_coe_mul_coe (s : Finset ι) (f g : ι → ℝ) :
    ∑ i ∈ s, (f i : EReal) * (g i : EReal) = ((∑ i ∈ s, f i * g i : ℝ) : EReal) := by
  rw [coe_finset_sum]; exact Finset.sum_congr rfl fun i _ => (EReal.coe_mul _ _).symm

/-- A 0/1 selection row picks its entry, at any extended reals. -/
theorem sum_select [Fintype ι] [DecidableEq ι] (j : ι) (x : ι → EReal) :
    ∑ i, (if i = j then (1 : EReal) else 0) * x i = x j := by
  simp only [ite_mul, one_mul, zero_mul]
  rw [Finset.sum_ite_eq' Finset.univ j x]; simp

/-- The same with the comparison written the other way round. -/
theorem sum_select' [Fintype ι] [DecidableEq ι] (j : ι) (x : ι → EReal) :
    ∑ i, (if j = i then (1 : EReal) else 0) * x i = x j := by
  simp only [ite_mul, one_mul, zero_mul]
  rw [Finset.sum_ite_eq Finset.univ j x]; simp

/-- A masked sum of an affine family of reals: Σ mₖ (aₖ + b) = Σ mₖ aₖ + (Σ mₖ) b. -/
theorem masked_sum_affine (s : Finset ι) (m a : ι → ℝ) (b : ℝ) :
    ∑ k ∈ s, (m k : EReal) * ((a k : EReal) + (b : EReal))
      = (∑ k ∈ s, (m k : EReal) * (a k : EReal)) + (∑ k ∈ s, (m k : EReal)) * (b : EReal) := by
  have h : ∀ k, (m k : EReal) * ((a k : EReal) + (b : EReal)) = ((m k * (a k + b) : ℝ) : EReal) := fun k => by
    rw [← EReal.coe_add, ← EReal.coe_mul]
  simp only [h]
  rw [← coe_finset_sum, sum_coe_mul_coe, ← coe_finset_sum, ← EReal.coe_mul, ← EReal.coe_add]
  congr 1
  rw [Finset.sum_mul, ← Finset.sum_add_distrib]
  exact Finset.sum_congr rfl fun k _ => by ring

end Cert.Lib.ERealSum

end
-- ==== Proof.AlgReal.lean ====
/-
  With finite inputs every similarity is a real number: the squared norm of a row is a finite sum of squares, the
  divisor max (norm, floor) is a positive real, the normalised entries and their inner products are real, and the
  scaled similarity of a row with itself is a sum of squares times a positive constant, hence nonnegative.  The
  specification's logit (division by the temperature) is the scaled similarity (multiplication by its reciprocal).
-/
import proofs.«130741_j67869073212268_2_alg».proof.Proof.AlgConsts
import proofs.«130741_j67869073212268_2_alg».proof.Proof.AlgSum
import proofs.«130741_j67869073212268_2_alg».proof.Proof.LibERealSum

noncomputable section

open scoped BigOperators

namespace Cert.SupConTiled

open Idealize.ShloMosaic Idealize.ShloMosaic.ValueIdx Cert.SupCon Cert.Lib.ERealSum

/-- The specification's logit is the tiled model's scaled similarity. -/
theorem logit_eq_scaled (q : QArr) (i j : Fin 4096) : logit q i j = scaled q i j := div_temp _

/-- With real inputs the scaled similarities are real, and nonnegative on the diagonal. -/
theorem exists_scaled_real (q : QArr) (hq : ∀ (i : Fin 4096) (k : Fin 1024), ∃ r : ℝ, q (ix2 i k) = (r : EReal)) :
    ∃ X : Fin 4096 → Fin 4096 → ℝ, (∀ i j, scaled q i j = (X i j : EReal)) ∧ ∀ i, 0 ≤ X i i := by
  choose Q hQ using hq
  have hss : ∀ i, sumSq q i = ((∑ k, Q i k * Q i k : ℝ) : EReal) := fun i => by
    simp only [sumSq, hQ]; exact sum_coe_mul_coe _ _ _
  have hss0 : ∀ i, 0 ≤ ∑ k, Q i k * Q i k := fun i => Finset.sum_nonneg fun k _ => mul_self_nonneg _
  obtain ⟨D, hD, hD0⟩ : ∃ D : Fin 4096 → ℝ, (∀ i, den q i = (D i : EReal)) ∧ ∀ i, 0 < D i := by
    refine ⟨fun i => max (Real.sqrt (∑ k, Q i k * Q i k)) (11258999 / 1125899906842624), fun i => ?_, fun i => ?_⟩
    · rw [den, hss, Ideal.sqrt_coe, if_neg (not_lt.mpr (hss0 i)), eps_eq, Cert.AlgSum.coe_max]
    · exact lt_max_of_lt_right (by norm_num)
  have hqn : ∀ i k, qn q i k = ((Q i k * (1 / D i) : ℝ) : EReal) := fun i k => by
    rw [qn, hQ, hD, Ideal.div_coe (hD0 i).ne', ← EReal.coe_mul]
  have hsim : ∀ i j, sim q i j = ((∑ k, (Q i k * (1 / D i)) * (Q j k * (1 / D j)) : ℝ) : EReal) := fun i j => by
    simp only [sim, hqn]; exact sum_coe_mul_coe _ _ _
  refine ⟨fun i j => (∑ k, (Q i k * (1 / D i)) * (Q j k * (1 / D j))) * (134217728 / 9395241),
    fun i j => ?_, fun i => ?_⟩
  · rw [scaled, hsim, invTemp, ← EReal.coe_mul]
  · exact mul_nonneg (Finset.sum_nonneg fun k _ => mul_self_nonneg _) (by norm_num)

end Cert.SupConTiled

end
-- ==== Proof.LibBlockSum.lean ====
/-
  A general lemma on sums: a sum over the a·b rows of a matrix may be taken block by block, a blocks of b consecutive rows.
-/
import Mathlib.Algebra.BigOperators.Fin
import Mathlib.Logic.Equiv.Fin.Basic

namespace Cert.LibBlockSum

open scoped BigOperators

/-- Row j of block i of an a-by-b blocking is a row of the whole. -/
theorem lt_blocks {a b i j : ℕ} (hi : i < a) (hj : j < b) : b * i + j < a * b :=
  calc b * i + j < b * i + b := by omega
    _ = b * (i + 1) := (Nat.mul_succ b i).symm
    _ ≤ b * a := Nat.mul_le_mul_left b hi
    _ = a * b := Nat.mul_comm b a

/-- The sum over all a·b rows is the sum over the a blocks of the sums over each block's b rows. -/
theorem sum_blocks {M : Type*} [AddCommMonoid M] (a b : ℕ) (g : Fin (a * b) → M) :
    ∑ i : Fin a, ∑ j : Fin b, g ⟨b * i.val + j.val, lt_blocks i.isLt j.isLt⟩ = ∑ r : Fin (a * b), g r := by
  rw [← Equiv.sum_comp finProdFinEquiv g, Fintype.sum_prod_type]
  refine Finset.sum_congr rfl fun i _ => Finset.sum_congr rfl fun j _ => congrArg g (Fin.ext ?_)
  simp only [finProdFinEquiv_apply_val]
  omega

end Cert.LibBlockSum
-- ==== Proof.AlgSim.lean ====
/-
  The running statistics over the similarity tiles.  With real scaled similarities x, after n tiles
    m  = max (start, largest x over the first 512·n columns)                    (a real number),
    e  = Σ over those columns of exp (x - m) · [column ≠ row],
    s1 = Σ over those columns of positive · x,      np = Σ over those columns of positive.
  The step for e is exp (m - m') · exp (x - m) = exp (x - m') on the reals; before the first tile the sum is empty,
  so the finite start of m does no harm.  After all 8 tiles the columns are all 4096 columns, and m is the row
  maximum because the diagonal entry is nonnegative and the start is negative.
-/
import proofs.«130741_j67869073212268_2_alg».proof.Proof.AlgReal
import proofs.«130741_j67869073212268_2_alg».proof.Proof.LibBlockSum

noncomputable section

open scoped BigOperators

namespace Cert.SupConTiled

open Idealize.ShloMosaic Idealize.ShloMosaic.ValueIdx Cert.SupCon Cert.Lib.ERealSum Cert.AlgSum

/-- The off-diagonal mask as a real. -/
def notSelfR (i j : Fin 4096) : ℝ := if i = j then 0 else 1
/-- The in-batch positive mask as a real. -/
def posR (lab : LArr) (i j : Fin 4096) : ℝ := (if lab (ix1 i) = lab (ix1 j) then 1 else 0) * notSelfR i j

theorem notSelf_coe (i j : Fin 4096) : notSelf i j = (notSelfR i j : EReal) := by
  unfold notSelf notSelfR; split_ifs <;> simp

theorem pos_coe (lab : LArr) (i j : Fin 4096) : pos lab i j = (posR lab i j : EReal) := by
  rw [pos, posR, notSelf_coe, EReal.coe_mul]; congr 1; split_ifs <;> simp

theorem notSelfR_nonneg (i j : Fin 4096) : 0 ≤ notSelfR i j := by
  unfold notSelfR; split_ifs <;> norm_num

theorem posR_zero_one (lab : LArr) (i j : Fin 4096) : posR lab i j = 0 ∨ posR lab i j = 1 := by
  unfold posR notSelfR; split_ifs <;> simp

/-- The 4096 columns are the 8 tiles of 512 columns: sums. -/
theorem sum_tiles {M : Type*} [AddCommMonoid M] (g : Fin 4096 → M) :
    ∑ J : Fin 8, ∑ c : Fin 512, g (colOf J c) = ∑ j, g j :=
  Cert.LibBlockSum.sum_blocks 8 512 g

/-- The 4096 columns are the 8 tiles of 512 columns: suprema. -/
theorem sup_tiles (f : Fin 4096 → EReal) :
    (Finset.univ.sup fun J : Fin 8 => Finset.univ.sup fun c : Fin 512 => f (colOf J c)) = Finset.univ.sup f := by
  refine le_antisymm ?_ ?_
  · exact Finset.sup_le fun J _ => Finset.sup_le fun c _ => Finset.le_sup (Finset.mem_univ _)
  · refine Finset.sup_le fun j _ => ?_
    have hj := j.isLt
    obtain ⟨J, c, rfl⟩ : ∃ (J : Fin 8) (c : Fin 512), j = colOf J c :=
      ⟨⟨j.val / 512, by omega⟩, ⟨j.val % 512, by omega⟩, Fin.ext (by simp only [colOf]; omega)⟩
    exact le_trans (Finset.le_sup (f := fun c => f (colOf J c)) (Finset.mem_univ c))
      (Finset.le_sup (f := fun J => Finset.univ.sup fun c : Fin 512 => f (colOf J c)) (Finset.mem_univ J))

variable (q : QArr) (lab : LArr)

theorem simAfter_succ (i : Fin 4096) (n : ℕ) (h : n < 8) :
    simAfter q lab i (n + 1) = simStep q lab i ⟨n, h⟩ (simAfter q lab i n) := by
  rw [simAfter, dif_pos h]

/-- The statistics after n similarity tiles, in terms of real sums over the columns seen. -/
theorem simAfter_real (i : Fin 4096) (x : Fin 4096 → ℝ) (hx : ∀ j, scaled q i j = (x j : EReal)) (n : ℕ) :
    n ≤ 8 → ∃ mR : ℝ, (simAfter q lab i n).m = (mR : EReal)
      ∧ (mR : EReal) = max negBig ((upTo 8 n).sup (tileMax q i))
      ∧ (simAfter q lab i n).e
          = ((∑ J ∈ upTo 8 n, ∑ c : Fin 512, Real.exp (x (colOf J c) - mR) * notSelfR i (colOf J c) : ℝ) : EReal)
      ∧ (simAfter q lab i n).s1
          = ((∑ J ∈ upTo 8 n, ∑ c : Fin 512, posR lab i (colOf J c) * x (colOf J c) : ℝ) : EReal)
      ∧ (simAfter q lab i n).np = ((∑ J ∈ upTo 8 n, ∑ c : Fin 512, posR lab i (colOf J c) : ℝ) : EReal) := by
  induction n with
  | zero =>
    intro _
    refine ⟨-(11744050 * 2 ^ 104), negBig_eq, ?_, ?_, ?_, ?_⟩
    · rw [upTo_zero, Finset.sup_empty, max_bot_right, negBig_eq]
    · simp [simAfter, simInit, upTo_zero]
    · simp [simAfter, simInit, upTo_zero]
    · simp [simAfter, simInit, upTo_zero]
  | succ n ih =>
    intro hn
    have h : n < 8 := hn
    obtain ⟨mR, hm, hmax, he, hs1, hnp⟩ := ih (by omega)
    obtain ⟨tR, htR, -, -⟩ := sup_coe (Finset.univ : Finset (Fin 512)) ⟨⟨0, by norm_num⟩, Finset.mem_univ _⟩
      (fun c => x (colOf ⟨n, h⟩ c))
    have ht : tileMax q i ⟨n, h⟩ = (tR : EReal) := by
      simp only [tileMax, hx]; exact htR
    refine ⟨max mR tR, ?_, ?_, ?_, ?_, ?_⟩
    · rw [simAfter_succ q lab i n h]
      show max (simAfter q lab i n).m (tileMax q i ⟨n, h⟩) = _
      rw [hm, ht, coe_max]
    · rw [coe_max, hmax, sup_upTo_succ h, ht]
      exact max_assoc _ _ _
    · rw [simAfter_succ q lab i n h]
      show Ideal.exp ((simAfter q lab i n).m - max (simAfter q lab i n).m (tileMax q i ⟨n, h⟩)) * (simAfter q lab i n).e
          + ∑ c : Fin 512, Ideal.exp (scaled q i (colOf ⟨n, h⟩ c) - max (simAfter q lab i n).m (tileMax q i ⟨n, h⟩))
              * notSelf i (colOf ⟨n, h⟩ c) = _
      rw [hm, ht, ← coe_max, he]
      simp only [hx, notSelf_coe, ← EReal.coe_sub, Ideal.exp_coe, ← EReal.coe_mul]
      rw [← coe_finset_sum, ← EReal.coe_add]
      congr 1
      rw [sum_upTo_succ h]
      congr 1
      rw [Finset.mul_sum]
      refine Finset.sum_congr rfl fun J _ => ?_
      rw [Finset.mul_sum]
      refine Finset.sum_congr rfl fun c _ => ?_
      rw [← mul_assoc, ← Real.exp_add]
      congr 2
      ring
    · rw [simAfter_succ q lab i n h]
      show (simAfter q lab i n).s1 + ∑ c : Fin 512, pos lab i (colOf ⟨n, h⟩ c) * scaled q i (colOf ⟨n, h⟩ c) = _
      rw [hs1]
      simp only [hx, pos_coe, ← EReal.coe_mul]
      rw [← coe_finset_sum, ← EReal.coe_add, sum_upTo_succ h]
    · rw [simAfter_succ q lab i n h]
      show (simAfter q lab i n).np + ∑ c : Fin 512, pos lab i (colOf ⟨n, h⟩ c) = _
      rw [hnp]
      simp only [pos_coe]
      rw [← coe_finset_sum, ← EReal.coe_add, sum_upTo_succ h]

/-- The statistics after all 8 similarity tiles: m is the row maximum, and the sums run over all 4096 columns. -/
theorem simAfter_final (i : Fin 4096) (x : Fin 4096 → ℝ) (hx : ∀ j, scaled q i j = (x j : EReal)) (hdiag : 0 ≤ x i) :
    ∃ mR : ℝ, (simAfter q lab i 8).m = (mR : EReal)
      ∧ rowMax q i = (mR : EReal)
      ∧ (simAfter q lab i 8).e = ((∑ j, Real.exp (x j - mR) * notSelfR i j : ℝ) : EReal)
      ∧ (simAfter q lab i 8).s1 = ((∑ j, posR lab i j * x j : ℝ) : EReal)
      ∧ (simAfter q lab i 8).np = ((∑ j, posR lab i j : ℝ) : EReal) := by
  obtain ⟨mR, hm, hmax, he, hs1, hnp⟩ := simAfter_real q lab i x hx 8 le_rfl
  rw [upTo_all] at hmax he hs1 hnp
  refine ⟨mR, hm, ?_, ?_, ?_, ?_⟩
  · have hsup : Finset.univ.sup (tileMax q i) = rowMax q i := by
      rw [rowMax, funext (logit_eq_scaled q i)]
      exact sup_tiles (scaled q i)
    rw [hmax, hsup]
    refine (max_eq_right ?_).symm
    have h1 : negBig ≤ 0 := by
      rw [negBig_eq]; exact_mod_cast (by norm_num : (-(11744050 * 2 ^ 104) : ℝ) ≤ 0)
    have h2 : (0 : EReal) ≤ logit q i i := by
      rw [logit_eq_scaled, hx]; exact_mod_cast hdiag
    exact le_trans h1 (le_trans h2 (Finset.le_sup (f := logit q i) (Finset.mem_univ i)))
  · rw [he, sum_tiles fun j => Real.exp (x j - mR) * notSelfR i j]
  · rw [hs1, sum_tiles fun j => posR lab i j * x j]
  · rw [hnp, sum_tiles fun j => posR lab i j]

end Cert.SupConTiled

end
-- ==== Proof.AlgMem.lean ====
/-
  The running statistics over the memory tiles are plain partial sums: with real memory logits L and targets T, after
  n tiles  em = Σ exp L,  s2 = Σ T · L,  nm = Σ T  over the first 1024·n memory columns; after all 8 tiles the sums run
  over all 8192 columns.
-/
import proofs.«130741_j67869073212268_2_alg».proof.Proof.AlgSim

noncomputable section

open scoped BigOperators

namespace Cert.SupConTiled

open Idealize.ShloMosaic Idealize.ShloMosaic.ValueIdx Cert.SupCon Cert.Lib.ERealSum Cert.AlgSum

/-- The 8192 memory columns are the 8 tiles of 1024 columns. -/
theorem sum_memTiles {M : Type*} [AddCommMonoid M] (g : Fin 8192 → M) :
    ∑ K : Fin 8, ∑ c : Fin 1024, g (memColOf K c) = ∑ k, g k :=
  Cert.LibBlockSum.sum_blocks 8 1024 g

variable (ml mt : MArr)

theorem memAfter_succ (i : Fin 4096) (n : ℕ) (h : n < 8) :
    memAfter ml mt i (n + 1) = memStep ml mt i ⟨n, h⟩ (memAfter ml mt i n) := by
  rw [memAfter, dif_pos h]

/-- The statistics after n memory tiles, as real sums over the columns seen. -/
theorem memAfter_real (i : Fin 4096) (L T : Fin 8192 → ℝ) (hL : ∀ k, ml (ix2 i k) = (L k : EReal))
    (hT : ∀ k, mt (ix2 i k) = (T k : EReal)) (n : ℕ) :
    n ≤ 8 → (memAfter ml mt i n).em = ((∑ K ∈ upTo 8 n, ∑ c : Fin 1024, Real.exp (L (memColOf K c)) : ℝ) : EReal)
      ∧ (memAfter ml mt i n).s2
          = ((∑ K ∈ upTo 8 n, ∑ c : Fin 1024, T (memColOf K c) * L (memColOf K c) : ℝ) : EReal)
      ∧ (memAfter ml mt i n).nm = ((∑ K ∈ upTo 8 n, ∑ c : Fin 1024, T (memColOf K c) : ℝ) : EReal) := by
  induction n with
  | zero =>
    intro _
    refine ⟨?_, ?_, ?_⟩ <;> simp [memAfter, memInit, upTo_zero]
  | succ n ih =>
    intro hn
    have h : n < 8 := hn
    obtain ⟨hem, hs2, hnm⟩ := ih (by omega)
    refine ⟨?_, ?_, ?_⟩
    · rw [memAfter_succ ml mt i n h]
      show (memAfter ml mt i n).em + ∑ c : Fin 1024, Ideal.exp (ml (ix2 i (memColOf ⟨n, h⟩ c))) = _
      rw [hem]
      simp only [hL, Ideal.exp_coe]
      rw [← coe_finset_sum, ← EReal.coe_add, sum_upTo_succ h]
    · rw [memAfter_succ ml mt i n h]
      show (memAfter ml mt i n).s2
          + ∑ c : Fin 1024, mt (ix2 i (memColOf ⟨n, h⟩ c)) * ml (ix2 i (memColOf ⟨n, h⟩ c)) = _
      rw [hs2]
      simp only [hL, hT, ← EReal.coe_mul]
      rw [← coe_finset_sum, ← EReal.coe_add, sum_upTo_succ h]
    · rw [memAfter_succ ml mt i n h]
      show (memAfter ml mt i n).nm + ∑ c : Fin 1024, mt (ix2 i (memColOf ⟨n, h⟩ c)) = _
      rw [hnm]
      simp only [hT]
      rw [← coe_finset_sum, ← EReal.coe_add, sum_upTo_succ h]

/-- The statistics after all 8 memory tiles: sums over all 8192 memory columns. -/
theorem memAfter_final (i : Fin 4096) (L T : Fin 8192 → ℝ) (hL : ∀ k, ml (ix2 i k) = (L k : EReal))
    (hT : ∀ k, mt (ix2 i k) = (T k : EReal)) :
    (memAfter ml mt i 8).em = ((∑ k, Real.exp (L k) : ℝ) : EReal)
      ∧ (memAfter ml mt i 8).s2 = ((∑ k, T k * L k : ℝ) : EReal)
      ∧ (memAfter ml mt i 8).nm = ((∑ k, T k : ℝ) : EReal) := by
  obtain ⟨hem, hs2, hnm⟩ := memAfter_real ml mt i L T hL hT 8 le_rfl
  rw [upTo_all] at hem hs2 hnm
  refine ⟨?_, ?_, ?_⟩
  · rw [hem, sum_memTiles fun k => Real.exp (L k)]
  · rw [hs2, sum_memTiles fun k => T k * L k]
  · rw [hnm, sum_memTiles fun k => T k]

end Cert.SupConTiled

end
-- ==== Proof.AlgRow.lean ====
/-
  One row's contribution.  With all statistics real, the denominator e + em is positive (em is a nonempty sum of
  exponentials), so its logarithm ld is real, and
    (s1 - m · np) - ld · (np + nm) + s2 = Σ_j pos · (x_j - m - ld) + Σ_k T_k · (L_k - ld)
  by distributivity over the finite sums of reals.  The divisor np + nm is a sum of zeros and ones, a natural number,
  positive by hypothesis, hence at least 1, so max (np + nm) 1 = np + nm.
-/
import proofs.«130741_j67869073212268_2_alg».proof.Proof.AlgMem

noncomputable section

open scoped BigOperators

namespace Cert.SupConTiled

open Idealize.ShloMosaic Idealize.ShloMosaic.ValueIdx Cert.SupCon Cert.Lib.ERealSum Cert.AlgSum

/-- The numerator identity on the reals. -/
theorem row_algebra (p x : Fin 4096 → ℝ) (T L : Fin 8192 → ℝ) (m ld : ℝ) :
    ((∑ j, p j * x j - m * ∑ j, p j) - ld * (∑ j, p j + ∑ k, T k)) + ∑ k, T k * L k
      = ∑ j, p j * (x j - m - ld) + ∑ k, T k * (L k - ld) := by
  simp only [mul_sub, Finset.sum_sub_distrib, ← Finset.sum_mul]
  ring

variable (q : QArr) (lab : LArr) (ml mt : MArr)

/-- Row i's tiled contribution is the specification's num i / cnt i. -/
theorem rowTerm_eq (i : Fin 4096) (x : Fin 4096 → ℝ) (hx : ∀ j, scaled q i j = (x j : EReal)) (hdiag : 0 ≤ x i)
    (L T : Fin 8192 → ℝ) (hL : ∀ k, ml (ix2 i k) = (L k : EReal)) (hT : ∀ k, mt (ix2 i k) = (T k : EReal))
    (hT01 : ∀ k, T k = 0 ∨ T k = 1) (hcnt : 0 < cnt lab mt i) :
    rowTerm q lab ml mt i = Ideal.div (num q lab ml mt i) (cnt lab mt i) := by
  obtain ⟨mR, hm, hrow, he, hs1, hnp⟩ := simAfter_final q lab i x hx hdiag
  obtain ⟨hem, hs2, hnm⟩ := memAfter_final ml mt i L T hL hT
  obtain ⟨A, hA⟩ : ∃ A : ℝ, A = ∑ j, Real.exp (x j - mR) * notSelfR i j := ⟨_, rfl⟩
  obtain ⟨B, hB⟩ : ∃ B : ℝ, B = ∑ k, Real.exp (L k) := ⟨_, rfl⟩
  rw [← hA] at he
  rw [← hB] at hem
  have hA0 : 0 ≤ A := by
    rw [hA]; exact Finset.sum_nonneg fun j _ => mul_nonneg (Real.exp_pos _).le (notSelfR_nonneg i j)
  have hB0 : 0 < B := by
    rw [hB]; exact Finset.sum_pos (fun k _ => Real.exp_pos _) ⟨⟨0, by norm_num⟩, Finset.mem_univ _⟩
  have hAB : ¬ (A + B ≤ 0) := by linarith
  have hexpSrc : expSrc q i = (A : EReal) := by
    rw [hA, coe_finset_sum]
    simp only [expSrc, logit_eq_scaled, hx, hrow, notSelf_coe, ← EReal.coe_sub, Ideal.exp_coe, ← EReal.coe_mul]
  have hexpMem : expMem ml i = (B : EReal) := by
    rw [hB, coe_finset_sum]
    simp only [expMem, hL, Ideal.exp_coe]
  have hld : logDen q ml i = ((Real.log (A + B) : ℝ) : EReal) := by
    rw [logDen, hexpSrc, hexpMem, ← EReal.coe_add, Ideal.log_coe, if_neg hAB]
  have hnum : num q lab ml mt i
      = ((∑ j, posR lab i j * (x j - mR - Real.log (A + B)) + ∑ k, T k * (L k - Real.log (A + B)) : ℝ) : EReal) := by
    rw [EReal.coe_add, coe_finset_sum, coe_finset_sum]
    simp only [num, hld, logit_eq_scaled, hx, hrow, pos_coe, hL, hT, ← EReal.coe_sub, ← EReal.coe_mul]
  have hcntR : cnt lab mt i = ((∑ j, posR lab i j + ∑ k, T k : ℝ) : EReal) := by
    rw [EReal.coe_add, coe_finset_sum, coe_finset_sum]
    simp only [cnt, pos_coe, hT]
  obtain ⟨a, ha⟩ := sum_zero_one Finset.univ (posR lab i) fun j _ => posR_zero_one lab i j
  obtain ⟨b, hb⟩ := sum_zero_one Finset.univ T fun k _ => hT01 k
  have hc1 : (1 : ℝ) ≤ ∑ j, posR lab i j + ∑ k, T k := by
    rw [hcntR] at hcnt
    have h0 : (0 : ℝ) < ∑ j, posR lab i j + ∑ k, T k := EReal.coe_pos.mp hcnt
    rw [ha, hb] at h0 ⊢
    have h1 : 0 < a + b := by exact_mod_cast h0
    exact_mod_cast (by omega : 1 ≤ a + b)
  show Ideal.div ((((simAfter q lab i 8).s1 - (simAfter q lab i 8).m * (simAfter q lab i 8).np)
      - Ideal.log ((simAfter q lab i 8).e + (memAfter ml mt i 8).em)
          * ((simAfter q lab i 8).np + (memAfter ml mt i 8).nm)) + (memAfter ml mt i 8).s2)
      (max ((simAfter q lab i 8).np + (memAfter ml mt i 8).nm) 1) = _
  rw [hm, he, hs1, hnp, hem, hs2, hnm, hnum, hcntR, ← EReal.coe_add A B, Ideal.log_coe, if_neg hAB]
  simp only [← EReal.coe_add, ← EReal.coe_mul, ← EReal.coe_sub]
  rw [← EReal.coe_one, ← coe_max, max_eq_left hc1, row_algebra]

end Cert.SupConTiled

end
-- ==== Proof.AlgMain.lean ====
/-
  The tiled computation of the loss equals the specification: with finite inputs, 0/1 memory targets and a positive
  target count in every row, each row's tiled contribution is the specification's num / cnt, so the two means agree.
-/
import proofs.«130741_j67869073212268_2_alg».proof.Proof.AlgRow

noncomputable section

open scoped BigOperators

namespace Cert.SupConTiled

open Idealize.ShloMosaic Idealize.ShloMosaic.ValueIdx

theorem loss_eq_spec (q : Cert.SupCon.QArr) (lab : Cert.SupCon.LArr) (ml mt : Cert.SupCon.MArr)
    (hq : ∀ (i : Fin 4096) (k : Fin 1024), ∃ r : ℝ, q (ix2 i k) = (r : EReal))
    (hml : ∀ (i : Fin 4096) (k : Fin 8192), ∃ r : ℝ, ml (ix2 i k) = (r : EReal))
    (hmt : ∀ (i : Fin 4096) (k : Fin 8192), mt (ix2 i k) = 0 ∨ mt (ix2 i k) = 1)
    (hcnt : ∀ i : Fin 4096, 0 < Cert.SupCon.cnt lab mt i) :
    Cert.SupConTiled.loss q lab ml mt = Cert.SupCon.loss q lab ml mt := by
  obtain ⟨X, hX, hX0⟩ := exists_scaled_real q hq
  choose L hL using hml
  have hmt' : ∀ (i : Fin 4096) (k : Fin 8192), ∃ r : ℝ, mt (ix2 i k) = (r : EReal) ∧ (r = 0 ∨ r = 1) := fun i k => by
    rcases hmt i k with h | h
    · exact ⟨0, by rw [h, EReal.coe_zero], Or.inl rfl⟩
    · exact ⟨1, by rw [h, EReal.coe_one], Or.inr rfl⟩
  choose T hT hT01 using hmt'
  have hrow : ∀ i, rowTerm q lab ml mt i = Ideal.div (Cert.SupCon.num q lab ml mt i) (Cert.SupCon.cnt lab mt i) :=
    fun i => rowTerm_eq q lab ml mt i (X i) (hX i) (hX0 i) (L i) (T i) (hL i) (hT i) (hT01 i) (hcnt i)
  unfold Cert.SupConTiled.loss Cert.SupCon.loss
  simp only [hrow]

end Cert.SupConTiled

end
-- ==== Proof.lean ====
/-
  The certificate of the fused supervised-contrastive loss kernel against its reference.

  Both programs compute, from a 4096 × 1024 array of features, 4096 labels, and 4096 × 8192 arrays of memory-bank logits
  and targets, minus the mean over the rows of (the target-weighted sum of the row's log-probabilities) / (the sum of the
  row's targets): `Cert.SupCon.loss`. The reference computes it from the full 4096 × 4096 matrix of logits. The kernel sweeps
  that matrix in 8 tiles of 512 columns and the memory bank in 8 tiles of 1024, carrying per row a running maximum, a sum
  of exponentials rescaled whenever the maximum rises, and plain partial sums (`Cert.SupConTiled.loss`), and recombines them
  after the sweep. The two agree because
    • dividing by the temperature is multiplying by its exact reciprocal, which is what the kernel's scale constant denotes;
    • the rescaled sum is the sum of `exp (logit - final maximum)`, since `exp (m - m') · exp (x - m) = exp (x - m')` on
      finite numbers, and the running maximum, although started at a finite number, ends at the row's true maximum because
      the diagonal logit is nonnegative;
    • the recombination is distributivity over finite sums of finite numbers;
    • the row's target sum is a count (the memory targets are 0 or 1), positive by assumption, hence at least 1, so the
      kernel's floor `max · 1` on the divisor is the identity.
  The frames: each program runs to the end without a fault and leaves its four argument arrays unchanged.
-/
import proofs.«130741_j67869073212268_2_alg».proof.Defs
import proofs.«130741_j67869073212268_2_alg».proof.Proof.Gen.Kernel
import proofs.«130741_j67869073212268_2_alg».proof.Proof.Gen.KernelIdeal
import proofs.«130741_j67869073212268_2_alg».proof.Proof.Gen.ReferenceIdeal
import proofs.«130741_j67869073212268_2_alg».proof.Proof.Gen.Pre_finite_inputs
import proofs.«130741_j67869073212268_2_alg».proof.Proof.KBodyFrame
import proofs.«130741_j67869073212268_2_alg».proof.Proof.KernelValue
import proofs.«130741_j67869073212268_2_alg».proof.Proof.RefSpec
import proofs.«130741_j67869073212268_2_alg».proof.Proof.PreFacts
import proofs.«130741_j67869073212268_2_alg».proof.Proof.AlgMain
import Idealize.ShloMosaic.Adequacy
import Idealize.ShloMosaic.Init

noncomputable section

namespace Cert.Proof

open Idealize.ShloMosaic Idealize.ShloMosaic.TcCoe Idealize.SL.Sem

/-- The word-level kernel program runs to the end, faults nowhere, and leaves its arguments unchanged. -/
theorem frame_kernel : Cert.frame_Kernel := fun m ρ _ => Cert.Kernel.Body.frame m ρ

/-- So does the kernel program read at the exact instance. -/
theorem frame_kernelIdeal : Cert.frame_KernelIdeal := fun m ρ _ => Cert.KernelIdeal.Body.frame m ρ

/-- And the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the kernel's scale constant denotes the exact reciprocal of the temperature. -/
theorem preserves : Cert.preserves_Kernel_KernelIdeal :=
  IdealRules.named_const.statement Cert.KernelIdeal.κ "inv_temperature" .f32 0x41649249#32 ((134217728 / 9395241 : ℝ) : EReal) rfl

/-- From memories agreeing on the arguments, with the arguments finite, the memory targets 0 or 1 and every row's target
    sum positive, both programs end with the loss of the arguments: the kernel with the tiled loss, which is the loss
    under those facts; the reference with the loss outright. -/
theorem algebraic : Cert.algebraic_KernelIdeal_ReferenceIdeal := by
  intro m ρ m' ρ' hpre hagree
  refine ⟨fun c => fun _ => Cert.SupCon.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (Cert.KernelIdeal.Value.kernel_run m ρ)
    obtain ⟨hq, hml, hmt, hcnt⟩ := Cert.PreFacts.of_pre _ _ _ _ (hpre c)
    exact congrArg (fun (x : EReal) => fun _ => x) (Cert.SupConTiled.loss_eq_spec _ _ _ _ hq hml hmt hcnt)
  · refine (θ_run Cert.ReferenceIdeal.defs _ _).mono (fun _ h c => ⟨(h c).1.trans ?_, (h c).2⟩) (Cert.ReferenceIdeal.Value.run (F := Ideal) m' ρ')
    rw [Cert.RefBridge.run_result, (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
